-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v178)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v178) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x64x64 : Shape := ⟨4, ![2, 256, 64, 64]⟩
abbrev S2x64x4 : Shape := ⟨3, ![2, 64, 4]⟩
abbrev S_ : Shape := ⟨0, ![]⟩

class Facts : Prop where
  bcast_S_S2x256x64x64 : S_.BroadcastsInDim S2x256x64x64 (![] : Fin 0 → Fin S2x256x64x64.rank)
  reducesTo_S2x256x64x64_S_d0_1_2_3 : S2x256x64x64.ReducesTo [0, 1, 2, 3] S_
  h_S_ : 0 < S_.numel
  bcast_S_S2x64x4 : S_.BroadcastsInDim S2x64x4 (![] : Fin 0 → Fin S2x64x4.rank)
  reducesTo_S2x64x4_S_d0_1_2 : S2x64x4.ReducesTo [0, 1, 2] S_

variable [Facts]

def fn {F : FTy → Type} [FloatOps F] (main_arg0 : FVec F S2x256x64x64 .f32) (main_arg1 : FVec F S2x64x4 .f32) : IVec S_ 1 :=
  let main_v0 : FVec F S2x256x64x64 .f32 := Host.absf main_arg0
  let main_cst : FVec F S_ .f32 := constant S_ .f32 0x7F800000#32
  let main_v1 : FVec F S2x256x64x64 .f32 := broadcastInDim S2x256x64x64 ![] bcast_S_S2x256x64x64 main_cst
  let main_v2 : IVec S2x256x64x64 1 := cmpf .olt main_v0 main_v1
  let main_c : IVec S_ 1 := constantI S_ 1 1#1
  let main_v3 : IVec S_ 1 := (fun x v => Host.reduce IntOp.andi x v reducesTo_S2x256x64x64_S_d0_1_2_3 h_S_) main_v2 main_c
  let main_v4 : FVec F S2x64x4 .f32 := Host.absf main_arg1
  let main_cst_0 : FVec F S_ .f32 := constant S_ .f32 0x7F800000#32
  let main_v5 : FVec F S2x64x4 .f32 := broadcastInDim S2x64x4 ![] bcast_S_S2x64x4 main_cst_0
  let main_v6 : IVec S2x64x4 1 := cmpf .olt main_v4 main_v5
  let main_c_1 : IVec S_ 1 := constantI S_ 1 1#1
  let main_v7 : IVec S_ 1 := (fun x v => Host.reduce IntOp.andi x v reducesTo_S2x64x4_S_d0_1_2 h_S_) main_v6 main_c_1
  let main_v8 : IVec S_ 1 := andi main_v3 main_v7
  main_v8
-- ==== Kernel.lean ====
abbrev S2x256x64x64 : Shape := ⟨4, ![2, 256, 64, 64]⟩
abbrev S2x64x4 : Shape := ⟨3, ![2, 64, 4]⟩
abbrev S_ : Shape := ⟨0, ![]⟩
abbrev S2x64x1 : Shape := ⟨3, ![2, 64, 1]⟩
abbrev S2x64 : Shape := ⟨2, ![2, 64]⟩
abbrev S7 : Shape := ⟨1, ![7]⟩
abbrev S1x1x7 : Shape := ⟨3, ![1, 1, 7]⟩
abbrev S2x64x7 : Shape := ⟨3, ![2, 64, 7]⟩
abbrev S2x64x7x1 : Shape := ⟨4, ![2, 64, 7, 1]⟩
abbrev S10 : Shape := ⟨1, ![10]⟩
abbrev S1x1x1x10 : Shape := ⟨4, ![1, 1, 1, 10]⟩
abbrev S2x64x7x10 : Shape := ⟨4, ![2, 64, 7, 10]⟩
abbrev S2x64x1x7 : Shape := ⟨4, ![2, 64, 1, 7]⟩
abbrev S2x64x7x7 : Shape := ⟨4, ![2, 64, 7, 7]⟩
abbrev S2x64x70 : Shape := ⟨3, ![2, 64, 70]⟩
abbrev S2x64x70x1 : Shape := ⟨4, ![2, 64, 70, 1]⟩
abbrev S1x1x1x64 : Shape := ⟨4, ![1, 1, 1, 64]⟩
abbrev S2x64x70x64 : Shape := ⟨4, ![2, 64, 70, 64]⟩
abbrev S2x64x7x7x256 : Shape := ⟨5, ![2, 64, 7, 7, 256]⟩
abbrev S1x256x64x64 : Shape := ⟨4, ![1, 256, 64, 64]⟩
abbrev S1x1x70x64 : Shape := ⟨4, ![1, 1, 70, 64]⟩
abbrev S1x1x7x10 : Shape := ⟨4, ![1, 1, 7, 10]⟩
abbrev S1x1x7x7 : Shape := ⟨4, ![1, 1, 7, 7]⟩
abbrev S1x1x7x7x256 : Shape := ⟨5, ![1, 1, 7, 7, 256]⟩
abbrev S64x256x64 : Shape := ⟨3, ![64, 256, 64]⟩
abbrev S256x64x64 : Shape := ⟨3, ![256, 64, 64]⟩
abbrev S64x16384 : Shape := ⟨2, ![64, 16384]⟩
abbrev S70x64 : Shape := ⟨2, ![70, 64]⟩
abbrev S70x16384 : Shape := ⟨2, ![70, 16384]⟩
abbrev S7x10x256x64 : Shape := ⟨4, ![7, 10, 256, 64]⟩
abbrev S7x10 : Shape := ⟨2, ![7, 10]⟩
abbrev S7x10x1x1 : Shape := ⟨4, ![7, 10, 1, 1]⟩
abbrev S7x256x64 : Shape := ⟨3, ![7, 256, 64]⟩
abbrev S1792x64 : Shape := ⟨2, ![1792, 64]⟩
abbrev S70x1792 : Shape := ⟨2, ![70, 1792]⟩
abbrev S7x10x7x256 : Shape := ⟨4, ![7, 10, 7, 256]⟩
abbrev S7x7x256 : Shape := ⟨3, ![7, 7, 256]⟩
abbrev S7x7 : Shape := ⟨2, ![7, 7]⟩
abbrev S7x7x1 : Shape := ⟨3, ![7, 7, 1]⟩
abbrev S2x64x256x7x7 : Shape := ⟨5, ![2, 64, 256, 7, 7]⟩

abbrev nBuf : Space → Nat
  | .hbm => 292
  | .vmem => 15
  | .smem => 0
  | _ => 0

abbrev hbmTy0_0 (i : Nat) : BufTy := match i % 128 with
  | 0 => ⟨S2x256x64x64, .f32⟩
  | 1 => ⟨S2x64x4, .f32⟩
  | 2 => ⟨S_, .f32⟩
  | 3 => ⟨S2x64x4, .f32⟩
  | 4 => ⟨S2x64x4, .f32⟩
  | 5 => ⟨S2x64x4, .f32⟩
  | 6 => ⟨S2x64x4, .i32⟩
  | 7 => ⟨S2x64x1, .i32⟩
  | 8 => ⟨S2x64, .i32⟩
  | 9 => ⟨S2x64x1, .i32⟩
  | 10 => ⟨S2x64, .i32⟩
  | 11 => ⟨S2x64x1, .i32⟩
  | 12 => ⟨S2x64, .i32⟩
  | 13 => ⟨S2x64x1, .i32⟩
  | 14 => ⟨S2x64, .i32⟩
  | 15 => ⟨S2x64, .i32⟩
  | 16 => ⟨S_, .i32⟩
  | 17 => ⟨S2x64, .i32⟩
  | 18 => ⟨S2x64, .i32⟩
  | 19 => ⟨S_, .i32⟩
  | 20 => ⟨S2x64, .i32⟩
  | 21 => ⟨S2x64, .i32⟩
  | 22 => ⟨S2x64, .i32⟩
  | 23 => ⟨S_, .i32⟩
  | 24 => ⟨S2x64, .i32⟩
  | 25 => ⟨S2x64, .i32⟩
  | 26 => ⟨S_, .i32⟩
  | 27 => ⟨S2x64, .i32⟩
  | 28 => ⟨S2x64, .i32⟩
  | 29 => ⟨S_, .i32⟩
  | 30 => ⟨S2x64, .i32⟩
  | 31 => ⟨S2x64, .i32⟩
  | 32 => ⟨S_, .i32⟩
  | 33 => ⟨S2x64, .i32⟩
  | 34 => ⟨S2x64, .i32⟩
  | 35 => ⟨S_, .i32⟩
  | 36 => ⟨S_, .i32⟩
  | 37 => ⟨S2x64, .i32⟩
  | 38 => ⟨S2x64, .i32⟩
  | 39 => ⟨S2x64, .i32⟩
  | 40 => ⟨S_, .i32⟩
  | 41 => ⟨S2x64, .i32⟩
  | 42 => ⟨S2x64, .i1⟩
  | 43 => ⟨S2x64, .i32⟩
  | 44 => ⟨S2x64, .i32⟩
  | 45 => ⟨S_, .i32⟩
  | 46 => ⟨S2x64, .i32⟩
  | 47 => ⟨S2x64, .i1⟩
  | 48 => ⟨S2x64, .i1⟩
  | 49 => ⟨S_, .i32⟩
  | 50 => ⟨S2x64, .i32⟩
  | 51 => ⟨S2x64, .i32⟩
  | 52 => ⟨S2x64, .i32⟩
  | 53 => ⟨S_, .i32⟩
  | 54 => ⟨S2x64, .i32⟩
  | 55 => ⟨S2x64, .i32⟩
  | 56 => ⟨S_, .i32⟩
  | 57 => ⟨S2x64, .i32⟩
  | 58 => ⟨S2x64, .i32⟩
  | 59 => ⟨S_, .i32⟩
  | 60 => ⟨S_, .i32⟩
  | 61 => ⟨S2x64, .i32⟩
  | 62 => ⟨S2x64, .i32⟩
  | 63 => ⟨S2x64, .i32⟩
  | 64 => ⟨S_, .i32⟩
  | 65 => ⟨S2x64, .i32⟩
  | 66 => ⟨S2x64, .i1⟩
  | 67 => ⟨S2x64, .i32⟩
  | 68 => ⟨S2x64, .i32⟩
  | 69 => ⟨S_, .i32⟩
  | 70 => ⟨S2x64, .i32⟩
  | 71 => ⟨S2x64, .i1⟩
  | 72 => ⟨S2x64, .i1⟩
  | 73 => ⟨S_, .i32⟩
  | 74 => ⟨S2x64, .i32⟩
  | 75 => ⟨S2x64, .i32⟩
  | 76 => ⟨S2x64, .i32⟩
  | 77 => ⟨S_, .i32⟩
  | 78 => ⟨S2x64, .i32⟩
  | 79 => ⟨S2x64, .i32⟩
  | 80 => ⟨S2x64, .i32⟩
  | 81 => ⟨S_, .i32⟩
  | 82 => ⟨S_, .i32⟩
  | 83 => ⟨S2x64, .i32⟩
  | 84 => ⟨S2x64, .i32⟩
  | 85 => ⟨S2x64, .i32⟩
  | 86 => ⟨S_, .i32⟩
  | 87 => ⟨S2x64, .i32⟩
  | 88 => ⟨S2x64, .i1⟩
  | 89 => ⟨S2x64, .i32⟩
  | 90 => ⟨S2x64, .i32⟩
  | 91 => ⟨S_, .i32⟩
  | 92 => ⟨S2x64, .i32⟩
  | 93 => ⟨S2x64, .i1⟩
  | 94 => ⟨S2x64, .i1⟩
  | 95 => ⟨S_, .i32⟩
  | 96 => ⟨S2x64, .i32⟩
  | 97 => ⟨S2x64, .i32⟩
  | 98 => ⟨S2x64, .i32⟩
  | 99 => ⟨S_, .i32⟩
  | 100 => ⟨S2x64, .i32⟩
  | 101 => ⟨S2x64, .i32⟩
  | 102 => ⟨S2x64, .i32⟩
  | 103 => ⟨S_, .i32⟩
  | 104 => ⟨S_, .i32⟩
  | 105 => ⟨S2x64, .i32⟩
  | 106 => ⟨S2x64, .i32⟩
  | 107 => ⟨S2x64, .i32⟩
  | 108 => ⟨S_, .i32⟩
  | 109 => ⟨S2x64, .i32⟩
  | 110 => ⟨S2x64, .i1⟩
  | 111 => ⟨S2x64, .i32⟩
  | 112 => ⟨S2x64, .i32⟩
  | 113 => ⟨S_, .i32⟩
  | 114 => ⟨S2x64, .i32⟩
  | 115 => ⟨S2x64, .i1⟩
  | 116 => ⟨S2x64, .i1⟩
  | 117 => ⟨S_, .i32⟩
  | 118 => ⟨S2x64, .i32⟩
  | 119 => ⟨S2x64, .i32⟩
  | 120 => ⟨S2x64, .i32⟩
  | 121 => ⟨S7, .i32⟩
  | 122 => ⟨S2x64x1, .i32⟩
  | 123 => ⟨S2x64x1, .i32⟩
  | 124 => ⟨S1x1x7, .i32⟩
  | 125 => ⟨S2x64x7, .i32⟩
  | 126 => ⟨S2x64x7, .i32⟩
  | 127 => ⟨S2x64x7, .i32⟩
  | _ => ⟨S2x256x64x64, .f32⟩

abbrev hbmTy0_1 (i : Nat) : BufTy := match i % 128 with
  | 0 => ⟨S2x64x1, .i32⟩
  | 1 => ⟨S2x64x7, .i32⟩
  | 2 => ⟨S2x64x7, .i32⟩
  | 3 => ⟨S_, .i32⟩
  | 4 => ⟨S2x64x7, .i32⟩
  | 5 => ⟨S2x64x7, .i32⟩
  | 6 => ⟨S2x64x7, .i32⟩
  | 7 => ⟨S2x64x7, .i32⟩
  | 8 => ⟨S2x64x1, .i32⟩
  | 9 => ⟨S_, .i32⟩
  | 10 => ⟨S7, .i32⟩
  | 11 => ⟨S7, .i32⟩
  | 12 => ⟨S2x64x1, .i32⟩
  | 13 => ⟨S1x1x7, .i32⟩
  | 14 => ⟨S2x64x7, .i32⟩
  | 15 => ⟨S2x64x7, .i32⟩
  | 16 => ⟨S2x64x7, .i32⟩
  | 17 => ⟨S2x64x1, .i32⟩
  | 18 => ⟨S2x64x7, .i32⟩
  | 19 => ⟨S2x64x7, .i32⟩
  | 20 => ⟨S2x64x1, .i32⟩
  | 21 => ⟨S2x64x7, .i32⟩
  | 22 => ⟨S2x64x7, .i32⟩
  | 23 => ⟨S2x64x7, .i32⟩
  | 24 => ⟨S2x64x7, .i32⟩
  | 25 => ⟨S_, .i32⟩
  | 26 => ⟨S2x64x7, .i32⟩
  | 27 => ⟨S2x64x7, .i32⟩
  | 28 => ⟨S2x64x1, .i32⟩
  | 29 => ⟨S2x64x1, .i32⟩
  | 30 => ⟨S1x1x7, .i32⟩
  | 31 => ⟨S2x64x7, .i32⟩
  | 32 => ⟨S2x64x7, .i32⟩
  | 33 => ⟨S2x64x7, .i32⟩
  | 34 => ⟨S2x64x1, .i32⟩
  | 35 => ⟨S2x64x7, .i32⟩
  | 36 => ⟨S2x64x7, .i32⟩
  | 37 => ⟨S_, .i32⟩
  | 38 => ⟨S2x64x7, .i32⟩
  | 39 => ⟨S2x64x7, .i32⟩
  | 40 => ⟨S2x64x7, .i32⟩
  | 41 => ⟨S2x64x7, .i32⟩
  | 42 => ⟨S2x64x1, .i32⟩
  | 43 => ⟨S_, .i32⟩
  | 44 => ⟨S7, .i32⟩
  | 45 => ⟨S7, .i32⟩
  | 46 => ⟨S2x64x1, .i32⟩
  | 47 => ⟨S1x1x7, .i32⟩
  | 48 => ⟨S2x64x7, .i32⟩
  | 49 => ⟨S2x64x7, .i32⟩
  | 50 => ⟨S2x64x7, .i32⟩
  | 51 => ⟨S2x64x1, .i32⟩
  | 52 => ⟨S2x64x7, .i32⟩
  | 53 => ⟨S2x64x7, .i32⟩
  | 54 => ⟨S2x64x1, .i32⟩
  | 55 => ⟨S2x64x7, .i32⟩
  | 56 => ⟨S2x64x7, .i32⟩
  | 57 => ⟨S2x64x7, .i32⟩
  | 58 => ⟨S2x64x7, .i32⟩
  | 59 => ⟨S_, .i32⟩
  | 60 => ⟨S2x64x7, .i32⟩
  | 61 => ⟨S2x64x7, .i32⟩
  | 62 => ⟨S2x64x7x1, .i32⟩
  | 63 => ⟨S10, .i32⟩
  | 64 => ⟨S1x1x1x10, .i32⟩
  | 65 => ⟨S2x64x7x10, .i32⟩
  | 66 => ⟨S2x64x7x10, .i32⟩
  | 67 => ⟨S2x64x7x10, .i32⟩
  | 68 => ⟨S2x64x7x1, .i32⟩
  | 69 => ⟨S2x64x7x10, .i32⟩
  | 70 => ⟨S2x64x7x10, .i1⟩
  | 71 => ⟨S2x64x7x10, .i32⟩
  | 72 => ⟨S_, .i32⟩
  | 73 => ⟨S_, .i32⟩
  | 74 => ⟨S_, .i32⟩
  | 75 => ⟨S2x64x7x10, .i32⟩
  | 76 => ⟨S2x64x7x10, .i32⟩
  | 77 => ⟨S_, .i32⟩
  | 78 => ⟨S2x64x7x10, .i32⟩
  | 79 => ⟨S2x64x7x10, .i32⟩
  | 80 => ⟨S2x64x7x1, .i32⟩
  | 81 => ⟨S10, .i32⟩
  | 82 => ⟨S1x1x1x10, .i32⟩
  | 83 => ⟨S2x64x7x10, .i32⟩
  | 84 => ⟨S2x64x7x10, .i32⟩
  | 85 => ⟨S2x64x7x10, .i32⟩
  | 86 => ⟨S2x64x7x1, .i32⟩
  | 87 => ⟨S2x64x7x10, .i32⟩
  | 88 => ⟨S2x64x7x10, .i1⟩
  | 89 => ⟨S2x64x7x10, .i32⟩
  | 90 => ⟨S_, .i32⟩
  | 91 => ⟨S_, .i32⟩
  | 92 => ⟨S_, .i32⟩
  | 93 => ⟨S2x64x7x10, .i32⟩
  | 94 => ⟨S2x64x7x10, .i32⟩
  | 95 => ⟨S_, .i32⟩
  | 96 => ⟨S2x64x7x10, .i32⟩
  | 97 => ⟨S2x64x7x10, .i32⟩
  | 98 => ⟨S2x64x1, .i32⟩
  | 99 => ⟨S1x1x7, .i32⟩
  | 100 => ⟨S2x64x7, .i32⟩
  | 101 => ⟨S2x64x7, .i32⟩
  | 102 => ⟨S2x64x7, .i32⟩
  | 103 => ⟨S2x64x1, .i32⟩
  | 104 => ⟨S2x64x7, .i32⟩
  | 105 => ⟨S2x64x7, .i1⟩
  | 106 => ⟨S_, .i32⟩
  | 107 => ⟨S7, .i32⟩
  | 108 => ⟨S7, .i32⟩
  | 109 => ⟨S2x64x1, .i32⟩
  | 110 => ⟨S1x1x7, .i32⟩
  | 111 => ⟨S2x64x7, .i32⟩
  | 112 => ⟨S2x64x7, .i32⟩
  | 113 => ⟨S2x64x7, .i32⟩
  | 114 => ⟨S2x64x1, .i32⟩
  | 115 => ⟨S2x64x1, .i32⟩
  | 116 => ⟨S2x64x1, .i32⟩
  | 117 => ⟨S2x64x7, .i32⟩
  | 118 => ⟨S2x64x7, .i1⟩
  | 119 => ⟨S2x64x7, .i1⟩
  | 120 => ⟨S2x64x1, .i32⟩
  | 121 => ⟨S1x1x7, .i32⟩
  | 122 => ⟨S2x64x7, .i32⟩
  | 123 => ⟨S2x64x7, .i32⟩
  | 124 => ⟨S2x64x7, .i32⟩
  | 125 => ⟨S2x64x1, .i32⟩
  | 126 => ⟨S2x64x7, .i32⟩
  | 127 => ⟨S2x64x7, .i1⟩
  | _ => ⟨S2x256x64x64, .f32⟩

abbrev hbmTy0_2 (i : Nat) : BufTy := match i % 128 with
  | 0 => ⟨S_, .i32⟩
  | 1 => ⟨S7, .i32⟩
  | 2 => ⟨S7, .i32⟩
  | 3 => ⟨S2x64x1, .i32⟩
  | 4 => ⟨S1x1x7, .i32⟩
  | 5 => ⟨S2x64x7, .i32⟩
  | 6 => ⟨S2x64x7, .i32⟩
  | 7 => ⟨S2x64x7, .i32⟩
  | 8 => ⟨S2x64x1, .i32⟩
  | 9 => ⟨S2x64x1, .i32⟩
  | 10 => ⟨S2x64x1, .i32⟩
  | 11 => ⟨S2x64x7, .i32⟩
  | 12 => ⟨S2x64x7, .i1⟩
  | 13 => ⟨S2x64x7, .i1⟩
  | 14 => ⟨S2x64x7x1, .i1⟩
  | 15 => ⟨S2x64x1x7, .i1⟩
  | 16 => ⟨S2x64x7x7, .i1⟩
  | 17 => ⟨S2x64x7x7, .i1⟩
  | 18 => ⟨S2x64x7x7, .i1⟩
  | 19 => ⟨S2x64x7x7, .i32⟩
  | 20 => ⟨S2x64x70, .i32⟩
  | 21 => ⟨S2x64x70x1, .i32⟩
  | 22 => ⟨S1x1x1x64, .i32⟩
  | 23 => ⟨S2x64x70x64, .i32⟩
  | 24 => ⟨S2x64x70x64, .i32⟩
  | 25 => ⟨S2x64x70x64, .i1⟩
  | 26 => ⟨S2x64x70x64, .f32⟩
  | 27 => ⟨S2x64x70, .i32⟩
  | 28 => ⟨S2x64x70x1, .i32⟩
  | 29 => ⟨S1x1x1x64, .i32⟩
  | 30 => ⟨S2x64x70x64, .i32⟩
  | 31 => ⟨S2x64x70x64, .i32⟩
  | 32 => ⟨S2x64x70x64, .i1⟩
  | 33 => ⟨S2x64x70x64, .f32⟩
  | 34 => ⟨S2x64x7x7x256, .f32⟩
  | 35 => ⟨S2x64x256x7x7, .f32⟩
  | _ => ⟨S2x256x64x64, .f32⟩

abbrev hbmTy (i : Nat) : BufTy := match i / 128 with
  | 0 => hbmTy0_0 i
  | 1 => hbmTy0_1 i
  | 2 => hbmTy0_2 i
  | _ => ⟨S2x256x64x64, .f32⟩

abbrev bufTy : (tb : Table) → Fin (tcTables nBuf tb) → BufTy
  | .hbm, ⟨i, _⟩ => hbmTy i
  | .local _ .vmem, ⟨0, _⟩ => ⟨S1x256x64x64, .f32⟩
  | .local _ .vmem, ⟨1, _⟩ => ⟨S1x256x64x64, .f32⟩
  | .local _ .vmem, ⟨2, _⟩ => ⟨S1x1x70x64, .f32⟩
  | .local _ .vmem, ⟨3, _⟩ => ⟨S1x1x70x64, .f32⟩
  | .local _ .vmem, ⟨4, _⟩ => ⟨S1x1x70x64, .f32⟩
  | .local _ .vmem, ⟨5, _⟩ => ⟨S1x1x70x64, .f32⟩
  | .local _ .vmem, ⟨6, _⟩ => ⟨S1x1x7x10, .i32⟩
  | .local _ .vmem, ⟨7, _⟩ => ⟨S1x1x7x10, .i32⟩
  | .local _ .vmem, ⟨8, _⟩ => ⟨S1x1x7x10, .i32⟩
  | .local _ .vmem, ⟨9, _⟩ => ⟨S1x1x7x10, .i32⟩
  | .local _ .vmem, ⟨10, _⟩ => ⟨S1x1x7x7, .i32⟩
  | .local _ .vmem, ⟨11, _⟩ => ⟨S1x1x7x7, .i32⟩
  | .local _ .vmem, ⟨12, _⟩ => ⟨S1x1x7x7x256, .f32⟩
  | .local _ .vmem, ⟨13, _⟩ => ⟨S1x1x7x7x256, .f32⟩
  | .local _ .vmem, ⟨14, _⟩ => ⟨S64x256x64, .f32⟩
  | _, _ => ⟨S2x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_c_8 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v31 : Ref sig .tc := ⟨.hbm, 76, rfl⟩
abbrev main_c_9 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_c_10 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_c : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_0 : Ref sig .tc := ⟨.hbm, 95, rfl⟩
abbrev main_call3_v12 : Ref sig .tc := ⟨.hbm, 96, rfl⟩
abbrev main_call3_v13 : Ref sig .tc := ⟨.hbm, 97, rfl⟩
abbrev main_v35 : Ref sig .tc := ⟨.hbm, 98, rfl⟩
abbrev main_c_11 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_c_12 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_c : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_0 : Ref sig .tc := ⟨.hbm, 117, rfl⟩
abbrev main_call4_v12 : Ref sig .tc := ⟨.hbm, 118, rfl⟩
abbrev main_call4_v13 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_c_13 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_c_14 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_c_15 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_c_16 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_c_17 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_c_18 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_c_19 : Ref sig .tc := ⟨.hbm, 200, rfl⟩
abbrev main_c_20 : Ref sig .tc := ⟨.hbm, 201, rfl⟩
abbrev main_call5_v0 : Ref sig .tc := ⟨.hbm, 202, rfl⟩
abbrev main_call5_v1 : Ref sig .tc := ⟨.hbm, 203, rfl⟩
abbrev main_call5_v2 : Ref sig .tc := ⟨.hbm, 204, rfl⟩
abbrev main_call5_v3 : Ref sig .tc := ⟨.hbm, 205, rfl⟩
abbrev main_call5_v4 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_c_21 : Ref sig .tc := ⟨.hbm, 218, rfl⟩
abbrev main_c_22 : Ref sig .tc := ⟨.hbm, 219, rfl⟩
abbrev main_call6_v0 : Ref sig .tc := ⟨.hbm, 220, rfl⟩
abbrev main_call6_v1 : Ref sig .tc := ⟨.hbm, 221, rfl⟩
abbrev main_call6_v2 : Ref sig .tc := ⟨.hbm, 222, rfl⟩
abbrev main_call6_v3 : Ref sig .tc := ⟨.hbm, 223, rfl⟩
abbrev main_call6_v4 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_c_23 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_c_24 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_call7_v0 : Ref sig .tc := ⟨.hbm, 277, rfl⟩
abbrev main_call7_v1 : Ref sig .tc := ⟨.hbm, 278, rfl⟩
abbrev main_call7_v2 : Ref sig .tc := ⟨.hbm, 279, rfl⟩
abbrev main_call7_v3 : Ref sig .tc := ⟨.hbm, 280, rfl⟩
abbrev main_call7_v4 : Ref sig .tc := ⟨.hbm, 281, rfl⟩
abbrev main_v174 : Ref sig .tc := ⟨.hbm, 282, rfl⟩
abbrev main_v175 : Ref sig .tc := ⟨.hbm, 283, rfl⟩
abbrev main_call8_v0 : Ref sig .tc := ⟨.hbm, 284, rfl⟩
abbrev main_call8_v1 : Ref sig .tc := ⟨.hbm, 285, rfl⟩
abbrev main_call8_v2 : Ref sig .tc := ⟨.hbm, 286, rfl⟩
abbrev main_call8_v3 : Ref sig .tc := ⟨.hbm, 287, rfl⟩
abbrev main_call8_v4 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x70x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x70x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x7x10 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x7x10 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x7x7 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x7x7x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S2x64x4 : S_.BroadcastsInDim S2x64x4 (![] : Fin 0 → Fin S2x64x4.rank)
  slices_S2x64x4_S2x64x1_0_0_0 : S2x64x4.Slices ![0, 0, 0] S2x64x1
  shapeCasts_S2x64x1_S2x64 : S2x64x1.ShapeCasts S2x64
  slices_S2x64x4_S2x64x1_0_0_1 : S2x64x4.Slices ![0, 0, 1] S2x64x1
  slices_S2x64x4_S2x64x1_0_0_2 : S2x64x4.Slices ![0, 0, 2] S2x64x1
  slices_S2x64x4_S2x64x1_0_0_3 : S2x64x4.Slices ![0, 0, 3] S2x64x1
  bcast_S_S2x64 : S_.BroadcastsInDim S2x64 (![] : Fin 0 → Fin S2x64.rank)
  bcast_S2x64_S2x64x1_0_1 : S2x64.BroadcastsInDim S2x64x1 (![0, 1] : Fin 2 → Fin S2x64x1.rank)
  bcast_S7_S1x1x7_2 : S7.BroadcastsInDim S1x1x7 (![2] : Fin 1 → Fin S1x1x7.rank)
  bcast_S1x1x7_S2x64x7_0_1_2 : S1x1x7.BroadcastsInDim S2x64x7 (![0, 1, 2] : Fin 3 → Fin S2x64x7.rank)
  bcast_S2x64x1_S2x64x7_0_1_2 : S2x64x1.BroadcastsInDim S2x64x7 (![0, 1, 2] : Fin 3 → Fin S2x64x7.rank)
  bcast_S_S2x64x7 : S_.BroadcastsInDim S2x64x7 (![] : Fin 0 → Fin S2x64x7.rank)
  bcast_S_S7 : S_.BroadcastsInDim S7 (![] : Fin 0 → Fin S7.rank)
  bcast_S2x64x7_S2x64x7x1_0_1_2 : S2x64x7.BroadcastsInDim S2x64x7x1 (![0, 1, 2] : Fin 3 → Fin S2x64x7x1.rank)
  bcast_S10_S1x1x1x10_3 : S10.BroadcastsInDim S1x1x1x10 (![3] : Fin 1 → Fin S1x1x1x10.rank)
  bcast_S2x64x7x1_S2x64x7x10_0_1_2_3 : S2x64x7x1.BroadcastsInDim S2x64x7x10 (![0, 1, 2, 3] : Fin 4 → Fin S2x64x7x10.rank)
  bcast_S1x1x1x10_S2x64x7x10_0_1_2_3 : S1x1x1x10.BroadcastsInDim S2x64x7x10 (![0, 1, 2, 3] : Fin 4 → Fin S2x64x7x10.rank)
  natLt_1_32 : 1 < 32
  bcast_S_S2x64x7x10 : S_.BroadcastsInDim S2x64x7x10 (![] : Fin 0 → Fin S2x64x7x10.rank)
  bcast_S2x64x7_S2x64x1x7_0_1_3 : S2x64x7.BroadcastsInDim S2x64x1x7 (![0, 1, 3] : Fin 3 → Fin S2x64x1x7.rank)
  bcast_S2x64x7x1_S2x64x7x7_0_1_2_3 : S2x64x7x1.BroadcastsInDim S2x64x7x7 (![0, 1, 2, 3] : Fin 4 → Fin S2x64x7x7.rank)
  bcast_S2x64x1x7_S2x64x7x7_0_1_2_3 : S2x64x1x7.BroadcastsInDim S2x64x7x7 (![0, 1, 2, 3] : Fin 4 → Fin S2x64x7x7.rank)
  shapeCasts_S2x64x7x10_S2x64x70 : S2x64x7x10.ShapeCasts S2x64x70
  bcast_S2x64x70_S2x64x70x1_0_1_2 : S2x64x70.BroadcastsInDim S2x64x70x1 (![0, 1, 2] : Fin 3 → Fin S2x64x70x1.rank)
  bcast_S2x64x70x1_S2x64x70x64_0_1_2_3 : S2x64x70x1.BroadcastsInDim S2x64x70x64 (![0, 1, 2, 3] : Fin 4 → Fin S2x64x70x64.rank)
  bcast_S1x1x1x64_S2x64x70x64_0_1_2_3 : S1x1x1x64.BroadcastsInDim S2x64x70x64 (![0, 1, 2, 3] : Fin 4 → Fin S2x64x70x64.rank)
  inb_S1x256x64x64_S1x256x64x64_0_0_0_0 : ∀ a, (![0, 0, 0, 0] : Fin 4 → Nat) a + S1x256x64x64.size a ≤ S1x256x64x64.size a
  h_S1x256x64x64 : 0 < S1x256x64x64.numel
  shapeCasts_S1x256x64x64_S256x64x64 : S1x256x64x64.ShapeCasts S256x64x64
  transposes_S256x64x64_p1_0_2_S64x256x64 : S256x64x64.Transposes [1, 0, 2] S64x256x64
  inb_S64x256x64_S64x256x64_0_0_0 : ∀ a, (![0, 0, 0] : Fin 3 → Nat) a + S64x256x64.size a ≤ S64x256x64.size a
  h_S64x256x64 : 0 < S64x256x64.numel
  shapeCasts_S64x256x64_S64x256x64 : S64x256x64.ShapeCasts S64x256x64
  shapeCasts_S64x256x64_S64x16384 : S64x256x64.ShapeCasts S64x16384
  inb_S1x1x70x64_S1x1x70x64_0_0_0_0 : ∀ a, (![0, 0, 0, 0] : Fin 4 → Nat) a + S1x1x70x64.size a ≤ S1x1x70x64.size a
  h_S1x1x70x64 : 0 < S1x1x70x64.numel
  shapeCasts_S1x1x70x64_S70x64 : S1x1x70x64.ShapeCasts S70x64
  shapeCasts_S70x16384_S7x10x256x64 : S70x16384.ShapeCasts S7x10x256x64
  inb_S1x1x7x10_S1x1x7x10_0_0_0_0 : ∀ a, (![0, 0, 0, 0] : Fin 4 → Nat) a + S1x1x7x10.size a ≤ S1x1x7x10.size a
  h_S1x1x7x10 : 0 < S1x1x7x10.numel
  shapeCasts_S1x1x7x10_S7x10 : S1x1x7x10.ShapeCasts S7x10
  shapeCasts_S7x10_S7x10x1x1 : S7x10.ShapeCasts S7x10x1x1
  shapeCasts_S7x10x1x1_S7x10x1x1 : S7x10x1x1.ShapeCasts S7x10x1x1
  broadcasts_S7x10x1x1_S7x10x256x64 : S7x10x1x1.Broadcasts S7x10x256x64
  reduces_S7x10x256x64_S7x256x64 : S7x10x256x64.Reduces [1] S7x256x64
  shapeCasts_S7x256x64_S1792x64 : S7x256x64.ShapeCasts S1792x64
  shapeCasts_S70x1792_S7x10x7x256 : S70x1792.ShapeCasts S7x10x7x256
  broadcasts_S7x10x1x1_S7x10x7x256 : S7x10x1x1.Broadcasts S7x10x7x256
  reduces_S7x10x7x256_S7x7x256 : S7x10x7x256.Reduces [1] S7x7x256
  transposes_S7x7x256_p1_0_2_S7x7x256 : S7x7x256.Transposes [1, 0, 2] S7x7x256
  inb_S1x1x7x7_S1x1x7x7_0_0_0_0 : ∀ a, (![0, 0, 0, 0] : Fin 4 → Nat) a + S1x1x7x7.size a ≤ S1x1x7x7.size a
  h_S1x1x7x7 : 0 < S1x1x7x7.numel
  shapeCasts_S1x1x7x7_S7x7 : S1x1x7x7.ShapeCasts S7x7
  shapeCasts_S7x7_S7x7x1 : S7x7.ShapeCasts S7x7x1
  shapeCasts_S7x7x1_S7x7x1 : S7x7x1.ShapeCasts S7x7x1
  broadcasts_S7x7x1_S7x7x256 : S7x7x1.Broadcasts S7x7x256
  inb_S1x1x7x7x256_S1x1x7x7x256_0_0_0_0_0 : ∀ a, (![0, 0, 0, 0, 0] : Fin 5 → Nat) a + S1x1x7x7x256.size a ≤ S1x1x7x7x256.size a
  h_S1x1x7x7x256 : 0 < S1x1x7x7x256.numel
  shapeCasts_S1x1x7x7x256_S7x7x256 : S1x1x7x7x256.ShapeCasts S7x7x256
  shapeCasts_S7x7x256_S1x1x7x7x256 : S7x7x256.ShapeCasts S1x1x7x7x256
  transposes_S2x64x7x7x256_S2x64x256x7x7_0_1_4_2_3 : S2x64x7x7x256.Transposes [0, 1, 4, 2, 3] S2x64x256x7x7
  dot_S70x64_S64x16384_S70x16384_1_0_0_1_n_n_wf : DotDims.WF S70x64 S64x16384 S70x16384 [1] [0] [0] [1] [] []
  dot_S70x64_S1792x64_S70x1792_1_1_0_0_n_n_wf : DotDims.WF S70x64 S1792x64 S70x1792 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x64.size a ≤ S2x256x64x64.size a
  hwx0_0 : ∀ i : grid0.Coords, EltTy.bits .f32 = 32 ∨ (Rect.block (s := S2x256x64x64) S1x256x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x70x64.size a ≤ S2x64x70x64.size a
  hwx0_1 : ∀ i : grid0.Coords, EltTy.bits .f32 = 32 ∨ (Rect.block (s := S2x64x70x64) S1x1x70x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x70x64.size a ≤ S2x64x70x64.size a
  hwx0_2 : ∀ i : grid0.Coords, EltTy.bits .f32 = 32 ∨ (Rect.block (s := S2x64x70x64) S1x1x70x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x7x10.size a ≤ S2x64x7x10.size a
  hwx0_3 : ∀ i : grid0.Coords, EltTy.bits .i32 = 32 ∨ (Rect.block (s := S2x64x7x10) S1x1x7x10.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x7x10.size a ≤ S2x64x7x10.size a
  hwx0_4 : ∀ i : grid0.Coords, EltTy.bits .i32 = 32 ∨ (Rect.block (s := S2x64x7x10) S1x1x7x10.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x7x7.size a ≤ S2x64x7x7.size a
  hwx0_5 : ∀ i : grid0.Coords, EltTy.bits .i32 = 32 ∨ (Rect.block (s := S2x64x7x7) S1x1x7x7.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x7x7x256.size a ≤ S2x64x7x7x256.size a
  hwx0_6 : ∀ i : grid0.Coords, EltTy.bits .f32 = 32 ∨ (Rect.block (s := S2x64x7x7x256) S1x1x7x7x256.size (cc0_transform_6 i) (hinb0_6 i)).WholeWords (EltTy.packing .f32)

variable [Facts₀]

def dot_S70x64_S64x16384_S70x16384_1_0_0_1_n_n : DotDims S70x64 S64x16384 S70x16384 where
  lhsContracting := [1]
  rhsContracting := [0]
  lhsNonContracting := [0]
  rhsNonContracting := [1]
  lhsBatch := []
  rhsBatch := []
  wf := dot_S70x64_S64x16384_S70x16384_1_0_0_1_n_n_wf
def dot_S70x64_S1792x64_S70x1792_1_1_0_0_n_n : DotDims S70x64 S1792x64 S70x1792 where
  lhsContracting := [1]
  rhsContracting := [1]
  lhsNonContracting := [0]
  rhsNonContracting := [0]
  lhsBatch := []
  rhsBatch := []
  wf := dot_S70x64_S1792x64_S70x1792_1_1_0_0_n_n_wf

abbrev win0_0 : Pipeline.Window sig grid0 :=
  Pipeline.Window.ofSpec (Memref.whole main_arg0) S1x256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v174) S1x1x70x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v176) S1x1x70x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v112) S1x1x7x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v123) S1x1x7x10.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v172) S1x1x7x7.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v177) S1x1x7x7x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x256x64x64 : Shape := ⟨4, ![2, 256, 64, 64]⟩
abbrev S2x64x4 : Shape := ⟨3, ![2, 64, 4]⟩
abbrev S_ : Shape := ⟨0, ![]⟩
abbrev S2x64x1 : Shape := ⟨3, ![2, 64, 1]⟩
abbrev S2x64 : Shape := ⟨2, ![2, 64]⟩
abbrev S7 : Shape := ⟨1, ![7]⟩
abbrev S1x1x7 : Shape := ⟨3, ![1, 1, 7]⟩
abbrev S2x64x7 : Shape := ⟨3, ![2, 64, 7]⟩
abbrev S2x64x7x1 : Shape := ⟨4, ![2, 64, 7, 1]⟩
abbrev S10 : Shape := ⟨1, ![10]⟩
abbrev S1x1x1x10 : Shape := ⟨4, ![1, 1, 1, 10]⟩
abbrev S2x64x7x10 : Shape := ⟨4, ![2, 64, 7, 10]⟩
abbrev S2x64x1x7 : Shape := ⟨4, ![2, 64, 1, 7]⟩
abbrev S2x64x7x7 : Shape := ⟨4, ![2, 64, 7, 7]⟩
abbrev S2x64x7x10x1 : Shape := ⟨5, ![2, 64, 7, 10, 1]⟩
abbrev S2x64x256x7x10x64 : Shape := ⟨6, ![2, 64, 256, 7, 10, 64]⟩
abbrev S2x64x1x7x10x1 : Shape := ⟨6, ![2, 64, 1, 7, 10, 1]⟩
abbrev S256x7x10x64 : Shape := ⟨4, ![256, 7, 10, 64]⟩
abbrev S64x256x7x10x64 : Shape := ⟨5, ![64, 256, 7, 10, 64]⟩
abbrev S2x64x256x7x64 : Shape := ⟨5, ![2, 64, 256, 7, 64]⟩
abbrev S2x64x256x7x7x10 : Shape := ⟨6, ![2, 64, 256, 7, 7, 10]⟩
abbrev S2x64x1x1x7x10 : Shape := ⟨6, ![2, 64, 1, 1, 7, 10]⟩
abbrev S256x7x7x10 : Shape := ⟨4, ![256, 7, 7, 10]⟩
abbrev S64x256x7x7x10 : Shape := ⟨5, ![64, 256, 7, 7, 10]⟩
abbrev S2x64x256x7x7 : Shape := ⟨5, ![2, 64, 256, 7, 7]⟩
abbrev S2x64x1x7x7 : Shape := ⟨5, ![2, 64, 1, 7, 7]⟩

abbrev nBuf : Space → Nat
  | .hbm => 317
  | .vmem => 0
  | .smem => 0
  | _ => 0

abbrev hbmTy0_0 (i : Nat) : BufTy := match i % 128 with
  | 0 => ⟨S2x256x64x64, .f32⟩
  | 1 => ⟨S2x64x4, .f32⟩
  | 2 => ⟨S_, .f32⟩
  | 3 => ⟨S2x64x4, .f32⟩
  | 4 => ⟨S2x64x4, .f32⟩
  | 5 => ⟨S2x64x4, .f32⟩
  | 6 => ⟨S2x64x4, .i32⟩
  | 7 => ⟨S2x64x1, .i32⟩
  | 8 => ⟨S2x64, .i32⟩
  | 9 => ⟨S2x64x1, .i32⟩
  | 10 => ⟨S2x64, .i32⟩
  | 11 => ⟨S2x64x1, .i32⟩
  | 12 => ⟨S2x64, .i32⟩
  | 13 => ⟨S2x64x1, .i32⟩
  | 14 => ⟨S2x64, .i32⟩
  | 15 => ⟨S2x64, .i32⟩
  | 16 => ⟨S_, .i32⟩
  | 17 => ⟨S2x64, .i32⟩
  | 18 => ⟨S2x64, .i32⟩
  | 19 => ⟨S_, .i32⟩
  | 20 => ⟨S2x64, .i32⟩
  | 21 => ⟨S2x64, .i32⟩
  | 22 => ⟨S2x64, .i32⟩
  | 23 => ⟨S_, .i32⟩
  | 24 => ⟨S2x64, .i32⟩
  | 25 => ⟨S2x64, .i32⟩
  | 26 => ⟨S_, .i32⟩
  | 27 => ⟨S2x64, .i32⟩
  | 28 => ⟨S2x64, .i32⟩
  | 29 => ⟨S_, .i32⟩
  | 30 => ⟨S2x64, .i32⟩
  | 31 => ⟨S2x64, .i32⟩
  | 32 => ⟨S_, .i32⟩
  | 33 => ⟨S2x64, .i32⟩
  | 34 => ⟨S2x64, .i32⟩
  | 35 => ⟨S_, .i32⟩
  | 36 => ⟨S_, .i32⟩
  | 37 => ⟨S2x64, .i32⟩
  | 38 => ⟨S2x64, .i32⟩
  | 39 => ⟨S2x64, .i32⟩
  | 40 => ⟨S_, .i32⟩
  | 41 => ⟨S2x64, .i32⟩
  | 42 => ⟨S2x64, .i1⟩
  | 43 => ⟨S2x64, .i32⟩
  | 44 => ⟨S2x64, .i32⟩
  | 45 => ⟨S_, .i32⟩
  | 46 => ⟨S2x64, .i32⟩
  | 47 => ⟨S2x64, .i1⟩
  | 48 => ⟨S2x64, .i1⟩
  | 49 => ⟨S_, .i32⟩
  | 50 => ⟨S2x64, .i32⟩
  | 51 => ⟨S2x64, .i32⟩
  | 52 => ⟨S2x64, .i32⟩
  | 53 => ⟨S_, .i32⟩
  | 54 => ⟨S2x64, .i32⟩
  | 55 => ⟨S2x64, .i32⟩
  | 56 => ⟨S_, .i32⟩
  | 57 => ⟨S2x64, .i32⟩
  | 58 => ⟨S2x64, .i32⟩
  | 59 => ⟨S_, .i32⟩
  | 60 => ⟨S_, .i32⟩
  | 61 => ⟨S2x64, .i32⟩
  | 62 => ⟨S2x64, .i32⟩
  | 63 => ⟨S2x64, .i32⟩
  | 64 => ⟨S_, .i32⟩
  | 65 => ⟨S2x64, .i32⟩
  | 66 => ⟨S2x64, .i1⟩
  | 67 => ⟨S2x64, .i32⟩
  | 68 => ⟨S2x64, .i32⟩
  | 69 => ⟨S_, .i32⟩
  | 70 => ⟨S2x64, .i32⟩
  | 71 => ⟨S2x64, .i1⟩
  | 72 => ⟨S2x64, .i1⟩
  | 73 => ⟨S_, .i32⟩
  | 74 => ⟨S2x64, .i32⟩
  | 75 => ⟨S2x64, .i32⟩
  | 76 => ⟨S2x64, .i32⟩
  | 77 => ⟨S_, .i32⟩
  | 78 => ⟨S2x64, .i32⟩
  | 79 => ⟨S2x64, .i32⟩
  | 80 => ⟨S2x64, .i32⟩
  | 81 => ⟨S_, .i32⟩
  | 82 => ⟨S_, .i32⟩
  | 83 => ⟨S2x64, .i32⟩
  | 84 => ⟨S2x64, .i32⟩
  | 85 => ⟨S2x64, .i32⟩
  | 86 => ⟨S_, .i32⟩
  | 87 => ⟨S2x64, .i32⟩
  | 88 => ⟨S2x64, .i1⟩
  | 89 => ⟨S2x64, .i32⟩
  | 90 => ⟨S2x64, .i32⟩
  | 91 => ⟨S_, .i32⟩
  | 92 => ⟨S2x64, .i32⟩
  | 93 => ⟨S2x64, .i1⟩
  | 94 => ⟨S2x64, .i1⟩
  | 95 => ⟨S_, .i32⟩
  | 96 => ⟨S2x64, .i32⟩
  | 97 => ⟨S2x64, .i32⟩
  | 98 => ⟨S2x64, .i32⟩
  | 99 => ⟨S_, .i32⟩
  | 100 => ⟨S2x64, .i32⟩
  | 101 => ⟨S2x64, .i32⟩
  | 102 => ⟨S2x64, .i32⟩
  | 103 => ⟨S_, .i32⟩
  | 104 => ⟨S_, .i32⟩
  | 105 => ⟨S2x64, .i32⟩
  | 106 => ⟨S2x64, .i32⟩
  | 107 => ⟨S2x64, .i32⟩
  | 108 => ⟨S_, .i32⟩
  | 109 => ⟨S2x64, .i32⟩
  | 110 => ⟨S2x64, .i1⟩
  | 111 => ⟨S2x64, .i32⟩
  | 112 => ⟨S2x64, .i32⟩
  | 113 => ⟨S_, .i32⟩
  | 114 => ⟨S2x64, .i32⟩
  | 115 => ⟨S2x64, .i1⟩
  | 116 => ⟨S2x64, .i1⟩
  | 117 => ⟨S_, .i32⟩
  | 118 => ⟨S2x64, .i32⟩
  | 119 => ⟨S2x64, .i32⟩
  | 120 => ⟨S2x64, .i32⟩
  | 121 => ⟨S7, .i32⟩
  | 122 => ⟨S2x64x1, .i32⟩
  | 123 => ⟨S2x64x1, .i32⟩
  | 124 => ⟨S1x1x7, .i32⟩
  | 125 => ⟨S2x64x7, .i32⟩
  | 126 => ⟨S2x64x7, .i32⟩
  | 127 => ⟨S2x64x7, .i32⟩
  | _ => ⟨S2x256x64x64, .f32⟩

abbrev hbmTy0_1 (i : Nat) : BufTy := match i % 128 with
  | 0 => ⟨S2x64x1, .i32⟩
  | 1 => ⟨S2x64x7, .i32⟩
  | 2 => ⟨S2x64x7, .i32⟩
  | 3 => ⟨S_, .i32⟩
  | 4 => ⟨S2x64x7, .i32⟩
  | 5 => ⟨S2x64x7, .i32⟩
  | 6 => ⟨S2x64x7, .i32⟩
  | 7 => ⟨S2x64x7, .i32⟩
  | 8 => ⟨S2x64x1, .i32⟩
  | 9 => ⟨S_, .i32⟩
  | 10 => ⟨S7, .i32⟩
  | 11 => ⟨S7, .i32⟩
  | 12 => ⟨S2x64x1, .i32⟩
  | 13 => ⟨S1x1x7, .i32⟩
  | 14 => ⟨S2x64x7, .i32⟩
  | 15 => ⟨S2x64x7, .i32⟩
  | 16 => ⟨S2x64x7, .i32⟩
  | 17 => ⟨S2x64x1, .i32⟩
  | 18 => ⟨S2x64x7, .i32⟩
  | 19 => ⟨S2x64x7, .i32⟩
  | 20 => ⟨S2x64x1, .i32⟩
  | 21 => ⟨S2x64x7, .i32⟩
  | 22 => ⟨S2x64x7, .i32⟩
  | 23 => ⟨S2x64x7, .i32⟩
  | 24 => ⟨S2x64x7, .i32⟩
  | 25 => ⟨S_, .i32⟩
  | 26 => ⟨S2x64x7, .i32⟩
  | 27 => ⟨S2x64x7, .i32⟩
  | 28 => ⟨S2x64x1, .i32⟩
  | 29 => ⟨S2x64x1, .i32⟩
  | 30 => ⟨S1x1x7, .i32⟩
  | 31 => ⟨S2x64x7, .i32⟩
  | 32 => ⟨S2x64x7, .i32⟩
  | 33 => ⟨S2x64x7, .i32⟩
  | 34 => ⟨S2x64x1, .i32⟩
  | 35 => ⟨S2x64x7, .i32⟩
  | 36 => ⟨S2x64x7, .i32⟩
  | 37 => ⟨S_, .i32⟩
  | 38 => ⟨S2x64x7, .i32⟩
  | 39 => ⟨S2x64x7, .i32⟩
  | 40 => ⟨S2x64x7, .i32⟩
  | 41 => ⟨S2x64x7, .i32⟩
  | 42 => ⟨S2x64x1, .i32⟩
  | 43 => ⟨S_, .i32⟩
  | 44 => ⟨S7, .i32⟩
  | 45 => ⟨S7, .i32⟩
  | 46 => ⟨S2x64x1, .i32⟩
  | 47 => ⟨S1x1x7, .i32⟩
  | 48 => ⟨S2x64x7, .i32⟩
  | 49 => ⟨S2x64x7, .i32⟩
  | 50 => ⟨S2x64x7, .i32⟩
  | 51 => ⟨S2x64x1, .i32⟩
  | 52 => ⟨S2x64x7, .i32⟩
  | 53 => ⟨S2x64x7, .i32⟩
  | 54 => ⟨S2x64x1, .i32⟩
  | 55 => ⟨S2x64x7, .i32⟩
  | 56 => ⟨S2x64x7, .i32⟩
  | 57 => ⟨S2x64x7, .i32⟩
  | 58 => ⟨S2x64x7, .i32⟩
  | 59 => ⟨S_, .i32⟩
  | 60 => ⟨S2x64x7, .i32⟩
  | 61 => ⟨S2x64x7, .i32⟩
  | 62 => ⟨S2x64x7x1, .i32⟩
  | 63 => ⟨S10, .i32⟩
  | 64 => ⟨S1x1x1x10, .i32⟩
  | 65 => ⟨S2x64x7x10, .i32⟩
  | 66 => ⟨S2x64x7x10, .i32⟩
  | 67 => ⟨S2x64x7x10, .i32⟩
  | 68 => ⟨S2x64x7x1, .i32⟩
  | 69 => ⟨S2x64x7x10, .i32⟩
  | 70 => ⟨S2x64x7x10, .i1⟩
  | 71 => ⟨S_, .i32⟩
  | 72 => ⟨S_, .i32⟩
  | 73 => ⟨S_, .i32⟩
  | 74 => ⟨S2x64x7x10, .i32⟩
  | 75 => ⟨S2x64x7x10, .i32⟩
  | 76 => ⟨S_, .i32⟩
  | 77 => ⟨S2x64x7x10, .i32⟩
  | 78 => ⟨S2x64x7x10, .i32⟩
  | 79 => ⟨S2x64x7x1, .i32⟩
  | 80 => ⟨S10, .i32⟩
  | 81 => ⟨S1x1x1x10, .i32⟩
  | 82 => ⟨S2x64x7x10, .i32⟩
  | 83 => ⟨S2x64x7x10, .i32⟩
  | 84 => ⟨S2x64x7x10, .i32⟩
  | 85 => ⟨S2x64x7x1, .i32⟩
  | 86 => ⟨S2x64x7x10, .i32⟩
  | 87 => ⟨S2x64x7x10, .i1⟩
  | 88 => ⟨S_, .i32⟩
  | 89 => ⟨S_, .i32⟩
  | 90 => ⟨S_, .i32⟩
  | 91 => ⟨S2x64x7x10, .i32⟩
  | 92 => ⟨S2x64x7x10, .i32⟩
  | 93 => ⟨S_, .i32⟩
  | 94 => ⟨S2x64x7x10, .i32⟩
  | 95 => ⟨S2x64x7x10, .i32⟩
  | 96 => ⟨S2x64x1, .i32⟩
  | 97 => ⟨S1x1x7, .i32⟩
  | 98 => ⟨S2x64x7, .i32⟩
  | 99 => ⟨S2x64x7, .i32⟩
  | 100 => ⟨S2x64x7, .i32⟩
  | 101 => ⟨S2x64x1, .i32⟩
  | 102 => ⟨S2x64x7, .i32⟩
  | 103 => ⟨S2x64x7, .i1⟩
  | 104 => ⟨S_, .i32⟩
  | 105 => ⟨S7, .i32⟩
  | 106 => ⟨S7, .i32⟩
  | 107 => ⟨S2x64x1, .i32⟩
  | 108 => ⟨S1x1x7, .i32⟩
  | 109 => ⟨S2x64x7, .i32⟩
  | 110 => ⟨S2x64x7, .i32⟩
  | 111 => ⟨S2x64x7, .i32⟩
  | 112 => ⟨S2x64x1, .i32⟩
  | 113 => ⟨S2x64x1, .i32⟩
  | 114 => ⟨S2x64x1, .i32⟩
  | 115 => ⟨S2x64x7, .i32⟩
  | 116 => ⟨S2x64x7, .i1⟩
  | 117 => ⟨S2x64x7, .i1⟩
  | 118 => ⟨S2x64x1, .i32⟩
  | 119 => ⟨S1x1x7, .i32⟩
  | 120 => ⟨S2x64x7, .i32⟩
  | 121 => ⟨S2x64x7, .i32⟩
  | 122 => ⟨S2x64x7, .i32⟩
  | 123 => ⟨S2x64x1, .i32⟩
  | 124 => ⟨S2x64x7, .i32⟩
  | 125 => ⟨S2x64x7, .i1⟩
  | 126 => ⟨S_, .i32⟩
  | 127 => ⟨S7, .i32⟩
  | _ => ⟨S2x256x64x64, .f32⟩

abbrev hbmTy0_2 (i : Nat) : BufTy := match i % 128 with
  | 0 => ⟨S7, .i32⟩
  | 1 => ⟨S2x64x1, .i32⟩
  | 2 => ⟨S1x1x7, .i32⟩
  | 3 => ⟨S2x64x7, .i32⟩
  | 4 => ⟨S2x64x7, .i32⟩
  | 5 => ⟨S2x64x7, .i32⟩
  | 6 => ⟨S2x64x1, .i32⟩
  | 7 => ⟨S2x64x1, .i32⟩
  | 8 => ⟨S2x64x1, .i32⟩
  | 9 => ⟨S2x64x7, .i32⟩
  | 10 => ⟨S2x64x7, .i1⟩
  | 11 => ⟨S2x64x7, .i1⟩
  | 12 => ⟨S2x64x7x1, .i1⟩
  | 13 => ⟨S2x64x1x7, .i1⟩
  | 14 => ⟨S2x64x7x7, .i1⟩
  | 15 => ⟨S2x64x7x7, .i1⟩
  | 16 => ⟨S2x64x7x7, .i1⟩
  | 17 => ⟨S_, .i32⟩
  | 18 => ⟨S2x64x7x10, .i32⟩
  | 19 => ⟨S2x64x7x10, .i1⟩
  | 20 => ⟨S_, .i32⟩
  | 21 => ⟨S2x64x7x10, .i32⟩
  | 22 => ⟨S2x64x7x10, .i32⟩
  | 23 => ⟨S2x64x7x10, .i32⟩
  | 24 => ⟨S2x64x7x10x1, .i32⟩
  | 25 => ⟨S2x64x256x7x10x64, .f32⟩
  | 26 => ⟨S2x64x1x7x10x1, .i1⟩
  | 27 => ⟨S_, .f32⟩
  | 28 => ⟨S_, .f32⟩
  | 29 => ⟨S2x64x256x7x10x64, .i1⟩
  | 30 => ⟨S256x7x10x64, .f32⟩
  | 31 => ⟨S64x256x7x10x64, .f32⟩
  | 32 => ⟨S2x64x256x7x10x64, .f32⟩
  | 33 => ⟨S2x64x256x7x10x64, .f32⟩
  | 34 => ⟨S_, .f32⟩
  | 35 => ⟨S2x64x256x7x64, .f32⟩
  | 36 => ⟨S_, .i32⟩
  | 37 => ⟨S2x64x7x10, .i32⟩
  | 38 => ⟨S2x64x7x10, .i1⟩
  | 39 => ⟨S_, .i32⟩
  | 40 => ⟨S2x64x7x10, .i32⟩
  | 41 => ⟨S2x64x7x10, .i32⟩
  | 42 => ⟨S2x64x7x10, .i32⟩
  | 43 => ⟨S2x64x7x10x1, .i32⟩
  | 44 => ⟨S2x64x256x7x7x10, .f32⟩
  | 45 => ⟨S2x64x1x1x7x10, .i1⟩
  | 46 => ⟨S_, .f32⟩
  | 47 => ⟨S_, .f32⟩
  | 48 => ⟨S2x64x256x7x7x10, .i1⟩
  | 49 => ⟨S256x7x7x10, .f32⟩
  | 50 => ⟨S64x256x7x7x10, .f32⟩
  | 51 => ⟨S2x64x256x7x7x10, .f32⟩
  | 52 => ⟨S2x64x256x7x7x10, .f32⟩
  | 53 => ⟨S_, .f32⟩
  | 54 => ⟨S2x64x256x7x7, .f32⟩
  | 55 => ⟨S2x64x1x7x7, .i1⟩
  | 56 => ⟨S_, .f32⟩
  | 57 => ⟨S2x64x256x7x7, .f32⟩
  | 58 => ⟨S2x64x256x7x7, .f32⟩
  | 59 => ⟨S2x64x256x7x7, .i1⟩
  | 60 => ⟨S2x64x256x7x7, .f32⟩
  | _ => ⟨S2x256x64x64, .f32⟩

abbrev hbmTy (i : Nat) : BufTy := match i / 128 with
  | 0 => hbmTy0_0 i
  | 1 => hbmTy0_1 i
  | 2 => hbmTy0_2 i
  | _ => ⟨S2x256x64x64, .f32⟩

abbrev bufTy : (tb : Table) → Fin (tcTables nBuf tb) → BufTy
  | .hbm, ⟨i, _⟩ => hbmTy i
  | _, _ => ⟨S2x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_c_8 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v31 : Ref sig .tc := ⟨.hbm, 76, rfl⟩
abbrev main_c_9 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_c_10 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_c : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_0 : Ref sig .tc := ⟨.hbm, 95, rfl⟩
abbrev main_call3_v12 : Ref sig .tc := ⟨.hbm, 96, rfl⟩
abbrev main_call3_v13 : Ref sig .tc := ⟨.hbm, 97, rfl⟩
abbrev main_v35 : Ref sig .tc := ⟨.hbm, 98, rfl⟩
abbrev main_c_11 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_c_12 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_c : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_0 : Ref sig .tc := ⟨.hbm, 117, rfl⟩
abbrev main_call4_v12 : Ref sig .tc := ⟨.hbm, 118, rfl⟩
abbrev main_call4_v13 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_c_13 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_c_14 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_c_15 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_c_16 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_c_17 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_c_18 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_c_19 : Ref sig .tc := ⟨.hbm, 199, rfl⟩
abbrev main_c_20 : Ref sig .tc := ⟨.hbm, 200, rfl⟩
abbrev main_call5_v0 : Ref sig .tc := ⟨.hbm, 201, rfl⟩
abbrev main_call5_v1 : Ref sig .tc := ⟨.hbm, 202, rfl⟩
abbrev main_call5_v2 : Ref sig .tc := ⟨.hbm, 203, rfl⟩
abbrev main_call5_v3 : Ref sig .tc := ⟨.hbm, 204, rfl⟩
abbrev main_call5_v4 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_c_21 : Ref sig .tc := ⟨.hbm, 216, rfl⟩
abbrev main_c_22 : Ref sig .tc := ⟨.hbm, 217, rfl⟩
abbrev main_call6_v0 : Ref sig .tc := ⟨.hbm, 218, rfl⟩
abbrev main_call6_v1 : Ref sig .tc := ⟨.hbm, 219, rfl⟩
abbrev main_call6_v2 : Ref sig .tc := ⟨.hbm, 220, rfl⟩
abbrev main_call6_v3 : Ref sig .tc := ⟨.hbm, 221, rfl⟩
abbrev main_call6_v4 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_c_23 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_c_24 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_c_25 : Ref sig .tc := ⟨.hbm, 273, rfl⟩
abbrev main_v170 : Ref sig .tc := ⟨.hbm, 274, rfl⟩
abbrev main_v171 : Ref sig .tc := ⟨.hbm, 275, rfl⟩
abbrev main_c_26 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_cst_27 : Ref sig .tc := ⟨.hbm, 283, rfl⟩
abbrev main_call7_v0 : Ref sig .tc := ⟨.hbm, 284, rfl⟩
abbrev main_call7_v1 : Ref sig .tc := ⟨.hbm, 285, rfl⟩
abbrev main_call7_v2 : Ref sig .tc := ⟨.hbm, 286, rfl⟩
abbrev main_call7_v3 : Ref sig .tc := ⟨.hbm, 287, rfl⟩
abbrev main_call7_v4 : Ref sig .tc := ⟨.hbm, 288, rfl⟩
abbrev main_v178 : Ref sig .tc := ⟨.hbm, 289, rfl⟩
abbrev main_cst_28 : Ref sig .tc := ⟨.hbm, 290, rfl⟩
abbrev main_v179 : Ref sig .tc := ⟨.hbm, 291, rfl⟩
abbrev main_c_29 : Ref sig .tc := ⟨.hbm, 292, rfl⟩
abbrev main_v180 : Ref sig .tc := ⟨.hbm, 293, rfl⟩
abbrev main_v181 : Ref sig .tc := ⟨.hbm, 294, rfl⟩
abbrev main_c_30 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_cst_31 : Ref sig .tc := ⟨.hbm, 302, rfl⟩
abbrev main_call8_v0 : Ref sig .tc := ⟨.hbm, 303, rfl⟩
abbrev main_call8_v1 : Ref sig .tc := ⟨.hbm, 304, rfl⟩
abbrev main_call8_v2 : Ref sig .tc := ⟨.hbm, 305, rfl⟩
abbrev main_call8_v3 : Ref sig .tc := ⟨.hbm, 306, rfl⟩
abbrev main_call8_v4 : Ref sig .tc := ⟨.hbm, 307, rfl⟩
abbrev main_v188 : Ref sig .tc := ⟨.hbm, 308, rfl⟩
abbrev main_cst_32 : Ref sig .tc := ⟨.hbm, 309, rfl⟩
abbrev main_v189 : Ref sig .tc := ⟨.hbm, 310, rfl⟩
abbrev main_v190 : Ref sig .tc := ⟨.hbm, 311, rfl⟩
abbrev main_cst_33 : Ref sig .tc := ⟨.hbm, 312, rfl⟩
abbrev main_v191 : Ref sig .tc := ⟨.hbm, 313, rfl⟩
abbrev main_v192 : Ref sig .tc := ⟨.hbm, 314, rfl⟩
abbrev main_call9_v0 : Ref sig .tc := ⟨.hbm, 315, rfl⟩
abbrev main_v193 : Ref sig .tc := ⟨.hbm, 316, rfl⟩

abbrev nD : Nat := 1
abbrev τ : Topo := Topo.v7x

variable {F : FTy → Type} [FloatOps F]

class Facts₀ : Prop where
  bcast_S_S2x64x4 : S_.BroadcastsInDim S2x64x4 (![] : Fin 0 → Fin S2x64x4.rank)
  slices_S2x64x4_S2x64x1_0_0_0 : S2x64x4.Slices ![0, 0, 0] S2x64x1
  shapeCasts_S2x64x1_S2x64 : S2x64x1.ShapeCasts S2x64
  slices_S2x64x4_S2x64x1_0_0_1 : S2x64x4.Slices ![0, 0, 1] S2x64x1
  slices_S2x64x4_S2x64x1_0_0_2 : S2x64x4.Slices ![0, 0, 2] S2x64x1
  slices_S2x64x4_S2x64x1_0_0_3 : S2x64x4.Slices ![0, 0, 3] S2x64x1
  bcast_S_S2x64 : S_.BroadcastsInDim S2x64 (![] : Fin 0 → Fin S2x64.rank)
  bcast_S2x64_S2x64x1_0_1 : S2x64.BroadcastsInDim S2x64x1 (![0, 1] : Fin 2 → Fin S2x64x1.rank)
  bcast_S7_S1x1x7_2 : S7.BroadcastsInDim S1x1x7 (![2] : Fin 1 → Fin S1x1x7.rank)
  bcast_S1x1x7_S2x64x7_0_1_2 : S1x1x7.BroadcastsInDim S2x64x7 (![0, 1, 2] : Fin 3 → Fin S2x64x7.rank)
  bcast_S2x64x1_S2x64x7_0_1_2 : S2x64x1.BroadcastsInDim S2x64x7 (![0, 1, 2] : Fin 3 → Fin S2x64x7.rank)
  bcast_S_S2x64x7 : S_.BroadcastsInDim S2x64x7 (![] : Fin 0 → Fin S2x64x7.rank)
  bcast_S_S7 : S_.BroadcastsInDim S7 (![] : Fin 0 → Fin S7.rank)
  bcast_S2x64x7_S2x64x7x1_0_1_2 : S2x64x7.BroadcastsInDim S2x64x7x1 (![0, 1, 2] : Fin 3 → Fin S2x64x7x1.rank)
  bcast_S10_S1x1x1x10_3 : S10.BroadcastsInDim S1x1x1x10 (![3] : Fin 1 → Fin S1x1x1x10.rank)
  bcast_S2x64x7x1_S2x64x7x10_0_1_2_3 : S2x64x7x1.BroadcastsInDim S2x64x7x10 (![0, 1, 2, 3] : Fin 4 → Fin S2x64x7x10.rank)
  bcast_S1x1x1x10_S2x64x7x10_0_1_2_3 : S1x1x1x10.BroadcastsInDim S2x64x7x10 (![0, 1, 2, 3] : Fin 4 → Fin S2x64x7x10.rank)
  bcast_S_S2x64x7x10 : S_.BroadcastsInDim S2x64x7x10 (![] : Fin 0 → Fin S2x64x7x10.rank)
  bcast_S2x64x7_S2x64x1x7_0_1_3 : S2x64x7.BroadcastsInDim S2x64x1x7 (![0, 1, 3] : Fin 3 → Fin S2x64x1x7.rank)
  bcast_S2x64x7x1_S2x64x7x7_0_1_2_3 : S2x64x7x1.BroadcastsInDim S2x64x7x7 (![0, 1, 2, 3] : Fin 4 → Fin S2x64x7x7.rank)
  bcast_S2x64x1x7_S2x64x7x7_0_1_2_3 : S2x64x1x7.BroadcastsInDim S2x64x7x7 (![0, 1, 2, 3] : Fin 4 → Fin S2x64x7x7.rank)
  bcast_S2x64x7x10_S2x64x7x10x1_0_1_2_3 : S2x64x7x10.BroadcastsInDim S2x64x7x10x1 (![0, 1, 2, 3] : Fin 4 → Fin S2x64x7x10x1.rank)
  bcast_S2x64x7x10_S2x64x1x7x10x1_0_1_3_4 : S2x64x7x10.BroadcastsInDim S2x64x1x7x10x1 (![0, 1, 3, 4] : Fin 4 → Fin S2x64x1x7x10x1.rank)
  bcast_S2x64x1x7x10x1_S2x64x256x7x10x64_0_1_2_3_4_5 : S2x64x1x7x10x1.BroadcastsInDim S2x64x256x7x10x64 (![0, 1, 2, 3, 4, 5] : Fin 6 → Fin S2x64x256x7x10x64.rank)
  bcast_S_S256x7x10x64 : S_.BroadcastsInDim S256x7x10x64 (![] : Fin 0 → Fin S256x7x10x64.rank)
  bcast_S256x7x10x64_S64x256x7x10x64_1_2_3_4 : S256x7x10x64.BroadcastsInDim S64x256x7x10x64 (![1, 2, 3, 4] : Fin 4 → Fin S64x256x7x10x64.rank)
  bcast_S64x256x7x10x64_S2x64x256x7x10x64_1_2_3_4_5 : S64x256x7x10x64.BroadcastsInDim S2x64x256x7x10x64 (![1, 2, 3, 4, 5] : Fin 5 → Fin S2x64x256x7x10x64.rank)
  reducesTo_S2x64x256x7x10x64_S2x64x256x7x64_d4 : S2x64x256x7x10x64.ReducesTo [4] S2x64x256x7x64
  h_S_ : 0 < S_.numel
  bcast_S2x64x7x10_S2x64x1x1x7x10_0_1_4_5 : S2x64x7x10.BroadcastsInDim S2x64x1x1x7x10 (![0, 1, 4, 5] : Fin 4 → Fin S2x64x1x1x7x10.rank)
  bcast_S2x64x1x1x7x10_S2x64x256x7x7x10_0_1_2_3_4_5 : S2x64x1x1x7x10.BroadcastsInDim S2x64x256x7x7x10 (![0, 1, 2, 3, 4, 5] : Fin 6 → Fin S2x64x256x7x7x10.rank)
  bcast_S_S256x7x7x10 : S_.BroadcastsInDim S256x7x7x10 (![] : Fin 0 → Fin S256x7x7x10.rank)
  bcast_S256x7x7x10_S64x256x7x7x10_1_2_3_4 : S256x7x7x10.BroadcastsInDim S64x256x7x7x10 (![1, 2, 3, 4] : Fin 4 → Fin S64x256x7x7x10.rank)
  bcast_S64x256x7x7x10_S2x64x256x7x7x10_1_2_3_4_5 : S64x256x7x7x10.BroadcastsInDim S2x64x256x7x7x10 (![1, 2, 3, 4, 5] : Fin 5 → Fin S2x64x256x7x7x10.rank)
  reducesTo_S2x64x256x7x7x10_S2x64x256x7x7_d5 : S2x64x256x7x7x10.ReducesTo [5] S2x64x256x7x7
  bcast_S2x64x7x7_S2x64x1x7x7_0_1_3_4 : S2x64x7x7.BroadcastsInDim S2x64x1x7x7 (![0, 1, 3, 4] : Fin 4 → Fin S2x64x1x7x7.rank)
  bcast_S_S2x64x256x7x7 : S_.BroadcastsInDim S2x64x256x7x7 (![] : Fin 0 → Fin S2x64x256x7x7.rank)
  bcast_S2x64x1x7x7_S2x64x256x7x7_0_1_2_3_4 : S2x64x1x7x7.BroadcastsInDim S2x64x256x7x7 (![0, 1, 2, 3, 4] : Fin 5 → Fin S2x64x256x7x7.rank)
  gather_S2x256x64x64_S2x64x7x10x1_S2x64x256x7x10x64_25_2_0_0_2_4_1256164_wf : GatherDims.WF S2x256x64x64 S2x64x7x10x1 S2x64x256x7x10x64 [2, 5] [2] [0] [2] [0] 4 ![1, 256, 1, 64]
  gather_S2x64x256x7x64_S2x64x7x10x1_S2x64x256x7x7x10_23_4_01_01_4_4_1125671_wf : GatherDims.WF S2x64x256x7x64 S2x64x7x10x1 S2x64x256x7x7x10 [2, 3] [4] [0, 1] [4] [0, 1] 4 ![1, 1, 256, 7, 1]

variable [Facts₀]

def gather_S2x256x64x64_S2x64x7x10x1_S2x64x256x7x10x64_25_2_0_0_2_4_1256164 : GatherDims S2x256x64x64 S2x64x7x10x1 S2x64x256x7x10x64 where
  offsetDims := [2, 5]
  collapsedSliceDims := [2]
  operandBatchingDims := [0]
  startIndicesBatchingDims := [0]
  startIndexMap := [2]
  indexVectorDim := 4
  sliceSizes := ![1, 256, 1, 64]
  wf := gather_S2x256x64x64_S2x64x7x10x1_S2x64x256x7x10x64_25_2_0_0_2_4_1256164_wf
def gather_S2x64x256x7x64_S2x64x7x10x1_S2x64x256x7x7x10_23_4_01_01_4_4_1125671 : GatherDims S2x64x256x7x64 S2x64x7x10x1 S2x64x256x7x7x10 where
  offsetDims := [2, 3]
  collapsedSliceDims := [4]
  operandBatchingDims := [0, 1]
  startIndicesBatchingDims := [0, 1]
  startIndexMap := [4]
  indexVectorDim := 4
  sliceSizes := ![1, 1, 256, 7, 1]
  wf := gather_S2x64x256x7x64_S2x64x7x10x1_S2x64x256x7x7x10_23_4_01_01_4_4_1125671_wf

class Facts : Prop extends Facts₀ where

variable [Facts]
-- ==== Proof.RefOps0.lean ====
/-
  The operations of statements 1 … 60 of the reference's @main (its window 0), in order, as lists:
  a statement that is an operation is one element; a statement that calls a module-local function is
  that function's operations over the call's own buffers (a function that itself calls another: the
  inner one's operations in its place). The lists are cut at every call, so that the window unfolds
  against them piece by piece; ops0 is their concatenation and the window is the straight line of it.
-/
import proofs.«121944_j5746666242434_2_alg».proof.Proof.Gen.ReferenceIdeal
import Idealize.ShloMosaic.Lib.StableHlo.Run
import Idealize.ShloMosaic.Lib.Pipeline.Regions

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0, piece 0: 3 operations of @main itself. -/
abbrev ops0_0 : List (HloOp τ sig (Elt F)) :=
  [ StableHlo.nullary main_cst (constant S_ .f32 0x3D800000#32),
    StableHlo.unary main_cst main_v0 (broadcastInDim S2x64x4 ![] bcast_S_S2x64x4 : (⟨S_, .f32⟩ : BufTy).Contents (Elt F) → (⟨S2x64x4, .f32⟩ : BufTy).Contents (Elt F)),
    StableHlo.binary main_arg1 main_v0 main_v1 (mulf : (⟨S2x64x4, .f32⟩ : BufTy).Contents (Elt F) → (⟨S2x64x4, .f32⟩ : BufTy).Contents (Elt F) → (⟨S2x64x4, .f32⟩ : BufTy).Contents (Elt F)) ]
theorem ops0_0_sub : (ops0_0 : List (HloOp τ sig (Elt F))).Forall fun op => op.bufs ⊆ tcRefs τ sig :=
  ⟨nullary_bufs_sub .., unary_bufs_sub .., binary_bufs_sub ..⟩
theorem ops0_0_fresh : (ops0_0 : List (HloOp τ sig (Elt F))).Forall fun op => op.fresh = ∅ :=
  ⟨rfl, rfl, rfl⟩

/-- Window 0, piece 1: the 1 operations of the call of @round (record main_call0). -/
abbrev ops0_1 : List (HloOp τ sig (Elt F)) :=
  [ StableHlo.TRef.unary (.of main_v1 : StableHlo.TRef sig ⟨S2x64x4, .f32⟩) (.of main_v2 : StableHlo.TRef sig ⟨S2x64x4, .f32⟩) Host.roundeven ]
theorem ops0_1_sub : (ops0_1 : List (HloOp τ sig (Elt F))).Forall fun op => op.bufs ⊆ tcRefs τ sig :=
  unary_bufs_sub ..
theorem ops0_1_fresh : (ops0_1 : List (HloOp τ sig (Elt F))).Forall fun op => op.fresh = ∅ :=
  rfl

/-- Window 0, piece 2: 30 operations of @main itself. -/
abbrev ops0_2 : List (HloOp τ sig (Elt F)) :=
  [ StableHlo.unary main_v2 main_v3 (fptosi 32 : (⟨S2x64x4, .f32⟩ : BufTy).Contents (Elt F) → (⟨S2x64x4, .i32⟩ : BufTy).Contents (Elt F)),
    StableHlo.unary main_v3 main_v4 ((extractStridedSlice S2x64x1 ![0, 0, 0] · slices_S2x64x4_S2x64x1_0_0_0) : (⟨S2x64x4, .i32⟩ : BufTy).Contents (Elt F) → (⟨S2x64x1, .i32⟩ : BufTy).Contents (Elt F)),
    StableHlo.reshape main_v4 main_v5 rfl shapeCasts_S2x64x1_S2x64,
    StableHlo.unary main_v3 main_v6 ((extractStridedSlice S2x64x1 ![0, 0, 1] · slices_S2x64x4_S2x64x1_0_0_1) : (⟨S2x64x4, .i32⟩ : BufTy).Contents (Elt F) → (⟨S2x64x1, .i32⟩ : BufTy).Contents (Elt F)),
    StableHlo.reshape main_v6 main_v7 rfl shapeCasts_S2x64x1_S2x64,
    StableHlo.unary main_v3 main_v8 ((extractStridedSlice S2x64x1 ![0, 0, 2] · slices_S2x64x4_S2x64x1_0_0_2) : (⟨S2x64x4, .i32⟩ : BufTy).Contents (Elt F) → (⟨S2x64x1, .i32⟩ : BufTy).Contents (Elt F)),
    StableHlo.reshape main_v8 main_v9 rfl shapeCasts_S2x64x1_S2x64,
    StableHlo.unary main_v3 main_v10 ((extractStridedSlice S2x64x1 ![0, 0, 3] · slices_S2x64x4_S2x64x1_0_0_3) : (⟨S2x64x4, .i32⟩ : BufTy).Contents (Elt F) → (⟨S2x64x1, .i32⟩ : BufTy).Contents (Elt F)),
    StableHlo.reshape main_v10 main_v11 rfl shapeCasts_S2x64x1_S2x64,
    StableHlo.binary main_v9 main_v5 main_v12 (subi : (⟨S2x64, .i32⟩ : BufTy).Contents (Elt F) → (⟨S2x64, .i32⟩ : BufTy).Contents (Elt F) → (⟨S2x64, .i32⟩ : BufTy).Contents (Elt F)),
    StableHlo.nullary main_c (constantI S_ 32 1#32),
    StableHlo.unary main_c main_v13 (broadcastInDim S2x64 ![] bcast_S_S2x64 : (⟨S_, .i32⟩ : BufTy).Contents (Elt F) → (⟨S2x64, .i32⟩ : BufTy).Contents (Elt F)),
    StableHlo.binary main_v12 main_v13 main_v14 (addi : (⟨S2x64, .i32⟩ : BufTy).Contents (Elt F) → (⟨S2x64, .i32⟩ : BufTy).Contents (Elt F) → (⟨S2x64, .i32⟩ : BufTy).Contents (Elt F)),
    StableHlo.nullary main_c_0 (constantI S_ 32 1#32),
    StableHlo.unary main_c_0 main_v15 (broadcastInDim S2x64 ![] bcast_S_S2x64 : (⟨S_, .i32⟩ : BufTy).Contents (Elt F) → (⟨S2x64, .i32⟩ : BufTy).Contents (Elt F)),
    StableHlo.binary main_v14 main_v15 main_v16 (maxsi : (⟨S2x64, .i32⟩ : BufTy).Contents (Elt F) → (⟨S2x64, .i32⟩ : BufTy).Contents (Elt F) → (⟨S2x64, .i32⟩ : BufTy).Contents (Elt F)),
    StableHlo.binary main_v11 main_v7 main_v17 (subi : (⟨S2x64, .i32⟩ : BufTy).Contents (Elt F) → (⟨S2x64, .i32⟩ : BufTy).Contents (Elt F) → (⟨S2x64, .i32⟩ : BufTy).Contents (Elt F)),
    StableHlo.nullary main_c_1 (constantI S_ 32 1#32),
    StableHlo.unary main_c_1 main_v18 (broadcastInDim S2x64 ![] bcast_S_S2x64 : (⟨S_, .i32⟩ : BufTy).Contents (Elt F) → (⟨S2x64, .i32⟩ : BufTy).Contents (Elt F)),
    StableHlo.binary main_v17 main_v18 main_v19 (addi : (⟨S2x64, .i32⟩ : BufTy).Contents (Elt F) → (⟨S2x64, .i32⟩ : BufTy).Contents (Elt F) → (⟨S2x64, .i32⟩ : BufTy).Contents (Elt F)),
    StableHlo.nullary main_c_2 (constantI S_ 32 1#32),
    StableHlo.unary main_c_2 main_v20 (broadcastInDim S2x64 ![] bcast_S_S2x64 : (⟨S_, .i32⟩ : BufTy).Contents (Elt F) → (⟨S2x64, .i32⟩ : BufTy).Contents (Elt F)),
    StableHlo.binary main_v19 main_v20 main_v21 (maxsi : (⟨S2x64, .i32⟩ : BufTy).Contents (Elt F) → (⟨S2x64, .i32⟩ : BufTy).Contents (Elt F) → (⟨S2x64, .i32⟩ : BufTy).Contents (Elt F)),
    StableHlo.nullary main_c_3 (constantI S_ 32 7#32),
    StableHlo.unary main_c_3 main_v22 (broadcastInDim S2x64 ![] bcast_S_S2x64 : (⟨S_, .i32⟩ : BufTy).Contents (Elt F) → (⟨S2x64, .i32⟩ : BufTy).Contents (Elt F)),
    StableHlo.binary main_v16 main_v22 main_v23 (addi : (⟨S2x64, .i32⟩ : BufTy).Contents (Elt F) → (⟨S2x64, .i32⟩ : BufTy).Contents (Elt F) → (⟨S2x64, .i32⟩ : BufTy).Contents (Elt F)),
    StableHlo.nullary main_c_4 (constantI S_ 32 1#32),
    StableHlo.unary main_c_4 main_v24 (broadcastInDim S2x64 ![] bcast_S_S2x64 : (⟨S_, .i32⟩ : BufTy).Contents (Elt F) → (⟨S2x64, .i32⟩ : BufTy).Contents (Elt F)),
    StableHlo.binary main_v23 main_v24 main_v25 (subi : (⟨S2x64, .i32⟩ : BufTy).Contents (Elt F) → (⟨S2x64, .i32⟩ : BufTy).Contents (Elt F) → (⟨S2x64, .i32⟩ : BufTy).Contents (Elt F)),
    StableHlo.nullary main_c_5 (constantI S_ 32 7#32) ]
theorem ops0_2_sub : (ops0_2 : List (HloOp τ sig (Elt F))).Forall fun op => op.bufs ⊆ tcRefs τ sig :=
  ⟨unary_bufs_sub .., unary_bufs_sub .., reshape_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub ..⟩
theorem ops0_2_fresh : (ops0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 0, piece 3: the 17 operations of the call of @floor_divide (record main_call1). -/
abbrev ops0_3 : List (HloOp τ sig (Elt F)) :=
  [ StableHlo.TRef.unary (.of main_c_5 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S2x64, .i32⟩) (broadcastInDim S2x64 ![] bcast_S_S2x64),
    StableHlo.TRef.binary (.of main_v25 : StableHlo.TRef sig ⟨S2x64, .i32⟩) (.of main_call1_v1 : StableHlo.TRef sig ⟨S2x64, .i32⟩) (.of main_call1_v2 : StableHlo.TRef sig ⟨S2x64, .i32⟩) Host.divsi,
    StableHlo.TRef.unary (.of main_v25 : StableHlo.TRef sig ⟨S2x64, .i32⟩) (.of main_call1_v3 : StableHlo.TRef sig ⟨S2x64, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S2x64, .i32⟩) (broadcastInDim S2x64 ![] bcast_S_S2x64),
    StableHlo.TRef.binary (.of main_call1_v3 : StableHlo.TRef sig ⟨S2x64, .i32⟩) (.of main_call1_v5 : StableHlo.TRef sig ⟨S2x64, .i32⟩) (.of main_call1_v6 : StableHlo.TRef sig ⟨S2x64, .i1⟩) (cmpi .ne),
    StableHlo.TRef.unary (.of main_call1_v0 : StableHlo.TRef sig ⟨S_, .i32⟩) (.of main_call1_v7 : StableHlo.TRef sig ⟨S2x64, .i32⟩) (broadcastInDim S2x64 ![] bcast_S_S2x64),
    StableHlo.TRef.binary (.of main_v25 : StableHlo.TRef sig ⟨S2x64, .i32⟩) (.of main_call1_v7 : StableHlo.TRef sig ⟨S2x64, .i32⟩) (.of main_call1_v8 : StableHlo.TRef sig ⟨S2x64, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S2x64, .i32⟩) (broadcastInDim S2x64 ![] bcast_S_S2x64),
    StableHlo.TRef.binary (.of main_call1_v8 : StableHlo.TRef sig ⟨S2x64, .i32⟩) (.of main_call1_v9 : StableHlo.TRef sig ⟨S2x64, .i32⟩) (.of main_call1_v10 : StableHlo.TRef sig ⟨S2x64, .i1⟩) (cmpi .ne),
    StableHlo.TRef.binary (.of main_call1_v6 : StableHlo.TRef sig ⟨S2x64, .i1⟩) (.of main_call1_v10 : StableHlo.TRef sig ⟨S2x64, .i1⟩) (.of main_call1_v11 : StableHlo.TRef sig ⟨S2x64, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S2x64, .i32⟩) (broadcastInDim S2x64 ![] bcast_S_S2x64),
    StableHlo.TRef.binary (.of main_call1_v2 : StableHlo.TRef sig ⟨S2x64, .i32⟩) (.of main_call1_v12 : StableHlo.TRef sig ⟨S2x64, .i32⟩) (.of main_call1_v13 : StableHlo.TRef sig ⟨S2x64, .i32⟩) subi,
    StableHlo.TRef.ternary (.of main_call1_v11 : StableHlo.TRef sig ⟨S2x64, .i1⟩) (.of main_call1_v13 : StableHlo.TRef sig ⟨S2x64, .i32⟩) (.of main_call1_v2 : StableHlo.TRef sig ⟨S2x64, .i32⟩) (.of main_v26 : StableHlo.TRef sig ⟨S2x64, .i32⟩) select ]
theorem ops0_3_sub : (ops0_3 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem ops0_3_fresh : (ops0_3 : List (HloOp τ sig (Elt F))).Forall fun op => op.fresh = ∅ :=
  ⟨rfl, rfl, rfl, rfl, rfl, rfl, rfl, rfl, rfl, rfl, rfl, rfl, rfl, rfl, rfl, rfl, rfl⟩

/-- Window 0, piece 4: 7 operations of @main itself. -/
abbrev ops0_4 : List (HloOp τ sig (Elt F)) :=
  [ StableHlo.nullary main_c_6 (constantI S_ 32 7#32),
    StableHlo.unary main_c_6 main_v27 (broadcastInDim S2x64 ![] bcast_S_S2x64 : (⟨S_, .i32⟩ : BufTy).Contents (Elt F) → (⟨S2x64, .i32⟩ : BufTy).Contents (Elt F)),
    StableHlo.binary main_v21 main_v27 main_v28 (addi : (⟨S2x64, .i32⟩ : BufTy).Contents (Elt F) → (⟨S2x64, .i32⟩ : BufTy).Contents (Elt F) → (⟨S2x64, .i32⟩ : BufTy).Contents (Elt F)),
    StableHlo.nullary main_c_7 (constantI S_ 32 1#32),
    StableHlo.unary main_c_7 main_v29 (broadcastInDim S2x64 ![] bcast_S_S2x64 : (⟨S_, .i32⟩ : BufTy).Contents (Elt F) → (⟨S2x64, .i32⟩ : BufTy).Contents (Elt F)),
    StableHlo.binary main_v28 main_v29 main_v30 (subi : (⟨S2x64, .i32⟩ : BufTy).Contents (Elt F) → (⟨S2x64, .i32⟩ : BufTy).Contents (Elt F) → (⟨S2x64, .i32⟩ : BufTy).Contents (Elt F)),
    StableHlo.nullary main_c_8 (constantI S_ 32 7#32) ]
theorem ops0_4_sub : (ops0_4 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..⟩
theorem ops0_4_fresh : (ops0_4 : List (HloOp τ sig (Elt F))).Forall fun op => op.fresh = ∅ :=
  ⟨rfl, rfl, rfl, rfl, rfl, rfl, rfl⟩

/-- Window 0, piece 5: the 17 operations of the call of @floor_divide (record main_call2). -/
abbrev ops0_5 : List (HloOp τ sig (Elt F)) :=
  [ StableHlo.TRef.unary (.of main_c_8 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S2x64, .i32⟩) (broadcastInDim S2x64 ![] bcast_S_S2x64),
    StableHlo.TRef.binary (.of main_v30 : StableHlo.TRef sig ⟨S2x64, .i32⟩) (.of main_call2_v1 : StableHlo.TRef sig ⟨S2x64, .i32⟩) (.of main_call2_v2 : StableHlo.TRef sig ⟨S2x64, .i32⟩) Host.divsi,
    StableHlo.TRef.unary (.of main_v30 : StableHlo.TRef sig ⟨S2x64, .i32⟩) (.of main_call2_v3 : StableHlo.TRef sig ⟨S2x64, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S2x64, .i32⟩) (broadcastInDim S2x64 ![] bcast_S_S2x64),
    StableHlo.TRef.binary (.of main_call2_v3 : StableHlo.TRef sig ⟨S2x64, .i32⟩) (.of main_call2_v5 : StableHlo.TRef sig ⟨S2x64, .i32⟩) (.of main_call2_v6 : StableHlo.TRef sig ⟨S2x64, .i1⟩) (cmpi .ne),
    StableHlo.TRef.unary (.of main_call2_v0 : StableHlo.TRef sig ⟨S_, .i32⟩) (.of main_call2_v7 : StableHlo.TRef sig ⟨S2x64, .i32⟩) (broadcastInDim S2x64 ![] bcast_S_S2x64),
    StableHlo.TRef.binary (.of main_v30 : StableHlo.TRef sig ⟨S2x64, .i32⟩) (.of main_call2_v7 : StableHlo.TRef sig ⟨S2x64, .i32⟩) (.of main_call2_v8 : StableHlo.TRef sig ⟨S2x64, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S2x64, .i32⟩) (broadcastInDim S2x64 ![] bcast_S_S2x64),
    StableHlo.TRef.binary (.of main_call2_v8 : StableHlo.TRef sig ⟨S2x64, .i32⟩) (.of main_call2_v9 : StableHlo.TRef sig ⟨S2x64, .i32⟩) (.of main_call2_v10 : StableHlo.TRef sig ⟨S2x64, .i1⟩) (cmpi .ne),
    StableHlo.TRef.binary (.of main_call2_v6 : StableHlo.TRef sig ⟨S2x64, .i1⟩) (.of main_call2_v10 : StableHlo.TRef sig ⟨S2x64, .i1⟩) (.of main_call2_v11 : StableHlo.TRef sig ⟨S2x64, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S2x64, .i32⟩) (broadcastInDim S2x64 ![] bcast_S_S2x64),
    StableHlo.TRef.binary (.of main_call2_v2 : StableHlo.TRef sig ⟨S2x64, .i32⟩) (.of main_call2_v12 : StableHlo.TRef sig ⟨S2x64, .i32⟩) (.of main_call2_v13 : StableHlo.TRef sig ⟨S2x64, .i32⟩) subi,
    StableHlo.TRef.ternary (.of main_call2_v11 : StableHlo.TRef sig ⟨S2x64, .i1⟩) (.of main_call2_v13 : StableHlo.TRef sig ⟨S2x64, .i32⟩) (.of main_call2_v2 : StableHlo.TRef sig ⟨S2x64, .i32⟩) (.of main_v31 : StableHlo.TRef sig ⟨S2x64, .i32⟩) select ]
theorem ops0_5_sub : (ops0_5 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem ops0_5_fresh : (ops0_5 : List (HloOp τ sig (Elt F))).Forall fun op => op.fresh = ∅ :=
  ⟨rfl, rfl, rfl, rfl, rfl, rfl, rfl, rfl, rfl, rfl, rfl, rfl, rfl, rfl, rfl, rfl, rfl⟩

/-- Window 0, piece 6: 5 operations of @main itself. -/
abbrev ops0_6 : List (HloOp τ sig (Elt F)) :=
  [ StableHlo.nullary main_c_9 (constantI S_ 32 7#32),
    StableHlo.unary main_c_9 main_v32 (broadcastInDim S2x64 ![] bcast_S_S2x64 : (⟨S_, .i32⟩ : BufTy).Contents (Elt F) → (⟨S2x64, .i32⟩ : BufTy).Contents (Elt F)),
    StableHlo.binary main_v26 main_v32 main_v33 (muli : (⟨S2x64, .i32⟩ : BufTy).Contents (Elt F) → (⟨S2x64, .i32⟩ : BufTy).Contents (Elt F) → (⟨S2x64, .i32⟩ : BufTy).Contents (Elt F)),
    StableHlo.binary main_v33 main_v16 main_v34 (subi : (⟨S2x64, .i32⟩ : BufTy).Contents (Elt F) → (⟨S2x64, .i32⟩ : BufTy).Contents (Elt F) → (⟨S2x64, .i32⟩ : BufTy).Contents (Elt F)),
    StableHlo.nullary main_c_10 (constantI S_ 32 2#32) ]
theorem ops0_6_sub : (ops0_6 : List (HloOp τ sig (Elt F))).Forall fun op => op.bufs ⊆ tcRefs τ sig :=
  ⟨nullary_bufs_sub .., unary_bufs_sub .., binary_bufs_sub .., binary_bufs_sub .., nullary_bufs_sub ..⟩
theorem ops0_6_fresh : (ops0_6 : List (HloOp τ sig (Elt F))).Forall fun op => op.fresh = ∅ :=
  ⟨rfl, rfl, rfl, rfl, rfl⟩

/-- Window 0, piece 7: the 17 operations of the call of @floor_divide (record main_call3). -/
abbrev ops0_7 : List (HloOp τ sig (Elt F)) :=
  [ StableHlo.TRef.unary (.of main_c_10 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S2x64, .i32⟩) (broadcastInDim S2x64 ![] bcast_S_S2x64),
    StableHlo.TRef.binary (.of main_v34 : StableHlo.TRef sig ⟨S2x64, .i32⟩) (.of main_call3_v1 : StableHlo.TRef sig ⟨S2x64, .i32⟩) (.of main_call3_v2 : StableHlo.TRef sig ⟨S2x64, .i32⟩) Host.divsi,
    StableHlo.TRef.unary (.of main_v34 : StableHlo.TRef sig ⟨S2x64, .i32⟩) (.of main_call3_v3 : StableHlo.TRef sig ⟨S2x64, .i32⟩) signi,
    StableHlo.TRef.unary (.of main_call3_v0 : StableHlo.TRef sig ⟨S_, .i32⟩) (.of main_call3_v4 : StableHlo.TRef sig ⟨S_, .i32⟩) signi,
    StableHlo.TRef.unary (.of main_call3_v4 : StableHlo.TRef sig ⟨S_, .i32⟩) (.of main_call3_v5 : StableHlo.TRef sig ⟨S2x64, .i32⟩) (broadcastInDim S2x64 ![] bcast_S_S2x64),
    StableHlo.TRef.binary (.of main_call3_v3 : StableHlo.TRef sig ⟨S2x64, .i32⟩) (.of main_call3_v5 : StableHlo.TRef sig ⟨S2x64, .i32⟩) (.of main_call3_v6 : StableHlo.TRef sig ⟨S2x64, .i1⟩) (cmpi .ne),
    StableHlo.TRef.unary (.of main_call3_v0 : StableHlo.TRef sig ⟨S_, .i32⟩) (.of main_call3_v7 : StableHlo.TRef sig ⟨S2x64, .i32⟩) (broadcastInDim S2x64 ![] bcast_S_S2x64),
    StableHlo.TRef.binary (.of main_v34 : StableHlo.TRef sig ⟨S2x64, .i32⟩) (.of main_call3_v7 : StableHlo.TRef sig ⟨S2x64, .i32⟩) (.of main_call3_v8 : StableHlo.TRef sig ⟨S2x64, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v9 : StableHlo.TRef sig ⟨S2x64, .i32⟩) (broadcastInDim S2x64 ![] bcast_S_S2x64),
    StableHlo.TRef.binary (.of main_call3_v8 : StableHlo.TRef sig ⟨S2x64, .i32⟩) (.of main_call3_v9 : StableHlo.TRef sig ⟨S2x64, .i32⟩) (.of main_call3_v10 : StableHlo.TRef sig ⟨S2x64, .i1⟩) (cmpi .ne),
    StableHlo.TRef.binary (.of main_call3_v6 : StableHlo.TRef sig ⟨S2x64, .i1⟩) (.of main_call3_v10 : StableHlo.TRef sig ⟨S2x64, .i1⟩) (.of main_call3_v11 : StableHlo.TRef sig ⟨S2x64, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v12 : StableHlo.TRef sig ⟨S2x64, .i32⟩) (broadcastInDim S2x64 ![] bcast_S_S2x64),
    StableHlo.TRef.binary (.of main_call3_v2 : StableHlo.TRef sig ⟨S2x64, .i32⟩) (.of main_call3_v12 : StableHlo.TRef sig ⟨S2x64, .i32⟩) (.of main_call3_v13 : StableHlo.TRef sig ⟨S2x64, .i32⟩) subi,
    StableHlo.TRef.ternary (.of main_call3_v11 : StableHlo.TRef sig ⟨S2x64, .i1⟩) (.of main_call3_v13 : StableHlo.TRef sig ⟨S2x64, .i32⟩) (.of main_call3_v2 : StableHlo.TRef sig ⟨S2x64, .i32⟩) (.of main_v35 : StableHlo.TRef sig ⟨S2x64, .i32⟩) select ]
theorem ops0_7_sub : (ops0_7 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem ops0_7_fresh : (ops0_7 : List (HloOp τ sig (Elt F))).Forall fun op => op.fresh = ∅ :=
  ⟨rfl, rfl, rfl, rfl, rfl, rfl, rfl, rfl, rfl, rfl, rfl, rfl, rfl, rfl, rfl, rfl, rfl⟩

/-- Window 0, piece 8: 5 operations of @main itself. -/
abbrev ops0_8 : List (HloOp τ sig (Elt F)) :=
  [ StableHlo.nullary main_c_11 (constantI S_ 32 7#32),
    StableHlo.unary main_c_11 main_v36 (broadcastInDim S2x64 ![] bcast_S_S2x64 : (⟨S_, .i32⟩ : BufTy).Contents (Elt F) → (⟨S2x64, .i32⟩ : BufTy).Contents (Elt F)),
    StableHlo.binary main_v31 main_v36 main_v37 (muli : (⟨S2x64, .i32⟩ : BufTy).Contents (Elt F) → (⟨S2x64, .i32⟩ : BufTy).Contents (Elt F) → (⟨S2x64, .i32⟩ : BufTy).Contents (Elt F)),
    StableHlo.binary main_v37 main_v21 main_v38 (subi : (⟨S2x64, .i32⟩ : BufTy).Contents (Elt F) → (⟨S2x64, .i32⟩ : BufTy).Contents (Elt F) → (⟨S2x64, .i32⟩ : BufTy).Contents (Elt F)),
    StableHlo.nullary main_c_12 (constantI S_ 32 2#32) ]
theorem ops0_8_sub : (ops0_8 : List (HloOp τ sig (Elt F))).Forall fun op => op.bufs ⊆ tcRefs τ sig :=
  ⟨nullary_bufs_sub .., unary_bufs_sub .., binary_bufs_sub .., binary_bufs_sub .., nullary_bufs_sub ..⟩
theorem ops0_8_fresh : (ops0_8 : List (HloOp τ sig (Elt F))).Forall fun op => op.fresh = ∅ :=
  ⟨rfl, rfl, rfl, rfl, rfl⟩

/-- Window 0, piece 9: the 17 operations of the call of @floor_divide (record main_call4). -/
abbrev ops0_9 : List (HloOp τ sig (Elt F)) :=
  [ StableHlo.TRef.unary (.of main_c_12 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S2x64, .i32⟩) (broadcastInDim S2x64 ![] bcast_S_S2x64),
    StableHlo.TRef.binary (.of main_v38 : StableHlo.TRef sig ⟨S2x64, .i32⟩) (.of main_call4_v1 : StableHlo.TRef sig ⟨S2x64, .i32⟩) (.of main_call4_v2 : StableHlo.TRef sig ⟨S2x64, .i32⟩) Host.divsi,
    StableHlo.TRef.unary (.of main_v38 : StableHlo.TRef sig ⟨S2x64, .i32⟩) (.of main_call4_v3 : StableHlo.TRef sig ⟨S2x64, .i32⟩) signi,
    StableHlo.TRef.unary (.of main_call4_v0 : StableHlo.TRef sig ⟨S_, .i32⟩) (.of main_call4_v4 : StableHlo.TRef sig ⟨S_, .i32⟩) signi,
    StableHlo.TRef.unary (.of main_call4_v4 : StableHlo.TRef sig ⟨S_, .i32⟩) (.of main_call4_v5 : StableHlo.TRef sig ⟨S2x64, .i32⟩) (broadcastInDim S2x64 ![] bcast_S_S2x64),
    StableHlo.TRef.binary (.of main_call4_v3 : StableHlo.TRef sig ⟨S2x64, .i32⟩) (.of main_call4_v5 : StableHlo.TRef sig ⟨S2x64, .i32⟩) (.of main_call4_v6 : StableHlo.TRef sig ⟨S2x64, .i1⟩) (cmpi .ne),
    StableHlo.TRef.unary (.of main_call4_v0 : StableHlo.TRef sig ⟨S_, .i32⟩) (.of main_call4_v7 : StableHlo.TRef sig ⟨S2x64, .i32⟩) (broadcastInDim S2x64 ![] bcast_S_S2x64),
    StableHlo.TRef.binary (.of main_v38 : StableHlo.TRef sig ⟨S2x64, .i32⟩) (.of main_call4_v7 : StableHlo.TRef sig ⟨S2x64, .i32⟩) (.of main_call4_v8 : StableHlo.TRef sig ⟨S2x64, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v9 : StableHlo.TRef sig ⟨S2x64, .i32⟩) (broadcastInDim S2x64 ![] bcast_S_S2x64),
    StableHlo.TRef.binary (.of main_call4_v8 : StableHlo.TRef sig ⟨S2x64, .i32⟩) (.of main_call4_v9 : StableHlo.TRef sig ⟨S2x64, .i32⟩) (.of main_call4_v10 : StableHlo.TRef sig ⟨S2x64, .i1⟩) (cmpi .ne),
    StableHlo.TRef.binary (.of main_call4_v6 : StableHlo.TRef sig ⟨S2x64, .i1⟩) (.of main_call4_v10 : StableHlo.TRef sig ⟨S2x64, .i1⟩) (.of main_call4_v11 : StableHlo.TRef sig ⟨S2x64, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v12 : StableHlo.TRef sig ⟨S2x64, .i32⟩) (broadcastInDim S2x64 ![] bcast_S_S2x64),
    StableHlo.TRef.binary (.of main_call4_v2 : StableHlo.TRef sig ⟨S2x64, .i32⟩) (.of main_call4_v12 : StableHlo.TRef sig ⟨S2x64, .i32⟩) (.of main_call4_v13 : StableHlo.TRef sig ⟨S2x64, .i32⟩) subi,
    StableHlo.TRef.ternary (.of main_call4_v11 : StableHlo.TRef sig ⟨S2x64, .i1⟩) (.of main_call4_v13 : StableHlo.TRef sig ⟨S2x64, .i32⟩) (.of main_call4_v2 : StableHlo.TRef sig ⟨S2x64, .i32⟩) (.of main_v39 : StableHlo.TRef sig ⟨S2x64, .i32⟩) select ]
theorem ops0_9_sub : (ops0_9 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem ops0_9_fresh : (ops0_9 : List (HloOp τ sig (Elt F))).Forall fun op => op.fresh = ∅ :=
  ⟨rfl, rfl, rfl, rfl, rfl, rfl, rfl, rfl, rfl, rfl, rfl, rfl, rfl, rfl, rfl, rfl, rfl⟩

/-- Window 0, piece 10: 5 operations of @main itself. -/
abbrev ops0_10 : List (HloOp τ sig (Elt F)) :=
  [ StableHlo.nullary main_v40 (iotaInDim S7 32 0),
    StableHlo.unary main_v7 main_v41 (broadcastInDim S2x64x1 ![0, 1] bcast_S2x64_S2x64x1_0_1 : (⟨S2x64, .i32⟩ : BufTy).Contents (Elt F) → (⟨S2x64x1, .i32⟩ : BufTy).Contents (Elt F)),
    StableHlo.unary main_v31 main_v42 (broadcastInDim S2x64x1 ![0, 1] bcast_S2x64_S2x64x1_0_1 : (⟨S2x64, .i32⟩ : BufTy).Contents (Elt F) → (⟨S2x64x1, .i32⟩ : BufTy).Contents (Elt F)),
    StableHlo.unary main_v40 main_v43 (broadcastInDim S1x1x7 ![2] bcast_S7_S1x1x7_2 : (⟨S7, .i32⟩ : BufTy).Contents (Elt F) → (⟨S1x1x7, .i32⟩ : BufTy).Contents (Elt F)),
    StableHlo.unary main_v43 main_v44 (broadcastInDim S2x64x7 ![0, 1, 2] bcast_S1x1x7_S2x64x7_0_1_2 : (⟨S1x1x7, .i32⟩ : BufTy).Contents (Elt F) → (⟨S2x64x7, .i32⟩ : BufTy).Contents (Elt F)) ]
theorem ops0_10_sub : (ops0_10 : List (HloOp τ sig (Elt F))).Forall fun op => op.bufs ⊆ tcRefs τ sig :=
  ⟨nullary_bufs_sub .., unary_bufs_sub .., unary_bufs_sub .., unary_bufs_sub .., unary_bufs_sub ..⟩
theorem ops0_10_fresh : (ops0_10 : List (HloOp τ sig (Elt F))).Forall fun op => op.fresh = ∅ :=
  ⟨rfl, rfl, rfl, rfl, rfl⟩

/-- Window 0's operations, in order. -/
abbrev ops0 : List (HloOp τ sig (Elt F)) :=
  ops0_0 ++ (ops0_1 ++ (ops0_2 ++ (ops0_3 ++ (ops0_4 ++ (ops0_5 ++ (ops0_6 ++ (ops0_7 ++ (ops0_8 ++ (ops0_9 ++ ops0_10)))))))))

/-- A property of every element of two lists holds of every element of their concatenation. -/
private theorem forall_append {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

theorem ops0_sub : (ops0 : List (HloOp τ sig (Elt F))).Forall fun op => op.bufs ⊆ tcRefs τ sig :=
  forall_append ops0_0_sub (forall_append ops0_1_sub (forall_append ops0_2_sub (forall_append ops0_3_sub (forall_append ops0_4_sub (forall_append ops0_5_sub (forall_append ops0_6_sub (forall_append ops0_7_sub (forall_append ops0_8_sub (forall_append ops0_9_sub (ops0_10_sub))))))))))
theorem ops0_fresh : (ops0 : List (HloOp τ sig (Elt F))).Forall fun op => op.fresh = ∅ :=
  forall_append ops0_0_fresh (forall_append ops0_1_fresh (forall_append ops0_2_fresh (forall_append ops0_3_fresh (forall_append ops0_4_fresh (forall_append ops0_5_fresh (forall_append ops0_6_fresh (forall_append ops0_7_fresh (forall_append ops0_8_fresh (forall_append ops0_9_fresh (ops0_10_fresh))))))))))

/-- The window is its pieces run one after the other: both sides unfold to the same chain of steps. -/
theorem part0_chain (d : Dev nD) : main_part0 (F := F) d = (Pipeline.chainK
  [ seq ops0_0,
    seq ops0_1,
    seq ops0_2,
    seq ops0_3,
    seq ops0_4,
    seq ops0_5,
    seq ops0_6,
    seq ops0_7,
    seq ops0_8,
    seq ops0_9 ]
  (seq ops0_10) : Prog (TpuEff nD τ sig (Elt F) (Pipeline.Sig Λ₀ (Fin 0) fun p => (pcfgs (F := F) p).Adm) .tc) PUnit) := by
  chain_rfl

/-- The window is the straight line of its operations (two lines run in turn are their concatenation run as one, at every cut). -/
theorem part0_eq (d : Dev nD) : main_part0 (F := F) d = seq ops0 := by
  rw [part0_chain]
  simp only [Pipeline.chainK, seq_append]

end Cert.ReferenceIdeal.RefRun

end
-- ==== Proof.RefOps1.lean ====
/-
  The operations of statements 61 … 120 of the reference's @main (its window 1), in order, as lists:
  a statement that is an operation is one element; a statement that calls a module-local function is
  that function's operations over the call's own buffers (a function that itself calls another: the
  inner one's operations in its place). The lists are cut at every call, so that the window unfolds
  against them piece by piece; ops1 is their concatenation and the window is the straight line of it.
-/
import proofs.«121944_j5746666242434_2_alg».proof.Proof.Gen.ReferenceIdeal
import Idealize.ShloMosaic.Lib.StableHlo.Run
import Idealize.ShloMosaic.Lib.Pipeline.Regions

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 1, piece 0: 60 operations of @main itself. -/
abbrev ops1_0 : List (HloOp τ sig (Elt F)) :=
  [ StableHlo.unary main_v42 main_v45 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v44 main_v45 main_v46 (muli : (⟨S2x64x7, .i32⟩ : BufTy).Contents (Elt F) → (⟨S2x64x7, .i32⟩ : BufTy).Contents (Elt F) → (⟨S2x64x7, .i32⟩ : BufTy).Contents (Elt F)),
    StableHlo.unary main_v39 main_v47 (broadcastInDim S2x64x1 ![0, 1] bcast_S2x64_S2x64x1_0_1 : (⟨S2x64, .i32⟩ : BufTy).Contents (Elt F) → (⟨S2x64x1, .i32⟩ : BufTy).Contents (Elt F)),
    StableHlo.unary main_v47 main_v48 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v46 main_v48 main_v49 (subi : (⟨S2x64x7, .i32⟩ : BufTy).Contents (Elt F) → (⟨S2x64x7, .i32⟩ : BufTy).Contents (Elt F) → (⟨S2x64x7, .i32⟩ : BufTy).Contents (Elt F)),
    StableHlo.nullary main_c_13 (constantI S_ 32 0#32),
    StableHlo.unary main_c_13 main_v50 (broadcastInDim S2x64x7 ![] bcast_S_S2x64x7 : (⟨S_, .i32⟩ : BufTy).Contents (Elt F) → (⟨S2x64x7, .i32⟩ : BufTy).Contents (Elt F)),
    StableHlo.binary main_v49 main_v50 main_v51 (maxsi : (⟨S2x64x7, .i32⟩ : BufTy).Contents (Elt F) → (⟨S2x64x7, .i32⟩ : BufTy).Contents (Elt F) → (⟨S2x64x7, .i32⟩ : BufTy).Contents (Elt F)),
    StableHlo.unary main_v41 main_v52 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v52 main_v51 main_v53 (addi : (⟨S2x64x7, .i32⟩ : BufTy).Contents (Elt F) → (⟨S2x64x7, .i32⟩ : BufTy).Contents (Elt F) → (⟨S2x64x7, .i32⟩ : BufTy).Contents (Elt F)),
    StableHlo.unary main_v7 main_v54 (broadcastInDim S2x64x1 ![0, 1] bcast_S2x64_S2x64x1_0_1 : (⟨S2x64, .i32⟩ : BufTy).Contents (Elt F) → (⟨S2x64x1, .i32⟩ : BufTy).Contents (Elt F)),
    StableHlo.nullary main_c_14 (constantI S_ 32 1#32),
    StableHlo.unary main_c_14 main_v55 (broadcastInDim S7 ![] bcast_S_S7 : (⟨S_, .i32⟩ : BufTy).Contents (Elt F) → (⟨S7, .i32⟩ : BufTy).Contents (Elt F)),
    StableHlo.binary main_v40 main_v55 main_v56 (addi : (⟨S7, .i32⟩ : BufTy).Contents (Elt F) → (⟨S7, .i32⟩ : BufTy).Contents (Elt F) → (⟨S7, .i32⟩ : BufTy).Contents (Elt F)),
    StableHlo.unary main_v31 main_v57 (broadcastInDim S2x64x1 ![0, 1] bcast_S2x64_S2x64x1_0_1 : (⟨S2x64, .i32⟩ : BufTy).Contents (Elt F) → (⟨S2x64x1, .i32⟩ : BufTy).Contents (Elt F)),
    StableHlo.unary main_v56 main_v58 (broadcastInDim S1x1x7 ![2] bcast_S7_S1x1x7_2 : (⟨S7, .i32⟩ : BufTy).Contents (Elt F) → (⟨S1x1x7, .i32⟩ : BufTy).Contents (Elt F)),
    StableHlo.unary main_v58 main_v59 (broadcastInDim S2x64x7 ![0, 1, 2] bcast_S1x1x7_S2x64x7_0_1_2 : (⟨S1x1x7, .i32⟩ : BufTy).Contents (Elt F) → (⟨S2x64x7, .i32⟩ : BufTy).Contents (Elt F)),
    StableHlo.unary main_v57 main_v60 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v59 main_v60 main_v61 (muli : (⟨S2x64x7, .i32⟩ : BufTy).Contents (Elt F) → (⟨S2x64x7, .i32⟩ : BufTy).Contents (Elt F) → (⟨S2x64x7, .i32⟩ : BufTy).Contents (Elt F)),
    StableHlo.unary main_v39 main_v62 (broadcastInDim S2x64x1 ![0, 1] bcast_S2x64_S2x64x1_0_1 : (⟨S2x64, .i32⟩ : BufTy).Contents (Elt F) → (⟨S2x64x1, .i32⟩ : BufTy).Contents (Elt F)),
    StableHlo.unary main_v62 main_v63 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v61 main_v63 main_v64 (subi : (⟨S2x64x7, .i32⟩ : BufTy).Contents (Elt F) → (⟨S2x64x7, .i32⟩ : BufTy).Contents (Elt F) → (⟨S2x64x7, .i32⟩ : BufTy).Contents (Elt F)),
    StableHlo.unary main_v21 main_v65 (broadcastInDim S2x64x1 ![0, 1] bcast_S2x64_S2x64x1_0_1 : (⟨S2x64, .i32⟩ : BufTy).Contents (Elt F) → (⟨S2x64x1, .i32⟩ : BufTy).Contents (Elt F)),
    StableHlo.unary main_v65 main_v66 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v64 main_v66 main_v67 (minsi : (⟨S2x64x7, .i32⟩ : BufTy).Contents (Elt F) → (⟨S2x64x7, .i32⟩ : BufTy).Contents (Elt F) → (⟨S2x64x7, .i32⟩ : BufTy).Contents (Elt F)),
    StableHlo.unary main_v54 main_v68 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v68 main_v67 main_v69 (addi : (⟨S2x64x7, .i32⟩ : BufTy).Contents (Elt F) → (⟨S2x64x7, .i32⟩ : BufTy).Contents (Elt F) → (⟨S2x64x7, .i32⟩ : BufTy).Contents (Elt F)),
    StableHlo.nullary main_c_15 (constantI S_ 32 1#32),
    StableHlo.unary main_c_15 main_v70 (broadcastInDim S2x64x7 ![] bcast_S_S2x64x7 : (⟨S_, .i32⟩ : BufTy).Contents (Elt F) → (⟨S2x64x7, .i32⟩ : BufTy).Contents (Elt F)),
    StableHlo.binary main_v69 main_v70 main_v71 (subi : (⟨S2x64x7, .i32⟩ : BufTy).Contents (Elt F) → (⟨S2x64x7, .i32⟩ : BufTy).Contents (Elt F) → (⟨S2x64x7, .i32⟩ : BufTy).Contents (Elt F)),
    StableHlo.unary main_v5 main_v72 (broadcastInDim S2x64x1 ![0, 1] bcast_S2x64_S2x64x1_0_1 : (⟨S2x64, .i32⟩ : BufTy).Contents (Elt F) → (⟨S2x64x1, .i32⟩ : BufTy).Contents (Elt F)),
    StableHlo.unary main_v26 main_v73 (broadcastInDim S2x64x1 ![0, 1] bcast_S2x64_S2x64x1_0_1 : (⟨S2x64, .i32⟩ : BufTy).Contents (Elt F) → (⟨S2x64x1, .i32⟩ : BufTy).Contents (Elt F)),
    StableHlo.unary main_v40 main_v74 (broadcastInDim S1x1x7 ![2] bcast_S7_S1x1x7_2 : (⟨S7, .i32⟩ : BufTy).Contents (Elt F) → (⟨S1x1x7, .i32⟩ : BufTy).Contents (Elt F)),
    StableHlo.unary main_v74 main_v75 (broadcastInDim S2x64x7 ![0, 1, 2] bcast_S1x1x7_S2x64x7_0_1_2 : (⟨S1x1x7, .i32⟩ : BufTy).Contents (Elt F) → (⟨S2x64x7, .i32⟩ : BufTy).Contents (Elt F)),
    StableHlo.unary main_v73 main_v76 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v75 main_v76 main_v77 (muli : (⟨S2x64x7, .i32⟩ : BufTy).Contents (Elt F) → (⟨S2x64x7, .i32⟩ : BufTy).Contents (Elt F) → (⟨S2x64x7, .i32⟩ : BufTy).Contents (Elt F)),
    StableHlo.unary main_v35 main_v78 (broadcastInDim S2x64x1 ![0, 1] bcast_S2x64_S2x64x1_0_1 : (⟨S2x64, .i32⟩ : BufTy).Contents (Elt F) → (⟨S2x64x1, .i32⟩ : BufTy).Contents (Elt F)),
    StableHlo.unary main_v78 main_v79 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v77 main_v79 main_v80 (subi : (⟨S2x64x7, .i32⟩ : BufTy).Contents (Elt F) → (⟨S2x64x7, .i32⟩ : BufTy).Contents (Elt F) → (⟨S2x64x7, .i32⟩ : BufTy).Contents (Elt F)),
    StableHlo.nullary main_c_16 (constantI S_ 32 0#32),
    StableHlo.unary main_c_16 main_v81 (broadcastInDim S2x64x7 ![] bcast_S_S2x64x7 : (⟨S_, .i32⟩ : BufTy).Contents (Elt F) → (⟨S2x64x7, .i32⟩ : BufTy).Contents (Elt F)),
    StableHlo.binary main_v80 main_v81 main_v82 (maxsi : (⟨S2x64x7, .i32⟩ : BufTy).Contents (Elt F) → (⟨S2x64x7, .i32⟩ : BufTy).Contents (Elt F) → (⟨S2x64x7, .i32⟩ : BufTy).Contents (Elt F)),
    StableHlo.unary main_v72 main_v83 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v83 main_v82 main_v84 (addi : (⟨S2x64x7, .i32⟩ : BufTy).Contents (Elt F) → (⟨S2x64x7, .i32⟩ : BufTy).Contents (Elt F) → (⟨S2x64x7, .i32⟩ : BufTy).Contents (Elt F)),
    StableHlo.unary main_v5 main_v85 (broadcastInDim S2x64x1 ![0, 1] bcast_S2x64_S2x64x1_0_1 : (⟨S2x64, .i32⟩ : BufTy).Contents (Elt F) → (⟨S2x64x1, .i32⟩ : BufTy).Contents (Elt F)),
    StableHlo.nullary main_c_17 (constantI S_ 32 1#32),
    StableHlo.unary main_c_17 main_v86 (broadcastInDim S7 ![] bcast_S_S7 : (⟨S_, .i32⟩ : BufTy).Contents (Elt F) → (⟨S7, .i32⟩ : BufTy).Contents (Elt F)),
    StableHlo.binary main_v40 main_v86 main_v87 (addi : (⟨S7, .i32⟩ : BufTy).Contents (Elt F) → (⟨S7, .i32⟩ : BufTy).Contents (Elt F) → (⟨S7, .i32⟩ : BufTy).Contents (Elt F)),
    StableHlo.unary main_v26 main_v88 (broadcastInDim S2x64x1 ![0, 1] bcast_S2x64_S2x64x1_0_1 : (⟨S2x64, .i32⟩ : BufTy).Contents (Elt F) → (⟨S2x64x1, .i32⟩ : BufTy).Contents (Elt F)),
    StableHlo.unary main_v87 main_v89 (broadcastInDim S1x1x7 ![2] bcast_S7_S1x1x7_2 : (⟨S7, .i32⟩ : BufTy).Contents (Elt F) → (⟨S1x1x7, .i32⟩ : BufTy).Contents (Elt F)),
    StableHlo.unary main_v89 main_v90 (broadcastInDim S2x64x7 ![0, 1, 2] bcast_S1x1x7_S2x64x7_0_1_2 : (⟨S1x1x7, .i32⟩ : BufTy).Contents (Elt F) → (⟨S2x64x7, .i32⟩ : BufTy).Contents (Elt F)),
    StableHlo.unary main_v88 main_v91 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v90 main_v91 main_v92 (muli : (⟨S2x64x7, .i32⟩ : BufTy).Contents (Elt F) → (⟨S2x64x7, .i32⟩ : BufTy).Contents (Elt F) → (⟨S2x64x7, .i32⟩ : BufTy).Contents (Elt F)),
    StableHlo.unary main_v35 main_v93 (broadcastInDim S2x64x1 ![0, 1] bcast_S2x64_S2x64x1_0_1 : (⟨S2x64, .i32⟩ : BufTy).Contents (Elt F) → (⟨S2x64x1, .i32⟩ : BufTy).Contents (Elt F)),
    StableHlo.unary main_v93 main_v94 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v92 main_v94 main_v95 (subi : (⟨S2x64x7, .i32⟩ : BufTy).Contents (Elt F) → (⟨S2x64x7, .i32⟩ : BufTy).Contents (Elt F) → (⟨S2x64x7, .i32⟩ : BufTy).Contents (Elt F)),
    StableHlo.unary main_v16 main_v96 (broadcastInDim S2x64x1 ![0, 1] bcast_S2x64_S2x64x1_0_1 : (⟨S2x64, .i32⟩ : BufTy).Contents (Elt F) → (⟨S2x64x1, .i32⟩ : BufTy).Contents (Elt F)),
    StableHlo.unary main_v96 main_v97 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v95 main_v97 main_v98 (minsi : (⟨S2x64x7, .i32⟩ : BufTy).Contents (Elt F) → (⟨S2x64x7, .i32⟩ : BufTy).Contents (Elt F) → (⟨S2x64x7, .i32⟩ : BufTy).Contents (Elt F)),
    StableHlo.unary main_v85 main_v99 (broadcastInDim S2x64x7 ![0, 1, 2] bcast_S2x64x1_S2x64x7_0_1_2 : (⟨S2x64x1, .i32⟩ : BufTy).Contents (Elt F) → (⟨S2x64x7, .i32⟩ : BufTy).Contents (Elt F)) ]
theorem ops1_0_sub : (ops1_0 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., nullary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., nullary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub ..⟩
theorem ops1_0_fresh : (ops1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 1's operations, in order. -/
abbrev ops1 : List (HloOp τ sig (Elt F)) :=
  ops1_0

/-- A property of every element of two lists holds of every element of their concatenation. -/
private theorem forall_append {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

theorem ops1_sub : (ops1 : List (HloOp τ sig (Elt F))).Forall fun op => op.bufs ⊆ tcRefs τ sig :=
  ops1_0_sub
theorem ops1_fresh : (ops1 : List (HloOp τ sig (Elt F))).Forall fun op => op.fresh = ∅ :=
  ops1_0_fresh

/-- The window is its pieces run one after the other: both sides unfold to the same chain of steps. -/
theorem part1_chain (d : Dev nD) : main_part1 (F := F) d = (Pipeline.chainK
  [  ]
  (seq ops1_0) : Prog (TpuEff nD τ sig (Elt F) (Pipeline.Sig Λ₀ (Fin 0) fun p => (pcfgs (F := F) p).Adm) .tc) PUnit) := by
  chain_rfl

/-- The window is the straight line of its operations (two lines run in turn are their concatenation run as one, at every cut). -/
theorem part1_eq (d : Dev nD) : main_part1 (F := F) d = seq ops1 := by
  rw [part1_chain]
  simp only [Pipeline.chainK, seq_append]

end Cert.ReferenceIdeal.RefRun

end
-- ==== Proof.RefOps2.lean ====
/-
  The operations of statements 121 … 180 of the reference's @main (its window 2), in order, as lists:
  a statement that is an operation is one element; a statement that calls a module-local function is
  that function's operations over the call's own buffers (a function that itself calls another: the
  inner one's operations in its place). The lists are cut at every call, so that the window unfolds
  against them piece by piece; ops2 is their concatenation and the window is the straight line of it.
-/
import proofs.«121944_j5746666242434_2_alg».proof.Proof.Gen.ReferenceIdeal
import Idealize.ShloMosaic.Lib.StableHlo.Run
import Idealize.ShloMosaic.Lib.Pipeline.Regions

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 2, piece 0: 15 operations of @main itself. -/
abbrev ops2_0 : List (HloOp τ sig (Elt F)) :=
  [ StableHlo.binary main_v99 main_v98 main_v100 (addi : (⟨S2x64x7, .i32⟩ : BufTy).Contents (Elt F) → (⟨S2x64x7, .i32⟩ : BufTy).Contents (Elt F) → (⟨S2x64x7, .i32⟩ : BufTy).Contents (Elt F)),
    StableHlo.nullary main_c_18 (constantI S_ 32 1#32),
    StableHlo.unary main_c_18 main_v101 (broadcastInDim S2x64x7 ![] bcast_S_S2x64x7 : (⟨S_, .i32⟩ : BufTy).Contents (Elt F) → (⟨S2x64x7, .i32⟩ : BufTy).Contents (Elt F)),
    StableHlo.binary main_v100 main_v101 main_v102 (subi : (⟨S2x64x7, .i32⟩ : BufTy).Contents (Elt F) → (⟨S2x64x7, .i32⟩ : BufTy).Contents (Elt F) → (⟨S2x64x7, .i32⟩ : BufTy).Contents (Elt F)),
    StableHlo.unary main_v53 main_v103 (broadcastInDim S2x64x7x1 ![0, 1, 2] bcast_S2x64x7_S2x64x7x1_0_1_2 : (⟨S2x64x7, .i32⟩ : BufTy).Contents (Elt F) → (⟨S2x64x7x1, .i32⟩ : BufTy).Contents (Elt F)),
    StableHlo.nullary main_v104 (iotaInDim S10 32 0),
    StableHlo.unary main_v104 main_v105 (broadcastInDim S1x1x1x10 ![3] bcast_S10_S1x1x1x10_3 : (⟨S10, .i32⟩ : BufTy).Contents (Elt F) → (⟨S1x1x1x10, .i32⟩ : BufTy).Contents (Elt F)),
    StableHlo.unary main_v103 main_v106 (broadcastInDim S2x64x7x10 ![0, 1, 2, 3] bcast_S2x64x7x1_S2x64x7x10_0_1_2_3 : (⟨S2x64x7x1, .i32⟩ : BufTy).Contents (Elt F) → (⟨S2x64x7x10, .i32⟩ : BufTy).Contents (Elt F)),
    StableHlo.unary main_v105 main_v107 (broadcastInDim S2x64x7x10 ![0, 1, 2, 3] bcast_S1x1x1x10_S2x64x7x10_0_1_2_3 : (⟨S1x1x1x10, .i32⟩ : BufTy).Contents (Elt F) → (⟨S2x64x7x10, .i32⟩ : BufTy).Contents (Elt F)),
    StableHlo.binary main_v106 main_v107 main_v108 (addi : (⟨S2x64x7x10, .i32⟩ : BufTy).Contents (Elt F) → (⟨S2x64x7x10, .i32⟩ : BufTy).Contents (Elt F) → (⟨S2x64x7x10, .i32⟩ : BufTy).Contents (Elt F)),
    StableHlo.unary main_v71 main_v109 (broadcastInDim S2x64x7x1 ![0, 1, 2] bcast_S2x64x7_S2x64x7x1_0_1_2 : (⟨S2x64x7, .i32⟩ : BufTy).Contents (Elt F) → (⟨S2x64x7x1, .i32⟩ : BufTy).Contents (Elt F)),
    StableHlo.unary main_v109 main_v110 (broadcastInDim S2x64x7x10 ![0, 1, 2, 3] bcast_S2x64x7x1_S2x64x7x10_0_1_2_3 : (⟨S2x64x7x1, .i32⟩ : BufTy).Contents (Elt F) → (⟨S2x64x7x10, .i32⟩ : BufTy).Contents (Elt F)),
    StableHlo.binary main_v108 main_v110 main_v111 (cmpi .sle : (⟨S2x64x7x10, .i32⟩ : BufTy).Contents (Elt F) → (⟨S2x64x7x10, .i32⟩ : BufTy).Contents (Elt F) → (⟨S2x64x7x10, .i1⟩ : BufTy).Contents (Elt F)),
    StableHlo.nullary main_c_19 (constantI S_ 32 0#32),
    StableHlo.nullary main_c_20 (constantI S_ 32 63#32) ]
theorem ops2_0_sub : (ops2_0 : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., unary_bufs_sub .., unary_bufs_sub .., binary_bufs_sub .., unary_bufs_sub .., unary_bufs_sub .., binary_bufs_sub .., nullary_bufs_sub .., nullary_bufs_sub ..⟩
theorem ops2_0_fresh : (ops2_0 : List (HloOp τ sig (Elt F))).Forall fun op => op.fresh = ∅ :=
  ⟨rfl, rfl, rfl, rfl, rfl, rfl, rfl, rfl, rfl, rfl, rfl, rfl, rfl, rfl, rfl⟩

/-- Window 2, piece 1: the 6 operations of the call of @clip (record main_call5). -/
abbrev ops2_1 : List (HloOp τ sig (Elt F)) :=
  [ StableHlo.TRef.unary (.of main_c_19 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S2x64x7x10, .i32⟩) (broadcastInDim S2x64x7x10 ![] bcast_S_S2x64x7x10),
    StableHlo.TRef.binary (.of main_call5_v1 : StableHlo.TRef sig ⟨S2x64x7x10, .i32⟩) (.of main_v108 : StableHlo.TRef sig ⟨S2x64x7x10, .i32⟩) (.of main_call5_v2 : StableHlo.TRef sig ⟨S2x64x7x10, .i32⟩) maxsi,
    StableHlo.TRef.unary (.of main_c_20 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S2x64x7x10, .i32⟩) (broadcastInDim S2x64x7x10 ![] bcast_S_S2x64x7x10),
    StableHlo.TRef.binary (.of main_call5_v4 : StableHlo.TRef sig ⟨S2x64x7x10, .i32⟩) (.of main_call5_v2 : StableHlo.TRef sig ⟨S2x64x7x10, .i32⟩) (.of main_v112 : StableHlo.TRef sig ⟨S2x64x7x10, .i32⟩) minsi ]
theorem ops2_1_sub : (ops2_1 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem ops2_1_fresh : (ops2_1 : List (HloOp τ sig (Elt F))).Forall fun op => op.fresh = ∅ :=
  ⟨rfl, rfl, rfl, rfl, rfl, rfl⟩

/-- Window 2, piece 2: 11 operations of @main itself. -/
abbrev ops2_2 : List (HloOp τ sig (Elt F)) :=
  [ StableHlo.unary main_v84 main_v113 (broadcastInDim S2x64x7x1 ![0, 1, 2] bcast_S2x64x7_S2x64x7x1_0_1_2 : (⟨S2x64x7, .i32⟩ : BufTy).Contents (Elt F) → (⟨S2x64x7x1, .i32⟩ : BufTy).Contents (Elt F)),
    StableHlo.nullary main_v114 (iotaInDim S10 32 0),
    StableHlo.unary main_v114 main_v115 (broadcastInDim S1x1x1x10 ![3] bcast_S10_S1x1x1x10_3 : (⟨S10, .i32⟩ : BufTy).Contents (Elt F) → (⟨S1x1x1x10, .i32⟩ : BufTy).Contents (Elt F)),
    StableHlo.unary main_v113 main_v116 (broadcastInDim S2x64x7x10 ![0, 1, 2, 3] bcast_S2x64x7x1_S2x64x7x10_0_1_2_3 : (⟨S2x64x7x1, .i32⟩ : BufTy).Contents (Elt F) → (⟨S2x64x7x10, .i32⟩ : BufTy).Contents (Elt F)),
    StableHlo.unary main_v115 main_v117 (broadcastInDim S2x64x7x10 ![0, 1, 2, 3] bcast_S1x1x1x10_S2x64x7x10_0_1_2_3 : (⟨S1x1x1x10, .i32⟩ : BufTy).Contents (Elt F) → (⟨S2x64x7x10, .i32⟩ : BufTy).Contents (Elt F)),
    StableHlo.binary main_v116 main_v117 main_v118 (addi : (⟨S2x64x7x10, .i32⟩ : BufTy).Contents (Elt F) → (⟨S2x64x7x10, .i32⟩ : BufTy).Contents (Elt F) → (⟨S2x64x7x10, .i32⟩ : BufTy).Contents (Elt F)),
    StableHlo.unary main_v102 main_v119 (broadcastInDim S2x64x7x1 ![0, 1, 2] bcast_S2x64x7_S2x64x7x1_0_1_2 : (⟨S2x64x7, .i32⟩ : BufTy).Contents (Elt F) → (⟨S2x64x7x1, .i32⟩ : BufTy).Contents (Elt F)),
    StableHlo.unary main_v119 main_v120 (broadcastInDim S2x64x7x10 ![0, 1, 2, 3] bcast_S2x64x7x1_S2x64x7x10_0_1_2_3 : (⟨S2x64x7x1, .i32⟩ : BufTy).Contents (Elt F) → (⟨S2x64x7x10, .i32⟩ : BufTy).Contents (Elt F)),
    StableHlo.binary main_v118 main_v120 main_v121 (cmpi .sle : (⟨S2x64x7x10, .i32⟩ : BufTy).Contents (Elt F) → (⟨S2x64x7x10, .i32⟩ : BufTy).Contents (Elt F) → (⟨S2x64x7x10, .i1⟩ : BufTy).Contents (Elt F)),
    StableHlo.nullary main_c_21 (constantI S_ 32 0#32),
    StableHlo.nullary main_c_22 (constantI S_ 32 63#32) ]
theorem ops2_2_sub : (ops2_2 : List (HloOp τ sig (Elt F))).Forall fun op => op.bufs ⊆ tcRefs τ sig :=
  ⟨unary_bufs_sub .., nullary_bufs_sub .., unary_bufs_sub .., unary_bufs_sub .., unary_bufs_sub .., binary_bufs_sub .., unary_bufs_sub .., unary_bufs_sub .., binary_bufs_sub .., nullary_bufs_sub .., nullary_bufs_sub ..⟩
theorem ops2_2_fresh : (ops2_2 : List (HloOp τ sig (Elt F))).Forall fun op => op.fresh = ∅ :=
  ⟨rfl, rfl, rfl, rfl, rfl, rfl, rfl, rfl, rfl, rfl, rfl⟩

/-- Window 2, piece 3: the 6 operations of the call of @clip (record main_call6). -/
abbrev ops2_3 : List (HloOp τ sig (Elt F)) :=
  [ StableHlo.TRef.unary (.of main_c_21 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S2x64x7x10, .i32⟩) (broadcastInDim S2x64x7x10 ![] bcast_S_S2x64x7x10),
    StableHlo.TRef.binary (.of main_call6_v1 : StableHlo.TRef sig ⟨S2x64x7x10, .i32⟩) (.of main_v118 : StableHlo.TRef sig ⟨S2x64x7x10, .i32⟩) (.of main_call6_v2 : StableHlo.TRef sig ⟨S2x64x7x10, .i32⟩) maxsi,
    StableHlo.TRef.unary (.of main_c_22 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S2x64x7x10, .i32⟩) (broadcastInDim S2x64x7x10 ![] bcast_S_S2x64x7x10),
    StableHlo.TRef.binary (.of main_call6_v4 : StableHlo.TRef sig ⟨S2x64x7x10, .i32⟩) (.of main_call6_v2 : StableHlo.TRef sig ⟨S2x64x7x10, .i32⟩) (.of main_v122 : StableHlo.TRef sig ⟨S2x64x7x10, .i32⟩) minsi ]
theorem ops2_3_sub : (ops2_3 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem ops2_3_fresh : (ops2_3 : List (HloOp τ sig (Elt F))).Forall fun op => op.fresh = ∅ :=
  ⟨rfl, rfl, rfl, rfl, rfl, rfl⟩

/-- Window 2, piece 4: 32 operations of @main itself. -/
abbrev ops2_4 : List (HloOp τ sig (Elt F)) :=
  [ StableHlo.unary main_v31 main_v123 (broadcastInDim S2x64x1 ![0, 1] bcast_S2x64_S2x64x1_0_1 : (⟨S2x64, .i32⟩ : BufTy).Contents (Elt F) → (⟨S2x64x1, .i32⟩ : BufTy).Contents (Elt F)),
    StableHlo.unary main_v40 main_v124 (broadcastInDim S1x1x7 ![2] bcast_S7_S1x1x7_2 : (⟨S7, .i32⟩ : BufTy).Contents (Elt F) → (⟨S1x1x7, .i32⟩ : BufTy).Contents (Elt F)),
    StableHlo.unary main_v124 main_v125 (broadcastInDim S2x64x7 ![0, 1, 2] bcast_S1x1x7_S2x64x7_0_1_2 : (⟨S1x1x7, .i32⟩ : BufTy).Contents (Elt F) → (⟨S2x64x7, .i32⟩ : BufTy).Contents (Elt F)),
    StableHlo.unary main_v123 main_v126 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v125 main_v126 main_v127 (muli : (⟨S2x64x7, .i32⟩ : BufTy).Contents (Elt F) → (⟨S2x64x7, .i32⟩ : BufTy).Contents (Elt F) → (⟨S2x64x7, .i32⟩ : BufTy).Contents (Elt F)),
    StableHlo.unary main_v39 main_v128 (broadcastInDim S2x64x1 ![0, 1] bcast_S2x64_S2x64x1_0_1 : (⟨S2x64, .i32⟩ : BufTy).Contents (Elt F) → (⟨S2x64x1, .i32⟩ : BufTy).Contents (Elt F)),
    StableHlo.unary main_v128 main_v129 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v127 main_v129 main_v130 (cmpi .slt : (⟨S2x64x7, .i32⟩ : BufTy).Contents (Elt F) → (⟨S2x64x7, .i32⟩ : BufTy).Contents (Elt F) → (⟨S2x64x7, .i1⟩ : BufTy).Contents (Elt F)),
    StableHlo.nullary main_c_23 (constantI S_ 32 1#32),
    StableHlo.unary main_c_23 main_v131 (broadcastInDim S7 ![] bcast_S_S7 : (⟨S_, .i32⟩ : BufTy).Contents (Elt F) → (⟨S7, .i32⟩ : BufTy).Contents (Elt F)),
    StableHlo.binary main_v40 main_v131 main_v132 (addi : (⟨S7, .i32⟩ : BufTy).Contents (Elt F) → (⟨S7, .i32⟩ : BufTy).Contents (Elt F) → (⟨S7, .i32⟩ : BufTy).Contents (Elt F)),
    StableHlo.unary main_v31 main_v133 (broadcastInDim S2x64x1 ![0, 1] bcast_S2x64_S2x64x1_0_1 : (⟨S2x64, .i32⟩ : BufTy).Contents (Elt F) → (⟨S2x64x1, .i32⟩ : BufTy).Contents (Elt F)),
    StableHlo.unary main_v132 main_v134 (broadcastInDim S1x1x7 ![2] bcast_S7_S1x1x7_2 : (⟨S7, .i32⟩ : BufTy).Contents (Elt F) → (⟨S1x1x7, .i32⟩ : BufTy).Contents (Elt F)),
    StableHlo.unary main_v134 main_v135 (broadcastInDim S2x64x7 ![0, 1, 2] bcast_S1x1x7_S2x64x7_0_1_2 : (⟨S1x1x7, .i32⟩ : BufTy).Contents (Elt F) → (⟨S2x64x7, .i32⟩ : BufTy).Contents (Elt F)),
    StableHlo.unary main_v133 main_v136 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v135 main_v136 main_v137 (muli : (⟨S2x64x7, .i32⟩ : BufTy).Contents (Elt F) → (⟨S2x64x7, .i32⟩ : BufTy).Contents (Elt F) → (⟨S2x64x7, .i32⟩ : BufTy).Contents (Elt F)),
    StableHlo.unary main_v39 main_v138 (broadcastInDim S2x64x1 ![0, 1] bcast_S2x64_S2x64x1_0_1 : (⟨S2x64, .i32⟩ : BufTy).Contents (Elt F) → (⟨S2x64x1, .i32⟩ : BufTy).Contents (Elt F)),
    StableHlo.unary main_v21 main_v139 (broadcastInDim S2x64x1 ![0, 1] bcast_S2x64_S2x64x1_0_1 : (⟨S2x64, .i32⟩ : BufTy).Contents (Elt F) → (⟨S2x64x1, .i32⟩ : BufTy).Contents (Elt F)),
    StableHlo.binary main_v138 main_v139 main_v140 (addi : (⟨S2x64x1, .i32⟩ : BufTy).Contents (Elt F) → (⟨S2x64x1, .i32⟩ : BufTy).Contents (Elt F) → (⟨S2x64x1, .i32⟩ : BufTy).Contents (Elt F)),
    StableHlo.unary main_v140 main_v141 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v137 main_v141 main_v142 (cmpi .sgt : (⟨S2x64x7, .i32⟩ : BufTy).Contents (Elt F) → (⟨S2x64x7, .i32⟩ : BufTy).Contents (Elt F) → (⟨S2x64x7, .i1⟩ : BufTy).Contents (Elt F)),
    StableHlo.binary main_v130 main_v142 main_v143 (ori : (⟨S2x64x7, .i1⟩ : BufTy).Contents (Elt F) → (⟨S2x64x7, .i1⟩ : BufTy).Contents (Elt F) → (⟨S2x64x7, .i1⟩ : BufTy).Contents (Elt F)),
    StableHlo.unary main_v26 main_v144 (broadcastInDim S2x64x1 ![0, 1] bcast_S2x64_S2x64x1_0_1 : (⟨S2x64, .i32⟩ : BufTy).Contents (Elt F) → (⟨S2x64x1, .i32⟩ : BufTy).Contents (Elt F)),
    StableHlo.unary main_v40 main_v145 (broadcastInDim S1x1x7 ![2] bcast_S7_S1x1x7_2 : (⟨S7, .i32⟩ : BufTy).Contents (Elt F) → (⟨S1x1x7, .i32⟩ : BufTy).Contents (Elt F)),
    StableHlo.unary main_v145 main_v146 (broadcastInDim S2x64x7 ![0, 1, 2] bcast_S1x1x7_S2x64x7_0_1_2 : (⟨S1x1x7, .i32⟩ : BufTy).Contents (Elt F) → (⟨S2x64x7, .i32⟩ : BufTy).Contents (Elt F)),
    StableHlo.unary main_v144 main_v147 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v146 main_v147 main_v148 (muli : (⟨S2x64x7, .i32⟩ : BufTy).Contents (Elt F) → (⟨S2x64x7, .i32⟩ : BufTy).Contents (Elt F) → (⟨S2x64x7, .i32⟩ : BufTy).Contents (Elt F)),
    StableHlo.unary main_v35 main_v149 (broadcastInDim S2x64x1 ![0, 1] bcast_S2x64_S2x64x1_0_1 : (⟨S2x64, .i32⟩ : BufTy).Contents (Elt F) → (⟨S2x64x1, .i32⟩ : BufTy).Contents (Elt F)),
    StableHlo.unary main_v149 main_v150 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v148 main_v150 main_v151 (cmpi .slt : (⟨S2x64x7, .i32⟩ : BufTy).Contents (Elt F) → (⟨S2x64x7, .i32⟩ : BufTy).Contents (Elt F) → (⟨S2x64x7, .i1⟩ : BufTy).Contents (Elt F)),
    StableHlo.nullary main_c_24 (constantI S_ 32 1#32),
    StableHlo.unary main_c_24 main_v152 (broadcastInDim S7 ![] bcast_S_S7 : (⟨S_, .i32⟩ : BufTy).Contents (Elt F) → (⟨S7, .i32⟩ : BufTy).Contents (Elt F)) ]
theorem ops2_4_sub : (ops2_4 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., binary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub ..⟩
theorem ops2_4_fresh : (ops2_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 2's operations, in order. -/
abbrev ops2 : List (HloOp τ sig (Elt F)) :=
  ops2_0 ++ (ops2_1 ++ (ops2_2 ++ (ops2_3 ++ ops2_4)))

/-- A property of every element of two lists holds of every element of their concatenation. -/
private theorem forall_append {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

theorem ops2_sub : (ops2 : List (HloOp τ sig (Elt F))).Forall fun op => op.bufs ⊆ tcRefs τ sig :=
  forall_append ops2_0_sub (forall_append ops2_1_sub (forall_append ops2_2_sub (forall_append ops2_3_sub (ops2_4_sub))))
theorem ops2_fresh : (ops2 : List (HloOp τ sig (Elt F))).Forall fun op => op.fresh = ∅ :=
  forall_append ops2_0_fresh (forall_append ops2_1_fresh (forall_append ops2_2_fresh (forall_append ops2_3_fresh (ops2_4_fresh))))

/-- The window is its pieces run one after the other: both sides unfold to the same chain of steps. -/
theorem part2_chain (d : Dev nD) : main_part2 (F := F) d = (Pipeline.chainK
  [ seq ops2_0,
    seq ops2_1,
    seq ops2_2,
    seq ops2_3 ]
  (seq ops2_4) : Prog (TpuEff nD τ sig (Elt F) (Pipeline.Sig Λ₀ (Fin 0) fun p => (pcfgs (F := F) p).Adm) .tc) PUnit) := by
  chain_rfl

/-- The window is the straight line of its operations (two lines run in turn are their concatenation run as one, at every cut). -/
theorem part2_eq (d : Dev nD) : main_part2 (F := F) d = seq ops2 := by
  rw [part2_chain]
  simp only [Pipeline.chainK, seq_append]

end Cert.ReferenceIdeal.RefRun

end
-- ==== Proof.RefOps3.lean ====
/-
  The operations of statements 181 … 231 of the reference's @main (its window 3), in order, as lists:
  a statement that is an operation is one element; a statement that calls a module-local function is
  that function's operations over the call's own buffers (a function that itself calls another: the
  inner one's operations in its place). The lists are cut at every call, so that the window unfolds
  against them piece by piece; ops3 is their concatenation and the window is the straight line of it.
-/
import proofs.«121944_j5746666242434_2_alg».proof.Proof.Gen.ReferenceIdeal
import Idealize.ShloMosaic.Lib.StableHlo.Run
import Idealize.ShloMosaic.Lib.Pipeline.Regions

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 3, piece 0: 28 operations of @main itself. -/
abbrev ops3_0 : List (HloOp τ sig (Elt F)) :=
  [ StableHlo.binary main_v40 main_v152 main_v153 (addi : (⟨S7, .i32⟩ : BufTy).Contents (Elt F) → (⟨S7, .i32⟩ : BufTy).Contents (Elt F) → (⟨S7, .i32⟩ : BufTy).Contents (Elt F)),
    StableHlo.unary main_v26 main_v154 (broadcastInDim S2x64x1 ![0, 1] bcast_S2x64_S2x64x1_0_1 : (⟨S2x64, .i32⟩ : BufTy).Contents (Elt F) → (⟨S2x64x1, .i32⟩ : BufTy).Contents (Elt F)),
    StableHlo.unary main_v153 main_v155 (broadcastInDim S1x1x7 ![2] bcast_S7_S1x1x7_2 : (⟨S7, .i32⟩ : BufTy).Contents (Elt F) → (⟨S1x1x7, .i32⟩ : BufTy).Contents (Elt F)),
    StableHlo.unary main_v155 main_v156 (broadcastInDim S2x64x7 ![0, 1, 2] bcast_S1x1x7_S2x64x7_0_1_2 : (⟨S1x1x7, .i32⟩ : BufTy).Contents (Elt F) → (⟨S2x64x7, .i32⟩ : BufTy).Contents (Elt F)),
    StableHlo.unary main_v154 main_v157 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v156 main_v157 main_v158 (muli : (⟨S2x64x7, .i32⟩ : BufTy).Contents (Elt F) → (⟨S2x64x7, .i32⟩ : BufTy).Contents (Elt F) → (⟨S2x64x7, .i32⟩ : BufTy).Contents (Elt F)),
    StableHlo.unary main_v35 main_v159 (broadcastInDim S2x64x1 ![0, 1] bcast_S2x64_S2x64x1_0_1 : (⟨S2x64, .i32⟩ : BufTy).Contents (Elt F) → (⟨S2x64x1, .i32⟩ : BufTy).Contents (Elt F)),
    StableHlo.unary main_v16 main_v160 (broadcastInDim S2x64x1 ![0, 1] bcast_S2x64_S2x64x1_0_1 : (⟨S2x64, .i32⟩ : BufTy).Contents (Elt F) → (⟨S2x64x1, .i32⟩ : BufTy).Contents (Elt F)),
    StableHlo.binary main_v159 main_v160 main_v161 (addi : (⟨S2x64x1, .i32⟩ : BufTy).Contents (Elt F) → (⟨S2x64x1, .i32⟩ : BufTy).Contents (Elt F) → (⟨S2x64x1, .i32⟩ : BufTy).Contents (Elt F)),
    StableHlo.unary main_v161 main_v162 (broadcastInDim S2x64x7 ![0, 1, 2] bcast_S2x64x1_S2x64x7_0_1_2 : (⟨S2x64x1, .i32⟩ : BufTy).Contents (Elt F) → (⟨S2x64x7, .i32⟩ : BufTy).Contents (Elt F)),
    StableHlo.binary main_v158 main_v162 main_v163 (cmpi .sgt : (⟨S2x64x7, .i32⟩ : BufTy).Contents (Elt F) → (⟨S2x64x7, .i32⟩ : BufTy).Contents (Elt F) → (⟨S2x64x7, .i1⟩ : BufTy).Contents (Elt F)),
    StableHlo.binary main_v151 main_v163 main_v164 (ori : (⟨S2x64x7, .i1⟩ : BufTy).Contents (Elt F) → (⟨S2x64x7, .i1⟩ : BufTy).Contents (Elt F) → (⟨S2x64x7, .i1⟩ : BufTy).Contents (Elt F)),
    StableHlo.unary main_v143 main_v165 (broadcastInDim S2x64x7x1 ![0, 1, 2] bcast_S2x64x7_S2x64x7x1_0_1_2 : (⟨S2x64x7, .i1⟩ : BufTy).Contents (Elt F) → (⟨S2x64x7x1, .i1⟩ : BufTy).Contents (Elt F)),
    StableHlo.unary main_v164 main_v166 (broadcastInDim S2x64x1x7 ![0, 1, 3] bcast_S2x64x7_S2x64x1x7_0_1_3 : (⟨S2x64x7, .i1⟩ : BufTy).Contents (Elt F) → (⟨S2x64x1x7, .i1⟩ : BufTy).Contents (Elt F)),
    StableHlo.unary main_v165 main_v167 (broadcastInDim S2x64x7x7 ![0, 1, 2, 3] bcast_S2x64x7x1_S2x64x7x7_0_1_2_3 : (⟨S2x64x7x1, .i1⟩ : BufTy).Contents (Elt F) → (⟨S2x64x7x7, .i1⟩ : BufTy).Contents (Elt F)),
    StableHlo.unary main_v166 main_v168 (broadcastInDim S2x64x7x7 ![0, 1, 2, 3] bcast_S2x64x1x7_S2x64x7x7_0_1_2_3 : (⟨S2x64x1x7, .i1⟩ : BufTy).Contents (Elt F) → (⟨S2x64x7x7, .i1⟩ : BufTy).Contents (Elt F)),
    StableHlo.binary main_v167 main_v168 main_v169 (ori : (⟨S2x64x7x7, .i1⟩ : BufTy).Contents (Elt F) → (⟨S2x64x7x7, .i1⟩ : BufTy).Contents (Elt F) → (⟨S2x64x7x7, .i1⟩ : BufTy).Contents (Elt F)),
    StableHlo.nullary main_c_25 (constantI S_ 32 0#32),
    StableHlo.unary main_c_25 main_v170 (broadcastInDim S2x64x7x10 ![] bcast_S_S2x64x7x10 : (⟨S_, .i32⟩ : BufTy).Contents (Elt F) → (⟨S2x64x7x10, .i32⟩ : BufTy).Contents (Elt F)),
    StableHlo.binary main_v112 main_v170 main_v171 (cmpi .slt : (⟨S2x64x7x10, .i32⟩ : BufTy).Contents (Elt F) → (⟨S2x64x7x10, .i32⟩ : BufTy).Contents (Elt F) → (⟨S2x64x7x10, .i1⟩ : BufTy).Contents (Elt F)),
    StableHlo.nullary main_c_26 (constantI S_ 32 64#32),
    StableHlo.unary main_c_26 main_v172 (broadcastInDim S2x64x7x10 ![] bcast_S_S2x64x7x10 : (⟨S_, .i32⟩ : BufTy).Contents (Elt F) → (⟨S2x64x7x10, .i32⟩ : BufTy).Contents (Elt F)),
    StableHlo.binary main_v112 main_v172 main_v173 (addi : (⟨S2x64x7x10, .i32⟩ : BufTy).Contents (Elt F) → (⟨S2x64x7x10, .i32⟩ : BufTy).Contents (Elt F) → (⟨S2x64x7x10, .i32⟩ : BufTy).Contents (Elt F)),
    StableHlo.ternary main_v171 main_v173 main_v112 main_v174 (select : (⟨S2x64x7x10, .i1⟩ : BufTy).Contents (Elt F) → (⟨S2x64x7x10, .i32⟩ : BufTy).Contents (Elt F) → (⟨S2x64x7x10, .i32⟩ : BufTy).Contents (Elt F) → (⟨S2x64x7x10, .i32⟩ : BufTy).Contents (Elt F)),
    StableHlo.unary main_v174 main_v175 (broadcastInDim S2x64x7x10x1 ![0, 1, 2, 3] bcast_S2x64x7x10_S2x64x7x10x1_0_1_2_3 : (⟨S2x64x7x10, .i32⟩ : BufTy).Contents (Elt F) → (⟨S2x64x7x10x1, .i32⟩ : BufTy).Contents (Elt F)),
    StableHlo.binary main_arg0 main_v175 main_v176 ((fun x i => Host.gather gather_S2x256x64x64_S2x64x7x10x1_S2x64x256x7x10x64_25_2_0_0_2_4_1256164 x i) : (⟨S2x256x64x64, .f32⟩ : BufTy).Contents (Elt F) → (⟨S2x64x7x10x1, .i32⟩ : BufTy).Contents (Elt F) → (⟨S2x64x256x7x10x64, .f32⟩ : BufTy).Contents (Elt F)),
    StableHlo.unary main_v111 main_v177 (broadcastInDim S2x64x1x7x10x1 ![0, 1, 3, 4] bcast_S2x64x7x10_S2x64x1x7x10x1_0_1_3_4 : (⟨S2x64x7x10, .i1⟩ : BufTy).Contents (Elt F) → (⟨S2x64x1x7x10x1, .i1⟩ : BufTy).Contents (Elt F)),
    StableHlo.nullary main_cst_27 (constant S_ .f32 0xFF61B1E6#32) ]
theorem ops3_0_sub : (ops3_0 : List (HloOp τ sig (Elt F))).Forall fun op => op.bufs ⊆ tcRefs τ sig :=
  ⟨binary_bufs_sub .., unary_bufs_sub .., unary_bufs_sub .., unary_bufs_sub .., unary_bufs_sub .., binary_bufs_sub .., unary_bufs_sub .., unary_bufs_sub .., binary_bufs_sub .., unary_bufs_sub .., binary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub ..⟩
theorem ops3_0_fresh : (ops3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- Window 3, piece 1: the 6 operations of the call of @where_0 (record main_call7). -/
abbrev ops3_1 : List (HloOp τ sig (Elt F)) :=
  [ StableHlo.TRef.unary (.of main_cst_27 : StableHlo.TRef sig ⟨S_, .f32⟩) (.of main_call7_v0 : StableHlo.TRef sig ⟨S_, .f32⟩) id,
    StableHlo.TRef.unary (.of main_v177 : StableHlo.TRef sig ⟨S2x64x1x7x10x1, .i1⟩) (.of main_call7_v1 : StableHlo.TRef sig ⟨S2x64x256x7x10x64, .i1⟩) (broadcastInDim S2x64x256x7x10x64 ![0, 1, 2, 3, 4, 5] bcast_S2x64x1x7x10x1_S2x64x256x7x10x64_0_1_2_3_4_5),
    StableHlo.TRef.unary (.of main_call7_v0 : StableHlo.TRef sig ⟨S_, .f32⟩) (.of main_call7_v2 : StableHlo.TRef sig ⟨S256x7x10x64, .f32⟩) (broadcastInDim S256x7x10x64 ![] bcast_S_S256x7x10x64),
    StableHlo.TRef.unary (.of main_call7_v2 : StableHlo.TRef sig ⟨S256x7x10x64, .f32⟩) (.of main_call7_v3 : StableHlo.TRef sig ⟨S64x256x7x10x64, .f32⟩) (broadcastInDim S64x256x7x10x64 ![1, 2, 3, 4] bcast_S256x7x10x64_S64x256x7x10x64_1_2_3_4),
    StableHlo.TRef.unary (.of main_call7_v3 : StableHlo.TRef sig ⟨S64x256x7x10x64, .f32⟩) (.of main_call7_v4 : StableHlo.TRef sig ⟨S2x64x256x7x10x64, .f32⟩) (broadcastInDim S2x64x256x7x10x64 ![1, 2, 3, 4, 5] bcast_S64x256x7x10x64_S2x64x256x7x10x64_1_2_3_4_5),
    StableHlo.TRef.ternary (.of main_call7_v1 : StableHlo.TRef sig ⟨S2x64x256x7x10x64, .i1⟩) (.of main_v176 : StableHlo.TRef sig ⟨S2x64x256x7x10x64, .f32⟩) (.of main_call7_v4 : StableHlo.TRef sig ⟨S2x64x256x7x10x64, .f32⟩) (.of main_v178 : StableHlo.TRef sig ⟨S2x64x256x7x10x64, .f32⟩) select ]
theorem ops3_1_sub : (ops3_1 : List (HloOp τ sig (Elt F))).Forall fun op => op.bufs ⊆ tcRefs τ sig :=
  ⟨unary_bufs_sub .., unary_bufs_sub .., unary_bufs_sub .., unary_bufs_sub .., unary_bufs_sub .., ternary_bufs_sub ..⟩
theorem ops3_1_fresh : (ops3_1 : List (HloOp τ sig (Elt F))).Forall fun op => op.fresh = ∅ :=
  ⟨rfl, rfl, rfl, rfl, rfl, rfl⟩

/-- Window 3, piece 2: 13 operations of @main itself. -/
abbrev ops3_2 : List (HloOp τ sig (Elt F)) :=
  [ StableHlo.nullary main_cst_28 (constant S_ .f32 0xFF800000#32),
    StableHlo.binary main_v178 main_cst_28 main_v179 ((fun x v => Host.reduce FloatOps.maximumf x v reducesTo_S2x64x256x7x10x64_S2x64x256x7x64_d4 h_S_) : (⟨S2x64x256x7x10x64, .f32⟩ : BufTy).Contents (Elt F) → (⟨S_, .f32⟩ : BufTy).Contents (Elt F) → (⟨S2x64x256x7x64, .f32⟩ : BufTy).Contents (Elt F)),
    StableHlo.nullary main_c_29 (constantI S_ 32 0#32),
    StableHlo.unary main_c_29 main_v180 (broadcastInDim S2x64x7x10 ![] bcast_S_S2x64x7x10 : (⟨S_, .i32⟩ : BufTy).Contents (Elt F) → (⟨S2x64x7x10, .i32⟩ : BufTy).Contents (Elt F)),
    StableHlo.binary main_v122 main_v180 main_v181 (cmpi .slt : (⟨S2x64x7x10, .i32⟩ : BufTy).Contents (Elt F) → (⟨S2x64x7x10, .i32⟩ : BufTy).Contents (Elt F) → (⟨S2x64x7x10, .i1⟩ : BufTy).Contents (Elt F)),
    StableHlo.nullary main_c_30 (constantI S_ 32 64#32),
    StableHlo.unary main_c_30 main_v182 (broadcastInDim S2x64x7x10 ![] bcast_S_S2x64x7x10 : (⟨S_, .i32⟩ : BufTy).Contents (Elt F) → (⟨S2x64x7x10, .i32⟩ : BufTy).Contents (Elt F)),
    StableHlo.binary main_v122 main_v182 main_v183 (addi : (⟨S2x64x7x10, .i32⟩ : BufTy).Contents (Elt F) → (⟨S2x64x7x10, .i32⟩ : BufTy).Contents (Elt F) → (⟨S2x64x7x10, .i32⟩ : BufTy).Contents (Elt F)),
    StableHlo.ternary main_v181 main_v183 main_v122 main_v184 (select : (⟨S2x64x7x10, .i1⟩ : BufTy).Contents (Elt F) → (⟨S2x64x7x10, .i32⟩ : BufTy).Contents (Elt F) → (⟨S2x64x7x10, .i32⟩ : BufTy).Contents (Elt F) → (⟨S2x64x7x10, .i32⟩ : BufTy).Contents (Elt F)),
    StableHlo.unary main_v184 main_v185 (broadcastInDim S2x64x7x10x1 ![0, 1, 2, 3] bcast_S2x64x7x10_S2x64x7x10x1_0_1_2_3 : (⟨S2x64x7x10, .i32⟩ : BufTy).Contents (Elt F) → (⟨S2x64x7x10x1, .i32⟩ : BufTy).Contents (Elt F)),
    StableHlo.binary main_v179 main_v185 main_v186 ((fun x i => Host.gather gather_S2x64x256x7x64_S2x64x7x10x1_S2x64x256x7x7x10_23_4_01_01_4_4_1125671 x i) : (⟨S2x64x256x7x64, .f32⟩ : BufTy).Contents (Elt F) → (⟨S2x64x7x10x1, .i32⟩ : BufTy).Contents (Elt F) → (⟨S2x64x256x7x7x10, .f32⟩ : BufTy).Contents (Elt F)),
    StableHlo.unary main_v121 main_v187 (broadcastInDim S2x64x1x1x7x10 ![0, 1, 4, 5] bcast_S2x64x7x10_S2x64x1x1x7x10_0_1_4_5 : (⟨S2x64x7x10, .i1⟩ : BufTy).Contents (Elt F) → (⟨S2x64x1x1x7x10, .i1⟩ : BufTy).Contents (Elt F)),
    StableHlo.nullary main_cst_31 (constant S_ .f32 0xFF61B1E6#32) ]
theorem ops3_2_sub : (ops3_2 : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub ..⟩
theorem ops3_2_fresh : (ops3_2 : List (HloOp τ sig (Elt F))).Forall fun op => op.fresh = ∅ :=
  ⟨rfl, rfl, rfl, rfl, rfl, rfl, rfl, rfl, rfl, rfl, rfl, rfl, rfl⟩

/-- Window 3, piece 3: the 6 operations of the call of @where_1 (record main_call8). -/
abbrev ops3_3 : List (HloOp τ sig (Elt F)) :=
  [ StableHlo.TRef.unary (.of main_cst_31 : StableHlo.TRef sig ⟨S_, .f32⟩) (.of main_call8_v0 : StableHlo.TRef sig ⟨S_, .f32⟩) id,
    StableHlo.TRef.unary (.of main_v187 : StableHlo.TRef sig ⟨S2x64x1x1x7x10, .i1⟩) (.of main_call8_v1 : StableHlo.TRef sig ⟨S2x64x256x7x7x10, .i1⟩) (broadcastInDim S2x64x256x7x7x10 ![0, 1, 2, 3, 4, 5] bcast_S2x64x1x1x7x10_S2x64x256x7x7x10_0_1_2_3_4_5),
    StableHlo.TRef.unary (.of main_call8_v0 : StableHlo.TRef sig ⟨S_, .f32⟩) (.of main_call8_v2 : StableHlo.TRef sig ⟨S256x7x7x10, .f32⟩) (broadcastInDim S256x7x7x10 ![] bcast_S_S256x7x7x10),
    StableHlo.TRef.unary (.of main_call8_v2 : StableHlo.TRef sig ⟨S256x7x7x10, .f32⟩) (.of main_call8_v3 : StableHlo.TRef sig ⟨S64x256x7x7x10, .f32⟩) (broadcastInDim S64x256x7x7x10 ![1, 2, 3, 4] bcast_S256x7x7x10_S64x256x7x7x10_1_2_3_4),
    StableHlo.TRef.unary (.of main_call8_v3 : StableHlo.TRef sig ⟨S64x256x7x7x10, .f32⟩) (.of main_call8_v4 : StableHlo.TRef sig ⟨S2x64x256x7x7x10, .f32⟩) (broadcastInDim S2x64x256x7x7x10 ![1, 2, 3, 4, 5] bcast_S64x256x7x7x10_S2x64x256x7x7x10_1_2_3_4_5),
    StableHlo.TRef.ternary (.of main_call8_v1 : StableHlo.TRef sig ⟨S2x64x256x7x7x10, .i1⟩) (.of main_v186 : StableHlo.TRef sig ⟨S2x64x256x7x7x10, .f32⟩) (.of main_call8_v4 : StableHlo.TRef sig ⟨S2x64x256x7x7x10, .f32⟩) (.of main_v188 : StableHlo.TRef sig ⟨S2x64x256x7x7x10, .f32⟩) select ]
theorem ops3_3_sub : (ops3_3 : List (HloOp τ sig (Elt F))).Forall fun op => op.bufs ⊆ tcRefs τ sig :=
  ⟨unary_bufs_sub .., unary_bufs_sub .., unary_bufs_sub .., unary_bufs_sub .., unary_bufs_sub .., ternary_bufs_sub ..⟩
theorem ops3_3_fresh : (ops3_3 : List (HloOp τ sig (Elt F))).Forall fun op => op.fresh = ∅ :=
  ⟨rfl, rfl, rfl, rfl, rfl, rfl⟩

/-- Window 3, piece 4: 6 operations of @main itself. -/
abbrev ops3_4 : List (HloOp τ sig (Elt F)) :=
  [ StableHlo.nullary main_cst_32 (constant S_ .f32 0xFF800000#32),
    StableHlo.binary main_v188 main_cst_32 main_v189 ((fun x v => Host.reduce FloatOps.maximumf x v reducesTo_S2x64x256x7x7x10_S2x64x256x7x7_d5 h_S_) : (⟨S2x64x256x7x7x10, .f32⟩ : BufTy).Contents (Elt F) → (⟨S_, .f32⟩ : BufTy).Contents (Elt F) → (⟨S2x64x256x7x7, .f32⟩ : BufTy).Contents (Elt F)),
    StableHlo.unary main_v169 main_v190 (broadcastInDim S2x64x1x7x7 ![0, 1, 3, 4] bcast_S2x64x7x7_S2x64x1x7x7_0_1_3_4 : (⟨S2x64x7x7, .i1⟩ : BufTy).Contents (Elt F) → (⟨S2x64x1x7x7, .i1⟩ : BufTy).Contents (Elt F)),
    StableHlo.nullary main_cst_33 (constant S_ .f32 0x00000000#32),
    StableHlo.unary main_cst_33 main_v191 (broadcastInDim S2x64x256x7x7 ![] bcast_S_S2x64x256x7x7 : (⟨S_, .f32⟩ : BufTy).Contents (Elt F) → (⟨S2x64x256x7x7, .f32⟩ : BufTy).Contents (Elt F)),
    StableHlo.binary main_v189 main_v191 main_v192 (maximumf : (⟨S2x64x256x7x7, .f32⟩ : BufTy).Contents (Elt F) → (⟨S2x64x256x7x7, .f32⟩ : BufTy).Contents (Elt F) → (⟨S2x64x256x7x7, .f32⟩ : BufTy).Contents (Elt F)) ]
theorem ops3_4_sub : (ops3_4 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem ops3_4_fresh : (ops3_4 : List (HloOp τ sig (Elt F))).Forall fun op => op.fresh = ∅ :=
  ⟨rfl, rfl, rfl, rfl, rfl, rfl⟩

/-- Window 3, piece 5: the 2 operations of the call of @where_2 (record main_call9). -/
abbrev ops3_5 : List (HloOp τ sig (Elt F)) :=
  [ StableHlo.TRef.unary (.of main_v190 : StableHlo.TRef sig ⟨S2x64x1x7x7, .i1⟩) (.of main_call9_v0 : StableHlo.TRef sig ⟨S2x64x256x7x7, .i1⟩) (broadcastInDim S2x64x256x7x7 ![0, 1, 2, 3, 4] bcast_S2x64x1x7x7_S2x64x256x7x7_0_1_2_3_4),
    StableHlo.TRef.ternary (.of main_call9_v0 : StableHlo.TRef sig ⟨S2x64x256x7x7, .i1⟩) (.of main_v192 : StableHlo.TRef sig ⟨S2x64x256x7x7, .f32⟩) (.of main_v189 : StableHlo.TRef sig ⟨S2x64x256x7x7, .f32⟩) (.of main_v193 : StableHlo.TRef sig ⟨S2x64x256x7x7, .f32⟩) select ]
theorem ops3_5_sub : (ops3_5 : List (HloOp τ sig (Elt F))).Forall fun op => op.bufs ⊆ tcRefs τ sig :=
  ⟨unary_bufs_sub .., ternary_bufs_sub ..⟩
theorem ops3_5_fresh : (ops3_5 : List (HloOp τ sig (Elt F))).Forall fun op => op.fresh = ∅ :=
  ⟨rfl, rfl⟩

/-- Window 3's operations, in order. -/
abbrev ops3 : List (HloOp τ sig (Elt F)) :=
  ops3_0 ++ (ops3_1 ++ (ops3_2 ++ (ops3_3 ++ (ops3_4 ++ ops3_5))))

/-- A property of every element of two lists holds of every element of their concatenation. -/
private theorem forall_append {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

theorem ops3_sub : (ops3 : List (HloOp τ sig (Elt F))).Forall fun op => op.bufs ⊆ tcRefs τ sig :=
  forall_append ops3_0_sub (forall_append ops3_1_sub (forall_append ops3_2_sub (forall_append ops3_3_sub (forall_append ops3_4_sub (ops3_5_sub)))))
theorem ops3_fresh : (ops3 : List (HloOp τ sig (Elt F))).Forall fun op => op.fresh = ∅ :=
  forall_append ops3_0_fresh (forall_append ops3_1_fresh (forall_append ops3_2_fresh (forall_append ops3_3_fresh (forall_append ops3_4_fresh (ops3_5_fresh)))))

/-- The window is its pieces run one after the other: both sides unfold to the same chain of steps. -/
theorem part3_chain (d : Dev nD) : main_part3 (F := F) d = (Pipeline.chainK
  [ seq ops3_0,
    seq ops3_1,
    seq ops3_2,
    seq ops3_3,
    seq ops3_4 ]
  (seq ops3_5) : Prog (TpuEff nD τ sig (Elt F) (Pipeline.Sig Λ₀ (Fin 0) fun p => (pcfgs (F := F) p).Adm) .tc) PUnit) := by
  chain_rfl

/-- The window is the straight line of its operations (two lines run in turn are their concatenation run as one, at every cut). -/
theorem part3_eq (d : Dev nD) : main_part3 (F := F) d = seq ops3 := by
  rw [part3_chain]
  simp only [Pipeline.chainK, seq_append]

end Cert.ReferenceIdeal.RefRun

end
-- ==== Proof.RefRun.lean ====
/-
  The reference program's run. Its @main is four windows run in turn; each window is the straight line of its
  operations (the sibling modules, one per window), so @main is the straight line of the four lists' concatenation,
  and every weakly fair execution of it terminates with each buffer at the fold of the operations' results over
  the launch contents.
-/
import proofs.«121944_j5746666242434_2_alg».proof.Proof.RefOps0
import proofs.«121944_j5746666242434_2_alg».proof.Proof.RefOps1
import proofs.«121944_j5746666242434_2_alg».proof.Proof.RefOps2
import proofs.«121944_j5746666242434_2_alg».proof.Proof.RefOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 315 operations, in order: one list per window. -/
abbrev ops : List (HloOp τ sig (Elt F)) := ops0 ++ ops1 ++ ops2 ++ ops3

/-- @main is the straight line of its operations: it runs its four windows in turn, each the straight line of its
    own list, and lines run in turn are their concatenation run as one. -/
theorem main_eq (d : Dev nD) : main (F := F) d = seq ops := by
  have h : main (F := F) d
      = (main_part0 d >>= fun _ => main_part1 d >>= fun _ => main_part2 d >>= fun _ => main_part3 d) := rfl
  rw [h, part0_eq, part1_eq, part2_eq, part3_eq]
  simp only [ops, seq_append, bind_assoc]

/-- A property of every element of two lists holds of every element of their concatenation. -/
private theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- Every operation touches TensorCore references only. -/
theorem ops_sub : (ops : List (HloOp τ sig (Elt F))).Forall fun op => op.bufs ⊆ tcRefs τ sig :=
  forall_append (forall_append (forall_append ops0_sub ops1_sub) ops2_sub) ops3_sub

/-- Every operation determines its results. -/
theorem ops_fresh : ∀ op ∈ (ops : List (HloOp τ sig (Elt F))), op.fresh = ∅ :=
  List.forall_iff_forall_mem.1
    (forall_append (forall_append (forall_append ops0_fresh ops1_fresh) ops2_fresh) ops3_fresh)

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- On every device, for any float values, from any memory with zero counters: every weakly fair execution of
    @main terminates, and every final state has each buffer at the fold of the operations' results over the
    launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

end Cert.ReferenceIdeal.RefRun

end
-- ==== Proof.RefFin.lean ====
/-
  The contents of the reference's buffers when its @main has ended, as the fold of its operations over the launch
  contents, and the fold of a concatenation as the fold of the second list over the fold of the first: what lets a
  later stretch of the program be read over the (unopened) contents its earlier stretch leaves.
-/
import proofs.«121944_j5746666242434_2_alg».proof.Proof.RefRun

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation: the second list's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Buffer `b`'s contents on device `d` when @main has ended, from memory `m`. -/
abbrev fin (m : (ℓ : Loc nD τ sig) → Buf (Elt F) ℓ) (d : Dev nD) (b : Ref sig .tc) :=
  StableHlo.after (ops (F := F)) (StableHlo.launchContents m d) (Proc.devRef .tc b)

end Cert.ReferenceIdeal.RefRun

end
-- ==== Proof.RefTail.lean ====
/-
  The last stretch of the reference program as one function of the feature array and of the five
  integer tables the earlier stretch computes: row numbers `iy` and their validity bits `vy`, column
  numbers `ix` and their validity bits `vx` (each per batch entry, box, bin and position in the bin),
  and the bit `pad` saying that a bin overlaps the zero padding.

  The stages: a negative row number is counted from the end (rows are never negative here, so this
  changes nothing); the rows named by a bin are looked up in every channel's plane; an invalid position
  is replaced by the large negative fill; the maximum over the positions of the row bin is taken; the
  columns named by a column bin are looked up in the result; invalid positions are filled and the
  maximum over the column bin is taken; finally zero joins the maximum where the bin overlaps the
  padding.
-/
import proofs.«121944_j5746666242434_2_alg».proof.Proof.Gen.ReferenceIdeal

noncomputable section

namespace Cert.ReferenceIdeal.RefTail

open Idealize.ShloMosaic Cert.ReferenceIdeal Cert.ReferenceIdeal.Gen

variable {F : FTy → Type} [FloatOps F]

/-- A line number as the lookup takes it: a negative number has 64 added, and a unit axis is appended. -/
def startIdx (i : IVec S2x64x7x10 32) : IVec S2x64x7x10x1 32 :=
  broadcastInDim S2x64x7x10x1 ![0, 1, 2, 3] bcast_S2x64x7x10_S2x64x7x10x1_0_1_2_3
    (select (cmpi .slt i (broadcastInDim S2x64x7x10 ![] bcast_S_S2x64x7x10 (constantI S_ 32 0#32)))
      (addi i (broadcastInDim S2x64x7x10 ![] bcast_S_S2x64x7x10 (constantI S_ 32 64#32))) i)

/-- The rows a bin names, in every channel's plane: entry (b, r, c, p, k, w) is the feature at (b, c, row, w). -/
def rows (feat : FVec F S2x256x64x64 .f32) (iy : IVec S2x64x7x10 32) : FVec F S2x64x256x7x10x64 .f32 :=
  Host.gather gather_S2x256x64x64_S2x64x7x10x1_S2x64x256x7x10x64_25_2_0_0_2_4_1256164 feat (startIdx iy)

/-- Invalid positions of the row bins replaced by the fill. -/
def maskRows (vy : IVec S2x64x7x10 1) (x : FVec F S2x64x256x7x10x64 .f32) : FVec F S2x64x256x7x10x64 .f32 :=
  select
    (broadcastInDim S2x64x256x7x10x64 ![0, 1, 2, 3, 4, 5] bcast_S2x64x1x7x10x1_S2x64x256x7x10x64_0_1_2_3_4_5
      (broadcastInDim S2x64x1x7x10x1 ![0, 1, 3, 4] bcast_S2x64x7x10_S2x64x1x7x10x1_0_1_3_4 vy))
    x
    (broadcastInDim S2x64x256x7x10x64 ![1, 2, 3, 4, 5] bcast_S64x256x7x10x64_S2x64x256x7x10x64_1_2_3_4_5
      (broadcastInDim S64x256x7x10x64 ![1, 2, 3, 4] bcast_S256x7x10x64_S64x256x7x10x64_1_2_3_4
        (broadcastInDim S256x7x10x64 ![] bcast_S_S256x7x10x64 (id (constant S_ .f32 0xFF61B1E6#32)))))

/-- The maximum over the positions of each row bin, from −∞. -/
def rowMax (x : FVec F S2x64x256x7x10x64 .f32) : FVec F S2x64x256x7x64 .f32 :=
  Host.reduce FloatOps.maximumf x (constant S_ .f32 0xFF800000#32) reducesTo_S2x64x256x7x10x64_S2x64x256x7x64_d4 h_S_

/-- The columns a column bin names: entry (b, r, c, p, q, k) is the row maximum at (b, r, c, p, column). -/
def cols (rm : FVec F S2x64x256x7x64 .f32) (ix : IVec S2x64x7x10 32) : FVec F S2x64x256x7x7x10 .f32 :=
  Host.gather gather_S2x64x256x7x64_S2x64x7x10x1_S2x64x256x7x7x10_23_4_01_01_4_4_1125671 rm (startIdx ix)

/-- Invalid positions of the column bins replaced by the fill. -/
def maskCols (vx : IVec S2x64x7x10 1) (x : FVec F S2x64x256x7x7x10 .f32) : FVec F S2x64x256x7x7x10 .f32 :=
  select
    (broadcastInDim S2x64x256x7x7x10 ![0, 1, 2, 3, 4, 5] bcast_S2x64x1x1x7x10_S2x64x256x7x7x10_0_1_2_3_4_5
      (broadcastInDim S2x64x1x1x7x10 ![0, 1, 4, 5] bcast_S2x64x7x10_S2x64x1x1x7x10_0_1_4_5 vx))
    x
    (broadcastInDim S2x64x256x7x7x10 ![1, 2, 3, 4, 5] bcast_S64x256x7x7x10_S2x64x256x7x7x10_1_2_3_4_5
      (broadcastInDim S64x256x7x7x10 ![1, 2, 3, 4] bcast_S256x7x7x10_S64x256x7x7x10_1_2_3_4
        (broadcastInDim S256x7x7x10 ![] bcast_S_S256x7x7x10 (id (constant S_ .f32 0xFF61B1E6#32)))))

/-- The maximum over the positions of each column bin, from −∞. -/
def colMax (x : FVec F S2x64x256x7x7x10 .f32) : FVec F S2x64x256x7x7 .f32 :=
  Host.reduce FloatOps.maximumf x (constant S_ .f32 0xFF800000#32) reducesTo_S2x64x256x7x7x10_S2x64x256x7x7_d5 h_S_

/-- Zero joins the maximum where the bin overlaps the padding. -/
def padStep (pad : IVec S2x64x7x7 1) (x : FVec F S2x64x256x7x7 .f32) : FVec F S2x64x256x7x7 .f32 :=
  select
    (broadcastInDim S2x64x256x7x7 ![0, 1, 2, 3, 4] bcast_S2x64x1x7x7_S2x64x256x7x7_0_1_2_3_4
      (broadcastInDim S2x64x1x7x7 ![0, 1, 3, 4] bcast_S2x64x7x7_S2x64x1x7x7_0_1_3_4 pad))
    (maximumf x (broadcastInDim S2x64x256x7x7 ![] bcast_S_S2x64x256x7x7 (constant S_ .f32 0x00000000#32)))
    x

/-- The whole stretch. -/
def tail (feat : FVec F S2x256x64x64 .f32) (iy : IVec S2x64x7x10 32) (vy : IVec S2x64x7x10 1)
    (ix : IVec S2x64x7x10 32) (vx : IVec S2x64x7x10 1) (pad : IVec S2x64x7x7 1) : FVec F S2x64x256x7x7 .f32 :=
  padStep pad (colMax (maskCols vx (cols (rowMax (maskRows vy (rows feat iy))) ix)))

/-- Clipping a table of line numbers into the plane: at least 0, at most 63. -/
def clip (x : IVec S2x64x7x10 32) : IVec S2x64x7x10 32 :=
  minsi (broadcastInDim S2x64x7x10 ![] bcast_S_S2x64x7x10 (id (constantI S_ 32 63#32)))
    (maxsi (broadcastInDim S2x64x7x10 ![] bcast_S_S2x64x7x10 (id (constantI S_ 32 0#32))) x)

end Cert.ReferenceIdeal.RefTail

end
-- ==== Proof.RefStagesTail.lean ====
/-
  The reference's last stretch, stage by stage. Its window 3 is six pieces run in turn (the pad bit and the row
  lookup; the fill of the invalid row positions; the row maximum and the column lookup; the fill of the invalid
  column positions; the column maximum and the join with zero; the final choice). For each piece, over ANY contents
  `W` before it: the value it leaves in each buffer a later piece reads, as the stage of `RefTail` applied to `W`
  at the buffers the piece reads, and the buffers it leaves alone. Chained, the result buffer holds `RefTail.tail` of
  the feature array, the four tables and the pad bit as the earlier stretch left them.
-/
import proofs.«121944_j5746666242434_2_alg».proof.Proof.RefFin
import proofs.«121944_j5746666242434_2_alg».proof.Proof.RefTail

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Tail

/-- One piece's fold at one buffer: the operations' results composed (a callee's typed references are the literal
    buffers, their transports the identity). -/
local macro "piece_eq" : tactic =>
  `(tactic| (after_results_simp
             try simp only [TRef.toBuf, TRef.ofBuf, cast_eq, RefTail.rows, RefTail.startIdx, RefTail.cols, RefTail.rowMax,
               RefTail.colMax]))

variable (W : Valuation τ sig (Elt F))

/-! ### Piece 0: the pad bit, then the row lookup -/

theorem p0_v176 : after ops3_0 W (Proc.devRef .tc main_v176)
    = RefTail.rows (W (Proc.devRef .tc main_arg0)) (W (Proc.devRef .tc main_v112)) := by piece_eq
theorem p0_v177 : after ops3_0 W (Proc.devRef .tc main_v177)
    = broadcastInDim S2x64x1x7x10x1 ![0, 1, 3, 4] bcast_S2x64x7x10_S2x64x1x7x10x1_0_1_3_4 (W (Proc.devRef .tc main_v111)) := by
  piece_eq
theorem p0_cst27 : after ops3_0 W (Proc.devRef .tc main_cst_27) = constant S_ .f32 0xFF61B1E6#32 := by piece_eq
theorem p0_v122 : after ops3_0 W (Proc.devRef .tc main_v122) = W (Proc.devRef .tc main_v122) := by piece_eq
theorem p0_v121 : after ops3_0 W (Proc.devRef .tc main_v121) = W (Proc.devRef .tc main_v121) := by piece_eq

/-! ### Piece 1: the invalid row positions filled -/

theorem p1_v178 : after ops3_1 W (Proc.devRef .tc main_v178)
    = select
        (broadcastInDim S2x64x256x7x10x64 ![0, 1, 2, 3, 4, 5] bcast_S2x64x1x7x10x1_S2x64x256x7x10x64_0_1_2_3_4_5
          (W (Proc.devRef .tc main_v177)))
        (W (Proc.devRef .tc main_v176))
        (broadcastInDim S2x64x256x7x10x64 ![1, 2, 3, 4, 5] bcast_S64x256x7x10x64_S2x64x256x7x10x64_1_2_3_4_5
          (broadcastInDim S64x256x7x10x64 ![1, 2, 3, 4] bcast_S256x7x10x64_S64x256x7x10x64_1_2_3_4
            (broadcastInDim S256x7x10x64 ![] bcast_S_S256x7x10x64 (id (W (Proc.devRef .tc main_cst_27)))))) := by
  piece_eq
theorem p1_v122 : after ops3_1 W (Proc.devRef .tc main_v122) = W (Proc.devRef .tc main_v122) := by piece_eq
theorem p1_v121 : after ops3_1 W (Proc.devRef .tc main_v121) = W (Proc.devRef .tc main_v121) := by piece_eq
theorem p1_v169 : after ops3_1 W (Proc.devRef .tc main_v169) = W (Proc.devRef .tc main_v169) := by piece_eq

/-! ### Piece 2: the row maximum, then the column lookup -/

theorem p2_v186 : after ops3_2 W (Proc.devRef .tc main_v186)
    = RefTail.cols (RefTail.rowMax (W (Proc.devRef .tc main_v178))) (W (Proc.devRef .tc main_v122)) := by piece_eq
theorem p2_v187 : after ops3_2 W (Proc.devRef .tc main_v187)
    = broadcastInDim S2x64x1x1x7x10 ![0, 1, 4, 5] bcast_S2x64x7x10_S2x64x1x1x7x10_0_1_4_5 (W (Proc.devRef .tc main_v121)) := by
  piece_eq
theorem p2_cst31 : after ops3_2 W (Proc.devRef .tc main_cst_31) = constant S_ .f32 0xFF61B1E6#32 := by piece_eq
theorem p2_v169 : after ops3_2 W (Proc.devRef .tc main_v169) = W (Proc.devRef .tc main_v169) := by piece_eq

/-! ### Piece 3: the invalid column positions filled -/

theorem p3_v188 : after ops3_3 W (Proc.devRef .tc main_v188)
    = select
        (broadcastInDim S2x64x256x7x7x10 ![0, 1, 2, 3, 4, 5] bcast_S2x64x1x1x7x10_S2x64x256x7x7x10_0_1_2_3_4_5
          (W (Proc.devRef .tc main_v187)))
        (W (Proc.devRef .tc main_v186))
        (broadcastInDim S2x64x256x7x7x10 ![1, 2, 3, 4, 5] bcast_S64x256x7x7x10_S2x64x256x7x7x10_1_2_3_4_5
          (broadcastInDim S64x256x7x7x10 ![1, 2, 3, 4] bcast_S256x7x7x10_S64x256x7x7x10_1_2_3_4
            (broadcastInDim S256x7x7x10 ![] bcast_S_S256x7x7x10 (id (W (Proc.devRef .tc main_cst_31)))))) := by
  piece_eq
theorem p3_v169 : after ops3_3 W (Proc.devRef .tc main_v169) = W (Proc.devRef .tc main_v169) := by piece_eq

/-! ### Piece 4: the column maximum, the pad bit spread over the channels, the join with zero -/

theorem p4_v189 : after ops3_4 W (Proc.devRef .tc main_v189) = RefTail.colMax (W (Proc.devRef .tc main_v188)) := by piece_eq
theorem p4_v190 : after ops3_4 W (Proc.devRef .tc main_v190)
    = broadcastInDim S2x64x1x7x7 ![0, 1, 3, 4] bcast_S2x64x7x7_S2x64x1x7x7_0_1_3_4 (W (Proc.devRef .tc main_v169)) := by piece_eq
theorem p4_v192 : after ops3_4 W (Proc.devRef .tc main_v192)
    = maximumf (RefTail.colMax (W (Proc.devRef .tc main_v188)))
        (broadcastInDim S2x64x256x7x7 ![] bcast_S_S2x64x256x7x7 (constant S_ .f32 0x00000000#32)) := by piece_eq

/-! ### Piece 5: the final choice -/

theorem p5_v193 : after ops3_5 W (Proc.devRef .tc main_v193)
    = select
        (broadcastInDim S2x64x256x7x7 ![0, 1, 2, 3, 4] bcast_S2x64x1x7x7_S2x64x256x7x7_0_1_2_3_4 (W (Proc.devRef .tc main_v190)))
        (W (Proc.devRef .tc main_v192)) (W (Proc.devRef .tc main_v189)) := by piece_eq

/-- The six pieces chained: from any contents `W`, the result buffer holds the last stretch's function of the
    feature array, the four tables, and the pad bit as piece 0 computes it. -/
theorem tail_eq : after ops3_5 (after ops3_4 (after ops3_3 (after ops3_2 (after ops3_1 (after ops3_0 W)))))
      (Proc.devRef .tc main_v193)
    = RefTail.tail (W (Proc.devRef .tc main_arg0)) (W (Proc.devRef .tc main_v112)) (W (Proc.devRef .tc main_v111))
        (W (Proc.devRef .tc main_v122)) (W (Proc.devRef .tc main_v121)) (after ops3_0 W (Proc.devRef .tc main_v169)) := by
  rw [p5_v193, p4_v190, p4_v192, p4_v189, p3_v188, p3_v169, p2_v186, p2_v187, p2_cst31, p2_v169, p1_v178, p1_v122, p1_v121,
    p1_v169, p0_v176, p0_v177, p0_cst27, p0_v122, p0_v121]
  simp only [RefTail.tail, RefTail.padStep, RefTail.maskCols, RefTail.maskRows]

/-- A buffer the window never writes keeps its contents: the four tables and the feature array. -/
theorem keep_arg0 : after ops3_5 (after ops3_4 (after ops3_3 (after ops3_2 (after ops3_1 (after ops3_0 W)))))
    (Proc.devRef .tc main_arg0) = W (Proc.devRef .tc main_arg0) := by after_results_simp
theorem keep_v112 : after ops3_5 (after ops3_4 (after ops3_3 (after ops3_2 (after ops3_1 (after ops3_0 W)))))
    (Proc.devRef .tc main_v112) = W (Proc.devRef .tc main_v112) := by after_results_simp
theorem keep_v111 : after ops3_5 (after ops3_4 (after ops3_3 (after ops3_2 (after ops3_1 (after ops3_0 W)))))
    (Proc.devRef .tc main_v111) = W (Proc.devRef .tc main_v111) := by after_results_simp
theorem keep_v122 : after ops3_5 (after ops3_4 (after ops3_3 (after ops3_2 (after ops3_1 (after ops3_0 W)))))
    (Proc.devRef .tc main_v122) = W (Proc.devRef .tc main_v122) := by after_results_simp
theorem keep_v121 : after ops3_5 (after ops3_4 (after ops3_3 (after ops3_2 (after ops3_1 (after ops3_0 W)))))
    (Proc.devRef .tc main_v121) = W (Proc.devRef .tc main_v121) := by after_results_simp
/-- The pad bit is piece 0's; the later pieces leave it. -/
theorem keep_v169 : after ops3_5 (after ops3_4 (after ops3_3 (after ops3_2 (after ops3_1 W)))) (Proc.devRef .tc main_v169)
    = W (Proc.devRef .tc main_v169) := by after_results_simp

end Tail

/-- The result is the last stretch's function of the feature array, the row and column tables with their validity
    bits, and the pad bit, each as @main leaves it. -/
theorem result_eq (m : (ℓ : Loc nD τ sig) → Buf (Elt F) ℓ) (d : Dev nD) :
    fin m d main_v193 = RefTail.tail (fin m d main_arg0) (fin m d main_v112) (fin m d main_v111) (fin m d main_v122)
      (fin m d main_v121) (fin m d main_v169) := by
  dsimp only [fin, ops]
  rw [after_append (ops0 ++ ops1 ++ ops2) ops3]
  generalize after (ops0 ++ ops1 ++ ops2) (launchContents m d) = W
  simp only [ops3, after_append]
  rw [Tail.keep_arg0, Tail.keep_v112, Tail.keep_v111, Tail.keep_v122, Tail.keep_v121, Tail.keep_v169, Tail.tail_eq]

end Cert.ReferenceIdeal.RefRun

end
-- ==== Proof.RefStagesClip.lean ====
/-
  The two clipped tables. Window 2 computes the row numbers, clips them (a call of @clip), computes the column
  numbers, clips them (a second call), and goes on to other tables; neither it nor window 3 writes the four buffers
  again. Over ANY contents `W` before the piece: the call leaves `RefTail.clip` of its argument in its result, the two
  bounds being the constants the piece before it sets.
-/
import proofs.«121944_j5746666242434_2_alg».proof.Proof.RefFin
import proofs.«121944_j5746666242434_2_alg».proof.Proof.RefTail

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Clip

/-- One piece's fold at one buffer: the operations' results composed (a callee's typed references are the literal
    buffers, their transports the identity). -/
local macro "piece_eq" : tactic =>
  `(tactic| (after_results_simp
             try simp only [TRef.toBuf, TRef.ofBuf, cast_eq]))

variable (W : Valuation τ sig (Elt F))

/-! ### The row numbers: the bounds from piece 0, the call is piece 1 -/

theorem c0_lo : after ops2_0 W (Proc.devRef .tc main_c_19) = constantI S_ 32 0#32 := by piece_eq
theorem c0_hi : after ops2_0 W (Proc.devRef .tc main_c_20) = constantI S_ 32 63#32 := by piece_eq
theorem c1_v112 : after ops2_1 W (Proc.devRef .tc main_v112)
    = minsi (broadcastInDim S2x64x7x10 ![] bcast_S_S2x64x7x10 (id (W (Proc.devRef .tc main_c_20))))
        (maxsi (broadcastInDim S2x64x7x10 ![] bcast_S_S2x64x7x10 (id (W (Proc.devRef .tc main_c_19)))) (W (Proc.devRef .tc main_v108))) := by
  piece_eq
theorem iy_piece : after ops2_1 (after ops2_0 W) (Proc.devRef .tc main_v112) = RefTail.clip (after ops2_0 W (Proc.devRef .tc main_v108)) := by
  rw [c1_v112, c0_lo, c0_hi]
  simp only [RefTail.clip]
/-- Nothing after the call writes its result. -/
theorem keep_v112 : after ops3_5 (after ops3_4 (after ops3_3 (after ops3_2 (after ops3_1 (after ops3_0 (after ops2_4 (after ops2_3 (after ops2_2 W)))))))) (Proc.devRef .tc main_v112)
    = W (Proc.devRef .tc main_v112) := by after_results_simp
/-- Nothing after piece 0 writes the unclipped row numbers. -/
theorem keep_v108 : after ops3_5 (after ops3_4 (after ops3_3 (after ops3_2 (after ops3_1 (after ops3_0 (after ops2_4 (after ops2_3 (after ops2_2 (after ops2_1 W))))))))) (Proc.devRef .tc main_v108)
    = W (Proc.devRef .tc main_v108) := by after_results_simp

/-! ### The column numbers: the bounds from piece 2, the call is piece 3 -/

theorem c2_lo : after ops2_2 W (Proc.devRef .tc main_c_21) = constantI S_ 32 0#32 := by piece_eq
theorem c2_hi : after ops2_2 W (Proc.devRef .tc main_c_22) = constantI S_ 32 63#32 := by piece_eq
theorem c3_v122 : after ops2_3 W (Proc.devRef .tc main_v122)
    = minsi (broadcastInDim S2x64x7x10 ![] bcast_S_S2x64x7x10 (id (W (Proc.devRef .tc main_c_22))))
        (maxsi (broadcastInDim S2x64x7x10 ![] bcast_S_S2x64x7x10 (id (W (Proc.devRef .tc main_c_21)))) (W (Proc.devRef .tc main_v118))) := by
  piece_eq
theorem ix_piece : after ops2_3 (after ops2_2 W) (Proc.devRef .tc main_v122) = RefTail.clip (after ops2_2 W (Proc.devRef .tc main_v118)) := by
  rw [c3_v122, c2_lo, c2_hi]
  simp only [RefTail.clip]
/-- Nothing after the call writes its result. -/
theorem keep_v122 : after ops3_5 (after ops3_4 (after ops3_3 (after ops3_2 (after ops3_1 (after ops3_0 (after ops2_4 W)))))) (Proc.devRef .tc main_v122)
    = W (Proc.devRef .tc main_v122) := by after_results_simp
/-- Nothing after piece 2 writes the unclipped column numbers. -/
theorem keep_v118 : after ops3_5 (after ops3_4 (after ops3_3 (after ops3_2 (after ops3_1 (after ops3_0 (after ops2_4 (after ops2_3 W))))))) (Proc.devRef .tc main_v118)
    = W (Proc.devRef .tc main_v118) := by after_results_simp

end Clip

/-- The row table the last stretch reads is the clipped row numbers. -/
theorem iy_clip (m : (ℓ : Loc nD τ sig) → Buf (Elt F) ℓ) (d : Dev nD) :
    fin m d main_v112 = RefTail.clip (fin m d main_v108) := by
  dsimp only [fin, ops]
  rw [after_append (ops0 ++ ops1 ++ ops2) ops3, after_append (ops0 ++ ops1) ops2]
  generalize after (ops0 ++ ops1) (launchContents m d) = W
  simp only [ops2, ops3, after_append]
  rw [Clip.keep_v112, Clip.keep_v108, Clip.iy_piece]

/-- The column table the last stretch reads is the clipped column numbers. -/
theorem ix_clip (m : (ℓ : Loc nD τ sig) → Buf (Elt F) ℓ) (d : Dev nD) :
    fin m d main_v122 = RefTail.clip (fin m d main_v118) := by
  dsimp only [fin, ops]
  rw [after_append (ops0 ++ ops1 ++ ops2) ops3, after_append (ops0 ++ ops1) ops2]
  generalize after (ops0 ++ ops1) (launchContents m d) = W
  simp only [ops2, ops3, after_append]
  rw [Clip.keep_v122, Clip.keep_v118, Clip.ix_piece]

end Cert.ReferenceIdeal.RefRun

end
-- ==== Proof.RefStagesKept.lean ====
/-
  @main never writes its two arguments: window by window, over ANY contents before the window, each argument's buffer
  keeps what it held; so at the end it holds what the launch found there.
-/
import proofs.«121944_j5746666242434_2_alg».proof.Proof.RefFin

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Kept

variable (V : Valuation τ sig (Elt F))

theorem k0_arg0 : after ops0 V (Proc.devRef .tc main_arg0) = V (Proc.devRef .tc main_arg0) := by
  simp only [ops0, after_append]
  after_results_simp
theorem k1_arg0 : after ops1 V (Proc.devRef .tc main_arg0) = V (Proc.devRef .tc main_arg0) := by
  simp only [ops1, after_append]
  after_results_simp
theorem k2_arg0 : after ops2 V (Proc.devRef .tc main_arg0) = V (Proc.devRef .tc main_arg0) := by
  simp only [ops2, after_append]
  after_results_simp
theorem k3_arg0 : after ops3 V (Proc.devRef .tc main_arg0) = V (Proc.devRef .tc main_arg0) := by
  simp only [ops3, after_append]
  after_results_simp

theorem k0_arg1 : after ops0 V (Proc.devRef .tc main_arg1) = V (Proc.devRef .tc main_arg1) := by
  simp only [ops0, after_append]
  after_results_simp
theorem k1_arg1 : after ops1 V (Proc.devRef .tc main_arg1) = V (Proc.devRef .tc main_arg1) := by
  simp only [ops1, after_append]
  after_results_simp
theorem k2_arg1 : after ops2 V (Proc.devRef .tc main_arg1) = V (Proc.devRef .tc main_arg1) := by
  simp only [ops2, after_append]
  after_results_simp
theorem k3_arg1 : after ops3 V (Proc.devRef .tc main_arg1) = V (Proc.devRef .tc main_arg1) := by
  simp only [ops3, after_append]
  after_results_simp

end Kept

/-- The feature array is as the launch found it. -/
theorem kept_arg0 (m : (ℓ : Loc nD τ sig) → Buf (Elt F) ℓ) (d : Dev nD) :
    fin m d main_arg0 = m ((d.tc : Thread nD τ).loc main_arg0) := by
  dsimp only [fin, ops]
  rw [after_append (ops0 ++ ops1 ++ ops2) ops3, after_append (ops0 ++ ops1) ops2, after_append ops0 ops1,
    Kept.k3_arg0, Kept.k2_arg0, Kept.k1_arg0, Kept.k0_arg0]

/-- The boxes are as the launch found them. -/
theorem kept_arg1 (m : (ℓ : Loc nD τ sig) → Buf (Elt F) ℓ) (d : Dev nD) :
    fin m d main_arg1 = m ((d.tc : Thread nD τ).loc main_arg1) := by
  dsimp only [fin, ops]
  rw [after_append (ops0 ++ ops1 ++ ops2) ops3, after_append (ops0 ++ ops1) ops2, after_append ops0 ops1,
    Kept.k3_arg1, Kept.k2_arg1, Kept.k1_arg1, Kept.k0_arg1]

end Cert.ReferenceIdeal.RefRun

end
-- ==== Proof.RefStages.lean ====
/-
  The equations that name the reference's last stretch, gathered: the result as `RefTail.tail` of the feature array,
  the four tables and the pad bit (`result_eq`); the two clipped tables (`iy_clip`, `ix_clip`); the two arguments
  unchanged (`kept_arg0`, `kept_arg1`). Each is proved in its own sibling module over the fold `fin`.
-/
import proofs.«121944_j5746666242434_2_alg».proof.Proof.RefStagesTail
import proofs.«121944_j5746666242434_2_alg».proof.Proof.RefStagesClip
import proofs.«121944_j5746666242434_2_alg».proof.Proof.RefStagesKept
-- ==== Proof.ProofFrames.lean ====
/-
  The three frames.  The two kernel programs' are read off the pipeline's launch, staging and flushing; the
  reference is a straight line of host operations, none of which writes an argument, so it runs to its end
  and leaves its arguments alone.
-/
import proofs.«121944_j5746666242434_2_alg».proof.Defs
import proofs.«121944_j5746666242434_2_alg».proof.Proof.Gen.Kernel
import proofs.«121944_j5746666242434_2_alg».proof.Proof.Gen.Kernel.Frame
import proofs.«121944_j5746666242434_2_alg».proof.Proof.Gen.KernelIdeal
import proofs.«121944_j5746666242434_2_alg».proof.Proof.Gen.KernelIdeal.Frame
import proofs.«121944_j5746666242434_2_alg».proof.Proof.Gen.ReferenceIdeal
import proofs.«121944_j5746666242434_2_alg».proof.Proof.Gen.Pre_finite_inputs
import proofs.«121944_j5746666242434_2_alg».proof.Proof.RefRun
import proofs.«121944_j5746666242434_2_alg».proof.Proof.RefStages

noncomputable section

namespace Cert.Proof

open Idealize.ShloMosaic Idealize.ShloMosaic.TcCoe Idealize.SL.Sem

/-- The kernel program as printed runs to its end and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations, none of which writes an argument. -/
theorem frame_reference : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono
      (fun _ h c => ⟨(h c Cert.ReferenceIdeal.main_arg0).trans (Cert.ReferenceIdeal.RefRun.kept_arg0 m c),
        (h c Cert.ReferenceIdeal.main_arg1).trans (Cert.ReferenceIdeal.RefRun.kept_arg1 m c)⟩)
      (Cert.ReferenceIdeal.RefRun.run (F := Ideal) m ρ)

end Cert.Proof

end
-- ==== Proof.KPieces.lean ====
/-
  What the two control cases of the pooling body leave behind, as pure functions of the blocks the
  body is handed.  At a box's first grid point (case A) the body first re-lays the feature block into
  the carried scratch (rows first, then channels, then columns) and computes from that; at the other
  points (case B) it computes from the scratch the earlier point left.

  Each case writes its output block by one store that covers the block at offset zero, so what the
  block ends holding is that store's payload; every load the payload reads is of a whole buffer at
  offset zero, hence the buffer's contents.  In case A the scratch is loaded back after the one
  covering store of the re-laid block, so the loaded value is the re-laid block itself.
-/
import proofs.«121944_j5746666242434_2_alg».proof.Proof.Gen.KernelIdeal.Frame
import Idealize.ShloMosaic.Lib.Pipeline.Value
import Idealize.ShloMosaic.Lib.Tactic

noncomputable section

namespace Cert.KernelIdeal.KBlock

open Idealize.ShloMosaic Idealize.ShloMosaic.TcCoe Idealize.SL.Sem Cert.KernelIdeal Cert.KernelIdeal.Gen

variable {F : FTy → Type} [FloatOps F]

/-- The zero offset of a rank-5 block, as the constant function. -/
theorem hz5 : (![0, 0, 0, 0, 0] : Fin 5 → Nat) = fun _ => 0 := funext fun a => by fin_cases a <;> rfl
/-- The zero offset of a rank-4 block, as the constant function. -/
theorem hz4 : (![0, 0, 0, 0] : Fin 4 → Nat) = fun _ => 0 := funext fun a => by fin_cases a <;> rfl
/-- The zero offset of a rank-3 block, as the constant function. -/
theorem hz3 : (![0, 0, 0] : Fin 3 → Nat) = fun _ => 0 := funext fun a => by fin_cases a <;> rfl

/-- The output block of a box's first point: the pooling of the re-laid feature block. -/
theorem out_A (c : Dev nD) (i : grid0.Coords) (arg2 : Memref sig .tc .vmem S1x256x64x64 .f32) (harg2 : arg2.IsWhole) (arg3 : Memref sig .tc .vmem S1x1x70x64 .f32) (harg3 : arg3.IsWhole) (arg4 : Memref sig .tc .vmem S1x1x70x64 .f32) (harg4 : arg4.IsWhole) (arg5 : Memref sig .tc .vmem S1x1x7x10 .i32) (harg5 : arg5.IsWhole) (arg6 : Memref sig .tc .vmem S1x1x7x10 .i32) (harg6 : arg6.IsWhole) (arg7 : Memref sig .tc .vmem S1x1x7x7 .i32) (harg7 : arg7.IsWhole) (arg8 : Memref sig .tc .vmem S1x1x7x7x256 .f32) (harg8 : arg8.IsWhole) (arg9 : Memref sig .tc .vmem S64x256x64 .f32) (harg9 : arg9.IsWhole) (hc0 : cond0_0 i)
    (x0 : Vec F S1x256x64x64 .f32) (x1 : Vec F S1x1x70x64 .f32) (x2 : Vec F S1x1x70x64 .f32) (x3 : Vec F S1x1x7x10 .i32) (x4 : Vec F S1x1x7x10 .i32) (x5 : Vec F S1x1x7x7 .i32) :
    out0_A_6 c i arg2 harg2 arg3 harg3 arg4 harg4 arg5 harg5 arg6 harg6 arg7 harg7 arg8 harg8 arg9 harg9 hc0 x0 x1 x2 x3 x4 x5
      = k0_pay1 (k0_pay3 (k0_pay2 x0) x1 x3 x2) (k0_pay4 x4) k0_pay5 x5 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz5, View.readCov_unit_zero (S := S64x256x64) _ hz3]
  simp only [View.readAt_eq_ld, harg2.read_unread, harg3.read_unread, harg4.read_unread, harg5.read_unread, harg6.read_unread, harg7.read_unread,
    View.ld_unit_zero (S := S1x256x64x64) hz4, View.ld_unit_zero (S := S1x1x70x64) hz4, View.ld_unit_zero (S := S1x1x7x10) hz4, View.ld_unit_zero (S := S1x1x7x7) hz4]

/-- The scratch after a box's first point: the re-laid feature block. -/
theorem scratch_A (c : Dev nD) (i : grid0.Coords) (arg2 : Memref sig .tc .vmem S1x256x64x64 .f32) (harg2 : arg2.IsWhole) (arg3 : Memref sig .tc .vmem S1x1x70x64 .f32) (harg3 : arg3.IsWhole) (arg4 : Memref sig .tc .vmem S1x1x70x64 .f32) (harg4 : arg4.IsWhole) (arg5 : Memref sig .tc .vmem S1x1x7x10 .i32) (harg5 : arg5.IsWhole) (arg6 : Memref sig .tc .vmem S1x1x7x10 .i32) (harg6 : arg6.IsWhole) (arg7 : Memref sig .tc .vmem S1x1x7x7 .i32) (harg7 : arg7.IsWhole) (arg8 : Memref sig .tc .vmem S1x1x7x7x256 .f32) (harg8 : arg8.IsWhole) (arg9 : Memref sig .tc .vmem S64x256x64 .f32) (harg9 : arg9.IsWhole) (hc0 : cond0_0 i)
    (x0 : Vec F S1x256x64x64 .f32) (x1 : Vec F S1x1x70x64 .f32) (x2 : Vec F S1x1x70x64 .f32) (x3 : Vec F S1x1x7x10 .i32) (x4 : Vec F S1x1x7x10 .i32) (x5 : Vec F S1x1x7x7 .i32) :
    sout0_A_0 c i arg2 harg2 arg3 harg3 arg4 harg4 arg5 harg5 arg6 harg6 arg7 harg7 arg8 harg8 arg9 harg9 hc0 x0 x1 x2 x3 x4 x5 = k0_pay2 x0 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz3]
  simp only [View.readAt_eq_ld, harg2.read_unread, View.ld_unit_zero (S := S1x256x64x64) hz4]

/-- The output block of a later point: the pooling of the carried scratch. -/
theorem out_B (c : Dev nD) (i : grid0.Coords) (arg2 : Memref sig .tc .vmem S1x256x64x64 .f32) (harg2 : arg2.IsWhole) (arg3 : Memref sig .tc .vmem S1x1x70x64 .f32) (harg3 : arg3.IsWhole) (arg4 : Memref sig .tc .vmem S1x1x70x64 .f32) (harg4 : arg4.IsWhole) (arg5 : Memref sig .tc .vmem S1x1x7x10 .i32) (harg5 : arg5.IsWhole) (arg6 : Memref sig .tc .vmem S1x1x7x10 .i32) (harg6 : arg6.IsWhole) (arg7 : Memref sig .tc .vmem S1x1x7x7 .i32) (harg7 : arg7.IsWhole) (arg8 : Memref sig .tc .vmem S1x1x7x7x256 .f32) (harg8 : arg8.IsWhole) (arg9 : Memref sig .tc .vmem S64x256x64 .f32) (harg9 : arg9.IsWhole) (hc0 : ¬cond0_0 i)
    (x0 : Vec F S1x256x64x64 .f32) (x1 : Vec F S1x1x70x64 .f32) (x2 : Vec F S1x1x70x64 .f32) (x3 : Vec F S1x1x7x10 .i32) (x4 : Vec F S1x1x7x10 .i32) (x5 : Vec F S1x1x7x7 .i32) (xs0 : Vec F S64x256x64 .f32) :
    out0_B_6 c i arg2 harg2 arg3 harg3 arg4 harg4 arg5 harg5 arg6 harg6 arg7 harg7 arg8 harg8 arg9 harg9 hc0 x0 x1 x2 x3 x4 x5 xs0
      = k0_pay1 (k0_pay3 xs0 x1 x3 x2) (k0_pay4 x4) k0_pay5 x5 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  rw [View.canon_unit_zero hz5]
  simp only [View.readAt_eq_ld, harg9.read_unread, harg3.read_unread, harg4.read_unread, harg5.read_unread, harg6.read_unread, harg7.read_unread,
    View.ld_unit_zero (S := S64x256x64) hz3, View.ld_unit_zero (S := S1x1x70x64) hz4, View.ld_unit_zero (S := S1x1x7x10) hz4, View.ld_unit_zero (S := S1x1x7x7) hz4]

end Cert.KernelIdeal.KBlock

end
-- ==== Proof.PoolSpec.lean ====
/-
  What one output element of the pooling is, as a function of one feature plane and of the per-bin
  index tables.

  An output element belongs to a batch entry, a box, a channel and a bin (a row bin and a column bin).
  The row bin names up to ten rows of the feature plane (`iy`), each with a validity bit (`vy`); the
  column bin names up to ten columns (`ix`) with validity bits (`vx`).  The element is the maximum,
  over the valid columns, of the maximum over the valid rows of the plane's entry at that row and
  column; an invalid row or column contributes the large negative fill instead of an entry, and every
  maximum starts from −∞.  When the bin overlaps the zero padding (`pad`), zero takes part in the
  maximum as well.
-/
import Idealize.ShloMosaic.PureOps.Ideal
import Idealize.ShloMosaic.PureOps.Ideal.Laws
import Idealize.ShloMosaic.Lib.ValueIdx

noncomputable section

namespace Cert.RoiPool

open Idealize.ShloMosaic

/-- The finite stand-in for −∞ that a masked-out entry is replaced by (the float −3·10³⁸). -/
def negFill : EReal := Ideal.ofBits .f32 0xFF61B1E6#32

/-- −∞: the value every maximum starts from. -/
def negInf : EReal := Ideal.ofBits .f32 0xFF800000#32

/-- The maximum of ten entries, an entry whose mask bit is off replaced by the fill, starting from −∞. -/
def maskedMax (mask : Fin 10 → Bool) (g : Fin 10 → EReal) : EReal :=
  (Finset.univ : Finset (Fin 10)).fold max negInf (fun k => if mask k then g k else negFill)

/-- One pooled element: the masked maximum over the bin's columns of the masked maximum over the bin's
    rows of the plane, joined with zero when the bin overlaps the padding. -/
def poolVal (plane : Fin 64 → Fin 64 → EReal) (iy : Fin 10 → Fin 64) (vy : Fin 10 → Bool)
    (ix : Fin 10 → Fin 64) (vx : Fin 10 → Bool) (pad : Bool) : EReal :=
  if pad then max (maskedMax vx fun kw => maskedMax vy fun kh => plane (iy kh) (ix kw)) 0
  else maskedMax vx fun kw => maskedMax vy fun kh => plane (iy kh) (ix kw)

/-- A signed 32-bit word read as a row (or column) number of a 64-line plane, clamped into the plane:
    how a lookup reads its start index. -/
def lineOf (w : BitVec 32) : Fin 64 := ⟨min w.toInt.toNat 63, by omega⟩

/-- A one-hot row selects: the sum over the 64 lines of (1 at line `a`, 0 elsewhere) times `f` is `f a`. -/
theorem sum_onehot_mul (a : Fin 64) (f : Fin 64 → EReal) :
    (∑ h : Fin 64, (if a = h then (1 : EReal) else 0) * f h) = f a := by
  rw [Finset.sum_eq_single a]
  · simp
  · intro b _ hb; simp [Ne.symm hb]
  · intro h; exact absurd (Finset.mem_univ a) h

end Cert.RoiPool

end
-- ==== Proof.KPayloadA.lean ====
/-
  The pooling body's arithmetic, stage by stage, read at one element on the extended reals.

  Each stage is stated over variables of the body's literal vector types at explicit coordinates: a product
  with a one-hot matrix is a sum over the 64 lines with one surviving term; a mask is a word of an integer
  block broadcast over the other axes and compared with zero; a maximum over a bin's ten slots is a fold of
  `max` from −∞.  The reshapes between the flat and the split layouts keep the row-major position.
-/
import proofs.«121944_j5746666242434_2_alg».proof.Proof.Gen.KernelIdeal.Skeleton
import proofs.«121944_j5746666242434_2_alg».proof.Proof.PoolSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KBlock

open Idealize.ShloMosaic Idealize.ShloMosaic.ValueIdx Cert.KernelIdeal Cert.KernelIdeal.Gen

/-! ## Words: a mask bit is the comparison of its word with zero -/

/-- A select on "the word is not zero" is the `if` on that word. -/
theorem select_ne_zero {α : Type} (w : BitVec 32) (a b : α) :
    Scalar.select (IntOp.cmpi .ne w 0#32) a b = if decide (w ≠ 0#32) = true then a else b := by
  unfold Scalar.select IntOp.cmpi
  by_cases h : w = 0#32
  · simp [h]
  · have hb : (w != 0#32) = true := bne_iff_ne.mpr h
    simp [hb, h]

/-! ## The row selection: a product with the one-hot row matrix -/

/-- The dimension numbers of the row product: [70,64] times [64,16384], contracting the 64. -/
abbrev D1 := dot_S70x64_S64x16384_S70x16384_1_0_0_1_n_n

theorem lhs1 (a : Fin 70) (b : Fin 16384) (h : Fin 64) :
    D1.lhsIdx (ix2 a b) ((contrEquiv1 D1 64 rfl rfl).symm h) = ix2 a h := by
  funext d
  match d with
  | ⟨0, _⟩ => exact Fin.ext (by simp [DotDims.lhsIdx, dot_S70x64_S64x16384_S70x16384_1_0_0_1_n_n]; rfl)
  | ⟨1, _⟩ => exact Fin.ext ((D1.lhsIdx_val_of_single (cl := 1) rfl _ _).trans (contrEquiv1_symm_val _ 64 rfl rfl h))

theorem rhs1 (a : Fin 70) (b : Fin 16384) (h : Fin 64) :
    D1.rhsIdx (ix2 a b) ((contrEquiv1 D1 64 rfl rfl).symm h) = ix2 h b := by
  funext d
  match d with
  | ⟨0, _⟩ => exact Fin.ext ((D1.rhsIdx_val_of_single (cr := 0) rfl _ _).trans (contrEquiv1_symm_val _ 64 rfl rfl h))
  | ⟨1, _⟩ => exact Fin.ext (by simp [DotDims.rhsIdx, dot_S70x64_S64x16384_S70x16384_1_0_0_1_n_n]; rfl)

/-- The row product at (row bin, slot, channel, column): the sum over the 64 rows of the one-hot entry
    times the scratch's entry. -/
theorem rowprod_apply (xs : FVec Ideal S64x256x64 .f32) (x1 : FVec Ideal S1x1x70x64 .f32)
    (sc1 : S1x1x70x64.ShapeCasts S70x64) (sc2 : S64x256x64.ShapeCasts S64x16384) (sc3 : S70x16384.ShapeCasts S7x10x256x64)
    (p : Fin 7) (k : Fin 10) (ch : Fin 256) (w : Fin 64) :
    shapeCast S7x10x256x64 (matmul D1 (some .fp32) (shapeCast S70x64 x1 sc1) (shapeCast S64x16384 xs sc2)
        (constant (F := Ideal) S70x16384 .f32 0x00000000#32)) sc3 (ix4 p k ch w)
      = ∑ h : Fin 64, x1 (ix4 (0 : Fin 1) (0 : Fin 1) (⟨p.val * 10 + k.val, by omega⟩ : Fin 70) h) * xs (ix3 h ch w) := by
  refine (shapeCast_apply _ _ (ix4 p k ch w) (ix2 (⟨p.val * 10 + k.val, by omega⟩ : Fin 70) (⟨ch.val * 64 + w.val, by omega⟩ : Fin 16384)) ?_).trans ?_
  · rw [Shape.rowMajor_val_two, Shape.rowMajor_val_four]
    show (p.val * 10 + k.val) * 16384 + (ch.val * 64 + w.val) = ((p.val * 10 + k.val) * 256 + ch.val) * 64 + w.val
    omega
  · refine (Ideal.matmul_constant_zero_apply D1 _ _ _ _).trans ?_
    rw [← Equiv.sum_comp (contrEquiv1 D1 64 rfl rfl).symm]
    refine Finset.sum_congr rfl fun h _ => ?_
    rw [lhs1, rhs1]
    congr 1
    · refine shapeCast_apply _ _ _ (ix4 (0 : Fin 1) (0 : Fin 1) (⟨p.val * 10 + k.val, by omega⟩ : Fin 70) h) ?_
      rw [Shape.rowMajor_val_two, Shape.rowMajor_val_four]
      show (((0 : Fin 1).val * 1 + (0 : Fin 1).val) * 70 + (p.val * 10 + k.val)) * 64 + h.val = (p.val * 10 + k.val) * 64 + h.val
      simp
    · refine shapeCast_apply _ _ _ (ix3 h ch w) ?_
      rw [Shape.rowMajor_val_two, Shape.rowMajor_val_three]
      show (h.val * 256 + ch.val) * 64 + w.val = h.val * 16384 + (ch.val * 64 + w.val)
      omega

/-! ## The masks: an integer block broadcast over the channels and columns -/

/-- A [1,1,7,10] block of words broadcast to [7,10,·,·] reads its (bin, slot) word everywhere. -/
theorem mask4_apply {n2 n3 : Nat} (x : Vec Ideal S1x1x7x10 .i32) (sc1 : S1x1x7x10.ShapeCasts S7x10)
    (sc2 : S7x10.ShapeCasts S7x10x1x1) (sc3 : S7x10x1x1.ShapeCasts S7x10x1x1)
    (bc : S7x10x1x1.Broadcasts ⟨4, ![7, 10, n2, n3]⟩) (p : Fin 7) (k : Fin 10) (c : Fin n2) (d : Fin n3) :
    broadcastTo ⟨4, ![7, 10, n2, n3]⟩ (shapeCast S7x10x1x1 (shapeCast S7x10x1x1 (shapeCast S7x10 x sc1) sc2) sc3) bc (ix4 p k c d)
      = x (ix4 (0 : Fin 1) (0 : Fin 1) p k) := by
  rw [shapeCast_self]
  refine (broadcastTo_apply _ _ (ix4 p k c d) (ix4 p k (0 : Fin 1) (0 : Fin 1)) ?_).trans ?_
  · intro a
    match a with
    | ⟨0, _⟩ => show p.val = if (7 : ℕ) = 1 then 0 else p.val; simp
    | ⟨1, _⟩ => show k.val = if (10 : ℕ) = 1 then 0 else k.val; simp
    | ⟨2, _⟩ => show (0 : ℕ) = if (1 : ℕ) = 1 then 0 else c.val; simp
    | ⟨3, _⟩ => show (0 : ℕ) = if (1 : ℕ) = 1 then 0 else d.val; simp
  · refine (shapeCast_apply _ _ (ix4 p k (0 : Fin 1) (0 : Fin 1)) (ix2 p k) ?_).trans ?_
    · rw [Shape.rowMajor_val_two, Shape.rowMajor_val_four]
      show p.val * 10 + k.val = ((p.val * 10 + k.val) * 1 + (0 : Fin 1).val) * 1 + (0 : Fin 1).val
      simp
    · refine shapeCast_apply _ _ (ix2 p k) (ix4 (0 : Fin 1) (0 : Fin 1) p k) ?_
      rw [Shape.rowMajor_val_two, Shape.rowMajor_val_four]
      show (((0 : Fin 1).val * 1 + (0 : Fin 1).val) * 7 + p.val) * 10 + k.val = p.val * 10 + k.val
      simp

/-- The [1,1,7,7] block of padding words broadcast to [7,7,256] reads its (row bin, column bin) word at every channel. -/
theorem mask3_apply (x : Vec Ideal S1x1x7x7 .i32) (sc1 : S1x1x7x7.ShapeCasts S7x7)
    (sc2 : S7x7.ShapeCasts S7x7x1) (sc3 : S7x7x1.ShapeCasts S7x7x1)
    (bc : S7x7x1.Broadcasts S7x7x256) (p q : Fin 7) (c : Fin 256) :
    broadcastTo S7x7x256 (shapeCast S7x7x1 (shapeCast S7x7x1 (shapeCast S7x7 x sc1) sc2) sc3) bc (ix3 p q c)
      = x (ix4 (0 : Fin 1) (0 : Fin 1) p q) := by
  rw [shapeCast_self]
  refine (broadcastTo_apply _ _ (ix3 p q c) (ix3 p q (0 : Fin 1)) ?_).trans ?_
  · intro a
    match a with
    | ⟨0, _⟩ => show p.val = if (7 : ℕ) = 1 then 0 else p.val; simp
    | ⟨1, _⟩ => show q.val = if (7 : ℕ) = 1 then 0 else q.val; simp
    | ⟨2, _⟩ => show (0 : ℕ) = if (1 : ℕ) = 1 then 0 else c.val; simp
  · refine (shapeCast_apply _ _ (ix3 p q (0 : Fin 1)) (ix2 p q) ?_).trans ?_
    · rw [Shape.rowMajor_val_two, Shape.rowMajor_val_three]
      show p.val * 7 + q.val = (p.val * 7 + q.val) * 1 + (0 : Fin 1).val
      simp
    · refine shapeCast_apply _ _ (ix2 p q) (ix4 (0 : Fin 1) (0 : Fin 1) p q) ?_
      rw [Shape.rowMajor_val_two, Shape.rowMajor_val_four]
      show (((0 : Fin 1).val * 1 + (0 : Fin 1).val) * 7 + p.val) * 7 + q.val = p.val * 7 + q.val
      simp

/-! ## The maximum over a bin's ten slots -/

/-- The maximum over axis 1 of a [7,10,·,·] block, at (bin, ·, ·): the fold of `max` from −∞ over the ten slots. -/
theorem binmax_apply {n2 n3 : Nat} (src : FVec Ideal ⟨4, ![7, 10, n2, n3]⟩ .f32)
    (h : Shape.Reduces ⟨4, ![7, 10, n2, n3]⟩ [1] ⟨3, ![7, n2, n3]⟩) (hφ : FKind.Formats .f32)
    (hacc : (0xFF800000#32 : BitVec 32) = FKind.maximumf.neutral .f32 hφ) (p : Fin 7) (c : Fin n2) (d : Fin n3) :
    multiReduction (F := Ideal) .maximumf [1] ⟨3, ![7, n2, n3]⟩ src 0xFF800000#32 h hφ hacc (ix3 p c d)
      = (Finset.univ : Finset (Fin 10)).fold max Cert.RoiPool.negInf (fun k => src (ix4 p k c d)) := by
  refine (Ideal.multiReduction_maximumf_single src _ h hφ hacc (ix3 p c d)).trans ?_
  show (Finset.univ : Finset (Fin 10)).fold max Cert.RoiPool.negInf (fun k : Fin 10 => src (h.lift (ix3 p c d) k)) = _
  congr 1
  funext k
  congr 1
  funext a
  match a with
  | ⟨0, _⟩ => exact Fin.ext rfl
  | ⟨1, _⟩ => exact Fin.ext rfl
  | ⟨2, _⟩ => exact Fin.ext rfl
  | ⟨3, _⟩ => exact Fin.ext rfl

/-! ## The column selection: a product with the one-hot column matrix -/

/-- The dimension numbers of the column product: [70,64] times [1792,64], contracting both 64s. -/
abbrev D2 := dot_S70x64_S1792x64_S70x1792_1_1_0_0_n_n

theorem lhs2 (a : Fin 70) (b : Fin 1792) (w : Fin 64) :
    D2.lhsIdx (ix2 a b) ((contrEquiv1 D2 64 rfl rfl).symm w) = ix2 a w := by
  funext d
  match d with
  | ⟨0, _⟩ => exact Fin.ext (by simp [DotDims.lhsIdx, dot_S70x64_S1792x64_S70x1792_1_1_0_0_n_n]; rfl)
  | ⟨1, _⟩ => exact Fin.ext ((D2.lhsIdx_val_of_single (cl := 1) rfl _ _).trans (contrEquiv1_symm_val _ 64 rfl rfl w))

theorem rhs2 (a : Fin 70) (b : Fin 1792) (w : Fin 64) :
    D2.rhsIdx (ix2 a b) ((contrEquiv1 D2 64 rfl rfl).symm w) = ix2 b w := by
  funext d
  match d with
  | ⟨0, _⟩ => exact Fin.ext (by simp [DotDims.rhsIdx, dot_S70x64_S1792x64_S70x1792_1_1_0_0_n_n]; rfl)
  | ⟨1, _⟩ => exact Fin.ext ((D2.rhsIdx_val_of_single (cr := 1) rfl _ _).trans (contrEquiv1_symm_val _ 64 rfl rfl w))

/-- The column product at (column bin, slot, row bin, channel): the sum over the 64 columns of the one-hot entry
    times the row maximum's entry. -/
theorem colprod_apply (v : FVec Ideal S7x256x64 .f32) (x2 : FVec Ideal S1x1x70x64 .f32)
    (sc1 : S1x1x70x64.ShapeCasts S70x64) (sc2 : S7x256x64.ShapeCasts S1792x64) (sc3 : S70x1792.ShapeCasts S7x10x7x256)
    (q : Fin 7) (k : Fin 10) (p : Fin 7) (ch : Fin 256) :
    shapeCast S7x10x7x256 (matmul D2 (some .fp32) (shapeCast S70x64 x2 sc1) (shapeCast S1792x64 v sc2)
        (constant (F := Ideal) S70x1792 .f32 0x00000000#32)) sc3 (ix4 q k p ch)
      = ∑ w : Fin 64, x2 (ix4 (0 : Fin 1) (0 : Fin 1) (⟨q.val * 10 + k.val, by omega⟩ : Fin 70) w) * v (ix3 p ch w) := by
  refine (shapeCast_apply _ _ (ix4 q k p ch) (ix2 (⟨q.val * 10 + k.val, by omega⟩ : Fin 70) (⟨p.val * 256 + ch.val, by omega⟩ : Fin 1792)) ?_).trans ?_
  · rw [Shape.rowMajor_val_two, Shape.rowMajor_val_four]
    show (q.val * 10 + k.val) * 1792 + (p.val * 256 + ch.val) = ((q.val * 10 + k.val) * 7 + p.val) * 256 + ch.val
    omega
  · refine (Ideal.matmul_constant_zero_apply D2 _ _ _ _).trans ?_
    rw [← Equiv.sum_comp (contrEquiv1 D2 64 rfl rfl).symm]
    refine Finset.sum_congr rfl fun w _ => ?_
    rw [lhs2, rhs2]
    congr 1
    · refine shapeCast_apply _ _ _ (ix4 (0 : Fin 1) (0 : Fin 1) (⟨q.val * 10 + k.val, by omega⟩ : Fin 70) w) ?_
      rw [Shape.rowMajor_val_two, Shape.rowMajor_val_four]
      show (((0 : Fin 1).val * 1 + (0 : Fin 1).val) * 70 + (q.val * 10 + k.val)) * 64 + w.val = (q.val * 10 + k.val) * 64 + w.val
      simp
    · refine shapeCast_apply _ _ _ (ix3 p ch w) ?_
      rw [Shape.rowMajor_val_two, Shape.rowMajor_val_three]
      show (p.val * 256 + ch.val) * 64 + w.val = (p.val * 256 + ch.val) * 64 + w.val
      rfl

/-- A comparison of word vectors at an index compares the words. -/
theorem cmpi_apply {s : Shape} {n : Nat} (pr : CmpIPredicate) (x y : IVec s n) (i : s.Idx) :
    cmpi pr x y i = IntOp.cmpi pr (x i) (y i) := rfl

/-! ## The row stage and the column stage at an index -/

/-- The column product's input at (column bin, slot, row bin, channel): the masked maximum over the row bin's slots
    of the scratch's entries at the selected rows and the selected column. -/
theorem pay3_value (xs : Vec Ideal S64x256x64 .f32) (x1 x2 : Vec Ideal S1x1x70x64 .f32) (x3 : Vec Ideal S1x1x7x10 .i32)
    (iy ix : Fin 7 → Fin 10 → Fin 64)
    (h1 : ∀ (p : Fin 7) (k : Fin 10) (h : Fin 64),
      x1 (ix4 (0 : Fin 1) (0 : Fin 1) (⟨p.val * 10 + k.val, by omega⟩ : Fin 70) h) = if iy p k = h then 1 else 0)
    (h2 : ∀ (p : Fin 7) (k : Fin 10) (w : Fin 64),
      x2 (ix4 (0 : Fin 1) (0 : Fin 1) (⟨p.val * 10 + k.val, by omega⟩ : Fin 70) w) = if ix p k = w then 1 else 0)
    (q : Fin 7) (kw : Fin 10) (p : Fin 7) (ch : Fin 256) :
    k0_pay3 (F := Ideal) xs x1 x3 x2 (ix4 q kw p ch)
      = Cert.RoiPool.maskedMax (fun kh => decide (x3 (ix4 (0 : Fin 1) (0 : Fin 1) p kh) ≠ 0#32))
          (fun kh => xs (ix3 (iy p kh) ch (ix q kw))) := by
  unfold k0_pay3
  refine (colprod_apply _ _ _ _ _ q kw p ch).trans ?_
  simp only [h2]
  refine (Cert.RoiPool.sum_onehot_mul (ix q kw) _).trans ?_
  refine (binmax_apply _ _ _ _ p ch (ix q kw)).trans ?_
  unfold Cert.RoiPool.maskedMax
  congr 1
  funext kh
  rw [select_apply, cmpi_apply, broadcast_apply, broadcast_apply, mask4_apply, select_ne_zero, rowprod_apply]
  simp only [h1]
  rw [Cert.RoiPool.sum_onehot_mul]
  rfl

/-- The column masks at (column bin, slot, row bin, channel): the column bin's slot word. -/
theorem pay4_apply (x4 : Vec Ideal S1x1x7x10 .i32) (q : Fin 7) (k : Fin 10) (p : Fin 7) (ch : Fin 256) :
    k0_pay4 (F := Ideal) x4 (ix4 q k p ch) = x4 (ix4 (0 : Fin 1) (0 : Fin 1) q k) := by
  unfold k0_pay4
  exact mask4_apply x4 _ _ _ _ q k p ch

/-- The masked maximum, unfolded once. -/
theorem maskedMax_eq (mask : Fin 10 → Bool) (g : Fin 10 → EReal) :
    Cert.RoiPool.maskedMax mask g
      = (Finset.univ : Finset (Fin 10)).fold max Cert.RoiPool.negInf (fun k => if mask k = true then g k else Cert.RoiPool.negFill) := rfl

end Cert.KernelIdeal.KBlock

end
-- ==== Proof.KPayload.lean ====
/-
  The pooling body's arithmetic read at one element, on the extended reals.

  The body selects rows of the (re-laid) feature block by multiplying with a matrix of one-hot rows,
  takes the masked maximum over each row bin, selects columns the same way, takes the masked maximum
  over each column bin, and joins zero in where the bin overlaps the padding.  A product with a one-hot
  row is a selection (one term of the sum survives), so the element is the nested masked maximum of
  the selected entries.
-/
import proofs.«121944_j5746666242434_2_alg».proof.Proof.Gen.KernelIdeal.Skeleton
import proofs.«121944_j5746666242434_2_alg».proof.Proof.PoolSpec
import Idealize.ShloMosaic.Lib.ValueIdx
import Idealize.ShloMosaic.Lib.ValueLayout
import Idealize.ShloMosaic.Lib.Pipeline.Value
import Idealize.ShloMosaic.PureOps.Ideal.Laws
import proofs.«121944_j5746666242434_2_alg».proof.Proof.KPayloadA

noncomputable section

namespace Cert.KernelIdeal.KBlock

open Idealize.ShloMosaic Idealize.ShloMosaic.ValueIdx Cert.KernelIdeal Cert.KernelIdeal.Gen

/-- The body's last payload at an output element, over any column-stage values and masks: the masked maximum over the
    column bin's slots, joined with zero where the padding word is set. -/
theorem pay1_apply (v23 : FVec Ideal S7x10x7x256 .f32) (v28 v29 : IVec S7x10x7x256 32) (x5 : Vec Ideal S1x1x7x7 .i32)
    (pi pj : Fin 7) (ch : Fin 256) (m : EReal)
    (hm : (Finset.univ : Finset (Fin 10)).fold max Cert.RoiPool.negInf
        (fun kw => Scalar.select (IntOp.cmpi .ne (v28 (ix4 pj kw pi ch)) (v29 (ix4 pj kw pi ch))) (v23 (ix4 pj kw pi ch)) Cert.RoiPool.negFill) = m) :
    k0_pay1 (F := Ideal) v23 v28 v29 x5 (ix5 (0 : Fin 1) (0 : Fin 1) pi pj ch)
      = if decide (x5 (ix4 (0 : Fin 1) (0 : Fin 1) pi pj) ≠ 0#32) = true then max m 0 else m := by
  have hv : ∀ (sr : S7x10x7x256.Reduces [1] S7x7x256) (hφ : FKind.Formats .f32)
      (hacc : (0xFF800000#32 : BitVec 32) = FKind.maximumf.neutral .f32 hφ) (tr : S7x7x256.Transposes [1, 0, 2] S7x7x256),
      transpose S7x7x256 [1, 0, 2] (multiReduction (F := Ideal) .maximumf [1] S7x7x256
        (select (cmpi .ne v28 v29) v23 (broadcast S7x10x7x256 (Scalar.ofBits .f32 0xFF61B1E6#32))) 0xFF800000#32 sr hφ hacc) tr (ix3 pi pj ch) = m := by
    intro sr hφ hacc tr
    refine (transpose_apply _ _ _ (ix3 pi pj ch) (ix3 pj pi ch) ?_).trans ?_
    · intro b
      match b with
      | ⟨0, _⟩ => rfl
      | ⟨1, _⟩ => rfl
      | ⟨2, _⟩ => rfl
    · refine (binmax_apply _ _ _ _ pj pi ch).trans ?_
      rw [← hm]
      rfl
  unfold k0_pay1
  refine (shapeCast_apply _ _ (ix5 (0 : Fin 1) (0 : Fin 1) pi pj ch) (ix3 pi pj ch) ?_).trans ?_
  · rw [Shape.rowMajor_val_three, Shape.rowMajor_val_five]
    show (pi.val * 7 + pj.val) * 256 + ch.val = (((((0 : Fin 1).val * 1 + (0 : Fin 1).val) * 7 + pi.val) * 7 + pj.val) * 256 + ch.val)
    simp
  · rw [select_apply, cmpi_apply, broadcast_apply, mask3_apply, select_ne_zero, maximumf_apply, broadcast_apply]
    exact if_congr Iff.rfl (congrArg₂ max (hv _ _ _ _) Ideal.ofBits_zero_f32) (hv _ _ _ _)

/-! ## The two statements -/

/-- The re-laid feature block at (row, channel, column) is the feature block at (channel, row, column). -/
theorem relaid_apply (x0 : Vec Ideal S1x256x64x64 .f32) (h : Fin 64) (ch : Fin 256) (w : Fin 64) :
    k0_pay2 (F := Ideal) x0 (ix3 h ch w) = x0 (ix4 (0 : Fin 1) ch h w) := by
  unfold k0_pay2
  rw [shapeCast_self]
  refine (transpose_apply _ _ _ (ix3 h ch w) (ix3 ch h w) ?_).trans ?_
  · intro b
    match b with
    | ⟨0, _⟩ => rfl
    | ⟨1, _⟩ => rfl
    | ⟨2, _⟩ => rfl
  · refine shapeCast_apply _ _ _ (ix4 (0 : Fin 1) ch h w) ?_
    rw [Shape.rowMajor_val_three, Shape.rowMajor_val_four]
    show (((0 : Fin 1).val * 256 + ch.val) * 64 + h.val) * 64 + w.val = (ch.val * 64 + h.val) * 64 + w.val
    simp

/-- One element of the output block: the pooled value of the channel's plane of the scratch, with the
    row and column numbers the one-hot matrices encode and the masks read off the integer blocks. -/
theorem block_value (xs : Vec Ideal S64x256x64 .f32) (x1 x2 : Vec Ideal S1x1x70x64 .f32)
    (x3 x4 : Vec Ideal S1x1x7x10 .i32) (x5 : Vec Ideal S1x1x7x7 .i32)
    (iy ix : Fin 7 → Fin 10 → Fin 64)
    (h1 : ∀ (p : Fin 7) (k : Fin 10) (h : Fin 64),
      x1 (ix4 (0 : Fin 1) (0 : Fin 1) (⟨p.val * 10 + k.val, by omega⟩ : Fin 70) h) = if iy p k = h then 1 else 0)
    (h2 : ∀ (p : Fin 7) (k : Fin 10) (w : Fin 64),
      x2 (ix4 (0 : Fin 1) (0 : Fin 1) (⟨p.val * 10 + k.val, by omega⟩ : Fin 70) w) = if ix p k = w then 1 else 0)
    (pi pj : Fin 7) (ch : Fin 256) :
    k0_pay1 (F := Ideal) (k0_pay3 xs x1 x3 x2) (k0_pay4 x4) k0_pay5 x5 (ix5 (0 : Fin 1) (0 : Fin 1) pi pj ch)
      = Cert.RoiPool.poolVal (fun h w => xs (ix3 h ch w)) (iy pi)
          (fun k => decide (x3 (ix4 (0 : Fin 1) (0 : Fin 1) pi k) ≠ 0#32)) (ix pj)
          (fun k => decide (x4 (ix4 (0 : Fin 1) (0 : Fin 1) pj k) ≠ 0#32))
          (decide (x5 (ix4 (0 : Fin 1) (0 : Fin 1) pi pj) ≠ 0#32)) := by
  refine (pay1_apply _ _ _ x5 pi pj ch
    (Cert.RoiPool.maskedMax (fun k => decide (x4 (ix4 (0 : Fin 1) (0 : Fin 1) pj k) ≠ 0#32))
      (fun kw => Cert.RoiPool.maskedMax (fun k => decide (x3 (ix4 (0 : Fin 1) (0 : Fin 1) pi k) ≠ 0#32))
        (fun kh => xs (ix3 (iy pi kh) ch (ix pj kw))))) ?_).trans ?_
  · refine Eq.trans ?_ (maskedMax_eq _ _).symm
    congr 1
    funext kw
    rw [pay4_apply, pay3_value xs x1 x2 x3 iy ix h1 h2]
    exact select_ne_zero _ _ _
  · rfl

end Cert.KernelIdeal.KBlock

end
-- ==== Proof.LibAfter.lean ====
/-
  Two general facts about running a straight line of host operations as a fold over the buffer
  contents: a line cut in two runs as the second part after the first, and a list of lines glued
  together runs as the lines one after the other.
-/
import Idealize.ShloMosaic.Lib.StableHlo.Run

namespace Idealize.ShloMosaic.StableHlo

variable {τ : Topo} {sig : RefSig} {Val : EltTy → Type}

/-- The contents after a line cut in two: the second part's fold over the first part's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The contents after several lines glued together: fold the lines one after the other. -/
theorem after_flatten (ls : List (List (HloOp τ sig Val))) (V : Valuation τ sig Val) :
    after ls.flatten V = ls.foldl (fun W l => after l W) V := by
  induction ls generalizing V with
  | nil => rfl
  | cons l ls ih => simp only [List.flatten_cons, after_append, ih, List.foldl_cons]

end Idealize.ShloMosaic.StableHlo
-- ==== Proof.KHostSplit.lean ====
/-
  The host operations before the pooling region, cut in two: everything up to the raw tables (row and
  column numbers before clipping, the validity bits), and the short last stretch that widens the masks
  to words, clips the line numbers into the plane, builds the padding mask and the two one-hot selector
  arrays.  The contents the region finds are the last stretch's fold over the first part's contents; the
  equations about the last stretch are then read off it without opening the first part.
-/
import proofs.«121944_j5746666242434_2_alg».proof.Proof.Gen.KernelIdeal.Frame.Runs
import proofs.«121944_j5746666242434_2_alg».proof.Proof.LibAfter

noncomputable section

namespace Cert.KernelIdeal.KHost

open Idealize.ShloMosaic Idealize.ShloMosaic.TcCoe Idealize.ShloMosaic.StableHlo Idealize.SL.Sem Cert.KernelIdeal Cert.KernelIdeal.Gen

variable {F : FTy → Type} [FloatOps F] (m : (ℓ : Loc nD τ sig) → Buf (Elt F) ℓ)

/-- The last three operations of the eleventh line: the row mask widened to a word, and the two clip bounds. -/
abbrev tail10 : List (HloOp τ sig (Elt F)) :=
  [ StableHlo.unary main_v111 main_v112 ((extui 32 · natLt_1_32) : (⟨S2x64x7x10, .i1⟩ : BufTy).Contents (Elt F) → (⟨S2x64x7x10, .i32⟩ : BufTy).Contents (Elt F)),
    StableHlo.nullary main_c_19 (constantI S_ 32 0#32),
    StableHlo.nullary main_c_20 (constantI S_ 32 63#32) ]

/-- The eleventh line is its first 78 operations followed by those three. -/
theorem h10_split : (hostOps0_10 : List (HloOp τ sig (Elt F))) = hostOps0_10.take 78 ++ tail10 := rfl

/-- The buffer contents before the last stretch. -/
def pre (c : Dev nD) : Valuation τ sig (Elt F) :=
  StableHlo.after (List.flatten [hostOps0, hostOps0_1, hostOps0_2, hostOps0_3, hostOps0_4, hostOps0_5, hostOps0_6, hostOps0_7, hostOps0_8, hostOps0_9] ++ hostOps0_10.take 78) (fun b => m (c, b))

/-- The last stretch. -/
abbrev suffix : List (HloOp τ sig (Elt F)) :=
  tail10 ++ List.flatten [hostOps0_11, hostOps0_12, hostOps0_13, hostOps0_14, hostOps0_15, hostOps0_16, hostOps0_17]

/-- What the region finds is the last stretch's fold over the contents before it. -/
theorem V0_split (c : Dev nD) : V0 m c = StableHlo.after suffix (pre m c) := by
  unfold pre
  rw [← after_append]
  show StableHlo.after _ _ = _
  congr 1

/-- Clipping a table of line numbers into the plane: at least 0, at most 63. -/
def clipK (x : IVec S2x64x7x10 32) : IVec S2x64x7x10 32 :=
  minsi (broadcastInDim S2x64x7x10 ![] bcast_S_S2x64x7x10 (id (constantI S_ 32 63#32)))
    (maxsi (broadcastInDim S2x64x7x10 ![] bcast_S_S2x64x7x10 (id (constantI S_ 32 0#32))) x)

/-- The one-hot selector of a table of line numbers: the table's (bin, position) pairs laid out as 70
    rows, each row the indicator of its line number among the 64 lines. -/
def onehotK (x : IVec S2x64x7x10 32) : FVec F S2x64x70x64 .f32 :=
  uitofp .f32 (cmpi .eq
    (broadcastInDim S2x64x70x64 ![0, 1, 2, 3] bcast_S2x64x70x1_S2x64x70x64_0_1_2_3
      (broadcastInDim S2x64x70x1 ![0, 1, 2] bcast_S2x64x70_S2x64x70x1_0_1_2
        (shapeCast S2x64x70 x shapeCasts_S2x64x7x10_S2x64x70)))
    (broadcastInDim S2x64x70x64 ![0, 1, 2, 3] bcast_S1x1x1x64_S2x64x70x64_0_1_2_3 (iotaInDim S1x1x1x64 32 3)))

end Cert.KernelIdeal.KHost

end
-- ==== Proof.KHostEqsA.lean ====
/-
  The last host stretch, equation by equation (first half): each clipped table is the clip of its raw
  table, and each mask the region is handed as words is the widening of the one-bit mask.
-/
import proofs.«121944_j5746666242434_2_alg».proof.Proof.KHostSplit

noncomputable section

namespace Cert.KernelIdeal.KHost

open Idealize.ShloMosaic Idealize.ShloMosaic.TcCoe Idealize.ShloMosaic.StableHlo Idealize.SL.Sem Cert.KernelIdeal Cert.KernelIdeal.Gen

variable {F : FTy → Type} [FloatOps F] (m : (ℓ : Loc nD τ sig) → Buf (Elt F) ℓ)

attribute [local irreducible] minsi maxsi broadcastInDim constantI extui uitofp cmpi shapeCast iotaInDim ori addi in
/-- The clipped row numbers are the clip of the raw row numbers. -/
theorem v113_eq (c : Dev nD) : V m c main_v113 = clipK (V m c main_v108) := by
  show V0 m c (Proc.devRef .tc main_v113) = clipK (V0 m c (Proc.devRef .tc main_v108))
  rw [V0_split]
  generalize pre m c = W
  simp only [suffix, tail10, List.flatten_cons, List.flatten_nil, List.append_nil, hostOps0_11, hostOps0_12, hostOps0_13, hostOps0_14, hostOps0_15, hostOps0_16, hostOps0_17, List.cons_append, List.nil_append]
  after_results_simp
  unfold clipK
  rfl

attribute [local irreducible] minsi maxsi broadcastInDim constantI extui uitofp cmpi shapeCast iotaInDim ori addi in
/-- The clipped column numbers are the clip of the raw column numbers. -/
theorem v124_eq (c : Dev nD) : V m c main_v124 = clipK (V m c main_v119) := by
  show V0 m c (Proc.devRef .tc main_v124) = clipK (V0 m c (Proc.devRef .tc main_v119))
  rw [V0_split]
  generalize pre m c = W
  simp only [suffix, tail10, List.flatten_cons, List.flatten_nil, List.append_nil, hostOps0_11, hostOps0_12, hostOps0_13, hostOps0_14, hostOps0_15, hostOps0_16, hostOps0_17, List.cons_append, List.nil_append]
  after_results_simp
  unfold clipK
  rfl

attribute [local irreducible] minsi maxsi broadcastInDim constantI extui uitofp cmpi shapeCast iotaInDim ori addi in
/-- The row mask as words is the one-bit row mask widened. -/
theorem v112_eq (c : Dev nD) : V m c main_v112 = extui 32 (V m c main_v111 : IVec S2x64x7x10 1) natLt_1_32 := by
  show V0 m c (Proc.devRef .tc main_v112) = extui 32 (V0 m c (Proc.devRef .tc main_v111) : IVec S2x64x7x10 1) natLt_1_32
  rw [V0_split]
  generalize pre m c = W
  simp only [suffix, tail10, List.flatten_cons, List.flatten_nil, List.append_nil, hostOps0_11, hostOps0_12, hostOps0_13, hostOps0_14, hostOps0_15, hostOps0_16, hostOps0_17, List.cons_append, List.nil_append]
  after_results_simp

attribute [local irreducible] minsi maxsi broadcastInDim constantI extui uitofp cmpi shapeCast iotaInDim ori addi in
/-- The column mask as words is the one-bit column mask widened. -/
theorem v123_eq (c : Dev nD) : V m c main_v123 = extui 32 (V m c main_v122 : IVec S2x64x7x10 1) natLt_1_32 := by
  show V0 m c (Proc.devRef .tc main_v123) = extui 32 (V0 m c (Proc.devRef .tc main_v122) : IVec S2x64x7x10 1) natLt_1_32
  rw [V0_split]
  generalize pre m c = W
  simp only [suffix, tail10, List.flatten_cons, List.flatten_nil, List.append_nil, hostOps0_11, hostOps0_12, hostOps0_13, hostOps0_14, hostOps0_15, hostOps0_16, hostOps0_17, List.cons_append, List.nil_append]
  after_results_simp

end Cert.KernelIdeal.KHost

end
-- ==== Proof.KHostEqsB.lean ====
/-
  The last host stretch, equation by equation (second half): each selector array is the one-hot
  selector of its clipped table.
-/
import proofs.«121944_j5746666242434_2_alg».proof.Proof.KHostSplit

noncomputable section

namespace Cert.KernelIdeal.KHost

open Idealize.ShloMosaic Idealize.ShloMosaic.TcCoe Idealize.ShloMosaic.StableHlo Idealize.SL.Sem Cert.KernelIdeal Cert.KernelIdeal.Gen

variable {F : FTy → Type} [FloatOps F] (m : (ℓ : Loc nD τ sig) → Buf (Elt F) ℓ)

attribute [local irreducible] minsi maxsi broadcastInDim constantI extui uitofp cmpi shapeCast iotaInDim ori addi in
/-- The row selector is the one-hot selector of the clipped row numbers. -/
theorem v174_eq (c : Dev nD) : V m c main_v174 = onehotK (F := F) (V m c main_v113) := by
  show V0 m c (Proc.devRef .tc main_v174) = onehotK (F := F) (V0 m c (Proc.devRef .tc main_v113))
  rw [V0_split]
  generalize pre m c = W
  simp only [suffix, tail10, List.flatten_cons, List.flatten_nil, List.append_nil, hostOps0_11, hostOps0_12, hostOps0_13, hostOps0_14, hostOps0_15, hostOps0_16, hostOps0_17, List.cons_append, List.nil_append]
  after_results_simp
  unfold onehotK
  rfl

attribute [local irreducible] minsi maxsi broadcastInDim constantI extui uitofp cmpi shapeCast iotaInDim ori addi in
/-- The column selector is the one-hot selector of the clipped column numbers. -/
theorem v176_eq (c : Dev nD) : V m c main_v176 = onehotK (F := F) (V m c main_v124) := by
  show V0 m c (Proc.devRef .tc main_v176) = onehotK (F := F) (V0 m c (Proc.devRef .tc main_v124))
  rw [V0_split]
  generalize pre m c = W
  simp only [suffix, tail10, List.flatten_cons, List.flatten_nil, List.append_nil, hostOps0_11, hostOps0_12, hostOps0_13, hostOps0_14, hostOps0_15, hostOps0_16, hostOps0_17, List.cons_append, List.nil_append]
  after_results_simp
  unfold onehotK
  rfl

end Cert.KernelIdeal.KHost

end
-- ==== Proof.KHost.lean ====
/-
  What the two one-hot windows hold when the pooling region is entered.

  The host builds, for every batch entry and box, a 70 × 64 matrix per direction: row 10·p + k of it is
  the indicator of the line number that position k of bin p names (the clipped table of row numbers for
  one matrix, of column numbers for the other).  A clipped line number lies in the plane, so reading it
  as a clamped line loses nothing, and the indicator at line h is 1 exactly when that line is h.
-/
import proofs.«121944_j5746666242434_2_alg».proof.Proof.KHostEqsA
import proofs.«121944_j5746666242434_2_alg».proof.Proof.KHostEqsB
import proofs.«121944_j5746666242434_2_alg».proof.Proof.PoolSpec
import Idealize.ShloMosaic.Lib.ValueIdx
import Idealize.ShloMosaic.Lib.Pipeline.Value

noncomputable section

namespace Cert.KernelIdeal.KHost

open Idealize.ShloMosaic Idealize.ShloMosaic.TcCoe Idealize.ShloMosaic.ValueIdx Idealize.SL.Sem Cert.KernelIdeal Cert.KernelIdeal.Gen

/-- A word clipped to at least 0 and at most 63 (signed) lies between 0 and 63. -/
theorem word_clip_range (w : BitVec 32) :
    0 ≤ (IntOp.minsi 63#32 (IntOp.maxsi 0#32 w)).toInt ∧ (IntOp.minsi 63#32 (IntOp.maxsi 0#32 w)).toInt ≤ 63 := by
  have h0 : (0#32 : BitVec 32).toInt = 0 := by decide
  have h63 : (63#32 : BitVec 32).toInt = 63 := by decide
  unfold IntOp.minsi IntOp.maxsi
  simp only [BitVec.slt]
  split_ifs with h1 h2 h2 <;> simp only [decide_eq_true_eq, h0, h63, not_lt] at * <;> omega

/-- Every entry of a clipped table lies between 0 and 63. -/
theorem clipK_range (x : IVec S2x64x7x10 32) (i : S2x64x7x10.Idx) :
    0 ≤ (clipK x i).toInt ∧ (clipK x i).toInt ≤ 63 :=
  word_clip_range (x i)

/-- A word between 0 and 63 is the word of a line h exactly when the line it names is h. -/
theorem word_eq_iff_lineOf (w : BitVec 32) (h : Fin 64) (h0 : 0 ≤ w.toInt) (h63 : w.toInt ≤ 63) :
    w = BitVec.ofNat 32 h.val ↔ Cert.RoiPool.lineOf w = h := by
  have hn : w.toInt = (w.toNat : Int) := by
    rw [BitVec.toInt_eq_toNat_cond] at h0 h63 ⊢
    split_ifs at h0 h63 ⊢ with hc
    · rfl
    · have := w.isLt; omega
  have hlt : w.toNat ≤ 63 := by omega
  have hh := h.isLt
  constructor
  · intro e
    apply Fin.ext
    show min w.toInt.toNat 63 = h.val
    rw [hn, Int.toNat_natCast, e, BitVec.toNat_ofNat, Nat.mod_eq_of_lt (by omega)]
    omega
  · intro e
    have e' : min w.toInt.toNat 63 = h.val := congrArg Fin.val e
    rw [hn, Int.toNat_natCast] at e'
    apply BitVec.eq_of_toNat_eq
    rw [BitVec.toNat_ofNat, Nat.mod_eq_of_lt (by omega)]
    omega

/-- The one-hot selector of a table at (b, r, 10·p + k, h): 1 when the table's entry at (b, r, p, k) is the
    word of line h, else 0. -/
theorem onehotK_apply (x : IVec S2x64x7x10 32) (b : Fin 2) (r : Fin 64) (p : Fin 7) (k : Fin 10) (h : Fin 64) :
    onehotK (F := Ideal) x (ix4 b r (⟨p.val * 10 + k.val, by omega⟩ : Fin 70) h)
      = if x (ix4 b r p k) = BitVec.ofNat 32 h.val then (1 : EReal) else 0 := by
  have hA : (broadcastInDim S2x64x70x64 ![0, 1, 2, 3] bcast_S2x64x70x1_S2x64x70x64_0_1_2_3
      (broadcastInDim S2x64x70x1 ![0, 1, 2] bcast_S2x64x70_S2x64x70x1_0_1_2
        (shapeCast S2x64x70 x shapeCasts_S2x64x7x10_S2x64x70)))
      (ix4 b r (⟨p.val * 10 + k.val, by omega⟩ : Fin 70) h) = x (ix4 b r p k) := by
    rw [broadcastInDim_apply _ _ _ _ (ix4 b r (⟨p.val * 10 + k.val, by omega⟩ : Fin 70) (0 : Fin 1))
      (by intro a; match a with | ⟨0, _⟩ => rfl | ⟨1, _⟩ => rfl | ⟨2, _⟩ => rfl | ⟨3, _⟩ => rfl)]
    rw [broadcastInDim_apply _ _ _ _ (ix3 b r (⟨p.val * 10 + k.val, by omega⟩ : Fin 70))
      (by intro a; match a with | ⟨0, _⟩ => rfl | ⟨1, _⟩ => rfl | ⟨2, _⟩ => rfl)]
    refine shapeCast_apply x _ _ (ix4 b r p k) ?_
    rw [Shape.rowMajor_val_four, Shape.rowMajor_val_three]
    show ((b.val * 64 + r.val) * 7 + p.val) * 10 + k.val = (b.val * 64 + r.val) * 70 + (p.val * 10 + k.val)
    omega
  unfold onehotK
  show FloatOps.uitofp (F := Ideal) .f32 (IntOp.cmpi .eq _ _) = _
  rw [hA]
  show (((BitVec.ofBool (x (ix4 b r p k) == BitVec.ofNat 32 h.val)).toNat : ℝ) : EReal) = _
  by_cases e : x (ix4 b r p k) = BitVec.ofNat 32 h.val
  · rw [if_pos e, e]; simp
  · rw [if_neg e]; simp [e]

variable (m : (ℓ : Loc nD τ sig) → Buf (Elt Ideal) ℓ)

/-- The row selector at (b, r, 10·p + k, h): 1 when position k of row bin p names row h, else 0. -/
theorem ohrow_apply (c : Dev nD) (b : Fin 2) (r : Fin 64) (p : Fin 7) (k : Fin 10) (h : Fin 64) :
    (V m c main_v174 : FVec Ideal S2x64x70x64 .f32) (ix4 b r (⟨p.val * 10 + k.val, by omega⟩ : Fin 70) h)
      = if Cert.RoiPool.lineOf ((V m c main_v113 : IVec S2x64x7x10 32) (ix4 b r p k)) = h then (1 : EReal) else 0 := by
  rw [v174_eq m c, onehotK_apply]
  have hr := clipK_range (V m c main_v108) (ix4 b r p k)
  rw [← v113_eq m c] at hr
  exact if_congr (word_eq_iff_lineOf _ h hr.1 hr.2) rfl rfl

/-- The column selector at (b, r, 10·p + k, w): 1 when position k of column bin p names column w, else 0. -/
theorem ohcol_apply (c : Dev nD) (b : Fin 2) (r : Fin 64) (p : Fin 7) (k : Fin 10) (w : Fin 64) :
    (V m c main_v176 : FVec Ideal S2x64x70x64 .f32) (ix4 b r (⟨p.val * 10 + k.val, by omega⟩ : Fin 70) w)
      = if Cert.RoiPool.lineOf ((V m c main_v124 : IVec S2x64x7x10 32) (ix4 b r p k)) = w then (1 : EReal) else 0 := by
  rw [v176_eq m c, onehotK_apply]
  have hr := clipK_range (V m c main_v119) (ix4 b r p k)
  rw [← v124_eq m c] at hr
  exact if_congr (word_eq_iff_lineOf _ w hr.1 hr.2) rfl rfl

end Cert.KernelIdeal.KHost

end
-- ==== Proof.KArrayBlocks.lean ====
/-
  Where each window's block sits in its array.

  Grid point t is the pair (b, r) with t = 64·b + r.  The feature window's block index is (b, 0, 0, 0);
  every other window's is (b, r, 0, …, 0).  So an element of a block at in-block coordinates y is the
  array's element at (b, y₁, y₂, y₃) for the feature window and at (b, r, y₂, …) for the others.
-/
import proofs.«121944_j5746666242434_2_alg».proof.Proof.Gen.KernelIdeal.Frame
import Idealize.ShloMosaic.Lib.ValueIdx
import Idealize.ShloMosaic.Lib.Pipeline.Value

noncomputable section

namespace Cert.KernelIdeal.KArray

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The feature window's block index at every point. -/
theorem idx0 : ∀ t : Fin cfg0.N, win0_0.index t (0 : Fin 4) = t.val / 64 ∧ win0_0.index t (1 : Fin 4) = 0
    ∧ win0_0.index t (2 : Fin 4) = 0 ∧ win0_0.index t (3 : Fin 4) = 0 :=
  (by decide +kernel : ∀ t : Fin grid0.N, _)

/-- Window 1's block index at every point. -/
theorem idx1 : ∀ t : Fin cfg0.N, win0_1.index t (0 : Fin 4) = t.val / 64 ∧ win0_1.index t (1 : Fin 4) = t.val % 64
    ∧ win0_1.index t (2 : Fin 4) = 0 ∧ win0_1.index t (3 : Fin 4) = 0 :=
  (by decide +kernel : ∀ t : Fin grid0.N, _)

/-- Window 2's block index at every point. -/
theorem idx2 : ∀ t : Fin cfg0.N, win0_2.index t (0 : Fin 4) = t.val / 64 ∧ win0_2.index t (1 : Fin 4) = t.val % 64
    ∧ win0_2.index t (2 : Fin 4) = 0 ∧ win0_2.index t (3 : Fin 4) = 0 :=
  (by decide +kernel : ∀ t : Fin grid0.N, _)

/-- Window 3's block index at every point. -/
theorem idx3 : ∀ t : Fin cfg0.N, win0_3.index t (0 : Fin 4) = t.val / 64 ∧ win0_3.index t (1 : Fin 4) = t.val % 64
    ∧ win0_3.index t (2 : Fin 4) = 0 ∧ win0_3.index t (3 : Fin 4) = 0 :=
  (by decide +kernel : ∀ t : Fin grid0.N, _)

/-- Window 4's block index at every point. -/
theorem idx4 : ∀ t : Fin cfg0.N, win0_4.index t (0 : Fin 4) = t.val / 64 ∧ win0_4.index t (1 : Fin 4) = t.val % 64
    ∧ win0_4.index t (2 : Fin 4) = 0 ∧ win0_4.index t (3 : Fin 4) = 0 :=
  (by decide +kernel : ∀ t : Fin grid0.N, _)

/-- Window 5's block index at every point. -/
theorem idx5 : ∀ t : Fin cfg0.N, win0_5.index t (0 : Fin 4) = t.val / 64 ∧ win0_5.index t (1 : Fin 4) = t.val % 64
    ∧ win0_5.index t (2 : Fin 4) = 0 ∧ win0_5.index t (3 : Fin 4) = 0 :=
  (by decide +kernel : ∀ t : Fin grid0.N, _)

/-- The output window's block index at every point. -/
theorem idx6 : ∀ t : Fin cfg0.N, win0_6.index t (0 : Fin 5) = t.val / 64 ∧ win0_6.index t (1 : Fin 5) = t.val % 64
    ∧ win0_6.index t (2 : Fin 5) = 0 ∧ win0_6.index t (3 : Fin 5) = 0 ∧ win0_6.index t (4 : Fin 5) = 0 :=
  (by decide +kernel : ∀ t : Fin grid0.N, _)

/-- The feature block at point (b, r), read at (channel, row, column). -/
theorem blk0_apply (c : Dev nD) (t : Fin cfg0.N) (b : Fin 2) (hb : t.val / 64 = b.val) (ch : Fin 256) (h w : Fin 64) :
    (iblk m c 0 t : Vec Ideal S1x256x64x64 .f32) (ix4 (0 : Fin 1) ch h w)
      = (V m c main_arg0 : FVec Ideal S2x256x64x64 .f32) (ix4 b ch h w) := by
  obtain ⟨e0, e1, e2, e3⟩ := idx0 t
  unfold iblk
  rw [View.read_apply]
  show V m c main_arg0 (((cfg0.win 0).blk t).view.emb (ix4 (0 : Fin 1) ch h w)) = V m c main_arg0 (ix4 b ch h w)
  refine congrArg _ (funext fun a => Fin.ext ?_)
  match a with
  | ⟨0, _⟩ => show win0_0.index t (0 : Fin 4) * 1 + 1 * 0 = b.val; omega
  | ⟨1, _⟩ => show win0_0.index t (1 : Fin 4) * 256 + 1 * ch.val = ch.val; omega
  | ⟨2, _⟩ => show win0_0.index t (2 : Fin 4) * 64 + 1 * h.val = h.val; omega
  | ⟨3, _⟩ => show win0_0.index t (3 : Fin 4) * 64 + 1 * w.val = w.val; omega

/-- Two points of the same batch entry see the same feature block. -/
theorem blk0_congr (c : Dev nD) (t t' : Fin cfg0.N) (h : t.val / 64 = t'.val / 64) :
    (iblk m c 0 t : Vec Ideal S1x256x64x64 .f32) = (iblk m c 0 t' : Vec Ideal S1x256x64x64 .f32) := by
  have hN : cfg0.N = 128 := N_0
  have hb : t.val / 64 < 2 := by have := t.isLt; omega
  funext y
  have ey : y = ix4 (0 : Fin 1) (y 1) (y 2) (y 3) := by
    funext a
    match a with
    | ⟨0, _⟩ => exact Subsingleton.elim (α := Fin 1) _ _
    | ⟨1, _⟩ => rfl
    | ⟨2, _⟩ => rfl
    | ⟨3, _⟩ => rfl
  rw [ey]
  exact (blk0_apply m c t ⟨t.val / 64, hb⟩ rfl (y 1) (y 2) (y 3)).trans
    (blk0_apply m c t' ⟨t.val / 64, hb⟩ h.symm (y 1) (y 2) (y 3)).symm

/-- The row selector block at point (b, r), read at its two in-block coordinates. -/
theorem blk1_apply (c : Dev nD) (t : Fin cfg0.N) (b : Fin 2) (r : Fin 64) (hb : t.val / 64 = b.val) (hr : t.val % 64 = r.val)
    (p : Fin 70) (q : Fin 64) :
    (iblk m c 1 t : Vec Ideal S1x1x70x64 .f32) (ix4 (0 : Fin 1) (0 : Fin 1) p q)
      = (V m c main_v174 : FVec Ideal S2x64x70x64 .f32) (ix4 b r p q) := by
  obtain ⟨e0, e1, e2, e3⟩ := idx1 t
  unfold iblk
  rw [View.read_apply]
  show V m c main_v174 (((cfg0.win 1).blk t).view.emb (ix4 (0 : Fin 1) (0 : Fin 1) p q)) = V m c main_v174 (ix4 b r p q)
  refine congrArg _ (funext fun a => Fin.ext ?_)
  match a with
  | ⟨0, _⟩ => show win0_1.index t (0 : Fin 4) * 1 + 1 * 0 = b.val; omega
  | ⟨1, _⟩ => show win0_1.index t (1 : Fin 4) * 1 + 1 * 0 = r.val; omega
  | ⟨2, _⟩ => show win0_1.index t (2 : Fin 4) * 70 + 1 * p.val = p.val; omega
  | ⟨3, _⟩ => show win0_1.index t (3 : Fin 4) * 64 + 1 * q.val = q.val; omega

/-- The column selector block at point (b, r), read at its two in-block coordinates. -/
theorem blk2_apply (c : Dev nD) (t : Fin cfg0.N) (b : Fin 2) (r : Fin 64) (hb : t.val / 64 = b.val) (hr : t.val % 64 = r.val)
    (p : Fin 70) (q : Fin 64) :
    (iblk m c 2 t : Vec Ideal S1x1x70x64 .f32) (ix4 (0 : Fin 1) (0 : Fin 1) p q)
      = (V m c main_v176 : FVec Ideal S2x64x70x64 .f32) (ix4 b r p q) := by
  obtain ⟨e0, e1, e2, e3⟩ := idx2 t
  unfold iblk
  rw [View.read_apply]
  show V m c main_v176 (((cfg0.win 2).blk t).view.emb (ix4 (0 : Fin 1) (0 : Fin 1) p q)) = V m c main_v176 (ix4 b r p q)
  refine congrArg _ (funext fun a => Fin.ext ?_)
  match a with
  | ⟨0, _⟩ => show win0_2.index t (0 : Fin 4) * 1 + 1 * 0 = b.val; omega
  | ⟨1, _⟩ => show win0_2.index t (1 : Fin 4) * 1 + 1 * 0 = r.val; omega
  | ⟨2, _⟩ => show win0_2.index t (2 : Fin 4) * 70 + 1 * p.val = p.val; omega
  | ⟨3, _⟩ => show win0_2.index t (3 : Fin 4) * 64 + 1 * q.val = q.val; omega

/-- The row mask block at point (b, r), read at its two in-block coordinates. -/
theorem blk3_apply (c : Dev nD) (t : Fin cfg0.N) (b : Fin 2) (r : Fin 64) (hb : t.val / 64 = b.val) (hr : t.val % 64 = r.val)
    (p : Fin 7) (q : Fin 10) :
    (iblk m c 3 t : Vec Ideal S1x1x7x10 .i32) (ix4 (0 : Fin 1) (0 : Fin 1) p q)
      = (V m c main_v112 : IVec S2x64x7x10 32) (ix4 b r p q) := by
  obtain ⟨e0, e1, e2, e3⟩ := idx3 t
  unfold iblk
  rw [View.read_apply]
  show V m c main_v112 (((cfg0.win 3).blk t).view.emb (ix4 (0 : Fin 1) (0 : Fin 1) p q)) = V m c main_v112 (ix4 b r p q)
  refine congrArg _ (funext fun a => Fin.ext ?_)
  match a with
  | ⟨0, _⟩ => show win0_3.index t (0 : Fin 4) * 1 + 1 * 0 = b.val; omega
  | ⟨1, _⟩ => show win0_3.index t (1 : Fin 4) * 1 + 1 * 0 = r.val; omega
  | ⟨2, _⟩ => show win0_3.index t (2 : Fin 4) * 7 + 1 * p.val = p.val; omega
  | ⟨3, _⟩ => show win0_3.index t (3 : Fin 4) * 10 + 1 * q.val = q.val; omega

/-- The column mask block at point (b, r), read at its two in-block coordinates. -/
theorem blk4_apply (c : Dev nD) (t : Fin cfg0.N) (b : Fin 2) (r : Fin 64) (hb : t.val / 64 = b.val) (hr : t.val % 64 = r.val)
    (p : Fin 7) (q : Fin 10) :
    (iblk m c 4 t : Vec Ideal S1x1x7x10 .i32) (ix4 (0 : Fin 1) (0 : Fin 1) p q)
      = (V m c main_v123 : IVec S2x64x7x10 32) (ix4 b r p q) := by
  obtain ⟨e0, e1, e2, e3⟩ := idx4 t
  unfold iblk
  rw [View.read_apply]
  show V m c main_v123 (((cfg0.win 4).blk t).view.emb (ix4 (0 : Fin 1) (0 : Fin 1) p q)) = V m c main_v123 (ix4 b r p q)
  refine congrArg _ (funext fun a => Fin.ext ?_)
  match a with
  | ⟨0, _⟩ => show win0_4.index t (0 : Fin 4) * 1 + 1 * 0 = b.val; omega
  | ⟨1, _⟩ => show win0_4.index t (1 : Fin 4) * 1 + 1 * 0 = r.val; omega
  | ⟨2, _⟩ => show win0_4.index t (2 : Fin 4) * 7 + 1 * p.val = p.val; omega
  | ⟨3, _⟩ => show win0_4.index t (3 : Fin 4) * 10 + 1 * q.val = q.val; omega

/-- The padding mask block at point (b, r), read at its two in-block coordinates. -/
theorem blk5_apply (c : Dev nD) (t : Fin cfg0.N) (b : Fin 2) (r : Fin 64) (hb : t.val / 64 = b.val) (hr : t.val % 64 = r.val)
    (p : Fin 7) (q : Fin 7) :
    (iblk m c 5 t : Vec Ideal S1x1x7x7 .i32) (ix4 (0 : Fin 1) (0 : Fin 1) p q)
      = (V m c main_v172 : IVec S2x64x7x7 32) (ix4 b r p q) := by
  obtain ⟨e0, e1, e2, e3⟩ := idx5 t
  unfold iblk
  rw [View.read_apply]
  show V m c main_v172 (((cfg0.win 5).blk t).view.emb (ix4 (0 : Fin 1) (0 : Fin 1) p q)) = V m c main_v172 (ix4 b r p q)
  refine congrArg _ (funext fun a => Fin.ext ?_)
  match a with
  | ⟨0, _⟩ => show win0_5.index t (0 : Fin 4) * 1 + 1 * 0 = b.val; omega
  | ⟨1, _⟩ => show win0_5.index t (1 : Fin 4) * 1 + 1 * 0 = r.val; omega
  | ⟨2, _⟩ => show win0_5.index t (2 : Fin 4) * 7 + 1 * p.val = p.val; omega
  | ⟨3, _⟩ => show win0_5.index t (3 : Fin 4) * 7 + 1 * q.val = q.val; omega

end Cert.KernelIdeal.KArray

end
-- ==== Proof.KArrayInv.lean ====
/-
  What the output block and the carried scratch hold after every grid point.

  By induction on the point: at a box's first point the body re-lays the point's feature block into the
  scratch and pools it; at a later point the scratch still holds the re-laid feature block of the point
  before, which belongs to the same batch entry and is therefore the point's own.  So after every point
  the scratch is the re-laid feature block of the point's batch entry, and the output block is its
  pooling with the point's own selectors and masks.
-/
import proofs.«121944_j5746666242434_2_alg».proof.Proof.Gen.KernelIdeal.Frame
import proofs.«121944_j5746666242434_2_alg».proof.Proof.KPieces
import proofs.«121944_j5746666242434_2_alg».proof.Proof.KArrayBlocks

noncomputable section

namespace Cert.KernelIdeal.KArray

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The pooled block of point t: the pooling of the re-laid feature block with the point's selectors and masks. -/
def outBlk (c : Dev nD) (t : Fin cfg0.N) : Vec Ideal S1x1x7x7x256 .f32 :=
  k0_pay1 (k0_pay3 (k0_pay2 (iblk m c 0 t)) (iblk m c 1 t) (iblk m c 3 t) (iblk m c 2 t)) (k0_pay4 (iblk m c 4 t)) k0_pay5 (iblk m c 5 t)

/-- A box's first point. -/
theorem step_A (c : Dev nD) (t : Fin cfg0.N) (h0 : t.val % 64 = 0) :
    outsAt0 m c t.val t.isLt = (outBlk m c t, k0_pay2 (iblk m c 0 t)) := by
  rw [outsAt0_A m c t h0]
  unfold outBlk
  exact congrArg₂ Prod.mk
    (KBlock.out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t))
    (KBlock.scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t))

/-- A later point, given what the point before left in the scratch. -/
theorem step_B (c : Dev nD) (t : Fin cfg0.N) (h0 : ¬t.val % 64 = 0)
    (ih : (outsAt0 m c (t.val - 1) (Nat.lt_of_le_of_lt (Nat.sub_le _ _) t.isLt)).2 = k0_pay2 (iblk m c 0 t)) :
    outsAt0 m c t.val t.isLt = (outBlk m c t, k0_pay2 (iblk m c 0 t)) := by
  rw [outsAt0_B m c t h0]
  unfold sout0_B_0 outBlk
  rw [ih]
  exact congrArg₂ Prod.mk
    (KBlock.out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (k0_pay2 (iblk m c 0 t)))
    rfl

/-- After every point: the output block is the point's pooled block, the scratch the re-laid feature block. -/
theorem inv (c : Dev nD) : ∀ (n : ℕ) (hn : n < cfg0.N),
    outsAt0 m c n hn = (outBlk m c ⟨n, hn⟩, k0_pay2 (iblk m c 0 ⟨n, hn⟩))
  | 0, hn => step_A m c ⟨0, hn⟩ rfl
  | n + 1, hn => by
    by_cases h0 : (n + 1) % 64 = 0
    · exact step_A m c ⟨n + 1, hn⟩ h0
    · have hprev := inv c n (Nat.lt_of_succ_lt hn)
      have hsame := blk0_congr m c ⟨n, Nat.lt_of_succ_lt hn⟩ ⟨n + 1, hn⟩ (by show n / 64 = (n + 1) / 64; omega)
      exact step_B m c ⟨n + 1, hn⟩ h0 ((congrArg Prod.snd hprev).trans (congrArg (k0_pay2 (F := Ideal)) hsame))

/-- What point t leaves in the output window's staging buffer. -/
theorem after6_eq (c : Dev nD) (t : Fin cfg0.N) : (dats m 0 c).after 6 t = outBlk m c t := by
  rw [after0_6, inv m c t.val t.isLt]

end Cert.KernelIdeal.KArray

end
-- ==== Proof.KArrayValue.lean ====
/-
  One element of a point's pooled block, in terms of the arrays the region finds.

  At point (b, r) the selector blocks are the one-hot rows of box r's line tables, the re-laid feature
  block read at (row, channel, column) is the feature array at (b, channel, row, column), and the mask
  blocks are box r's slices of the mask arrays.  So the block's element at (row bin, column bin, channel)
  is the pooled value of the channel's plane of batch entry b with box r's line numbers and masks.
-/
import proofs.«121944_j5746666242434_2_alg».proof.Proof.KArrayInv
import proofs.«121944_j5746666242434_2_alg».proof.Proof.KPayload
import proofs.«121944_j5746666242434_2_alg».proof.Proof.KHost
import proofs.«121944_j5746666242434_2_alg».proof.Proof.PoolSpec

noncomputable section

namespace Cert.KernelIdeal.KArray

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

theorem poolVal_congr6 {plane plane' : Fin 64 → Fin 64 → EReal} {iy iy' ix ix' : Fin 10 → Fin 64} {vy vy' vx vx' : Fin 10 → Bool}
    {pad pad' : Bool} (h1 : plane = plane') (h5 : iy = iy') (h2 : vy = vy') (h6 : ix = ix') (h3 : vx = vx') (h4 : pad = pad') :
    Cert.RoiPool.poolVal plane iy vy ix vx pad = Cert.RoiPool.poolVal plane' iy' vy' ix' vx' pad' := by
  subst h1 h2 h3 h4 h5 h6; rfl

/-- The pooling of blocks that are slice (b, r) of whole arrays: the feature block slice b of `A0`, the selector
    blocks the one-hot rows of box r's line tables `T1`, `T2`, the mask blocks box r's slices of `M3`, `M4`, `M5`. -/
theorem pooled_of_slices (x0 : Vec Ideal S1x256x64x64 .f32) (x1 x2 : Vec Ideal S1x1x70x64 .f32)
    (x3 x4 : Vec Ideal S1x1x7x10 .i32) (x5 : Vec Ideal S1x1x7x7 .i32)
    (A0 : FVec Ideal S2x256x64x64 .f32) (T1 T2 M3 M4 : IVec S2x64x7x10 32) (M5 : IVec S2x64x7x7 32) (b : Fin 2) (r : Fin 64)
    (h0 : ∀ (ch : Fin 256) (h w : Fin 64), x0 (ix4 (0 : Fin 1) ch h w) = A0 (ix4 b ch h w))
    (h1 : ∀ (p : Fin 7) (k : Fin 10) (h : Fin 64),
      x1 (ix4 (0 : Fin 1) (0 : Fin 1) (⟨p.val * 10 + k.val, by omega⟩ : Fin 70) h)
        = if Cert.RoiPool.lineOf (T1 (ix4 b r p k)) = h then 1 else 0)
    (h2 : ∀ (p : Fin 7) (k : Fin 10) (w : Fin 64),
      x2 (ix4 (0 : Fin 1) (0 : Fin 1) (⟨p.val * 10 + k.val, by omega⟩ : Fin 70) w)
        = if Cert.RoiPool.lineOf (T2 (ix4 b r p k)) = w then 1 else 0)
    (h3 : ∀ (p : Fin 7) (k : Fin 10), x3 (ix4 (0 : Fin 1) (0 : Fin 1) p k) = M3 (ix4 b r p k))
    (h4 : ∀ (p : Fin 7) (k : Fin 10), x4 (ix4 (0 : Fin 1) (0 : Fin 1) p k) = M4 (ix4 b r p k))
    (h5 : ∀ (p q : Fin 7), x5 (ix4 (0 : Fin 1) (0 : Fin 1) p q) = M5 (ix4 b r p q))
    (pi pj : Fin 7) (ch : Fin 256) :
    k0_pay1 (F := Ideal) (k0_pay3 (k0_pay2 x0) x1 x3 x2) (k0_pay4 x4) k0_pay5 x5 (ix5 (0 : Fin 1) (0 : Fin 1) pi pj ch)
      = Cert.RoiPool.poolVal
        (fun h w => A0 (ix4 b ch h w))
        (fun k => Cert.RoiPool.lineOf (T1 (ix4 b r pi k)))
        (fun k => decide (M3 (ix4 b r pi k) ≠ 0#32))
        (fun k => Cert.RoiPool.lineOf (T2 (ix4 b r pj k)))
        (fun k => decide (M4 (ix4 b r pj k) ≠ 0#32))
        (decide (M5 (ix4 b r pi pj) ≠ 0#32)) := by
  rw [KBlock.block_value (k0_pay2 x0) x1 x2 x3 x4 x5
    (fun p k => Cert.RoiPool.lineOf (T1 (ix4 b r p k))) (fun p k => Cert.RoiPool.lineOf (T2 (ix4 b r p k))) h1 h2 pi pj ch]
  simp only [KBlock.relaid_apply, h0, h3, h4, h5]

/-- The pooled block of point (b, r) at (row bin, column bin, channel). -/
theorem outBlk_apply (c : Dev nD) (t : Fin cfg0.N) (b : Fin 2) (r : Fin 64) (hb : t.val / 64 = b.val) (hr : t.val % 64 = r.val)
    (pi pj : Fin 7) (ch : Fin 256) :
    outBlk m c t (ix5 (0 : Fin 1) (0 : Fin 1) pi pj ch)
      = Cert.RoiPool.poolVal
        (fun h w => (m ((c : Thread nD τ).loc main_arg0) : FVec Ideal S2x256x64x64 .f32) (ix4 b ch h w))
        (fun k => Cert.RoiPool.lineOf ((V m c main_v113 : IVec S2x64x7x10 32) (ix4 b r pi k)))
        (fun k => decide ((V m c main_v112 : IVec S2x64x7x10 32) (ix4 b r pi k) ≠ 0#32))
        (fun k => Cert.RoiPool.lineOf ((V m c main_v124 : IVec S2x64x7x10 32) (ix4 b r pj k)))
        (fun k => decide ((V m c main_v123 : IVec S2x64x7x10 32) (ix4 b r pj k) ≠ 0#32))
        (decide ((V m c main_v172 : IVec S2x64x7x7 32) (ix4 b r pi pj) ≠ 0#32)) := by
  have h0 : ∀ (ch : Fin 256) (h w : Fin 64), (iblk m c 0 t : Vec Ideal S1x256x64x64 .f32) (ix4 (0 : Fin 1) ch h w)
      = (m ((c : Thread nD τ).loc main_arg0) : FVec Ideal S2x256x64x64 .f32) (ix4 b ch h w) :=
    fun ch h w => (blk0_apply m c t b hb ch h w).trans (congrFun (V_main_arg0 m c) (ix4 b ch h w))
  have h1 : ∀ (p : Fin 7) (k : Fin 10) (h : Fin 64),
      (iblk m c 1 t : Vec Ideal S1x1x70x64 .f32) (ix4 (0 : Fin 1) (0 : Fin 1) (⟨p.val * 10 + k.val, by omega⟩ : Fin 70) h)
        = if Cert.RoiPool.lineOf ((V m c main_v113 : IVec S2x64x7x10 32) (ix4 b r p k)) = h then (1 : EReal) else 0 :=
    fun p k h => (blk1_apply m c t b r hb hr (⟨p.val * 10 + k.val, by omega⟩ : Fin 70) h).trans (KHost.ohrow_apply m c b r p k h)
  have h2 : ∀ (p : Fin 7) (k : Fin 10) (w : Fin 64),
      (iblk m c 2 t : Vec Ideal S1x1x70x64 .f32) (ix4 (0 : Fin 1) (0 : Fin 1) (⟨p.val * 10 + k.val, by omega⟩ : Fin 70) w)
        = if Cert.RoiPool.lineOf ((V m c main_v124 : IVec S2x64x7x10 32) (ix4 b r p k)) = w then (1 : EReal) else 0 :=
    fun p k w => (blk2_apply m c t b r hb hr (⟨p.val * 10 + k.val, by omega⟩ : Fin 70) w).trans (KHost.ohcol_apply m c b r p k w)
  have key := pooled_of_slices (iblk m c 0 t) (iblk m c 1 t) (iblk m c 2 t) (iblk m c 3 t) (iblk m c 4 t) (iblk m c 5 t)
    (m ((c : Thread nD τ).loc main_arg0)) (V m c main_v113) (V m c main_v124) (V m c main_v112) (V m c main_v123) (V m c main_v172) b r
    h0 h1 h2 (blk3_apply m c t b r hb hr) (blk4_apply m c t b r hb hr) (blk5_apply m c t b r hb hr) pi pj ch
  unfold outBlk
  refine key.trans ?_
  refine poolVal_congr6 ?_ ?_ ?_ ?_ ?_ ?_
  · rfl
  · rfl
  · exact funext fun k => decide_eq_decide.mpr Iff.rfl
  · rfl
  · exact funext fun k => decide_eq_decide.mpr Iff.rfl
  · exact decide_eq_decide.mpr Iff.rfl

end Cert.KernelIdeal.KArray

end
-- ==== Proof.KArrayFinal.lean ====
/-
  From the points' blocks to the output array, and through the host's final transposition.

  Point 64·b + r writes its pooled block back as slice (b, r) of the region's output array, and the
  slices cover the array; so the array at (b, r, row bin, column bin, channel) is the pooled value of
  the channel's plane of batch entry b with box r's tables.  The host then moves the channel axis in
  front of the two bin axes.
-/
import proofs.«121944_j5746666242434_2_alg».proof.Proof.KArrayValue
import Idealize.ShloMosaic.Lib.Tactic

noncomputable section

namespace Cert.KernelIdeal.KArray

open Idealize.ShloMosaic Idealize.ShloMosaic.TcCoe Idealize.ShloMosaic.ValueIdx Idealize.SL.Sem Cert.KernelIdeal Cert.KernelIdeal.Gen
open Idealize.ShloMosaic.Pipeline (Dat)
variable (m : (ℓ : Loc nD τ sig) → Buf (Elt Ideal) ℓ)

/-- The pooled value of the channel's plane of batch entry b, with the line numbers and masks the host tables hold for box r. -/
def poolAt (c : Dev nD) (b : Fin 2) (r : Fin 64) (ch : Fin 256) (pi pj : Fin 7) : EReal :=
      Cert.RoiPool.poolVal
        (fun h w => (m ((c : Thread nD τ).loc main_arg0) : FVec Ideal S2x256x64x64 .f32) (ix4 b ch h w))
        (fun k => Cert.RoiPool.lineOf ((V m c main_v113 : IVec S2x64x7x10 32) (ix4 b r pi k)))
        (fun k => decide ((V m c main_v112 : IVec S2x64x7x10 32) (ix4 b r pi k) ≠ 0#32))
        (fun k => Cert.RoiPool.lineOf ((V m c main_v124 : IVec S2x64x7x10 32) (ix4 b r pj k)))
        (fun k => decide ((V m c main_v123 : IVec S2x64x7x10 32) (ix4 b r pj k) ≠ 0#32))
        (decide ((V m c main_v172 : IVec S2x64x7x7 32) (ix4 b r pi pj) ≠ 0#32))

/-- The region's output array, index by index: the channel axis is the last. -/
def G6 (c : Dev nD) : FVec Ideal S2x64x7x7x256 .f32 := fun i => poolAt m c (i 0) (i 1) (i 4) (i 2) (i 3)

theorem G6_ix (c : Dev nD) (b : Fin 2) (r : Fin 64) (pi pj : Fin 7) (ch : Fin 256) :
    G6 m c (ix5 b r pi pj ch) = poolAt m c b r ch pi pj := rfl

/-- Where an element of point (b, r)'s output block sits in the output array. -/
theorem emb6 (t : Fin cfg0.N) (b : Fin 2) (r : Fin 64) (hb : t.val / 64 = b.val) (hr : t.val % 64 = r.val)
    (pi pj : Fin 7) (ch : Fin 256) :
    (((cfg0.win 6).blk t).view.emb (ix5 (0 : Fin 1) (0 : Fin 1) pi pj ch) : S2x64x7x7x256.Idx) = ix5 b r pi pj ch := by
  obtain ⟨e0, e1, e2, e3, e4⟩ := idx6 t
  refine funext fun a => Fin.ext ?_
  match a with
  | ⟨0, _⟩ => show win0_6.index t (0 : Fin 5) * 1 + 1 * 0 = b.val; omega
  | ⟨1, _⟩ => show win0_6.index t (1 : Fin 5) * 1 + 1 * 0 = r.val; omega
  | ⟨2, _⟩ => show win0_6.index t (2 : Fin 5) * 7 + 1 * pi.val = pi.val; omega
  | ⟨3, _⟩ => show win0_6.index t (3 : Fin 5) * 7 + 1 * pj.val = pj.val; omega
  | ⟨4, _⟩ => show win0_6.index t (4 : Fin 5) * 256 + 1 * ch.val = ch.val; omega

/-- A block whose elements are those of slice (b, r) of an array is what the array's block at point (b, r) reads. -/
theorem flush_blk (t : Fin cfg0.N) (b : Fin 2) (r : Fin 64) (hb : t.val / 64 = b.val) (hr : t.val % 64 = r.val)
    (X : Vec Ideal S1x1x7x7x256 .f32) (g : FVec Ideal S2x64x7x7x256 .f32)
    (hX : ∀ (pi pj : Fin 7) (ch : Fin 256), X (ix5 (0 : Fin 1) (0 : Fin 1) pi pj ch) = g (ix5 b r pi pj ch)) :
    (cfg0.win 6).cut (grid0.coords t) X = ((cfg0.win 6).blk t).view.read (Elt Ideal) g := by
  refine funext fun (y : S1x1x7x7x256.Idx) => ?_
  rw [View.read_apply]
  obtain ⟨pi, pj, ch, rfl⟩ : ∃ (pi pj : Fin 7) (ch : Fin 256), y = ix5 (0 : Fin 1) (0 : Fin 1) pi pj ch :=
    ⟨y 2, y 3, y 4, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl
      | ⟨4, _⟩ => rfl⟩
  show X (ix5 (0 : Fin 1) (0 : Fin 1) pi pj ch) = g (((cfg0.win 6).blk t).view.emb (ix5 (0 : Fin 1) (0 : Fin 1) pi pj ch))
  rw [emb6 t b r hb hr pi pj ch]
  exact hX pi pj ch

/-- What point t writes back is block t of the output array's function. -/
theorem flushed_eq (c : Dev nD) (t : Fin cfg0.N) :
    (dats m 0 c).flushed 6 t = ((cfg0.win 6).blk t).view.read (Elt Ideal) (G6 m c) := by
  have hN : cfg0.N = 128 := N_0
  have hb : t.val / 64 < 2 := by have := t.isLt; omega
  have hr : t.val % 64 < 64 := Nat.mod_lt _ (by decide)
  show (cfg0.win 6).cut (grid0.coords t) ((dats m 0 c).after 6 t) = _
  rw [after6_eq]
  exact flush_blk t ⟨t.val / 64, hb⟩ ⟨t.val % 64, hr⟩ rfl rfl (outBlk m c t) (G6 m c) fun pi pj ch =>
    (outBlk_apply m c t ⟨t.val / 64, hb⟩ ⟨t.val % 64, hr⟩ rfl rfl pi pj ch).trans
      (G6_ix m c ⟨t.val / 64, hb⟩ ⟨t.val % 64, hr⟩ pi pj ch).symm

/-- An index of the output array is in point t's block iff each coordinate is in the block's range. -/
theorem mem_blk6 (t : Fin cfg0.N) (i : S2x64x7x7x256.Idx) :
    i ∈ ((cfg0.win 6).blk t).view.set ↔ ∀ a : Fin 5, win0_6.index t a * S1x1x7x7x256.size a ≤ (i a).val ∧ (i a).val < win0_6.index t a * S1x1x7x7x256.size a + S1x1x7x7x256.size a := by
  show i ∈ ((View.whole main_v177).slice (win0_6.rect t)).set ↔ _
  rw [View.set_slice_whole, Rect.mem_set_unit]
  exact Iff.rfl

/-- Slice (b, r) of the output array is the block of point 64·b + r. -/
theorem cover6 (i : S2x64x7x7x256.Idx) :
    ∃ t : Fin cfg0.N, (cfg0.win 6).flush t = true ∧ i ∈ ((cfg0.win 6).blk t).view.set := by
  have hN : cfg0.N = 128 := N_0
  have h0 : (i 0).val < 2 := (i 0).isLt
  have h1 : (i 1).val < 64 := (i 1).isLt
  have h2 : (i 2).val < 7 := (i 2).isLt
  have h3 : (i 3).val < 7 := (i 3).isLt
  have h4 : (i 4).val < 256 := (i 4).isLt
  refine ⟨⟨64 * (i 0).val + (i 1).val, by omega⟩, flush0_6 _, ?_⟩
  rw [mem_blk6]
  obtain ⟨e0, e1, e2, e3, e4⟩ := idx6 ⟨64 * (i 0).val + (i 1).val, by omega⟩
  have d0 : (64 * (i 0).val + (i 1).val) / 64 = (i 0).val := by omega
  have d1 : (64 * (i 0).val + (i 1).val) % 64 = (i 1).val := by omega
  dsimp only at e0 e1
  rw [d0] at e0
  rw [d1] at e1
  intro a
  match a with
  | ⟨0, _⟩ => show win0_6.index _ (0 : Fin 5) * 1 ≤ (i 0).val ∧ (i 0).val < win0_6.index _ (0 : Fin 5) * 1 + 1; omega
  | ⟨1, _⟩ => show win0_6.index _ (1 : Fin 5) * 1 ≤ (i 1).val ∧ (i 1).val < win0_6.index _ (1 : Fin 5) * 1 + 1; omega
  | ⟨2, _⟩ => show win0_6.index _ (2 : Fin 5) * 7 ≤ (i 2).val ∧ (i 2).val < win0_6.index _ (2 : Fin 5) * 7 + 7; omega
  | ⟨3, _⟩ => show win0_6.index _ (3 : Fin 5) * 7 ≤ (i 3).val ∧ (i 3).val < win0_6.index _ (3 : Fin 5) * 7 + 7; omega
  | ⟨4, _⟩ => show win0_6.index _ (4 : Fin 5) * 256 ≤ (i 4).val ∧ (i 4).val < win0_6.index _ (4 : Fin 5) * 256 + 256; omega

/-- The region's output array after the run. -/
theorem final6 (c : Dev nD) : (dats m 0 c).arrAt 6 cfg0.N = G6 m c :=
  (dats m 0 c).arrAt_eq_of_cover 6 (G6 m c) (fun t _ => flushed_eq m c t) cover6

end Cert.KernelIdeal.KArray

end
-- ==== Proof.KArray.lean ====
/-
  The pooling kernel's whole run with its result named.

  The grid walks the batch entries and, inside each, the boxes.  At a box's first point the feature
  block of the batch entry is re-laid into the carried scratch, and every later point of the same batch
  entry finds it there; so at every point the body pools the re-laid feature block of the point's batch
  entry, with the point's own selector matrices and masks.  The point's output block is the slice
  (b, r) of the output array, the blocks cover the array, and the host finally moves the channel axis in
  front of the two bin axes.
-/
import proofs.«121944_j5746666242434_2_alg».proof.Proof.Gen.KernelIdeal.Frame
import proofs.«121944_j5746666242434_2_alg».proof.Proof.KPieces
import proofs.«121944_j5746666242434_2_alg».proof.Proof.KPayload
import proofs.«121944_j5746666242434_2_alg».proof.Proof.KHost
import proofs.«121944_j5746666242434_2_alg».proof.Proof.PoolSpec
import proofs.«121944_j5746666242434_2_alg».proof.Proof.KArrayFinal
import Idealize.ShloMosaic.Lib.StableHlo.Run
import Idealize.ShloMosaic.Lib.Tactic

noncomputable section

namespace Cert.KernelIdeal.KArray

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The kernel's result at (b, r, channel, row bin, column bin): the pooled value of the channel's plane of
    batch entry b, with the line numbers and masks the host tables hold for box r. -/
def KGat (c : Dev nD) (b : Fin 2) (r : Fin 64) (ch : Fin 256) (pi pj : Fin 7) : EReal :=
  Cert.RoiPool.poolVal
    (fun h w => (m ((c : Thread nD τ).loc main_arg0) : FVec Ideal S2x256x64x64 .f32) (ix4 b ch h w))
    (fun k => Cert.RoiPool.lineOf ((V m c main_v113 : IVec S2x64x7x10 32) (ix4 b r pi k)))
    (fun k => decide ((V m c main_v112 : IVec S2x64x7x10 32) (ix4 b r pi k) ≠ 0#32))
    (fun k => Cert.RoiPool.lineOf ((V m c main_v124 : IVec S2x64x7x10 32) (ix4 b r pj k)))
    (fun k => decide ((V m c main_v123 : IVec S2x64x7x10 32) (ix4 b r pj k) ≠ 0#32))
    (decide ((V m c main_v172 : IVec S2x64x7x7 32) (ix4 b r pi pj) ≠ 0#32))

/-- The same as an array. -/
def KG (c : Dev nD) : FVec Ideal S2x64x256x7x7 .f32 :=
  fun j => KGat m c (j 0) (j 1) (j 2) (j 3) (j 4)

/-- The region's output array at an index is the kernel's result there, the channel axis last. -/
theorem G6_apply (c : Dev nD) (b : Fin 2) (r : Fin 64) (pi pj : Fin 7) (ch : Fin 256) :
    G6 m c (ix5 b r pi pj ch) = KGat m c b r ch pi pj := (G6_ix m c b r pi pj ch).trans rfl

/-- The host's transposition of the region's output array is the result array. -/
theorem tail_eq (c : Dev nD) :
    Pipeline.afterTail₀ cfgs (dats m) 0 (V0 m) [hostOps1] c main_v178 = KG m c := by
  unfold Pipeline.afterTail₀
  show StableHlo.after hostOps1 _ (Proc.devRef .tc main_v178) = _
  after_results
  rw [(Pipeline.withArrays_arr spec0 launch0.win.arr_inj c _ _ 6).trans (final6 m c)]
  refine funext fun (j : S2x64x256x7x7.Idx) => ?_
  obtain ⟨b, r, ch, pi, pj, rfl⟩ : ∃ (b : Fin 2) (r : Fin 64) (ch : Fin 256) (pi pj : Fin 7), j = ix5 b r ch pi pj :=
    ⟨j 0, j 1, j 2, j 3, j 4, eq_ix5 j⟩
  refine (transpose_apply [0, 1, 4, 2, 3] (G6 m c) transposes_S2x64x7x7x256_S2x64x256x7x7_0_1_4_2_3
    (ix5 b r ch pi pj) (ix5 b r pi pj ch) ?_).trans (G6_apply m c b r pi pj ch)
  intro a
  match a with
  | ⟨0, _⟩ => rfl
  | ⟨1, _⟩ => rfl
  | ⟨2, _⟩ => rfl
  | ⟨3, _⟩ => rfl
  | ⟨4, _⟩ => rfl

/-- Every weakly fair execution of the kernel program ends with the result array at `KG` and the two
    argument arrays unchanged. -/
theorem kernel_run :
    θ_run defs (onTc (τ := τ) (main (F := Ideal))) ⟨m, fun _ => 0, ρ⟩ fun r' => ∀ c : Dev nD,
      r'.2.mem ((c.tc : Thread nD τ).loc main_v178) = KG m c
      ∧ r'.2.mem ((c.tc : Thread nD τ).loc main_arg0) = m ((c.tc : Thread nD τ).loc main_arg0)
      ∧ r'.2.mem ((c.tc : Thread nD τ).loc main_arg1) = m ((c.tc : Thread nD τ).loc main_arg1) :=
  (θ_run defs _ _).mono (fun _ h c =>
    ⟨((h c).2 main_v178 (Pipeline.mem_restRefs_of main_v178 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KArray

end
-- ==== Proof.KHostEqsC.lean ====
/-
  The padding mask the region is handed as words is the widening of the one-bit padding mask.  The
  one-bit mask is the end of a long computation; the host prefix is cut right after it, so that only the
  widening and what follows it are opened.
-/
import proofs.«121944_j5746666242434_2_alg».proof.Proof.KHostSplit

noncomputable section

namespace Cert.KernelIdeal.KHost

open Idealize.ShloMosaic Idealize.ShloMosaic.TcCoe Idealize.ShloMosaic.StableHlo Idealize.SL.Sem Cert.KernelIdeal Cert.KernelIdeal.Gen

variable {F : FTy → Type} [FloatOps F] (m : (ℓ : Loc nD τ sig) → Buf (Elt F) ℓ)

/-- The last two operations of the fifteenth line: the padding mask widened to words, and the clipped row
    numbers re-laid as 70 rows. -/
abbrev tail14 : List (HloOp τ sig (Elt F)) :=
  [ StableHlo.unary main_v171 main_v172 ((extui 32 · natLt_1_32) : (⟨S2x64x7x7, .i1⟩ : BufTy).Contents (Elt F) → (⟨S2x64x7x7, .i32⟩ : BufTy).Contents (Elt F)),
    StableHlo.reshape main_v113 main_v173 rfl shapeCasts_S2x64x7x10_S2x64x70 ]

/-- The buffer contents right after the one-bit padding mask is computed. -/
def pre2 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13] ++ hostOps0_14.take 49) (fun b => m (c, b))

/-- What is left of the host prefix after that. -/
abbrev suffix2 : List (HloOp τ sig (Elt F)) :=
  tail14 ++ List.flatten [hostOps0_15, hostOps0_16, hostOps0_17]

theorem V0_split2 (c : Dev nD) : V0 m c = StableHlo.after suffix2 (pre2 m c) := by
  unfold pre2
  rw [← after_append]
  show StableHlo.after _ _ = _
  congr 1

attribute [local irreducible] extui uitofp cmpi shapeCast iotaInDim broadcastInDim in
/-- The padding mask as words is the one-bit padding mask widened. -/
theorem v172_eq (c : Dev nD) : V m c main_v172 = extui 32 (V m c main_v171 : IVec S2x64x7x7 1) natLt_1_32 := by
  show V0 m c (Proc.devRef .tc main_v172) = extui 32 (V0 m c (Proc.devRef .tc main_v171) : IVec S2x64x7x7 1) natLt_1_32
  rw [V0_split2]
  generalize pre2 m c = W
  simp only [suffix2, tail14, List.flatten_cons, List.flatten_nil, List.append_nil, hostOps0_15, hostOps0_16, hostOps0_17, List.cons_append, List.nil_append]
  after_results_simp

end Cert.KernelIdeal.KHost

end
-- ==== Proof.RefReadA.lean ====
/-
  The reference's last stretch, stage by stage, read at one element on the extended reals.

  A lookup reads its operand at the batch coordinates, the looked-up line (the start word read signed and
  clamped into the plane) and the remaining coordinates; a mask is a bit of a table broadcast over the other
  axes; a maximum over a bin's ten slots is a fold of `max` from −∞.
-/
import proofs.«121944_j5746666242434_2_alg».proof.Proof.RefTail
import proofs.«121944_j5746666242434_2_alg».proof.Proof.PoolSpec
import Idealize.ShloMosaic.Lib.ValueIdxRank6
import Idealize.ShloMosaic.Lib.ValueIdx
import Idealize.ShloMosaic.Lib.Pipeline.Value
import Idealize.ShloMosaic.PureOps.Ideal.Laws

noncomputable section

namespace Cert.ReferenceIdeal.RefRead

open Idealize.ShloMosaic Idealize.ShloMosaic.ValueIdx Cert.ReferenceIdeal Cert.ReferenceIdeal.Gen Cert.ReferenceIdeal.RefTail

/-! ## The two lookups -/

/-- The dimension numbers of the row lookup. -/
abbrev G1 := gather_S2x256x64x64_S2x64x7x10x1_S2x64x256x7x10x64_25_2_0_0_2_4_1256164

/-- The row lookup at (batch, box, channel, row bin, slot, column): the operand at (batch, channel, the slot's
    line number clamped into the plane, column). -/
theorem rows_gather_apply {α : Type} (feat : S2x256x64x64.Idx → α) (idx : IVec S2x64x7x10x1 32)
    (b : Fin 2) (r : Fin 64) (c : Fin 256) (p : Fin 7) (k : Fin 10) (w : Fin 64) :
    Host.gather G1 feat idx (ix6 b r c p k w)
      = feat (ix4 b c (Cert.RoiPool.lineOf (idx (ix5 b r p k (0 : Fin 1)))) w) := by
  have hsi : ∀ q : Fin G1.startIndexMap.length, G1.siIdx (ix6 b r c p k w) q = ix5 b r p k (0 : Fin 1) := by
    intro q
    funext a
    match a with
    | ⟨0, _⟩ => rfl
    | ⟨1, _⟩ => rfl
    | ⟨2, _⟩ => rfl
    | ⟨3, _⟩ => rfl
    | ⟨4, _⟩ => exact Subsingleton.elim (α := Fin 1) _ _
  unfold Host.gather
  congr 1
  funext a
  refine Fin.ext ?_
  match a with
  | ⟨0, _⟩ =>
    show G1.start (ix6 b r c p k w) idx 0 + G1.batchCoord (ix6 b r c p k w) 0 + G1.offCoord (ix6 b r c p k w) 0 = b.val
    have h1 : G1.start (ix6 b r c p k w) idx 0 = 0 := G1.start_batching _ idx 0 (by decide)
    have h2 : G1.batchCoord (ix6 b r c p k w) 0 = b.val := rfl
    have h3 : G1.offCoord (ix6 b r c p k w) 0 = 0 := rfl
    rw [h1, h2, h3]; simp
  | ⟨1, _⟩ =>
    show G1.start (ix6 b r c p k w) idx 1 + G1.batchCoord (ix6 b r c p k w) 1 + G1.offCoord (ix6 b r c p k w) 1 = c.val
    have h1 : G1.start (ix6 b r c p k w) idx 1 = 0 := rfl
    have h2 : G1.batchCoord (ix6 b r c p k w) 1 = 0 := rfl
    have h3 : G1.offCoord (ix6 b r c p k w) 1 = c.val := rfl
    rw [h1, h2, h3]; simp
  | ⟨2, _⟩ =>
    show G1.start (ix6 b r c p k w) idx 2 + G1.batchCoord (ix6 b r c p k w) 2 + G1.offCoord (ix6 b r c p k w) 2 = (Cert.RoiPool.lineOf (idx (ix5 b r p k (0 : Fin 1)))).val
    have h2 : G1.batchCoord (ix6 b r c p k w) 2 = 0 := rfl
    have h3 : G1.offCoord (ix6 b r c p k w) 2 = 0 := rfl
    rw [h2, h3]
    unfold GatherDims.start
    rw [dif_pos (by decide : (2 : Fin S2x256x64x64.rank) ∈ G1.startIndexMap), hsi]
    rfl
  | ⟨3, _⟩ =>
    show G1.start (ix6 b r c p k w) idx 3 + G1.batchCoord (ix6 b r c p k w) 3 + G1.offCoord (ix6 b r c p k w) 3 = w.val
    have h1 : G1.start (ix6 b r c p k w) idx 3 = 0 := rfl
    have h2 : G1.batchCoord (ix6 b r c p k w) 3 = 0 := rfl
    have h3 : G1.offCoord (ix6 b r c p k w) 3 = w.val := rfl
    rw [h1, h2, h3]; simp

/-- The dimension numbers of the column lookup. -/
abbrev G2 := gather_S2x64x256x7x64_S2x64x7x10x1_S2x64x256x7x7x10_23_4_01_01_4_4_1125671

/-- The column lookup at (batch, box, channel, row bin, column bin, slot): the operand at (batch, box, channel,
    row bin, the slot's line number clamped into the plane). -/
theorem cols_gather_apply {α : Type} (rm : S2x64x256x7x64.Idx → α) (idx : IVec S2x64x7x10x1 32)
    (b : Fin 2) (r : Fin 64) (c : Fin 256) (p q : Fin 7) (k : Fin 10) :
    Host.gather G2 rm idx (ix6 b r c p q k)
      = rm (ix5 b r c p (Cert.RoiPool.lineOf (idx (ix5 b r q k (0 : Fin 1))))) := by
  have hsi : ∀ z : Fin G2.startIndexMap.length, G2.siIdx (ix6 b r c p q k) z = ix5 b r q k (0 : Fin 1) := by
    intro z
    funext a
    match a with
    | ⟨0, _⟩ => rfl
    | ⟨1, _⟩ => rfl
    | ⟨2, _⟩ => rfl
    | ⟨3, _⟩ => rfl
    | ⟨4, _⟩ => exact Subsingleton.elim (α := Fin 1) _ _
  unfold Host.gather
  congr 1
  funext a
  refine Fin.ext ?_
  match a with
  | ⟨0, _⟩ =>
    show G2.start (ix6 b r c p q k) idx 0 + G2.batchCoord (ix6 b r c p q k) 0 + G2.offCoord (ix6 b r c p q k) 0 = b.val
    have h1 : G2.start (ix6 b r c p q k) idx 0 = 0 := G2.start_batching _ idx 0 (by decide)
    have h2 : G2.batchCoord (ix6 b r c p q k) 0 = b.val := rfl
    have h3 : G2.offCoord (ix6 b r c p q k) 0 = 0 := rfl
    rw [h1, h2, h3]; simp
  | ⟨1, _⟩ =>
    show G2.start (ix6 b r c p q k) idx 1 + G2.batchCoord (ix6 b r c p q k) 1 + G2.offCoord (ix6 b r c p q k) 1 = r.val
    have h1 : G2.start (ix6 b r c p q k) idx 1 = 0 := G2.start_batching _ idx 1 (by decide)
    have h2 : G2.batchCoord (ix6 b r c p q k) 1 = r.val := rfl
    have h3 : G2.offCoord (ix6 b r c p q k) 1 = 0 := rfl
    rw [h1, h2, h3]; simp
  | ⟨2, _⟩ =>
    show G2.start (ix6 b r c p q k) idx 2 + G2.batchCoord (ix6 b r c p q k) 2 + G2.offCoord (ix6 b r c p q k) 2 = c.val
    have h1 : G2.start (ix6 b r c p q k) idx 2 = 0 := rfl
    have h2 : G2.batchCoord (ix6 b r c p q k) 2 = 0 := rfl
    have h3 : G2.offCoord (ix6 b r c p q k) 2 = c.val := rfl
    rw [h1, h2, h3]; simp
  | ⟨3, _⟩ =>
    show G2.start (ix6 b r c p q k) idx 3 + G2.batchCoord (ix6 b r c p q k) 3 + G2.offCoord (ix6 b r c p q k) 3 = p.val
    have h1 : G2.start (ix6 b r c p q k) idx 3 = 0 := rfl
    have h2 : G2.batchCoord (ix6 b r c p q k) 3 = 0 := rfl
    have h3 : G2.offCoord (ix6 b r c p q k) 3 = p.val := rfl
    rw [h1, h2, h3]; simp
  | ⟨4, _⟩ =>
    show G2.start (ix6 b r c p q k) idx 4 + G2.batchCoord (ix6 b r c p q k) 4 + G2.offCoord (ix6 b r c p q k) 4 = (Cert.RoiPool.lineOf (idx (ix5 b r q k (0 : Fin 1)))).val
    have h2 : G2.batchCoord (ix6 b r c p q k) 4 = 0 := rfl
    have h3 : G2.offCoord (ix6 b r c p q k) 4 = 0 := rfl
    rw [h2, h3]
    unfold GatherDims.start
    rw [dif_pos (by decide : (4 : Fin S2x64x256x7x64.rank) ∈ G2.startIndexMap), hsi]
    rfl

/-! ## Words -/

/-- A signed comparison "below zero" of a word that is not negative is the bit 0. -/
theorem slt_zero_of_nonneg (x : BitVec 32) (h : 0 ≤ x.toInt) : IntOp.cmpi .slt x 0#32 = 0#1 := by
  have hs : x.slt 0#32 = false := by
    simp only [BitVec.slt, BitVec.toInt_zero]
    exact decide_eq_false (Int.not_lt.mpr h)
  show BitVec.ofBool (x.slt 0#32) = 0#1
  rw [hs]; rfl

/-- A select on a bit is the `if` on "the bit is 1". -/
theorem select_bit {α : Type} (c : BitVec 1) (a b : α) :
    Scalar.select c a b = if decide (c = 1#1) = true then a else b := by
  unfold Scalar.select
  by_cases h : c = 1#1 <;> simp [h]

/-- A comparison of word arrays at an index compares the words. -/
theorem cmpi_apply {s : Shape} {n : Nat} (pr : CmpIPredicate) (x y : IVec s n) (i : s.Idx) :
    cmpi pr x y i = IntOp.cmpi pr (x i) (y i) := rfl

/-! ## The line numbers as the lookups take them -/

/-- A line number that is not negative is handed to the lookup as it is. -/
theorem startIdx_apply (i : IVec S2x64x7x10 32) (b : Fin 2) (r : Fin 64) (p : Fin 7) (k : Fin 10)
    (h : 0 ≤ (i (ix4 b r p k)).toInt) :
    startIdx i (ix5 b r p k (0 : Fin 1)) = i (ix4 b r p k) := by
  unfold startIdx
  refine (broadcastInDim_apply _ _ _ (ix5 b r p k (0 : Fin 1)) (ix4 b r p k) ?_).trans ?_
  · intro a
    match a with
    | ⟨0, _⟩ => show b.val = if (2 : ℕ) = 1 then 0 else b.val; simp
    | ⟨1, _⟩ => show r.val = if (64 : ℕ) = 1 then 0 else r.val; simp
    | ⟨2, _⟩ => show p.val = if (7 : ℕ) = 1 then 0 else p.val; simp
    | ⟨3, _⟩ => show k.val = if (10 : ℕ) = 1 then 0 else k.val; simp
  · rw [select_apply, cmpi_apply]
    have hz : broadcastInDim S2x64x7x10 ![] bcast_S_S2x64x7x10 (constantI S_ 32 0#32) (ix4 b r p k) = 0#32 := rfl
    rw [hz, slt_zero_of_nonneg _ h]
    exact select_zero _ _

/-! ## The masks and the padding step -/

/-- Masking the row lookups: an entry whose slot's bit is off is the fill. -/
theorem maskRows_apply (vy : IVec S2x64x7x10 1) (x : FVec Ideal S2x64x256x7x10x64 .f32)
    (b : Fin 2) (r : Fin 64) (c : Fin 256) (p : Fin 7) (k : Fin 10) (w : Fin 64) :
    maskRows (F := Ideal) vy x (ix6 b r c p k w)
      = if decide (vy (ix4 b r p k) = 1#1) = true then x (ix6 b r c p k w) else Cert.RoiPool.negFill := by
  unfold maskRows
  rw [select_apply, select_bit]
  have hm : broadcastInDim S2x64x256x7x10x64 ![0, 1, 2, 3, 4, 5] bcast_S2x64x1x7x10x1_S2x64x256x7x10x64_0_1_2_3_4_5
      (broadcastInDim S2x64x1x7x10x1 ![0, 1, 3, 4] bcast_S2x64x7x10_S2x64x1x7x10x1_0_1_3_4 vy) (ix6 b r c p k w) = vy (ix4 b r p k) := by
    refine (broadcastInDim_apply _ _ _ (ix6 b r c p k w) (ix6 b r (0 : Fin 1) p k (0 : Fin 1)) ?_).trans ?_
    · intro a
      match a with
      | ⟨0, _⟩ => show b.val = if (2 : ℕ) = 1 then 0 else b.val; simp
      | ⟨1, _⟩ => show r.val = if (64 : ℕ) = 1 then 0 else r.val; simp
      | ⟨2, _⟩ => show (0 : ℕ) = if (1 : ℕ) = 1 then 0 else c.val; simp
      | ⟨3, _⟩ => show p.val = if (7 : ℕ) = 1 then 0 else p.val; simp
      | ⟨4, _⟩ => show k.val = if (10 : ℕ) = 1 then 0 else k.val; simp
      | ⟨5, _⟩ => show (0 : ℕ) = if (1 : ℕ) = 1 then 0 else w.val; simp
    · refine broadcastInDim_apply _ _ _ (ix6 b r (0 : Fin 1) p k (0 : Fin 1)) (ix4 b r p k) ?_
      intro a
      match a with
      | ⟨0, _⟩ => show b.val = if (2 : ℕ) = 1 then 0 else b.val; simp
      | ⟨1, _⟩ => show r.val = if (64 : ℕ) = 1 then 0 else r.val; simp
      | ⟨2, _⟩ => show p.val = if (7 : ℕ) = 1 then 0 else p.val; simp
      | ⟨3, _⟩ => show k.val = if (10 : ℕ) = 1 then 0 else k.val; simp
  rw [hm]
  rfl

/-- Masking the column lookups: an entry whose slot's bit is off is the fill. -/
theorem maskCols_apply (vx : IVec S2x64x7x10 1) (x : FVec Ideal S2x64x256x7x7x10 .f32)
    (b : Fin 2) (r : Fin 64) (c : Fin 256) (p q : Fin 7) (k : Fin 10) :
    maskCols (F := Ideal) vx x (ix6 b r c p q k)
      = if decide (vx (ix4 b r q k) = 1#1) = true then x (ix6 b r c p q k) else Cert.RoiPool.negFill := by
  unfold maskCols
  rw [select_apply, select_bit]
  have hm : broadcastInDim S2x64x256x7x7x10 ![0, 1, 2, 3, 4, 5] bcast_S2x64x1x1x7x10_S2x64x256x7x7x10_0_1_2_3_4_5
      (broadcastInDim S2x64x1x1x7x10 ![0, 1, 4, 5] bcast_S2x64x7x10_S2x64x1x1x7x10_0_1_4_5 vx) (ix6 b r c p q k) = vx (ix4 b r q k) := by
    refine (broadcastInDim_apply _ _ _ (ix6 b r c p q k) (ix6 b r (0 : Fin 1) (0 : Fin 1) q k) ?_).trans ?_
    · intro a
      match a with
      | ⟨0, _⟩ => show b.val = if (2 : ℕ) = 1 then 0 else b.val; simp
      | ⟨1, _⟩ => show r.val = if (64 : ℕ) = 1 then 0 else r.val; simp
      | ⟨2, _⟩ => show (0 : ℕ) = if (1 : ℕ) = 1 then 0 else c.val; simp
      | ⟨3, _⟩ => show (0 : ℕ) = if (1 : ℕ) = 1 then 0 else p.val; simp
      | ⟨4, _⟩ => show q.val = if (7 : ℕ) = 1 then 0 else q.val; simp
      | ⟨5, _⟩ => show k.val = if (10 : ℕ) = 1 then 0 else k.val; simp
    · refine broadcastInDim_apply _ _ _ (ix6 b r (0 : Fin 1) (0 : Fin 1) q k) (ix4 b r q k) ?_
      intro a
      match a with
      | ⟨0, _⟩ => show b.val = if (2 : ℕ) = 1 then 0 else b.val; simp
      | ⟨1, _⟩ => show r.val = if (64 : ℕ) = 1 then 0 else r.val; simp
      | ⟨2, _⟩ => show q.val = if (7 : ℕ) = 1 then 0 else q.val; simp
      | ⟨3, _⟩ => show k.val = if (10 : ℕ) = 1 then 0 else k.val; simp
  rw [hm]
  rfl

/-- The padding step: zero joins in where the bin's padding bit is on. -/
theorem padStep_apply (pad : IVec S2x64x7x7 1) (x : FVec Ideal S2x64x256x7x7 .f32)
    (b : Fin 2) (r : Fin 64) (c : Fin 256) (p q : Fin 7) :
    padStep (F := Ideal) pad x (ix5 b r c p q)
      = if decide (pad (ix4 b r p q) = 1#1) = true then max (x (ix5 b r c p q)) 0 else x (ix5 b r c p q) := by
  unfold padStep
  rw [select_apply, select_bit]
  have hm : broadcastInDim S2x64x256x7x7 ![0, 1, 2, 3, 4] bcast_S2x64x1x7x7_S2x64x256x7x7_0_1_2_3_4
      (broadcastInDim S2x64x1x7x7 ![0, 1, 3, 4] bcast_S2x64x7x7_S2x64x1x7x7_0_1_3_4 pad) (ix5 b r c p q) = pad (ix4 b r p q) := by
    refine (broadcastInDim_apply _ _ _ (ix5 b r c p q) (ix5 b r (0 : Fin 1) p q) ?_).trans ?_
    · intro a
      match a with
      | ⟨0, _⟩ => show b.val = if (2 : ℕ) = 1 then 0 else b.val; simp
      | ⟨1, _⟩ => show r.val = if (64 : ℕ) = 1 then 0 else r.val; simp
      | ⟨2, _⟩ => show (0 : ℕ) = if (1 : ℕ) = 1 then 0 else c.val; simp
      | ⟨3, _⟩ => show p.val = if (7 : ℕ) = 1 then 0 else p.val; simp
      | ⟨4, _⟩ => show q.val = if (7 : ℕ) = 1 then 0 else q.val; simp
    · refine broadcastInDim_apply _ _ _ (ix5 b r (0 : Fin 1) p q) (ix4 b r p q) ?_
      intro a
      match a with
      | ⟨0, _⟩ => show b.val = if (2 : ℕ) = 1 then 0 else b.val; simp
      | ⟨1, _⟩ => show r.val = if (64 : ℕ) = 1 then 0 else r.val; simp
      | ⟨2, _⟩ => show p.val = if (7 : ℕ) = 1 then 0 else p.val; simp
      | ⟨3, _⟩ => show q.val = if (7 : ℕ) = 1 then 0 else q.val; simp
  rw [hm, maximumf_apply]
  have hz : broadcastInDim S2x64x256x7x7 ![] bcast_S_S2x64x256x7x7 (constant (F := Ideal) S_ .f32 0x00000000#32) (ix5 b r c p q)
      = Ideal.ofBits .f32 0x00000000#32 := rfl
  rw [hz, Ideal.ofBits_zero_f32]

/-! ## The maxima over a bin's ten slots -/

/-- The maximum over the slots of a row bin, at (batch, box, channel, row bin, column): the fold of `max` from −∞. -/
theorem rowMax_apply (x : FVec Ideal S2x64x256x7x10x64 .f32) (h : S2x64x256x7x10x64.Reduces [4] S2x64x256x7x64)
    (b : Fin 2) (r : Fin 64) (c : Fin 256) (p : Fin 7) (w : Fin 64) :
    rowMax (F := Ideal) x (ix5 b r c p w)
      = (Finset.univ : Finset (Fin 10)).fold max Cert.RoiPool.negInf (fun k => x (ix6 b r c p k w)) := by
  unfold rowMax
  refine (Host.reduce_eq_fold_single FloatOps.maximumf x _ reducesTo_S2x64x256x7x10x64_S2x64x256x7x64_d4 h h_S_ (ix5 b r c p w)).trans ?_
  show (Finset.univ : Finset (Fin 10)).fold max Cert.RoiPool.negInf (fun k : Fin 10 => x (h.lift (ix5 b r c p w) k)) = _
  congr 1
  funext k
  congr 1
  funext a
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl
  | ⟨5, _⟩ => exact Fin.ext rfl

/-- The maximum over the slots of a column bin, at (batch, box, channel, row bin, column bin): the fold of `max` from −∞. -/
theorem colMax_apply (x : FVec Ideal S2x64x256x7x7x10 .f32) (h : S2x64x256x7x7x10.Reduces [5] S2x64x256x7x7)
    (b : Fin 2) (r : Fin 64) (c : Fin 256) (p q : Fin 7) :
    colMax (F := Ideal) x (ix5 b r c p q)
      = (Finset.univ : Finset (Fin 10)).fold max Cert.RoiPool.negInf (fun k => x (ix6 b r c p q k)) := by
  unfold colMax
  refine (Host.reduce_eq_fold_single FloatOps.maximumf x _ reducesTo_S2x64x256x7x7x10_S2x64x256x7x7_d5 h h_S_ (ix5 b r c p q)).trans ?_
  show (Finset.univ : Finset (Fin 10)).fold max Cert.RoiPool.negInf (fun k : Fin 10 => x (h.lift (ix5 b r c p q) k)) = _
  congr 1
  funext k
  congr 1
  funext a
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl
  | ⟨5, _⟩ => exact Fin.ext rfl

/-! ## The whole stretch at an element -/

/-- The masked maximum, unfolded once. -/
theorem maskedMax_eq (mask : Fin 10 → Bool) (g : Fin 10 → EReal) :
    Cert.RoiPool.maskedMax mask g
      = (Finset.univ : Finset (Fin 10)).fold max Cert.RoiPool.negInf (fun k => if mask k = true then g k else Cert.RoiPool.negFill) := rfl

/-- The row maximum of the masked row lookups at (batch, box, channel, row bin, column): the masked maximum over the
    row bin's slots of the feature plane's entries at the named rows and that column. -/
theorem rowStage_apply (feat : FVec Ideal S2x256x64x64 .f32) (iy : IVec S2x64x7x10 32) (vy : IVec S2x64x7x10 1)
    (hiy : ∀ i, 0 ≤ (iy i).toInt) (b : Fin 2) (r : Fin 64) (c : Fin 256) (p : Fin 7) (w : Fin 64) :
    rowMax (F := Ideal) (maskRows vy (rows feat iy)) (ix5 b r c p w)
      = Cert.RoiPool.maskedMax (fun k => decide (vy (ix4 b r p k) = 1#1))
          (fun k => feat (ix4 b c (Cert.RoiPool.lineOf (iy (ix4 b r p k))) w)) := by
  refine (rowMax_apply _ (by decide) b r c p w).trans ?_
  refine Eq.trans ?_ (maskedMax_eq _ _).symm
  congr 1
  funext k
  rw [maskRows_apply]
  unfold rows
  rw [rows_gather_apply, startIdx_apply iy b r p k (hiy _)]

end Cert.ReferenceIdeal.RefRead

end
-- ==== Proof.RefRead.lean ====
/-
  The reference's last stretch read at one element, on the extended reals.

  Looking a row up by its number, masking, taking the maximum over the row bin, looking a column up,
  masking and taking the maximum over the column bin is, element by element, the nested masked maximum
  of the feature plane's entries at the named rows and columns; the padding step joins zero in.  Line
  numbers that are not negative are looked up as they are (clamped into the plane).
-/
import proofs.«121944_j5746666242434_2_alg».proof.Proof.RefTail
import proofs.«121944_j5746666242434_2_alg».proof.Proof.PoolSpec
import Idealize.ShloMosaic.Lib.ValueIdxRank6
import Idealize.ShloMosaic.Lib.ValueIdx
import Idealize.ShloMosaic.Lib.Pipeline.Value
import Idealize.ShloMosaic.PureOps.Ideal.Laws
import proofs.«121944_j5746666242434_2_alg».proof.Proof.RefReadA

noncomputable section

namespace Cert.ReferenceIdeal.RefRead

open Idealize.ShloMosaic Idealize.ShloMosaic.ValueIdx Cert.ReferenceIdeal Cert.ReferenceIdeal.Gen Cert.ReferenceIdeal.RefTail

/-- One element of the reference's result: the pooled value of the channel's plane, with the line numbers
    and masks of the box's bins. -/
theorem tail_apply (feat : FVec Ideal S2x256x64x64 .f32) (iy : IVec S2x64x7x10 32) (vy : IVec S2x64x7x10 1)
    (ix : IVec S2x64x7x10 32) (vx : IVec S2x64x7x10 1) (pad : IVec S2x64x7x7 1)
    (hiy : ∀ i, 0 ≤ (iy i).toInt) (hix : ∀ i, 0 ≤ (ix i).toInt)
    (b : Fin 2) (r : Fin 64) (ch : Fin 256) (pi pj : Fin 7) :
    tail (F := Ideal) feat iy vy ix vx pad (ix5 b r ch pi pj)
      = Cert.RoiPool.poolVal (fun h w => feat (ix4 b ch h w))
          (fun k => Cert.RoiPool.lineOf (iy (ix4 b r pi k))) (fun k => decide (vy (ix4 b r pi k) = 1#1))
          (fun k => Cert.RoiPool.lineOf (ix (ix4 b r pj k))) (fun k => decide (vx (ix4 b r pj k) = 1#1))
          (decide (pad (ix4 b r pi pj) = 1#1)) := by
  have hc : colMax (F := Ideal) (maskCols vx (cols (rowMax (maskRows vy (rows feat iy))) ix)) (ix5 b r ch pi pj)
      = Cert.RoiPool.maskedMax (fun k => decide (vx (ix4 b r pj k) = 1#1))
          (fun kw => Cert.RoiPool.maskedMax (fun k => decide (vy (ix4 b r pi k) = 1#1))
            (fun kh => feat (ix4 b ch (Cert.RoiPool.lineOf (iy (ix4 b r pi kh))) (Cert.RoiPool.lineOf (ix (ix4 b r pj kw)))))) := by
    refine (colMax_apply _ (by decide) b r ch pi pj).trans ?_
    refine Eq.trans ?_ (maskedMax_eq _ _).symm
    congr 1
    funext kw
    rw [maskCols_apply]
    unfold cols
    rw [cols_gather_apply, startIdx_apply ix b r pj kw (hix _), rowStage_apply feat iy vy hiy]
  unfold tail
  rw [padStep_apply, hc]
  rfl

end Cert.ReferenceIdeal.RefRead

end
-- ==== Proof.Bridge.lean ====
/-
  The two programs' results are one function.

  Both results are the pooled value of the same feature plane.  The reference's last stretch, fed the
  kernel program's own tables — the clipped row and column numbers and the one-bit masks — is, element by
  element, the kernel's result: the kernel's word masks are the one-bit masks widened (a widened bit is
  non-zero exactly when the bit is 1), its one-hot selection reads the clipped line numbers, which lie in
  the plane and are never negative, and the clip is the same function in both programs.
-/
import proofs.«121944_j5746666242434_2_alg».proof.Proof.KArray
import proofs.«121944_j5746666242434_2_alg».proof.Proof.KHostEqsC
import proofs.«121944_j5746666242434_2_alg».proof.Proof.RefRead

noncomputable section

namespace Cert.Bridge

open Idealize.ShloMosaic Idealize.ShloMosaic.TcCoe Idealize.ShloMosaic.ValueIdx Idealize.SL.Sem

/-- A bit widened to a word is non-zero exactly when the bit is 1. -/
theorem widen_ne_zero_iff (b : BitVec 1) : (b.setWidth 32 ≠ 0#32) ↔ b = 1#1 := by
  revert b; decide

/-- The clip is one function in the two programs. -/
theorem clip_eq (x : IVec ⟨4, ![2, 64, 7, 10]⟩ 32) :
    Cert.ReferenceIdeal.RefTail.clip x = Cert.KernelIdeal.KHost.clipK x := rfl

open Cert.KernelIdeal Cert.KernelIdeal.Gen Cert.KernelIdeal.KHost Cert.KernelIdeal.KArray in
/-- The reference's last stretch over the kernel program's tables is the kernel's result. -/
theorem tail_eq_KG (m : (ℓ : Loc nD τ sig) → Buf (Elt Ideal) ℓ) (c : Dev nD) :
    Cert.ReferenceIdeal.RefTail.tail (F := Ideal)
        (m ((c : Thread nD τ).loc main_arg0) : FVec Ideal ⟨4, ![2, 256, 64, 64]⟩ .f32)
        (clipK (V m c main_v108)) (V m c main_v111 : IVec ⟨4, ![2, 64, 7, 10]⟩ 1)
        (clipK (V m c main_v119)) (V m c main_v122 : IVec ⟨4, ![2, 64, 7, 10]⟩ 1)
        (V m c main_v171 : IVec ⟨4, ![2, 64, 7, 7]⟩ 1)
      = KG m c := by
  funext j
  obtain ⟨b, r, ch, pi, pj, rfl⟩ : ∃ (b : Fin 2) (r : Fin 64) (ch : Fin 256) (pi pj : Fin 7), j = ix5 b r ch pi pj :=
    ⟨j 0, j 1, j 2, j 3, j 4, eq_ix5 j⟩
  rw [Cert.ReferenceIdeal.RefRead.tail_apply _ _ _ _ _ _
    (fun i => (clipK_range (V m c main_v108) i).1) (fun i => (clipK_range (V m c main_v119) i).1)]
  show _ = KGat m c b r ch pi pj
  unfold KGat
  rw [v113_eq m c, v124_eq m c, v112_eq m c, v123_eq m c, v172_eq m c]
  have e1 : ∀ (x : IVec S2x64x7x10 1) (i : S2x64x7x10.Idx),
      decide ((extui 32 x natLt_1_32) i ≠ 0#32) = decide (x i = 1#1) :=
    fun x i => Bool.decide_congr (widen_ne_zero_iff (x i))
  have e2 : ∀ (x : IVec S2x64x7x7 1) (i : S2x64x7x7.Idx),
      decide ((extui 32 x natLt_1_32) i ≠ 0#32) = decide (x i = 1#1) :=
    fun x i => Bool.decide_congr (widen_ne_zero_iff (x i))
  simp only [e1, e2]

open Cert.KernelIdeal Cert.KernelIdeal.Gen Cert.KernelIdeal.KArray in
/-- The same with the clip spelt as the reference spells it. -/
theorem tail_clip_eq_KG (m : (ℓ : Loc nD τ sig) → Buf (Elt Ideal) ℓ) (c : Dev nD) :
    Cert.ReferenceIdeal.RefTail.tail (F := Ideal)
        (m ((c : Thread nD τ).loc main_arg0) : FVec Ideal ⟨4, ![2, 256, 64, 64]⟩ .f32)
        (Cert.ReferenceIdeal.RefTail.clip (V m c main_v108)) (V m c main_v111 : IVec ⟨4, ![2, 64, 7, 10]⟩ 1)
        (Cert.ReferenceIdeal.RefTail.clip (V m c main_v119)) (V m c main_v122 : IVec ⟨4, ![2, 64, 7, 10]⟩ 1)
        (V m c main_v171 : IVec ⟨4, ![2, 64, 7, 7]⟩ 1)
      = KG m c := by
  rw [clip_eq, clip_eq]
  exact tail_eq_KG m c

end Cert.Bridge

end
-- ==== Proof.TablesPreA.lean ====
/-
  Stage lemmas for the integer tables both programs compute from the boxes.  The reference's and the kernel
  program's host operations are the same operations in the same order under different buffer numbers.  Both
  lines are cut at the same places; a stage lemma says: over any two buffer contents that agree (at the
  literal type) on the values the stage reads, the two stages leave equal values in a buffer they write (or
  pass through).  Each side is folded to its composed pure term separately and the two terms are the same.
-/
import proofs.«121944_j5746666242434_2_alg».proof.Proof.KHostSplit
import proofs.«121944_j5746666242434_2_alg».proof.Proof.RefRun

noncomputable section

namespace Cert.TablesEq

open Idealize.ShloMosaic Idealize.ShloMosaic.TcCoe Idealize.ShloMosaic.StableHlo Idealize.SL.Sem

variable {F : FTy → Type} [FloatOps F]

set_option maxHeartbeats 1600000 in
/-- From second arguments that agree, the first stretch (up to the four floor divisions) leaves equal %5. -/
theorem pre_v5 (W' : Valuation Cert.ReferenceIdeal.τ Cert.ReferenceIdeal.sig (Elt F)) (W : Valuation Cert.KernelIdeal.τ Cert.KernelIdeal.sig (Elt F))
    (h_arg1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W' (Proc.devRef .tc Cert.ReferenceIdeal.main_v5))
      (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W (Proc.devRef .tc Cert.KernelIdeal.main_v5)) := by
  refine @Eq.trans (IVec ⟨2, ![2, 64]⟩ 32) _ ?mid _ ?hL (Eq.symm ?hK)
  case hL =>
    simp only [Cert.ReferenceIdeal.RefRun.ops0_0, Cert.ReferenceIdeal.RefRun.ops0_1, Cert.ReferenceIdeal.RefRun.ops0_2, Cert.ReferenceIdeal.RefRun.ops0_3, Cert.ReferenceIdeal.RefRun.ops0_4, Cert.ReferenceIdeal.RefRun.ops0_5, Cert.ReferenceIdeal.RefRun.ops0_6, Cert.ReferenceIdeal.RefRun.ops0_7, Cert.ReferenceIdeal.RefRun.ops0_8, Cert.ReferenceIdeal.RefRun.ops0_9, List.cons_append, List.nil_append]
    after_results_simp
    simp only [h_arg1]
    exact rfl
  case hK =>
    simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, List.cons_append, List.nil_append]
    after_results_simp
    try rfl

set_option maxHeartbeats 1600000 in
/-- From second arguments that agree, the first stretch (up to the four floor divisions) leaves equal %7. -/
theorem pre_v7 (W' : Valuation Cert.ReferenceIdeal.τ Cert.ReferenceIdeal.sig (Elt F)) (W : Valuation Cert.KernelIdeal.τ Cert.KernelIdeal.sig (Elt F))
    (h_arg1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W' (Proc.devRef .tc Cert.ReferenceIdeal.main_v7))
      (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W (Proc.devRef .tc Cert.KernelIdeal.main_v7)) := by
  refine @Eq.trans (IVec ⟨2, ![2, 64]⟩ 32) _ ?mid _ ?hL (Eq.symm ?hK)
  case hL =>
    simp only [Cert.ReferenceIdeal.RefRun.ops0_0, Cert.ReferenceIdeal.RefRun.ops0_1, Cert.ReferenceIdeal.RefRun.ops0_2, Cert.ReferenceIdeal.RefRun.ops0_3, Cert.ReferenceIdeal.RefRun.ops0_4, Cert.ReferenceIdeal.RefRun.ops0_5, Cert.ReferenceIdeal.RefRun.ops0_6, Cert.ReferenceIdeal.RefRun.ops0_7, Cert.ReferenceIdeal.RefRun.ops0_8, Cert.ReferenceIdeal.RefRun.ops0_9, List.cons_append, List.nil_append]
    after_results_simp
    simp only [h_arg1]
    exact rfl
  case hK =>
    simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, List.cons_append, List.nil_append]
    after_results_simp
    try rfl

set_option maxHeartbeats 1600000 in
/-- From second arguments that agree, the first stretch (up to the four floor divisions) leaves equal %16. -/
theorem pre_v16 (W' : Valuation Cert.ReferenceIdeal.τ Cert.ReferenceIdeal.sig (Elt F)) (W : Valuation Cert.KernelIdeal.τ Cert.KernelIdeal.sig (Elt F))
    (h_arg1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W' (Proc.devRef .tc Cert.ReferenceIdeal.main_v16))
      (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W (Proc.devRef .tc Cert.KernelIdeal.main_v16)) := by
  refine @Eq.trans (IVec ⟨2, ![2, 64]⟩ 32) _ ?mid _ ?hL (Eq.symm ?hK)
  case hL =>
    simp only [Cert.ReferenceIdeal.RefRun.ops0_0, Cert.ReferenceIdeal.RefRun.ops0_1, Cert.ReferenceIdeal.RefRun.ops0_2, Cert.ReferenceIdeal.RefRun.ops0_3, Cert.ReferenceIdeal.RefRun.ops0_4, Cert.ReferenceIdeal.RefRun.ops0_5, Cert.ReferenceIdeal.RefRun.ops0_6, Cert.ReferenceIdeal.RefRun.ops0_7, Cert.ReferenceIdeal.RefRun.ops0_8, Cert.ReferenceIdeal.RefRun.ops0_9, List.cons_append, List.nil_append]
    after_results_simp
    simp only [h_arg1]
    exact rfl
  case hK =>
    simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, List.cons_append, List.nil_append]
    after_results_simp
    try rfl

set_option maxHeartbeats 1600000 in
/-- From second arguments that agree, the first stretch (up to the four floor divisions) leaves equal %21. -/
theorem pre_v21 (W' : Valuation Cert.ReferenceIdeal.τ Cert.ReferenceIdeal.sig (Elt F)) (W : Valuation Cert.KernelIdeal.τ Cert.KernelIdeal.sig (Elt F))
    (h_arg1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W' (Proc.devRef .tc Cert.ReferenceIdeal.main_v21))
      (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W (Proc.devRef .tc Cert.KernelIdeal.main_v21)) := by
  refine @Eq.trans (IVec ⟨2, ![2, 64]⟩ 32) _ ?mid _ ?hL (Eq.symm ?hK)
  case hL =>
    simp only [Cert.ReferenceIdeal.RefRun.ops0_0, Cert.ReferenceIdeal.RefRun.ops0_1, Cert.ReferenceIdeal.RefRun.ops0_2, Cert.ReferenceIdeal.RefRun.ops0_3, Cert.ReferenceIdeal.RefRun.ops0_4, Cert.ReferenceIdeal.RefRun.ops0_5, Cert.ReferenceIdeal.RefRun.ops0_6, Cert.ReferenceIdeal.RefRun.ops0_7, Cert.ReferenceIdeal.RefRun.ops0_8, Cert.ReferenceIdeal.RefRun.ops0_9, List.cons_append, List.nil_append]
    after_results_simp
    simp only [h_arg1]
    exact rfl
  case hK =>
    simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, List.cons_append, List.nil_append]
    after_results_simp
    try rfl

end Cert.TablesEq
end
-- ==== Proof.TablesCall.lean ====
/-
  The floor division of a table of integers by a scalar, as both programs spell it (quotient, corrected by
  one where the signs differ and the remainder is not zero), and that each program's stretch containing such a
  call leaves that function of its two operands.  Each side is folded separately; the two sides then meet only
  through the operands' agreement.
-/
import proofs.«121944_j5746666242434_2_alg».proof.Proof.KHostSplit
import proofs.«121944_j5746666242434_2_alg».proof.Proof.RefRun

noncomputable section

namespace Cert.TablesEq

open Idealize.ShloMosaic Idealize.ShloMosaic.TcCoe Idealize.ShloMosaic.StableHlo Idealize.SL.Sem

variable {F : FTy → Type} [FloatOps F]

/-- The floor division of a [2,64] table by a scalar. -/
def fdiv (a : IVec Cert.ReferenceIdeal.S2x64 32) (d : IVec Cert.ReferenceIdeal.S_ 32) : IVec Cert.ReferenceIdeal.S2x64 32 :=
  (select (andi ((cmpi .ne) (signi a) ((broadcastInDim Cert.ReferenceIdeal.S2x64 ![] Cert.ReferenceIdeal.Gen.bcast_S_S2x64) (signi (id d)))) ((cmpi .ne) (Host.remsi a ((broadcastInDim Cert.ReferenceIdeal.S2x64 ![] Cert.ReferenceIdeal.Gen.bcast_S_S2x64) (id d))) ((broadcastInDim Cert.ReferenceIdeal.S2x64 ![] Cert.ReferenceIdeal.Gen.bcast_S_S2x64) (constantI Cert.ReferenceIdeal.S_ 32 0#32)))) (subi (Host.divsi a ((broadcastInDim Cert.ReferenceIdeal.S2x64 ![] Cert.ReferenceIdeal.Gen.bcast_S_S2x64) (id d))) ((broadcastInDim Cert.ReferenceIdeal.S2x64 ![] Cert.ReferenceIdeal.Gen.bcast_S_S2x64) (constantI Cert.ReferenceIdeal.S_ 32 1#32))) (Host.divsi a ((broadcastInDim Cert.ReferenceIdeal.S2x64 ![] Cert.ReferenceIdeal.Gen.bcast_S_S2x64) (id d))))

set_option maxHeartbeats 1600000 in
attribute [local irreducible] broadcastInDim constantI cmpi andi subi select Host.divsi Host.remsi signi in
/-- One side's stretch leaves in %26 the floor division of %25 by the scalar. -/
theorem call_v26_R (W' : Valuation Cert.ReferenceIdeal.τ Cert.ReferenceIdeal.sig (Elt F)) :
    @Eq (IVec ⟨2, ![2, 64]⟩ 32) (StableHlo.after (Cert.ReferenceIdeal.RefRun.ops0_3 ++ Cert.ReferenceIdeal.RefRun.ops0_4) W' (Proc.devRef .tc Cert.ReferenceIdeal.main_v26))
      (fdiv (W' (Proc.devRef .tc Cert.ReferenceIdeal.main_v25)) (W' (Proc.devRef .tc Cert.ReferenceIdeal.main_c_5))) := by
  simp only [Cert.ReferenceIdeal.RefRun.ops0_3, Cert.ReferenceIdeal.RefRun.ops0_4, List.cons_append, List.nil_append]
  after_results_simp
  unfold fdiv
  rfl

set_option maxHeartbeats 1600000 in
attribute [local irreducible] broadcastInDim constantI cmpi andi subi select Host.divsi Host.remsi signi in
/-- One side's stretch leaves in %26 the floor division of %25 by the scalar. -/
theorem call_v26_K (W : Valuation Cert.KernelIdeal.τ Cert.KernelIdeal.sig (Elt F)) :
    @Eq (IVec ⟨2, ![2, 64]⟩ 32) (StableHlo.after (Cert.KernelIdeal.Gen.hostOps0_3 ++ Cert.KernelIdeal.Gen.hostOps0_4) W (Proc.devRef .tc Cert.KernelIdeal.main_v26))
      (fdiv (W (Proc.devRef .tc Cert.KernelIdeal.main_v25)) (W (Proc.devRef .tc Cert.KernelIdeal.main_c_5))) := by
  simp only [Cert.KernelIdeal.Gen.hostOps0_3, Cert.KernelIdeal.Gen.hostOps0_4, List.cons_append, List.nil_append]
  after_results_simp
  unfold fdiv
  rfl

/-- The stretch with the floor division leaves equal %26 from equal operands. -/
theorem s1_v26 (W' : Valuation Cert.ReferenceIdeal.τ Cert.ReferenceIdeal.sig (Elt F)) (W : Valuation Cert.KernelIdeal.τ Cert.KernelIdeal.sig (Elt F))
    (h_v25 : @Eq (IVec ⟨2, ![2, 64]⟩ 32) (W' (Proc.devRef .tc Cert.ReferenceIdeal.main_v25)) (W (Proc.devRef .tc Cert.KernelIdeal.main_v25)))
    (h_c_5 : @Eq (IVec ⟨0, ![]⟩ 32) (W' (Proc.devRef .tc Cert.ReferenceIdeal.main_c_5)) (W (Proc.devRef .tc Cert.KernelIdeal.main_c_5))) :
    @Eq (IVec ⟨2, ![2, 64]⟩ 32) (StableHlo.after (Cert.ReferenceIdeal.RefRun.ops0_3 ++ Cert.ReferenceIdeal.RefRun.ops0_4) W' (Proc.devRef .tc Cert.ReferenceIdeal.main_v26))
      (StableHlo.after (Cert.KernelIdeal.Gen.hostOps0_3 ++ Cert.KernelIdeal.Gen.hostOps0_4) W (Proc.devRef .tc Cert.KernelIdeal.main_v26)) :=
  (call_v26_R W').trans ((congrArg₂ fdiv h_v25 h_c_5).trans (call_v26_K W).symm)

set_option maxHeartbeats 1600000 in
attribute [local irreducible] broadcastInDim constantI cmpi andi subi select Host.divsi Host.remsi signi in
/-- One side's stretch leaves in %31 the floor division of %30 by the scalar. -/
theorem call_v31_R (W' : Valuation Cert.ReferenceIdeal.τ Cert.ReferenceIdeal.sig (Elt F)) :
    @Eq (IVec ⟨2, ![2, 64]⟩ 32) (StableHlo.after (Cert.ReferenceIdeal.RefRun.ops0_5 ++ Cert.ReferenceIdeal.RefRun.ops0_6) W' (Proc.devRef .tc Cert.ReferenceIdeal.main_v31))
      (fdiv (W' (Proc.devRef .tc Cert.ReferenceIdeal.main_v30)) (W' (Proc.devRef .tc Cert.ReferenceIdeal.main_c_8))) := by
  simp only [Cert.ReferenceIdeal.RefRun.ops0_5, Cert.ReferenceIdeal.RefRun.ops0_6, List.cons_append, List.nil_append]
  after_results_simp
  unfold fdiv
  rfl

set_option maxHeartbeats 1600000 in
attribute [local irreducible] broadcastInDim constantI cmpi andi subi select Host.divsi Host.remsi signi in
/-- One side's stretch leaves in %31 the floor division of %30 by the scalar. -/
theorem call_v31_K (W : Valuation Cert.KernelIdeal.τ Cert.KernelIdeal.sig (Elt F)) :
    @Eq (IVec ⟨2, ![2, 64]⟩ 32) (StableHlo.after (Cert.KernelIdeal.Gen.hostOps0_5 ++ Cert.KernelIdeal.Gen.hostOps0_6) W (Proc.devRef .tc Cert.KernelIdeal.main_v31))
      (fdiv (W (Proc.devRef .tc Cert.KernelIdeal.main_v30)) (W (Proc.devRef .tc Cert.KernelIdeal.main_c_8))) := by
  simp only [Cert.KernelIdeal.Gen.hostOps0_5, Cert.KernelIdeal.Gen.hostOps0_6, List.cons_append, List.nil_append]
  after_results_simp
  unfold fdiv
  rfl

/-- The stretch with the floor division leaves equal %31 from equal operands. -/
theorem s2_v31 (W' : Valuation Cert.ReferenceIdeal.τ Cert.ReferenceIdeal.sig (Elt F)) (W : Valuation Cert.KernelIdeal.τ Cert.KernelIdeal.sig (Elt F))
    (h_v30 : @Eq (IVec ⟨2, ![2, 64]⟩ 32) (W' (Proc.devRef .tc Cert.ReferenceIdeal.main_v30)) (W (Proc.devRef .tc Cert.KernelIdeal.main_v30)))
    (h_c_8 : @Eq (IVec ⟨0, ![]⟩ 32) (W' (Proc.devRef .tc Cert.ReferenceIdeal.main_c_8)) (W (Proc.devRef .tc Cert.KernelIdeal.main_c_8))) :
    @Eq (IVec ⟨2, ![2, 64]⟩ 32) (StableHlo.after (Cert.ReferenceIdeal.RefRun.ops0_5 ++ Cert.ReferenceIdeal.RefRun.ops0_6) W' (Proc.devRef .tc Cert.ReferenceIdeal.main_v31))
      (StableHlo.after (Cert.KernelIdeal.Gen.hostOps0_5 ++ Cert.KernelIdeal.Gen.hostOps0_6) W (Proc.devRef .tc Cert.KernelIdeal.main_v31)) :=
  (call_v31_R W').trans ((congrArg₂ fdiv h_v30 h_c_8).trans (call_v31_K W).symm)

set_option maxHeartbeats 1600000 in
attribute [local irreducible] broadcastInDim constantI cmpi andi subi select Host.divsi Host.remsi signi in
/-- One side's stretch leaves in %35 the floor division of %34 by the scalar. -/
theorem call_v35_R (W' : Valuation Cert.ReferenceIdeal.τ Cert.ReferenceIdeal.sig (Elt F)) :
    @Eq (IVec ⟨2, ![2, 64]⟩ 32) (StableHlo.after (Cert.ReferenceIdeal.RefRun.ops0_7 ++ Cert.ReferenceIdeal.RefRun.ops0_8) W' (Proc.devRef .tc Cert.ReferenceIdeal.main_v35))
      (fdiv (W' (Proc.devRef .tc Cert.ReferenceIdeal.main_v34)) (W' (Proc.devRef .tc Cert.ReferenceIdeal.main_c_10))) := by
  simp only [Cert.ReferenceIdeal.RefRun.ops0_7, Cert.ReferenceIdeal.RefRun.ops0_8, List.cons_append, List.nil_append]
  after_results_simp
  unfold fdiv
  rfl

set_option maxHeartbeats 1600000 in
attribute [local irreducible] broadcastInDim constantI cmpi andi subi select Host.divsi Host.remsi signi in
/-- One side's stretch leaves in %35 the floor division of %34 by the scalar. -/
theorem call_v35_K (W : Valuation Cert.KernelIdeal.τ Cert.KernelIdeal.sig (Elt F)) :
    @Eq (IVec ⟨2, ![2, 64]⟩ 32) (StableHlo.after (Cert.KernelIdeal.Gen.hostOps0_7 ++ Cert.KernelIdeal.Gen.hostOps0_8) W (Proc.devRef .tc Cert.KernelIdeal.main_v35))
      (fdiv (W (Proc.devRef .tc Cert.KernelIdeal.main_v34)) (W (Proc.devRef .tc Cert.KernelIdeal.main_c_10))) := by
  simp only [Cert.KernelIdeal.Gen.hostOps0_7, Cert.KernelIdeal.Gen.hostOps0_8, List.cons_append, List.nil_append]
  after_results_simp
  unfold fdiv
  rfl

/-- The stretch with the floor division leaves equal %35 from equal operands. -/
theorem s3_v35 (W' : Valuation Cert.ReferenceIdeal.τ Cert.ReferenceIdeal.sig (Elt F)) (W : Valuation Cert.KernelIdeal.τ Cert.KernelIdeal.sig (Elt F))
    (h_v34 : @Eq (IVec ⟨2, ![2, 64]⟩ 32) (W' (Proc.devRef .tc Cert.ReferenceIdeal.main_v34)) (W (Proc.devRef .tc Cert.KernelIdeal.main_v34)))
    (h_c_10 : @Eq (IVec ⟨0, ![]⟩ 32) (W' (Proc.devRef .tc Cert.ReferenceIdeal.main_c_10)) (W (Proc.devRef .tc Cert.KernelIdeal.main_c_10))) :
    @Eq (IVec ⟨2, ![2, 64]⟩ 32) (StableHlo.after (Cert.ReferenceIdeal.RefRun.ops0_7 ++ Cert.ReferenceIdeal.RefRun.ops0_8) W' (Proc.devRef .tc Cert.ReferenceIdeal.main_v35))
      (StableHlo.after (Cert.KernelIdeal.Gen.hostOps0_7 ++ Cert.KernelIdeal.Gen.hostOps0_8) W (Proc.devRef .tc Cert.KernelIdeal.main_v35)) :=
  (call_v35_R W').trans ((congrArg₂ fdiv h_v34 h_c_10).trans (call_v35_K W).symm)

set_option maxHeartbeats 1600000 in
attribute [local irreducible] broadcastInDim constantI cmpi andi subi select Host.divsi Host.remsi signi in
/-- One side's stretch leaves in %39 the floor division of %38 by the scalar. -/
theorem call_v39_R (W' : Valuation Cert.ReferenceIdeal.τ Cert.ReferenceIdeal.sig (Elt F)) :
    @Eq (IVec ⟨2, ![2, 64]⟩ 32) (StableHlo.after (Cert.ReferenceIdeal.RefRun.ops0_9) W' (Proc.devRef .tc Cert.ReferenceIdeal.main_v39))
      (fdiv (W' (Proc.devRef .tc Cert.ReferenceIdeal.main_v38)) (W' (Proc.devRef .tc Cert.ReferenceIdeal.main_c_12))) := by
  simp only [Cert.ReferenceIdeal.RefRun.ops0_9, List.cons_append, List.nil_append]
  after_results_simp
  unfold fdiv
  rfl

set_option maxHeartbeats 1600000 in
attribute [local irreducible] broadcastInDim constantI cmpi andi subi select Host.divsi Host.remsi signi in
/-- One side's stretch leaves in %39 the floor division of %38 by the scalar. -/
theorem call_v39_K (W : Valuation Cert.KernelIdeal.τ Cert.KernelIdeal.sig (Elt F)) :
    @Eq (IVec ⟨2, ![2, 64]⟩ 32) (StableHlo.after (Cert.KernelIdeal.Gen.hostOps0_9) W (Proc.devRef .tc Cert.KernelIdeal.main_v39))
      (fdiv (W (Proc.devRef .tc Cert.KernelIdeal.main_v38)) (W (Proc.devRef .tc Cert.KernelIdeal.main_c_12))) := by
  simp only [Cert.KernelIdeal.Gen.hostOps0_9, List.cons_append, List.nil_append]
  after_results_simp
  unfold fdiv
  rfl

/-- The stretch with the floor division leaves equal %39 from equal operands. -/
theorem s4_v39 (W' : Valuation Cert.ReferenceIdeal.τ Cert.ReferenceIdeal.sig (Elt F)) (W : Valuation Cert.KernelIdeal.τ Cert.KernelIdeal.sig (Elt F))
    (h_v38 : @Eq (IVec ⟨2, ![2, 64]⟩ 32) (W' (Proc.devRef .tc Cert.ReferenceIdeal.main_v38)) (W (Proc.devRef .tc Cert.KernelIdeal.main_v38)))
    (h_c_12 : @Eq (IVec ⟨0, ![]⟩ 32) (W' (Proc.devRef .tc Cert.ReferenceIdeal.main_c_12)) (W (Proc.devRef .tc Cert.KernelIdeal.main_c_12))) :
    @Eq (IVec ⟨2, ![2, 64]⟩ 32) (StableHlo.after (Cert.ReferenceIdeal.RefRun.ops0_9) W' (Proc.devRef .tc Cert.ReferenceIdeal.main_v39))
      (StableHlo.after (Cert.KernelIdeal.Gen.hostOps0_9) W (Proc.devRef .tc Cert.KernelIdeal.main_v39)) :=
  (call_v39_R W').trans ((congrArg₂ fdiv h_v38 h_c_12).trans (call_v39_K W).symm)

end Cert.TablesEq
end
-- ==== Proof.TablesSubA.lean ====
/-
  Stage lemmas for the integer tables both programs compute from the boxes.  The reference's and the kernel
  program's host operations are the same operations in the same order under different buffer numbers.  Both
  lines are cut at the same places; a stage lemma says: over any two buffer contents that agree (at the
  literal type) on the values the stage reads, the two stages leave equal values in a buffer they write (or
  pass through).  Each side is folded to its composed pure term separately and the two terms are the same.
-/
import proofs.«121944_j5746666242434_2_alg».proof.Proof.KHostSplit
import proofs.«121944_j5746666242434_2_alg».proof.Proof.RefRun

noncomputable section

namespace Cert.TablesEq

open Idealize.ShloMosaic Idealize.ShloMosaic.TcCoe Idealize.ShloMosaic.StableHlo Idealize.SL.Sem

variable {F : FTy → Type} [FloatOps F]

set_option maxHeartbeats 1600000 in
/-- Stretch 0 of the first part leaves equal %c_5 from equal inputs. -/
theorem s0_c_5 (W' : Valuation Cert.ReferenceIdeal.τ Cert.ReferenceIdeal.sig (Elt F)) (W : Valuation Cert.KernelIdeal.τ Cert.KernelIdeal.sig (Elt F)) :
    @Eq (IVec ⟨0, ![]⟩ 32) (StableHlo.after (Cert.ReferenceIdeal.RefRun.ops0_0 ++ Cert.ReferenceIdeal.RefRun.ops0_1 ++ Cert.ReferenceIdeal.RefRun.ops0_2) W' (Proc.devRef .tc Cert.ReferenceIdeal.main_c_5))
      (StableHlo.after (Cert.KernelIdeal.Gen.hostOps0 ++ Cert.KernelIdeal.Gen.hostOps0_1 ++ Cert.KernelIdeal.Gen.hostOps0_2) W (Proc.devRef .tc Cert.KernelIdeal.main_c_5)) := by
  refine @Eq.trans (IVec ⟨0, ![]⟩ 32) _ ?mid _ ?hL (Eq.symm ?hK)
  case hL =>
    simp only [Cert.ReferenceIdeal.RefRun.ops0_0, Cert.ReferenceIdeal.RefRun.ops0_1, Cert.ReferenceIdeal.RefRun.ops0_2, List.cons_append, List.nil_append]
    after_results_simp
    exact rfl
  case hK =>
    simp only [Cert.KernelIdeal.Gen.hostOps0, Cert.KernelIdeal.Gen.hostOps0_1, Cert.KernelIdeal.Gen.hostOps0_2, List.cons_append, List.nil_append]
    after_results_simp
    try rfl

set_option maxHeartbeats 1600000 in
/-- Stretch 0 of the first part leaves equal %16 from equal inputs. -/
theorem s0_v16 (W' : Valuation Cert.ReferenceIdeal.τ Cert.ReferenceIdeal.sig (Elt F)) (W : Valuation Cert.KernelIdeal.τ Cert.KernelIdeal.sig (Elt F))
    (h_arg1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2) W' (Proc.devRef .tc Cert.ReferenceIdeal.main_v16))
      (StableHlo.after (Cert.KernelIdeal.Gen.hostOps0 ++ Cert.KernelIdeal.Gen.hostOps0_1 ++ Cert.KernelIdeal.Gen.hostOps0_2) W (Proc.devRef .tc Cert.KernelIdeal.main_v16)) := by
  refine @Eq.trans (IVec ⟨2, ![2, 64]⟩ 32) _ ?mid _ ?hL (Eq.symm ?hK)
  case hL =>
    simp only [Cert.ReferenceIdeal.RefRun.ops0_0, Cert.ReferenceIdeal.RefRun.ops0_1, Cert.ReferenceIdeal.RefRun.ops0_2, List.cons_append, List.nil_append]
    after_results_simp
    simp only [h_arg1]
    exact rfl
  case hK =>
    simp only [Cert.KernelIdeal.Gen.hostOps0, Cert.KernelIdeal.Gen.hostOps0_1, Cert.KernelIdeal.Gen.hostOps0_2, List.cons_append, List.nil_append]
    after_results_simp
    try rfl

set_option maxHeartbeats 1600000 in
/-- Stretch 0 of the first part leaves equal %21 from equal inputs. -/
theorem s0_v21 (W' : Valuation Cert.ReferenceIdeal.τ Cert.ReferenceIdeal.sig (Elt F)) (W : Valuation Cert.KernelIdeal.τ Cert.KernelIdeal.sig (Elt F))
    (h_arg1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2) W' (Proc.devRef .tc Cert.ReferenceIdeal.main_v21))
      (StableHlo.after (Cert.KernelIdeal.Gen.hostOps0 ++ Cert.KernelIdeal.Gen.hostOps0_1 ++ Cert.KernelIdeal.Gen.hostOps0_2) W (Proc.devRef .tc Cert.KernelIdeal.main_v21)) := by
  refine @Eq.trans (IVec ⟨2, ![2, 64]⟩ 32) _ ?mid _ ?hL (Eq.symm ?hK)
  case hL =>
    simp only [Cert.ReferenceIdeal.RefRun.ops0_0, Cert.ReferenceIdeal.RefRun.ops0_1, Cert.ReferenceIdeal.RefRun.ops0_2, List.cons_append, List.nil_append]
    after_results_simp
    simp only [h_arg1]
    exact rfl
  case hK =>
    simp only [Cert.KernelIdeal.Gen.hostOps0, Cert.KernelIdeal.Gen.hostOps0_1, Cert.KernelIdeal.Gen.hostOps0_2, List.cons_append, List.nil_append]
    after_results_simp
    try rfl

set_option maxHeartbeats 1600000 in
/-- Stretch 0 of the first part leaves equal %25 from equal inputs. -/
theorem s0_v25 (W' : Valuation Cert.ReferenceIdeal.τ Cert.ReferenceIdeal.sig (Elt F)) (W : Valuation Cert.KernelIdeal.τ Cert.KernelIdeal.sig (Elt F))
    (h_arg1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2) W' (Proc.devRef .tc Cert.ReferenceIdeal.main_v25))
      (StableHlo.after (Cert.KernelIdeal.Gen.hostOps0 ++ Cert.KernelIdeal.Gen.hostOps0_1 ++ Cert.KernelIdeal.Gen.hostOps0_2) W (Proc.devRef .tc Cert.KernelIdeal.main_v25)) := by
  refine @Eq.trans (IVec ⟨2, ![2, 64]⟩ 32) _ ?mid _ ?hL (Eq.symm ?hK)
  case hL =>
    simp only [Cert.ReferenceIdeal.RefRun.ops0_0, Cert.ReferenceIdeal.RefRun.ops0_1, Cert.ReferenceIdeal.RefRun.ops0_2, List.cons_append, List.nil_append]
    after_results_simp
    simp only [h_arg1]
    exact rfl
  case hK =>
    simp only [Cert.KernelIdeal.Gen.hostOps0, Cert.KernelIdeal.Gen.hostOps0_1, Cert.KernelIdeal.Gen.hostOps0_2, List.cons_append, List.nil_append]
    after_results_simp
    try rfl

set_option maxHeartbeats 1600000 in
/-- Stretch 0 of the first part leaves equal %5 from equal inputs. -/
theorem s0_v5 (W' : Valuation Cert.ReferenceIdeal.τ Cert.ReferenceIdeal.sig (Elt F)) (W : Valuation Cert.KernelIdeal.τ Cert.KernelIdeal.sig (Elt F))
    (h_arg1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2) W' (Proc.devRef .tc Cert.ReferenceIdeal.main_v5))
      (StableHlo.after (Cert.KernelIdeal.Gen.hostOps0 ++ Cert.KernelIdeal.Gen.hostOps0_1 ++ Cert.KernelIdeal.Gen.hostOps0_2) W (Proc.devRef .tc Cert.KernelIdeal.main_v5)) := by
  refine @Eq.trans (IVec ⟨2, ![2, 64]⟩ 32) _ ?mid _ ?hL (Eq.symm ?hK)
  case hL =>
    simp only [Cert.ReferenceIdeal.RefRun.ops0_0, Cert.ReferenceIdeal.RefRun.ops0_1, Cert.ReferenceIdeal.RefRun.ops0_2, List.cons_append, List.nil_append]
    after_results_simp
    simp only [h_arg1]
    exact rfl
  case hK =>
    simp only [Cert.KernelIdeal.Gen.hostOps0, Cert.KernelIdeal.Gen.hostOps0_1, Cert.KernelIdeal.Gen.hostOps0_2, List.cons_append, List.nil_append]
    after_results_simp
    try rfl

set_option maxHeartbeats 1600000 in
/-- Stretch 0 of the first part leaves equal %7 from equal inputs. -/
theorem s0_v7 (W' : Valuation Cert.ReferenceIdeal.τ Cert.ReferenceIdeal.sig (Elt F)) (W : Valuation Cert.KernelIdeal.τ Cert.KernelIdeal.sig (Elt F))
    (h_arg1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2) W' (Proc.devRef .tc Cert.ReferenceIdeal.main_v7))
      (StableHlo.after (Cert.KernelIdeal.Gen.hostOps0 ++ Cert.KernelIdeal.Gen.hostOps0_1 ++ Cert.KernelIdeal.Gen.hostOps0_2) W (Proc.devRef .tc Cert.KernelIdeal.main_v7)) := by
  refine @Eq.trans (IVec ⟨2, ![2, 64]⟩ 32) _ ?mid _ ?hL (Eq.symm ?hK)
  case hL =>
    simp only [Cert.ReferenceIdeal.RefRun.ops0_0, Cert.ReferenceIdeal.RefRun.ops0_1, Cert.ReferenceIdeal.RefRun.ops0_2, List.cons_append, List.nil_append]
    after_results_simp
    simp only [h_arg1]
    exact rfl
  case hK =>
    simp only [Cert.KernelIdeal.Gen.hostOps0, Cert.KernelIdeal.Gen.hostOps0_1, Cert.KernelIdeal.Gen.hostOps0_2, List.cons_append, List.nil_append]
    after_results_simp
    try rfl

set_option maxHeartbeats 1600000 in
/-- Stretch 1 of the first part leaves equal %c_8 from equal inputs. -/
theorem s1_c_8 (W' : Valuation Cert.ReferenceIdeal.τ Cert.ReferenceIdeal.sig (Elt F)) (W : Valuation Cert.KernelIdeal.τ Cert.KernelIdeal.sig (Elt F)) :
    @Eq (IVec ⟨0, ![]⟩ 32) (StableHlo.after (Cert.ReferenceIdeal.RefRun.ops0_3 ++ Cert.ReferenceIdeal.RefRun.ops0_4) W' (Proc.devRef .tc Cert.ReferenceIdeal.main_c_8))
      (StableHlo.after (Cert.KernelIdeal.Gen.hostOps0_3 ++ Cert.KernelIdeal.Gen.hostOps0_4) W (Proc.devRef .tc Cert.KernelIdeal.main_c_8)) := by
  refine @Eq.trans (IVec ⟨0, ![]⟩ 32) _ ?mid _ ?hL (Eq.symm ?hK)
  case hL =>
    simp only [Cert.ReferenceIdeal.RefRun.ops0_3, Cert.ReferenceIdeal.RefRun.ops0_4, List.cons_append, List.nil_append]
    after_results_simp
    exact rfl
  case hK =>
    simp only [Cert.KernelIdeal.Gen.hostOps0_3, Cert.KernelIdeal.Gen.hostOps0_4, List.cons_append, List.nil_append]
    after_results_simp
    try rfl

set_option maxHeartbeats 1600000 in
/-- Stretch 1 of the first part leaves equal %16 from equal inputs. -/
theorem s1_v16 (W' : Valuation Cert.ReferenceIdeal.τ Cert.ReferenceIdeal.sig (Elt F)) (W : Valuation Cert.KernelIdeal.τ Cert.KernelIdeal.sig (Elt F))
    (h_v16 : @Eq (IVec ⟨2, ![2, 64]⟩ 32) (W' (Proc.devRef .tc Cert.ReferenceIdeal.main_v16)) (W (Proc.devRef .tc Cert.KernelIdeal.main_v16))) :
    @Eq (IVec ⟨2, ![2, 64]⟩ 32) (StableHlo.after (Cert.ReferenceIdeal.RefRun.ops0_3 ++ Cert.ReferenceIdeal.RefRun.ops0_4) W' (Proc.devRef .tc Cert.ReferenceIdeal.main_v16))
      (StableHlo.after (Cert.KernelIdeal.Gen.hostOps0_3 ++ Cert.KernelIdeal.Gen.hostOps0_4) W (Proc.devRef .tc Cert.KernelIdeal.main_v16)) := by
  refine @Eq.trans (IVec ⟨2, ![2, 64]⟩ 32) _ ?mid _ ?hL (Eq.symm ?hK)
  case hL =>
    simp only [Cert.ReferenceIdeal.RefRun.ops0_3, Cert.ReferenceIdeal.RefRun.ops0_4, List.cons_append, List.nil_append]
    after_results_simp
    simp only [h_v16]
    exact rfl
  case hK =>
    simp only [Cert.KernelIdeal.Gen.hostOps0_3, Cert.KernelIdeal.Gen.hostOps0_4, List.cons_append, List.nil_append]
    after_results_simp
    try rfl

set_option maxHeartbeats 1600000 in
/-- Stretch 1 of the first part leaves equal %21 from equal inputs. -/
theorem s1_v21 (W' : Valuation Cert.ReferenceIdeal.τ Cert.ReferenceIdeal.sig (Elt F)) (W : Valuation Cert.KernelIdeal.τ Cert.KernelIdeal.sig (Elt F))
    (h_v21 : @Eq (IVec ⟨2, ![2, 64]⟩ 32) (W' (Proc.devRef .tc Cert.ReferenceIdeal.main_v21)) (W (Proc.devRef .tc Cert.KernelIdeal.main_v21))) :
    @Eq (IVec ⟨2, ![2, 64]⟩ 32) (StableHlo.after (Cert.ReferenceIdeal.RefRun.ops0_3 ++ Cert.ReferenceIdeal.RefRun.ops0_4) W' (Proc.devRef .tc Cert.ReferenceIdeal.main_v21))
      (StableHlo.after (Cert.KernelIdeal.Gen.hostOps0_3 ++ Cert.KernelIdeal.Gen.hostOps0_4) W (Proc.devRef .tc Cert.KernelIdeal.main_v21)) := by
  refine @Eq.trans (IVec ⟨2, ![2, 64]⟩ 32) _ ?mid _ ?hL (Eq.symm ?hK)
  case hL =>
    simp only [Cert.ReferenceIdeal.RefRun.ops0_3, Cert.ReferenceIdeal.RefRun.ops0_4, List.cons_append, List.nil_append]
    after_results_simp
    simp only [h_v21]
    exact rfl
  case hK =>
    simp only [Cert.KernelIdeal.Gen.hostOps0_3, Cert.KernelIdeal.Gen.hostOps0_4, List.cons_append, List.nil_append]
    after_results_simp
    try rfl

set_option maxHeartbeats 1600000 in
/-- Stretch 1 of the first part leaves equal %30 from equal inputs. -/
theorem s1_v30 (W' : Valuation Cert.ReferenceIdeal.τ Cert.ReferenceIdeal.sig (Elt F)) (W : Valuation Cert.KernelIdeal.τ Cert.KernelIdeal.sig (Elt F))
    (h_v21 : @Eq (IVec ⟨2, ![2, 64]⟩ 32) (W' (Proc.devRef .tc Cert.ReferenceIdeal.main_v21)) (W (Proc.devRef .tc Cert.KernelIdeal.main_v21))) :
    @Eq (IVec ⟨2, ![2, 64]⟩ 32) (StableHlo.after (Cert.ReferenceIdeal.RefRun.ops0_3 ++ Cert.ReferenceIdeal.RefRun.ops0_4) W' (Proc.devRef .tc Cert.ReferenceIdeal.main_v30))
      (StableHlo.after (Cert.KernelIdeal.Gen.hostOps0_3 ++ Cert.KernelIdeal.Gen.hostOps0_4) W (Proc.devRef .tc Cert.KernelIdeal.main_v30)) := by
  refine @Eq.trans (IVec ⟨2, ![2, 64]⟩ 32) _ ?mid _ ?hL (Eq.symm ?hK)
  case hL =>
    simp only [Cert.ReferenceIdeal.RefRun.ops0_3, Cert.ReferenceIdeal.RefRun.ops0_4, List.cons_append, List.nil_append]
    after_results_simp
    simp only [h_v21]
    exact rfl
  case hK =>
    simp only [Cert.KernelIdeal.Gen.hostOps0_3, Cert.KernelIdeal.Gen.hostOps0_4, List.cons_append, List.nil_append]
    after_results_simp
    try rfl

set_option maxHeartbeats 1600000 in
/-- Stretch 1 of the first part leaves equal %5 from equal inputs. -/
theorem s1_v5 (W' : Valuation Cert.ReferenceIdeal.τ Cert.ReferenceIdeal.sig (Elt F)) (W : Valuation Cert.KernelIdeal.τ Cert.KernelIdeal.sig (Elt F))
    (h_v5 : @Eq (IVec ⟨2, ![2, 64]⟩ 32) (W' (Proc.devRef .tc Cert.ReferenceIdeal.main_v5)) (W (Proc.devRef .tc Cert.KernelIdeal.main_v5))) :
    @Eq (IVec ⟨2, ![2, 64]⟩ 32) (StableHlo.after (Cert.ReferenceIdeal.RefRun.ops0_3 ++ Cert.ReferenceIdeal.RefRun.ops0_4) W' (Proc.devRef .tc Cert.ReferenceIdeal.main_v5))
      (StableHlo.after (Cert.KernelIdeal.Gen.hostOps0_3 ++ Cert.KernelIdeal.Gen.hostOps0_4) W (Proc.devRef .tc Cert.KernelIdeal.main_v5)) := by
  refine @Eq.trans (IVec ⟨2, ![2, 64]⟩ 32) _ ?mid _ ?hL (Eq.symm ?hK)
  case hL =>
    simp only [Cert.ReferenceIdeal.RefRun.ops0_3, Cert.ReferenceIdeal.RefRun.ops0_4, List.cons_append, List.nil_append]
    after_results_simp
    simp only [h_v5]
    exact rfl
  case hK =>
    simp only [Cert.KernelIdeal.Gen.hostOps0_3, Cert.KernelIdeal.Gen.hostOps0_4, List.cons_append, List.nil_append]
    after_results_simp
    try rfl

set_option maxHeartbeats 1600000 in
/-- Stretch 1 of the first part leaves equal %7 from equal inputs. -/
theorem s1_v7 (W' : Valuation Cert.ReferenceIdeal.τ Cert.ReferenceIdeal.sig (Elt F)) (W : Valuation Cert.KernelIdeal.τ Cert.KernelIdeal.sig (Elt F))
    (h_v7 : @Eq (IVec ⟨2, ![2, 64]⟩ 32) (W' (Proc.devRef .tc Cert.ReferenceIdeal.main_v7)) (W (Proc.devRef .tc Cert.KernelIdeal.main_v7))) :
    @Eq (IVec ⟨2, ![2, 64]⟩ 32) (StableHlo.after (Cert.ReferenceIdeal.RefRun.ops0_3 ++ Cert.ReferenceIdeal.RefRun.ops0_4) W' (Proc.devRef .tc Cert.ReferenceIdeal.main_v7))
      (StableHlo.after (Cert.KernelIdeal.Gen.hostOps0_3 ++ Cert.KernelIdeal.Gen.hostOps0_4) W (Proc.devRef .tc Cert.KernelIdeal.main_v7)) := by
  refine @Eq.trans (IVec ⟨2, ![2, 64]⟩ 32) _ ?mid _ ?hL (Eq.symm ?hK)
  case hL =>
    simp only [Cert.ReferenceIdeal.RefRun.ops0_3, Cert.ReferenceIdeal.RefRun.ops0_4, List.cons_append, List.nil_append]
    after_results_simp
    simp only [h_v7]
    exact rfl
  case hK =>
    simp only [Cert.KernelIdeal.Gen.hostOps0_3, Cert.KernelIdeal.Gen.hostOps0_4, List.cons_append, List.nil_append]
    after_results_simp
    try rfl

set_option maxHeartbeats 1600000 in
/-- Stretch 2 of the first part leaves equal %c_10 from equal inputs. -/
theorem s2_c_10 (W' : Valuation Cert.ReferenceIdeal.τ Cert.ReferenceIdeal.sig (Elt F)) (W : Valuation Cert.KernelIdeal.τ Cert.KernelIdeal.sig (Elt F)) :
    @Eq (IVec ⟨0, ![]⟩ 32) (StableHlo.after (Cert.ReferenceIdeal.RefRun.ops0_5 ++ Cert.ReferenceIdeal.RefRun.ops0_6) W' (Proc.devRef .tc Cert.ReferenceIdeal.main_c_10))
      (StableHlo.after (Cert.KernelIdeal.Gen.hostOps0_5 ++ Cert.KernelIdeal.Gen.hostOps0_6) W (Proc.devRef .tc Cert.KernelIdeal.main_c_10)) := by
  refine @Eq.trans (IVec ⟨0, ![]⟩ 32) _ ?mid _ ?hL (Eq.symm ?hK)
  case hL =>
    simp only [Cert.ReferenceIdeal.RefRun.ops0_5, Cert.ReferenceIdeal.RefRun.ops0_6, List.cons_append, List.nil_append]
    after_results_simp
    exact rfl
  case hK =>
    simp only [Cert.KernelIdeal.Gen.hostOps0_5, Cert.KernelIdeal.Gen.hostOps0_6, List.cons_append, List.nil_append]
    after_results_simp
    try rfl

set_option maxHeartbeats 1600000 in
/-- Stretch 2 of the first part leaves equal %16 from equal inputs. -/
theorem s2_v16 (W' : Valuation Cert.ReferenceIdeal.τ Cert.ReferenceIdeal.sig (Elt F)) (W : Valuation Cert.KernelIdeal.τ Cert.KernelIdeal.sig (Elt F))
    (h_v16 : @Eq (IVec ⟨2, ![2, 64]⟩ 32) (W' (Proc.devRef .tc Cert.ReferenceIdeal.main_v16)) (W (Proc.devRef .tc Cert.KernelIdeal.main_v16))) :
    @Eq (IVec ⟨2, ![2, 64]⟩ 32) (StableHlo.after (Cert.ReferenceIdeal.RefRun.ops0_5 ++ Cert.ReferenceIdeal.RefRun.ops0_6) W' (Proc.devRef .tc Cert.ReferenceIdeal.main_v16))
      (StableHlo.after (Cert.KernelIdeal.Gen.hostOps0_5 ++ Cert.KernelIdeal.Gen.hostOps0_6) W (Proc.devRef .tc Cert.KernelIdeal.main_v16)) := by
  refine @Eq.trans (IVec ⟨2, ![2, 64]⟩ 32) _ ?mid _ ?hL (Eq.symm ?hK)
  case hL =>
    simp only [Cert.ReferenceIdeal.RefRun.ops0_5, Cert.ReferenceIdeal.RefRun.ops0_6, List.cons_append, List.nil_append]
    after_results_simp
    simp only [h_v16]
    exact rfl
  case hK =>
    simp only [Cert.KernelIdeal.Gen.hostOps0_5, Cert.KernelIdeal.Gen.hostOps0_6, List.cons_append, List.nil_append]
    after_results_simp
    try rfl

set_option maxHeartbeats 1600000 in
/-- Stretch 2 of the first part leaves equal %21 from equal inputs. -/
theorem s2_v21 (W' : Valuation Cert.ReferenceIdeal.τ Cert.ReferenceIdeal.sig (Elt F)) (W : Valuation Cert.KernelIdeal.τ Cert.KernelIdeal.sig (Elt F))
    (h_v21 : @Eq (IVec ⟨2, ![2, 64]⟩ 32) (W' (Proc.devRef .tc Cert.ReferenceIdeal.main_v21)) (W (Proc.devRef .tc Cert.KernelIdeal.main_v21))) :
    @Eq (IVec ⟨2, ![2, 64]⟩ 32) (StableHlo.after (Cert.ReferenceIdeal.RefRun.ops0_5 ++ Cert.ReferenceIdeal.RefRun.ops0_6) W' (Proc.devRef .tc Cert.ReferenceIdeal.main_v21))
      (StableHlo.after (Cert.KernelIdeal.Gen.hostOps0_5 ++ Cert.KernelIdeal.Gen.hostOps0_6) W (Proc.devRef .tc Cert.KernelIdeal.main_v21)) := by
  refine @Eq.trans (IVec ⟨2, ![2, 64]⟩ 32) _ ?mid _ ?hL (Eq.symm ?hK)
  case hL =>
    simp only [Cert.ReferenceIdeal.RefRun.ops0_5, Cert.ReferenceIdeal.RefRun.ops0_6, List.cons_append, List.nil_append]
    after_results_simp
    simp only [h_v21]
    exact rfl
  case hK =>
    simp only [Cert.KernelIdeal.Gen.hostOps0_5, Cert.KernelIdeal.Gen.hostOps0_6, List.cons_append, List.nil_append]
    after_results_simp
    try rfl

set_option maxHeartbeats 1600000 in
/-- Stretch 2 of the first part leaves equal %26 from equal inputs. -/
theorem s2_v26 (W' : Valuation Cert.ReferenceIdeal.τ Cert.ReferenceIdeal.sig (Elt F)) (W : Valuation Cert.KernelIdeal.τ Cert.KernelIdeal.sig (Elt F))
    (h_v26 : @Eq (IVec ⟨2, ![2, 64]⟩ 32) (W' (Proc.devRef .tc Cert.ReferenceIdeal.main_v26)) (W (Proc.devRef .tc Cert.KernelIdeal.main_v26))) :
    @Eq (IVec ⟨2, ![2, 64]⟩ 32) (StableHlo.after (Cert.ReferenceIdeal.RefRun.ops0_5 ++ Cert.ReferenceIdeal.RefRun.ops0_6) W' (Proc.devRef .tc Cert.ReferenceIdeal.main_v26))
      (StableHlo.after (Cert.KernelIdeal.Gen.hostOps0_5 ++ Cert.KernelIdeal.Gen.hostOps0_6) W (Proc.devRef .tc Cert.KernelIdeal.main_v26)) := by
  refine @Eq.trans (IVec ⟨2, ![2, 64]⟩ 32) _ ?mid _ ?hL (Eq.symm ?hK)
  case hL =>
    simp only [Cert.ReferenceIdeal.RefRun.ops0_5, Cert.ReferenceIdeal.RefRun.ops0_6, List.cons_append, List.nil_append]
    after_results_simp
    simp only [h_v26]
    exact rfl
  case hK =>
    simp only [Cert.KernelIdeal.Gen.hostOps0_5, Cert.KernelIdeal.Gen.hostOps0_6, List.cons_append, List.nil_append]
    after_results_simp
    try rfl

set_option maxHeartbeats 1600000 in
/-- Stretch 2 of the first part leaves equal %34 from equal inputs. -/
theorem s2_v34 (W' : Valuation Cert.ReferenceIdeal.τ Cert.ReferenceIdeal.sig (Elt F)) (W : Valuation Cert.KernelIdeal.τ Cert.KernelIdeal.sig (Elt F))
    (h_v16 : @Eq (IVec ⟨2, ![2, 64]⟩ 32) (W' (Proc.devRef .tc Cert.ReferenceIdeal.main_v16)) (W (Proc.devRef .tc Cert.KernelIdeal.main_v16)))
    (h_v26 : @Eq (IVec ⟨2, ![2, 64]⟩ 32) (W' (Proc.devRef .tc Cert.ReferenceIdeal.main_v26)) (W (Proc.devRef .tc Cert.KernelIdeal.main_v26))) :
    @Eq (IVec ⟨2, ![2, 64]⟩ 32) (StableHlo.after (Cert.ReferenceIdeal.RefRun.ops0_5 ++ Cert.ReferenceIdeal.RefRun.ops0_6) W' (Proc.devRef .tc Cert.ReferenceIdeal.main_v34))
      (StableHlo.after (Cert.KernelIdeal.Gen.hostOps0_5 ++ Cert.KernelIdeal.Gen.hostOps0_6) W (Proc.devRef .tc Cert.KernelIdeal.main_v34)) := by
  refine @Eq.trans (IVec ⟨2, ![2, 64]⟩ 32) _ ?mid _ ?hL (Eq.symm ?hK)
  case hL =>
    simp only [Cert.ReferenceIdeal.RefRun.ops0_5, Cert.ReferenceIdeal.RefRun.ops0_6, List.cons_append, List.nil_append]
    after_results_simp
    simp only [h_v16, h_v26]
    exact rfl
  case hK =>
    simp only [Cert.KernelIdeal.Gen.hostOps0_5, Cert.KernelIdeal.Gen.hostOps0_6, List.cons_append, List.nil_append]
    after_results_simp
    try rfl

set_option maxHeartbeats 1600000 in
/-- Stretch 2 of the first part leaves equal %5 from equal inputs. -/
theorem s2_v5 (W' : Valuation Cert.ReferenceIdeal.τ Cert.ReferenceIdeal.sig (Elt F)) (W : Valuation Cert.KernelIdeal.τ Cert.KernelIdeal.sig (Elt F))
    (h_v5 : @Eq (IVec ⟨2, ![2, 64]⟩ 32) (W' (Proc.devRef .tc Cert.ReferenceIdeal.main_v5)) (W (Proc.devRef .tc Cert.KernelIdeal.main_v5))) :
    @Eq (IVec ⟨2, ![2, 64]⟩ 32) (StableHlo.after (Cert.ReferenceIdeal.RefRun.ops0_5 ++ Cert.ReferenceIdeal.RefRun.ops0_6) W' (Proc.devRef .tc Cert.ReferenceIdeal.main_v5))
      (StableHlo.after (Cert.KernelIdeal.Gen.hostOps0_5 ++ Cert.KernelIdeal.Gen.hostOps0_6) W (Proc.devRef .tc Cert.KernelIdeal.main_v5)) := by
  refine @Eq.trans (IVec ⟨2, ![2, 64]⟩ 32) _ ?mid _ ?hL (Eq.symm ?hK)
  case hL =>
    simp only [Cert.ReferenceIdeal.RefRun.ops0_5, Cert.ReferenceIdeal.RefRun.ops0_6, List.cons_append, List.nil_append]
    after_results_simp
    simp only [h_v5]
    exact rfl
  case hK =>
    simp only [Cert.KernelIdeal.Gen.hostOps0_5, Cert.KernelIdeal.Gen.hostOps0_6, List.cons_append, List.nil_append]
    after_results_simp
    try rfl

set_option maxHeartbeats 1600000 in
/-- Stretch 2 of the first part leaves equal %7 from equal inputs. -/
theorem s2_v7 (W' : Valuation Cert.ReferenceIdeal.τ Cert.ReferenceIdeal.sig (Elt F)) (W : Valuation Cert.KernelIdeal.τ Cert.KernelIdeal.sig (Elt F))
    (h_v7 : @Eq (IVec ⟨2, ![2, 64]⟩ 32) (W' (Proc.devRef .tc Cert.ReferenceIdeal.main_v7)) (W (Proc.devRef .tc Cert.KernelIdeal.main_v7))) :
    @Eq (IVec ⟨2, ![2, 64]⟩ 32) (StableHlo.after (Cert.ReferenceIdeal.RefRun.ops0_5 ++ Cert.ReferenceIdeal.RefRun.ops0_6) W' (Proc.devRef .tc Cert.ReferenceIdeal.main_v7))
      (StableHlo.after (Cert.KernelIdeal.Gen.hostOps0_5 ++ Cert.KernelIdeal.Gen.hostOps0_6) W (Proc.devRef .tc Cert.KernelIdeal.main_v7)) := by
  refine @Eq.trans (IVec ⟨2, ![2, 64]⟩ 32) _ ?mid _ ?hL (Eq.symm ?hK)
  case hL =>
    simp only [Cert.ReferenceIdeal.RefRun.ops0_5, Cert.ReferenceIdeal.RefRun.ops0_6, List.cons_append, List.nil_append]
    after_results_simp
    simp only [h_v7]
    exact rfl
  case hK =>
    simp only [Cert.KernelIdeal.Gen.hostOps0_5, Cert.KernelIdeal.Gen.hostOps0_6, List.cons_append, List.nil_append]
    after_results_simp
    try rfl

end Cert.TablesEq
end
-- ==== Proof.TablesSubB.lean ====
/-
  Stage lemmas for the integer tables both programs compute from the boxes.  The reference's and the kernel
  program's host operations are the same operations in the same order under different buffer numbers.  Both
  lines are cut at the same places; a stage lemma says: over any two buffer contents that agree (at the
  literal type) on the values the stage reads, the two stages leave equal values in a buffer they write (or
  pass through).  Each side is folded to its composed pure term separately and the two terms are the same.
-/
import proofs.«121944_j5746666242434_2_alg».proof.Proof.KHostSplit
import proofs.«121944_j5746666242434_2_alg».proof.Proof.RefRun

noncomputable section

namespace Cert.TablesEq

open Idealize.ShloMosaic Idealize.ShloMosaic.TcCoe Idealize.ShloMosaic.StableHlo Idealize.SL.Sem

variable {F : FTy → Type} [FloatOps F]

set_option maxHeartbeats 1600000 in
/-- Stretch 3 of the first part leaves equal %c_12 from equal inputs. -/
theorem s3_c_12 (W' : Valuation Cert.ReferenceIdeal.τ Cert.ReferenceIdeal.sig (Elt F)) (W : Valuation Cert.KernelIdeal.τ Cert.KernelIdeal.sig (Elt F)) :
    @Eq (IVec ⟨0, ![]⟩ 32) (StableHlo.after (Cert.ReferenceIdeal.RefRun.ops0_7 ++ Cert.ReferenceIdeal.RefRun.ops0_8) W' (Proc.devRef .tc Cert.ReferenceIdeal.main_c_12))
      (StableHlo.after (Cert.KernelIdeal.Gen.hostOps0_7 ++ Cert.KernelIdeal.Gen.hostOps0_8) W (Proc.devRef .tc Cert.KernelIdeal.main_c_12)) := by
  refine @Eq.trans (IVec ⟨0, ![]⟩ 32) _ ?mid _ ?hL (Eq.symm ?hK)
  case hL =>
    simp only [Cert.ReferenceIdeal.RefRun.ops0_7, Cert.ReferenceIdeal.RefRun.ops0_8, List.cons_append, List.nil_append]
    after_results_simp
    exact rfl
  case hK =>
    simp only [Cert.KernelIdeal.Gen.hostOps0_7, Cert.KernelIdeal.Gen.hostOps0_8, List.cons_append, List.nil_append]
    after_results_simp
    try rfl

set_option maxHeartbeats 1600000 in
/-- Stretch 3 of the first part leaves equal %16 from equal inputs. -/
theorem s3_v16 (W' : Valuation Cert.ReferenceIdeal.τ Cert.ReferenceIdeal.sig (Elt F)) (W : Valuation Cert.KernelIdeal.τ Cert.KernelIdeal.sig (Elt F))
    (h_v16 : @Eq (IVec ⟨2, ![2, 64]⟩ 32) (W' (Proc.devRef .tc Cert.ReferenceIdeal.main_v16)) (W (Proc.devRef .tc Cert.KernelIdeal.main_v16))) :
    @Eq (IVec ⟨2, ![2, 64]⟩ 32) (StableHlo.after (Cert.ReferenceIdeal.RefRun.ops0_7 ++ Cert.ReferenceIdeal.RefRun.ops0_8) W' (Proc.devRef .tc Cert.ReferenceIdeal.main_v16))
      (StableHlo.after (Cert.KernelIdeal.Gen.hostOps0_7 ++ Cert.KernelIdeal.Gen.hostOps0_8) W (Proc.devRef .tc Cert.KernelIdeal.main_v16)) := by
  refine @Eq.trans (IVec ⟨2, ![2, 64]⟩ 32) _ ?mid _ ?hL (Eq.symm ?hK)
  case hL =>
    simp only [Cert.ReferenceIdeal.RefRun.ops0_7, Cert.ReferenceIdeal.RefRun.ops0_8, List.cons_append, List.nil_append]
    after_results_simp
    simp only [h_v16]
    exact rfl
  case hK =>
    simp only [Cert.KernelIdeal.Gen.hostOps0_7, Cert.KernelIdeal.Gen.hostOps0_8, List.cons_append, List.nil_append]
    after_results_simp
    try rfl

set_option maxHeartbeats 1600000 in
/-- Stretch 3 of the first part leaves equal %21 from equal inputs. -/
theorem s3_v21 (W' : Valuation Cert.ReferenceIdeal.τ Cert.ReferenceIdeal.sig (Elt F)) (W : Valuation Cert.KernelIdeal.τ Cert.KernelIdeal.sig (Elt F))
    (h_v21 : @Eq (IVec ⟨2, ![2, 64]⟩ 32) (W' (Proc.devRef .tc Cert.ReferenceIdeal.main_v21)) (W (Proc.devRef .tc Cert.KernelIdeal.main_v21))) :
    @Eq (IVec ⟨2, ![2, 64]⟩ 32) (StableHlo.after (Cert.ReferenceIdeal.RefRun.ops0_7 ++ Cert.ReferenceIdeal.RefRun.ops0_8) W' (Proc.devRef .tc Cert.ReferenceIdeal.main_v21))
      (StableHlo.after (Cert.KernelIdeal.Gen.hostOps0_7 ++ Cert.KernelIdeal.Gen.hostOps0_8) W (Proc.devRef .tc Cert.KernelIdeal.main_v21)) := by
  refine @Eq.trans (IVec ⟨2, ![2, 64]⟩ 32) _ ?mid _ ?hL (Eq.symm ?hK)
  case hL =>
    simp only [Cert.ReferenceIdeal.RefRun.ops0_7, Cert.ReferenceIdeal.RefRun.ops0_8, List.cons_append, List.nil_append]
    after_results_simp
    simp only [h_v21]
    exact rfl
  case hK =>
    simp only [Cert.KernelIdeal.Gen.hostOps0_7, Cert.KernelIdeal.Gen.hostOps0_8, List.cons_append, List.nil_append]
    after_results_simp
    try rfl

set_option maxHeartbeats 1600000 in
/-- Stretch 3 of the first part leaves equal %26 from equal inputs. -/
theorem s3_v26 (W' : Valuation Cert.ReferenceIdeal.τ Cert.ReferenceIdeal.sig (Elt F)) (W : Valuation Cert.KernelIdeal.τ Cert.KernelIdeal.sig (Elt F))
    (h_v26 : @Eq (IVec ⟨2, ![2, 64]⟩ 32) (W' (Proc.devRef .tc Cert.ReferenceIdeal.main_v26)) (W (Proc.devRef .tc Cert.KernelIdeal.main_v26))) :
    @Eq (IVec ⟨2, ![2, 64]⟩ 32) (StableHlo.after (Cert.ReferenceIdeal.RefRun.ops0_7 ++ Cert.ReferenceIdeal.RefRun.ops0_8) W' (Proc.devRef .tc Cert.ReferenceIdeal.main_v26))
      (StableHlo.after (Cert.KernelIdeal.Gen.hostOps0_7 ++ Cert.KernelIdeal.Gen.hostOps0_8) W (Proc.devRef .tc Cert.KernelIdeal.main_v26)) := by
  refine @Eq.trans (IVec ⟨2, ![2, 64]⟩ 32) _ ?mid _ ?hL (Eq.symm ?hK)
  case hL =>
    simp only [Cert.ReferenceIdeal.RefRun.ops0_7, Cert.ReferenceIdeal.RefRun.ops0_8, List.cons_append, List.nil_append]
    after_results_simp
    simp only [h_v26]
    exact rfl
  case hK =>
    simp only [Cert.KernelIdeal.Gen.hostOps0_7, Cert.KernelIdeal.Gen.hostOps0_8, List.cons_append, List.nil_append]
    after_results_simp
    try rfl

set_option maxHeartbeats 1600000 in
/-- Stretch 3 of the first part leaves equal %31 from equal inputs. -/
theorem s3_v31 (W' : Valuation Cert.ReferenceIdeal.τ Cert.ReferenceIdeal.sig (Elt F)) (W : Valuation Cert.KernelIdeal.τ Cert.KernelIdeal.sig (Elt F))
    (h_v31 : @Eq (IVec ⟨2, ![2, 64]⟩ 32) (W' (Proc.devRef .tc Cert.ReferenceIdeal.main_v31)) (W (Proc.devRef .tc Cert.KernelIdeal.main_v31))) :
    @Eq (IVec ⟨2, ![2, 64]⟩ 32) (StableHlo.after (Cert.ReferenceIdeal.RefRun.ops0_7 ++ Cert.ReferenceIdeal.RefRun.ops0_8) W' (Proc.devRef .tc Cert.ReferenceIdeal.main_v31))
      (StableHlo.after (Cert.KernelIdeal.Gen.hostOps0_7 ++ Cert.KernelIdeal.Gen.hostOps0_8) W (Proc.devRef .tc Cert.KernelIdeal.main_v31)) := by
  refine @Eq.trans (IVec ⟨2, ![2, 64]⟩ 32) _ ?mid _ ?hL (Eq.symm ?hK)
  case hL =>
    simp only [Cert.ReferenceIdeal.RefRun.ops0_7, Cert.ReferenceIdeal.RefRun.ops0_8, List.cons_append, List.nil_append]
    after_results_simp
    simp only [h_v31]
    exact rfl
  case hK =>
    simp only [Cert.KernelIdeal.Gen.hostOps0_7, Cert.KernelIdeal.Gen.hostOps0_8, List.cons_append, List.nil_append]
    after_results_simp
    try rfl

set_option maxHeartbeats 1600000 in
/-- Stretch 3 of the first part leaves equal %38 from equal inputs. -/
theorem s3_v38 (W' : Valuation Cert.ReferenceIdeal.τ Cert.ReferenceIdeal.sig (Elt F)) (W : Valuation Cert.KernelIdeal.τ Cert.KernelIdeal.sig (Elt F))
    (h_v21 : @Eq (IVec ⟨2, ![2, 64]⟩ 32) (W' (Proc.devRef .tc Cert.ReferenceIdeal.main_v21)) (W (Proc.devRef .tc Cert.KernelIdeal.main_v21)))
    (h_v31 : @Eq (IVec ⟨2, ![2, 64]⟩ 32) (W' (Proc.devRef .tc Cert.ReferenceIdeal.main_v31)) (W (Proc.devRef .tc Cert.KernelIdeal.main_v31))) :
    @Eq (IVec ⟨2, ![2, 64]⟩ 32) (StableHlo.after (Cert.ReferenceIdeal.RefRun.ops0_7 ++ Cert.ReferenceIdeal.RefRun.ops0_8) W' (Proc.devRef .tc Cert.ReferenceIdeal.main_v38))
      (StableHlo.after (Cert.KernelIdeal.Gen.hostOps0_7 ++ Cert.KernelIdeal.Gen.hostOps0_8) W (Proc.devRef .tc Cert.KernelIdeal.main_v38)) := by
  refine @Eq.trans (IVec ⟨2, ![2, 64]⟩ 32) _ ?mid _ ?hL (Eq.symm ?hK)
  case hL =>
    simp only [Cert.ReferenceIdeal.RefRun.ops0_7, Cert.ReferenceIdeal.RefRun.ops0_8, List.cons_append, List.nil_append]
    after_results_simp
    simp only [h_v21, h_v31]
    exact rfl
  case hK =>
    simp only [Cert.KernelIdeal.Gen.hostOps0_7, Cert.KernelIdeal.Gen.hostOps0_8, List.cons_append, List.nil_append]
    after_results_simp
    try rfl

set_option maxHeartbeats 1600000 in
/-- Stretch 3 of the first part leaves equal %5 from equal inputs. -/
theorem s3_v5 (W' : Valuation Cert.ReferenceIdeal.τ Cert.ReferenceIdeal.sig (Elt F)) (W : Valuation Cert.KernelIdeal.τ Cert.KernelIdeal.sig (Elt F))
    (h_v5 : @Eq (IVec ⟨2, ![2, 64]⟩ 32) (W' (Proc.devRef .tc Cert.ReferenceIdeal.main_v5)) (W (Proc.devRef .tc Cert.KernelIdeal.main_v5))) :
    @Eq (IVec ⟨2, ![2, 64]⟩ 32) (StableHlo.after (Cert.ReferenceIdeal.RefRun.ops0_7 ++ Cert.ReferenceIdeal.RefRun.ops0_8) W' (Proc.devRef .tc Cert.ReferenceIdeal.main_v5))
      (StableHlo.after (Cert.KernelIdeal.Gen.hostOps0_7 ++ Cert.KernelIdeal.Gen.hostOps0_8) W (Proc.devRef .tc Cert.KernelIdeal.main_v5)) := by
  refine @Eq.trans (IVec ⟨2, ![2, 64]⟩ 32) _ ?mid _ ?hL (Eq.symm ?hK)
  case hL =>
    simp only [Cert.ReferenceIdeal.RefRun.ops0_7, Cert.ReferenceIdeal.RefRun.ops0_8, List.cons_append, List.nil_append]
    after_results_simp
    simp only [h_v5]
    exact rfl
  case hK =>
    simp only [Cert.KernelIdeal.Gen.hostOps0_7, Cert.KernelIdeal.Gen.hostOps0_8, List.cons_append, List.nil_append]
    after_results_simp
    try rfl

set_option maxHeartbeats 1600000 in
/-- Stretch 3 of the first part leaves equal %7 from equal inputs. -/
theorem s3_v7 (W' : Valuation Cert.ReferenceIdeal.τ Cert.ReferenceIdeal.sig (Elt F)) (W : Valuation Cert.KernelIdeal.τ Cert.KernelIdeal.sig (Elt F))
    (h_v7 : @Eq (IVec ⟨2, ![2, 64]⟩ 32) (W' (Proc.devRef .tc Cert.ReferenceIdeal.main_v7)) (W (Proc.devRef .tc Cert.KernelIdeal.main_v7))) :
    @Eq (IVec ⟨2, ![2, 64]⟩ 32) (StableHlo.after (Cert.ReferenceIdeal.RefRun.ops0_7 ++ Cert.ReferenceIdeal.RefRun.ops0_8) W' (Proc.devRef .tc Cert.ReferenceIdeal.main_v7))
      (StableHlo.after (Cert.KernelIdeal.Gen.hostOps0_7 ++ Cert.KernelIdeal.Gen.hostOps0_8) W (Proc.devRef .tc Cert.KernelIdeal.main_v7)) := by
  refine @Eq.trans (IVec ⟨2, ![2, 64]⟩ 32) _ ?mid _ ?hL (Eq.symm ?hK)
  case hL =>
    simp only [Cert.ReferenceIdeal.RefRun.ops0_7, Cert.ReferenceIdeal.RefRun.ops0_8, List.cons_append, List.nil_append]
    after_results_simp
    simp only [h_v7]
    exact rfl
  case hK =>
    simp only [Cert.KernelIdeal.Gen.hostOps0_7, Cert.KernelIdeal.Gen.hostOps0_8, List.cons_append, List.nil_append]
    after_results_simp
    try rfl

set_option maxHeartbeats 1600000 in
/-- Stretch 4 of the first part leaves equal %16 from equal inputs. -/
theorem s4_v16 (W' : Valuation Cert.ReferenceIdeal.τ Cert.ReferenceIdeal.sig (Elt F)) (W : Valuation Cert.KernelIdeal.τ Cert.KernelIdeal.sig (Elt F))
    (h_v16 : @Eq (IVec ⟨2, ![2, 64]⟩ 32) (W' (Proc.devRef .tc Cert.ReferenceIdeal.main_v16)) (W (Proc.devRef .tc Cert.KernelIdeal.main_v16))) :
    @Eq (IVec ⟨2, ![2, 64]⟩ 32) (StableHlo.after (Cert.ReferenceIdeal.RefRun.ops0_9) W' (Proc.devRef .tc Cert.ReferenceIdeal.main_v16))
      (StableHlo.after (Cert.KernelIdeal.Gen.hostOps0_9) W (Proc.devRef .tc Cert.KernelIdeal.main_v16)) := by
  refine @Eq.trans (IVec ⟨2, ![2, 64]⟩ 32) _ ?mid _ ?hL (Eq.symm ?hK)
  case hL =>
    simp only [Cert.ReferenceIdeal.RefRun.ops0_9, List.cons_append, List.nil_append]
    after_results_simp
    simp only [h_v16]
    exact rfl
  case hK =>
    simp only [Cert.KernelIdeal.Gen.hostOps0_9, List.cons_append, List.nil_append]
    after_results_simp
    try rfl

set_option maxHeartbeats 1600000 in
/-- Stretch 4 of the first part leaves equal %21 from equal inputs. -/
theorem s4_v21 (W' : Valuation Cert.ReferenceIdeal.τ Cert.ReferenceIdeal.sig (Elt F)) (W : Valuation Cert.KernelIdeal.τ Cert.KernelIdeal.sig (Elt F))
    (h_v21 : @Eq (IVec ⟨2, ![2, 64]⟩ 32) (W' (Proc.devRef .tc Cert.ReferenceIdeal.main_v21)) (W (Proc.devRef .tc Cert.KernelIdeal.main_v21))) :
    @Eq (IVec ⟨2, ![2, 64]⟩ 32) (StableHlo.after (Cert.ReferenceIdeal.RefRun.ops0_9) W' (Proc.devRef .tc Cert.ReferenceIdeal.main_v21))
      (StableHlo.after (Cert.KernelIdeal.Gen.hostOps0_9) W (Proc.devRef .tc Cert.KernelIdeal.main_v21)) := by
  refine @Eq.trans (IVec ⟨2, ![2, 64]⟩ 32) _ ?mid _ ?hL (Eq.symm ?hK)
  case hL =>
    simp only [Cert.ReferenceIdeal.RefRun.ops0_9, List.cons_append, List.nil_append]
    after_results_simp
    simp only [h_v21]
    exact rfl
  case hK =>
    simp only [Cert.KernelIdeal.Gen.hostOps0_9, List.cons_append, List.nil_append]
    after_results_simp
    try rfl

set_option maxHeartbeats 1600000 in
/-- Stretch 4 of the first part leaves equal %26 from equal inputs. -/
theorem s4_v26 (W' : Valuation Cert.ReferenceIdeal.τ Cert.ReferenceIdeal.sig (Elt F)) (W : Valuation Cert.KernelIdeal.τ Cert.KernelIdeal.sig (Elt F))
    (h_v26 : @Eq (IVec ⟨2, ![2, 64]⟩ 32) (W' (Proc.devRef .tc Cert.ReferenceIdeal.main_v26)) (W (Proc.devRef .tc Cert.KernelIdeal.main_v26))) :
    @Eq (IVec ⟨2, ![2, 64]⟩ 32) (StableHlo.after (Cert.ReferenceIdeal.RefRun.ops0_9) W' (Proc.devRef .tc Cert.ReferenceIdeal.main_v26))
      (StableHlo.after (Cert.KernelIdeal.Gen.hostOps0_9) W (Proc.devRef .tc Cert.KernelIdeal.main_v26)) := by
  refine @Eq.trans (IVec ⟨2, ![2, 64]⟩ 32) _ ?mid _ ?hL (Eq.symm ?hK)
  case hL =>
    simp only [Cert.ReferenceIdeal.RefRun.ops0_9, List.cons_append, List.nil_append]
    after_results_simp
    simp only [h_v26]
    exact rfl
  case hK =>
    simp only [Cert.KernelIdeal.Gen.hostOps0_9, List.cons_append, List.nil_append]
    after_results_simp
    try rfl

set_option maxHeartbeats 1600000 in
/-- Stretch 4 of the first part leaves equal %31 from equal inputs. -/
theorem s4_v31 (W' : Valuation Cert.ReferenceIdeal.τ Cert.ReferenceIdeal.sig (Elt F)) (W : Valuation Cert.KernelIdeal.τ Cert.KernelIdeal.sig (Elt F))
    (h_v31 : @Eq (IVec ⟨2, ![2, 64]⟩ 32) (W' (Proc.devRef .tc Cert.ReferenceIdeal.main_v31)) (W (Proc.devRef .tc Cert.KernelIdeal.main_v31))) :
    @Eq (IVec ⟨2, ![2, 64]⟩ 32) (StableHlo.after (Cert.ReferenceIdeal.RefRun.ops0_9) W' (Proc.devRef .tc Cert.ReferenceIdeal.main_v31))
      (StableHlo.after (Cert.KernelIdeal.Gen.hostOps0_9) W (Proc.devRef .tc Cert.KernelIdeal.main_v31)) := by
  refine @Eq.trans (IVec ⟨2, ![2, 64]⟩ 32) _ ?mid _ ?hL (Eq.symm ?hK)
  case hL =>
    simp only [Cert.ReferenceIdeal.RefRun.ops0_9, List.cons_append, List.nil_append]
    after_results_simp
    simp only [h_v31]
    exact rfl
  case hK =>
    simp only [Cert.KernelIdeal.Gen.hostOps0_9, List.cons_append, List.nil_append]
    after_results_simp
    try rfl

set_option maxHeartbeats 1600000 in
/-- Stretch 4 of the first part leaves equal %35 from equal inputs. -/
theorem s4_v35 (W' : Valuation Cert.ReferenceIdeal.τ Cert.ReferenceIdeal.sig (Elt F)) (W : Valuation Cert.KernelIdeal.τ Cert.KernelIdeal.sig (Elt F))
    (h_v35 : @Eq (IVec ⟨2, ![2, 64]⟩ 32) (W' (Proc.devRef .tc Cert.ReferenceIdeal.main_v35)) (W (Proc.devRef .tc Cert.KernelIdeal.main_v35))) :
    @Eq (IVec ⟨2, ![2, 64]⟩ 32) (StableHlo.after (Cert.ReferenceIdeal.RefRun.ops0_9) W' (Proc.devRef .tc Cert.ReferenceIdeal.main_v35))
      (StableHlo.after (Cert.KernelIdeal.Gen.hostOps0_9) W (Proc.devRef .tc Cert.KernelIdeal.main_v35)) := by
  refine @Eq.trans (IVec ⟨2, ![2, 64]⟩ 32) _ ?mid _ ?hL (Eq.symm ?hK)
  case hL =>
    simp only [Cert.ReferenceIdeal.RefRun.ops0_9, List.cons_append, List.nil_append]
    after_results_simp
    simp only [h_v35]
    exact rfl
  case hK =>
    simp only [Cert.KernelIdeal.Gen.hostOps0_9, List.cons_append, List.nil_append]
    after_results_simp
    try rfl

set_option maxHeartbeats 1600000 in
/-- Stretch 4 of the first part leaves equal %5 from equal inputs. -/
theorem s4_v5 (W' : Valuation Cert.ReferenceIdeal.τ Cert.ReferenceIdeal.sig (Elt F)) (W : Valuation Cert.KernelIdeal.τ Cert.KernelIdeal.sig (Elt F))
    (h_v5 : @Eq (IVec ⟨2, ![2, 64]⟩ 32) (W' (Proc.devRef .tc Cert.ReferenceIdeal.main_v5)) (W (Proc.devRef .tc Cert.KernelIdeal.main_v5))) :
    @Eq (IVec ⟨2, ![2, 64]⟩ 32) (StableHlo.after (Cert.ReferenceIdeal.RefRun.ops0_9) W' (Proc.devRef .tc Cert.ReferenceIdeal.main_v5))
      (StableHlo.after (Cert.KernelIdeal.Gen.hostOps0_9) W (Proc.devRef .tc Cert.KernelIdeal.main_v5)) := by
  refine @Eq.trans (IVec ⟨2, ![2, 64]⟩ 32) _ ?mid _ ?hL (Eq.symm ?hK)
  case hL =>
    simp only [Cert.ReferenceIdeal.RefRun.ops0_9, List.cons_append, List.nil_append]
    after_results_simp
    simp only [h_v5]
    exact rfl
  case hK =>
    simp only [Cert.KernelIdeal.Gen.hostOps0_9, List.cons_append, List.nil_append]
    after_results_simp
    try rfl

set_option maxHeartbeats 1600000 in
/-- Stretch 4 of the first part leaves equal %7 from equal inputs. -/
theorem s4_v7 (W' : Valuation Cert.ReferenceIdeal.τ Cert.ReferenceIdeal.sig (Elt F)) (W : Valuation Cert.KernelIdeal.τ Cert.KernelIdeal.sig (Elt F))
    (h_v7 : @Eq (IVec ⟨2, ![2, 64]⟩ 32) (W' (Proc.devRef .tc Cert.ReferenceIdeal.main_v7)) (W (Proc.devRef .tc Cert.KernelIdeal.main_v7))) :
    @Eq (IVec ⟨2, ![2, 64]⟩ 32) (StableHlo.after (Cert.ReferenceIdeal.RefRun.ops0_9) W' (Proc.devRef .tc Cert.ReferenceIdeal.main_v7))
      (StableHlo.after (Cert.KernelIdeal.Gen.hostOps0_9) W (Proc.devRef .tc Cert.KernelIdeal.main_v7)) := by
  refine @Eq.trans (IVec ⟨2, ![2, 64]⟩ 32) _ ?mid _ ?hL (Eq.symm ?hK)
  case hL =>
    simp only [Cert.ReferenceIdeal.RefRun.ops0_9, List.cons_append, List.nil_append]
    after_results_simp
    simp only [h_v7]
    exact rfl
  case hK =>
    simp only [Cert.KernelIdeal.Gen.hostOps0_9, List.cons_append, List.nil_append]
    after_results_simp
    try rfl

end Cert.TablesEq
end
-- ==== Proof.TablesPreB.lean ====
/-
  Stage lemmas for the integer tables both programs compute from the boxes.  The reference's and the kernel
  program's host operations are the same operations in the same order under different buffer numbers.  Both
  lines are cut at the same places; a stage lemma says: over any two buffer contents that agree (at the
  literal type) on the values the stage reads, the two stages leave equal values in a buffer they write (or
  pass through).  Each side is folded to its composed pure term separately and the two terms are the same.
-/
import proofs.«121944_j5746666242434_2_alg».proof.Proof.KHostSplit
import proofs.«121944_j5746666242434_2_alg».proof.Proof.RefRun
import proofs.«121944_j5746666242434_2_alg».proof.Proof.TablesCall
import proofs.«121944_j5746666242434_2_alg».proof.Proof.TablesSubA
import proofs.«121944_j5746666242434_2_alg».proof.Proof.TablesSubB

noncomputable section

namespace Cert.TablesEq

open Idealize.ShloMosaic Idealize.ShloMosaic.TcCoe Idealize.ShloMosaic.StableHlo Idealize.SL.Sem

variable {F : FTy → Type} [FloatOps F]

/-- From second arguments that agree, the first part (up to the four floor divisions) leaves equal %26: the stretches between the calls one after the other. -/
theorem pre_v26 (W' : Valuation Cert.ReferenceIdeal.τ Cert.ReferenceIdeal.sig (Elt F)) (W : Valuation Cert.KernelIdeal.τ Cert.KernelIdeal.sig (Elt F))
    (h1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W' (Proc.devRef .tc Cert.ReferenceIdeal.main_v26))
      (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W (Proc.devRef .tc Cert.KernelIdeal.main_v26)) := by
  have hr : StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W' = (StableHlo.after (Cert.ReferenceIdeal.RefRun.ops0_9) (StableHlo.after (Cert.ReferenceIdeal.RefRun.ops0_7 ++ Cert.ReferenceIdeal.RefRun.ops0_8) (StableHlo.after (Cert.ReferenceIdeal.RefRun.ops0_5 ++ Cert.ReferenceIdeal.RefRun.ops0_6) (StableHlo.after (Cert.ReferenceIdeal.RefRun.ops0_3 ++ Cert.ReferenceIdeal.RefRun.ops0_4) (StableHlo.after (Cert.ReferenceIdeal.RefRun.ops0_0 ++ Cert.ReferenceIdeal.RefRun.ops0_1 ++ Cert.ReferenceIdeal.RefRun.ops0_2) W'))))) := by
    simp only [← StableHlo.after_append]
    congr 1 <;> simp only [List.append_assoc]
  have hk : StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W = (StableHlo.after (Cert.KernelIdeal.Gen.hostOps0_9) (StableHlo.after (Cert.KernelIdeal.Gen.hostOps0_7 ++ Cert.KernelIdeal.Gen.hostOps0_8) (StableHlo.after (Cert.KernelIdeal.Gen.hostOps0_5 ++ Cert.KernelIdeal.Gen.hostOps0_6) (StableHlo.after (Cert.KernelIdeal.Gen.hostOps0_3 ++ Cert.KernelIdeal.Gen.hostOps0_4) (StableHlo.after (Cert.KernelIdeal.Gen.hostOps0 ++ Cert.KernelIdeal.Gen.hostOps0_1 ++ Cert.KernelIdeal.Gen.hostOps0_2) W))))) := by
    simp only [← StableHlo.after_append]
    congr 1 <;> simp only [List.append_assoc]
  rw [hr, hk]
  exact (s4_v26 _ _ (s3_v26 _ _ (s2_v26 _ _ (s1_v26 _ _ (s0_v25 _ _ h1) (s0_c_5 _ _)))))

/-- From second arguments that agree, the first part (up to the four floor divisions) leaves equal %31: the stretches between the calls one after the other. -/
theorem pre_v31 (W' : Valuation Cert.ReferenceIdeal.τ Cert.ReferenceIdeal.sig (Elt F)) (W : Valuation Cert.KernelIdeal.τ Cert.KernelIdeal.sig (Elt F))
    (h1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W' (Proc.devRef .tc Cert.ReferenceIdeal.main_v31))
      (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W (Proc.devRef .tc Cert.KernelIdeal.main_v31)) := by
  have hr : StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W' = (StableHlo.after (Cert.ReferenceIdeal.RefRun.ops0_9) (StableHlo.after (Cert.ReferenceIdeal.RefRun.ops0_7 ++ Cert.ReferenceIdeal.RefRun.ops0_8) (StableHlo.after (Cert.ReferenceIdeal.RefRun.ops0_5 ++ Cert.ReferenceIdeal.RefRun.ops0_6) (StableHlo.after (Cert.ReferenceIdeal.RefRun.ops0_3 ++ Cert.ReferenceIdeal.RefRun.ops0_4) (StableHlo.after (Cert.ReferenceIdeal.RefRun.ops0_0 ++ Cert.ReferenceIdeal.RefRun.ops0_1 ++ Cert.ReferenceIdeal.RefRun.ops0_2) W'))))) := by
    simp only [← StableHlo.after_append]
    congr 1 <;> simp only [List.append_assoc]
  have hk : StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W = (StableHlo.after (Cert.KernelIdeal.Gen.hostOps0_9) (StableHlo.after (Cert.KernelIdeal.Gen.hostOps0_7 ++ Cert.KernelIdeal.Gen.hostOps0_8) (StableHlo.after (Cert.KernelIdeal.Gen.hostOps0_5 ++ Cert.KernelIdeal.Gen.hostOps0_6) (StableHlo.after (Cert.KernelIdeal.Gen.hostOps0_3 ++ Cert.KernelIdeal.Gen.hostOps0_4) (StableHlo.after (Cert.KernelIdeal.Gen.hostOps0 ++ Cert.KernelIdeal.Gen.hostOps0_1 ++ Cert.KernelIdeal.Gen.hostOps0_2) W))))) := by
    simp only [← StableHlo.after_append]
    congr 1 <;> simp only [List.append_assoc]
  rw [hr, hk]
  exact (s4_v31 _ _ (s3_v31 _ _ (s2_v31 _ _ (s1_v30 _ _ (s0_v21 _ _ h1)) (s1_c_8 _ _))))

/-- From second arguments that agree, the first part (up to the four floor divisions) leaves equal %35: the stretches between the calls one after the other. -/
theorem pre_v35 (W' : Valuation Cert.ReferenceIdeal.τ Cert.ReferenceIdeal.sig (Elt F)) (W : Valuation Cert.KernelIdeal.τ Cert.KernelIdeal.sig (Elt F))
    (h1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W' (Proc.devRef .tc Cert.ReferenceIdeal.main_v35))
      (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W (Proc.devRef .tc Cert.KernelIdeal.main_v35)) := by
  have hr : StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W' = (StableHlo.after (Cert.ReferenceIdeal.RefRun.ops0_9) (StableHlo.after (Cert.ReferenceIdeal.RefRun.ops0_7 ++ Cert.ReferenceIdeal.RefRun.ops0_8) (StableHlo.after (Cert.ReferenceIdeal.RefRun.ops0_5 ++ Cert.ReferenceIdeal.RefRun.ops0_6) (StableHlo.after (Cert.ReferenceIdeal.RefRun.ops0_3 ++ Cert.ReferenceIdeal.RefRun.ops0_4) (StableHlo.after (Cert.ReferenceIdeal.RefRun.ops0_0 ++ Cert.ReferenceIdeal.RefRun.ops0_1 ++ Cert.ReferenceIdeal.RefRun.ops0_2) W'))))) := by
    simp only [← StableHlo.after_append]
    congr 1 <;> simp only [List.append_assoc]
  have hk : StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W = (StableHlo.after (Cert.KernelIdeal.Gen.hostOps0_9) (StableHlo.after (Cert.KernelIdeal.Gen.hostOps0_7 ++ Cert.KernelIdeal.Gen.hostOps0_8) (StableHlo.after (Cert.KernelIdeal.Gen.hostOps0_5 ++ Cert.KernelIdeal.Gen.hostOps0_6) (StableHlo.after (Cert.KernelIdeal.Gen.hostOps0_3 ++ Cert.KernelIdeal.Gen.hostOps0_4) (StableHlo.after (Cert.KernelIdeal.Gen.hostOps0 ++ Cert.KernelIdeal.Gen.hostOps0_1 ++ Cert.KernelIdeal.Gen.hostOps0_2) W))))) := by
    simp only [← StableHlo.after_append]
    congr 1 <;> simp only [List.append_assoc]
  rw [hr, hk]
  exact (s4_v35 _ _ (s3_v35 _ _ (s2_v34 _ _ (s1_v16 _ _ (s0_v16 _ _ h1)) (s1_v26 _ _ (s0_v25 _ _ h1) (s0_c_5 _ _))) (s2_c_10 _ _)))

/-- From second arguments that agree, the first part (up to the four floor divisions) leaves equal %39: the stretches between the calls one after the other. -/
theorem pre_v39 (W' : Valuation Cert.ReferenceIdeal.τ Cert.ReferenceIdeal.sig (Elt F)) (W : Valuation Cert.KernelIdeal.τ Cert.KernelIdeal.sig (Elt F))
    (h1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨2, ![2, 64]⟩ 32) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W' (Proc.devRef .tc Cert.ReferenceIdeal.main_v39))
      (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W (Proc.devRef .tc Cert.KernelIdeal.main_v39)) := by
  have hr : StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W' = (StableHlo.after (Cert.ReferenceIdeal.RefRun.ops0_9) (StableHlo.after (Cert.ReferenceIdeal.RefRun.ops0_7 ++ Cert.ReferenceIdeal.RefRun.ops0_8) (StableHlo.after (Cert.ReferenceIdeal.RefRun.ops0_5 ++ Cert.ReferenceIdeal.RefRun.ops0_6) (StableHlo.after (Cert.ReferenceIdeal.RefRun.ops0_3 ++ Cert.ReferenceIdeal.RefRun.ops0_4) (StableHlo.after (Cert.ReferenceIdeal.RefRun.ops0_0 ++ Cert.ReferenceIdeal.RefRun.ops0_1 ++ Cert.ReferenceIdeal.RefRun.ops0_2) W'))))) := by
    simp only [← StableHlo.after_append]
    congr 1 <;> simp only [List.append_assoc]
  have hk : StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W = (StableHlo.after (Cert.KernelIdeal.Gen.hostOps0_9) (StableHlo.after (Cert.KernelIdeal.Gen.hostOps0_7 ++ Cert.KernelIdeal.Gen.hostOps0_8) (StableHlo.after (Cert.KernelIdeal.Gen.hostOps0_5 ++ Cert.KernelIdeal.Gen.hostOps0_6) (StableHlo.after (Cert.KernelIdeal.Gen.hostOps0_3 ++ Cert.KernelIdeal.Gen.hostOps0_4) (StableHlo.after (Cert.KernelIdeal.Gen.hostOps0 ++ Cert.KernelIdeal.Gen.hostOps0_1 ++ Cert.KernelIdeal.Gen.hostOps0_2) W))))) := by
    simp only [← StableHlo.after_append]
    congr 1 <;> simp only [List.append_assoc]
  rw [hr, hk]
  exact (s4_v39 _ _ (s3_v38 _ _ (s2_v21 _ _ (s1_v21 _ _ (s0_v21 _ _ h1))) (s2_v31 _ _ (s1_v30 _ _ (s0_v21 _ _ h1)) (s1_c_8 _ _))) (s3_c_12 _ _))

end Cert.TablesEq
end
-- ==== Proof.TablesMid.lean ====
/-
  Stage lemmas for the integer tables both programs compute from the boxes.  The reference's and the kernel
  program's host operations are the same operations in the same order under different buffer numbers.  Both
  lines are cut at the same places; a stage lemma says: over any two buffer contents that agree (at the
  literal type) on the values the stage reads, the two stages leave equal values in a buffer they write (or
  pass through).  Each side is folded to its composed pure term separately and the two terms are the same.
-/
import proofs.«121944_j5746666242434_2_alg».proof.Proof.KHostSplit
import proofs.«121944_j5746666242434_2_alg».proof.Proof.RefRun

noncomputable section

namespace Cert.TablesEq

open Idealize.ShloMosaic Idealize.ShloMosaic.TcCoe Idealize.ShloMosaic.StableHlo Idealize.SL.Sem

variable {F : FTy → Type} [FloatOps F]

set_option maxHeartbeats 1600000 in
/-- The second stretch leaves equal raw row numbers. -/
theorem mid1_v108 (W' : Valuation Cert.ReferenceIdeal.τ Cert.ReferenceIdeal.sig (Elt F)) (W : Valuation Cert.KernelIdeal.τ Cert.KernelIdeal.sig (Elt F))
    (h_v7 : @Eq (IVec ⟨2, ![2, 64]⟩ 32) (W' (Proc.devRef .tc Cert.ReferenceIdeal.main_v7)) (W (Proc.devRef .tc Cert.KernelIdeal.main_v7)))
    (h_v31 : @Eq (IVec ⟨2, ![2, 64]⟩ 32) (W' (Proc.devRef .tc Cert.ReferenceIdeal.main_v31)) (W (Proc.devRef .tc Cert.KernelIdeal.main_v31)))
    (h_v39 : @Eq (IVec ⟨2, ![2, 64]⟩ 32) (W' (Proc.devRef .tc Cert.ReferenceIdeal.main_v39)) (W (Proc.devRef .tc Cert.KernelIdeal.main_v39))) :
    @Eq (IVec ⟨4, ![2, 64, 7, 10]⟩ 32) (StableHlo.after (Cert.ReferenceIdeal.RefRun.ops0_10 ++ Cert.ReferenceIdeal.RefRun.ops1_0 ++ Cert.ReferenceIdeal.RefRun.ops2_0) W' (Proc.devRef .tc Cert.ReferenceIdeal.main_v108))
      (StableHlo.after (Cert.KernelIdeal.Gen.hostOps0_10) W (Proc.devRef .tc Cert.KernelIdeal.main_v108)) := by
  refine @Eq.trans (IVec ⟨4, ![2, 64, 7, 10]⟩ 32) _ ?mid _ ?hL (Eq.symm ?hK)
  case hL =>
    simp only [Cert.ReferenceIdeal.RefRun.ops0_10, Cert.ReferenceIdeal.RefRun.ops1_0, Cert.ReferenceIdeal.RefRun.ops2_0, List.cons_append, List.nil_append]
    after_results_simp
    simp only [h_v7, h_v31, h_v39]
    exact rfl
  case hK =>
    simp only [Cert.KernelIdeal.Gen.hostOps0_10, List.cons_append, List.nil_append]
    after_results_simp
    try rfl

set_option maxHeartbeats 1600000 in
/-- The second stretch leaves equal row validity bits. -/
theorem mid1_v111 (W' : Valuation Cert.ReferenceIdeal.τ Cert.ReferenceIdeal.sig (Elt F)) (W : Valuation Cert.KernelIdeal.τ Cert.KernelIdeal.sig (Elt F))
    (h_v7 : @Eq (IVec ⟨2, ![2, 64]⟩ 32) (W' (Proc.devRef .tc Cert.ReferenceIdeal.main_v7)) (W (Proc.devRef .tc Cert.KernelIdeal.main_v7)))
    (h_v21 : @Eq (IVec ⟨2, ![2, 64]⟩ 32) (W' (Proc.devRef .tc Cert.ReferenceIdeal.main_v21)) (W (Proc.devRef .tc Cert.KernelIdeal.main_v21)))
    (h_v31 : @Eq (IVec ⟨2, ![2, 64]⟩ 32) (W' (Proc.devRef .tc Cert.ReferenceIdeal.main_v31)) (W (Proc.devRef .tc Cert.KernelIdeal.main_v31)))
    (h_v39 : @Eq (IVec ⟨2, ![2, 64]⟩ 32) (W' (Proc.devRef .tc Cert.ReferenceIdeal.main_v39)) (W (Proc.devRef .tc Cert.KernelIdeal.main_v39))) :
    @Eq (IVec ⟨4, ![2, 64, 7, 10]⟩ 1) (StableHlo.after (Cert.ReferenceIdeal.RefRun.ops0_10 ++ Cert.ReferenceIdeal.RefRun.ops1_0 ++ Cert.ReferenceIdeal.RefRun.ops2_0) W' (Proc.devRef .tc Cert.ReferenceIdeal.main_v111))
      (StableHlo.after (Cert.KernelIdeal.Gen.hostOps0_10) W (Proc.devRef .tc Cert.KernelIdeal.main_v111)) := by
  refine @Eq.trans (IVec ⟨4, ![2, 64, 7, 10]⟩ 1) _ ?mid _ ?hL (Eq.symm ?hK)
  case hL =>
    simp only [Cert.ReferenceIdeal.RefRun.ops0_10, Cert.ReferenceIdeal.RefRun.ops1_0, Cert.ReferenceIdeal.RefRun.ops2_0, List.cons_append, List.nil_append]
    after_results_simp
    simp only [h_v7, h_v21, h_v31, h_v39]
    exact rfl
  case hK =>
    simp only [Cert.KernelIdeal.Gen.hostOps0_10, List.cons_append, List.nil_append]
    after_results_simp
    try rfl

set_option maxHeartbeats 1600000 in
/-- The second stretch leaves equal first columns of the column bins. -/
theorem mid1_v84 (W' : Valuation Cert.ReferenceIdeal.τ Cert.ReferenceIdeal.sig (Elt F)) (W : Valuation Cert.KernelIdeal.τ Cert.KernelIdeal.sig (Elt F))
    (h_v5 : @Eq (IVec ⟨2, ![2, 64]⟩ 32) (W' (Proc.devRef .tc Cert.ReferenceIdeal.main_v5)) (W (Proc.devRef .tc Cert.KernelIdeal.main_v5)))
    (h_v26 : @Eq (IVec ⟨2, ![2, 64]⟩ 32) (W' (Proc.devRef .tc Cert.ReferenceIdeal.main_v26)) (W (Proc.devRef .tc Cert.KernelIdeal.main_v26)))
    (h_v35 : @Eq (IVec ⟨2, ![2, 64]⟩ 32) (W' (Proc.devRef .tc Cert.ReferenceIdeal.main_v35)) (W (Proc.devRef .tc Cert.KernelIdeal.main_v35))) :
    @Eq (IVec ⟨3, ![2, 64, 7]⟩ 32) (StableHlo.after (Cert.ReferenceIdeal.RefRun.ops0_10 ++ Cert.ReferenceIdeal.RefRun.ops1_0 ++ Cert.ReferenceIdeal.RefRun.ops2_0) W' (Proc.devRef .tc Cert.ReferenceIdeal.main_v84))
      (StableHlo.after (Cert.KernelIdeal.Gen.hostOps0_10) W (Proc.devRef .tc Cert.KernelIdeal.main_v84)) := by
  refine @Eq.trans (IVec ⟨3, ![2, 64, 7]⟩ 32) _ ?mid _ ?hL (Eq.symm ?hK)
  case hL =>
    simp only [Cert.ReferenceIdeal.RefRun.ops0_10, Cert.ReferenceIdeal.RefRun.ops1_0, Cert.ReferenceIdeal.RefRun.ops2_0, List.cons_append, List.nil_append]
    after_results_simp
    simp only [h_v5, h_v26, h_v35]
    exact rfl
  case hK =>
    simp only [Cert.KernelIdeal.Gen.hostOps0_10, List.cons_append, List.nil_append]
    after_results_simp
    try rfl

set_option maxHeartbeats 1600000 in
/-- The second stretch leaves equal last columns of the column bins. -/
theorem mid1_v102 (W' : Valuation Cert.ReferenceIdeal.τ Cert.ReferenceIdeal.sig (Elt F)) (W : Valuation Cert.KernelIdeal.τ Cert.KernelIdeal.sig (Elt F))
    (h_v5 : @Eq (IVec ⟨2, ![2, 64]⟩ 32) (W' (Proc.devRef .tc Cert.ReferenceIdeal.main_v5)) (W (Proc.devRef .tc Cert.KernelIdeal.main_v5)))
    (h_v16 : @Eq (IVec ⟨2, ![2, 64]⟩ 32) (W' (Proc.devRef .tc Cert.ReferenceIdeal.main_v16)) (W (Proc.devRef .tc Cert.KernelIdeal.main_v16)))
    (h_v26 : @Eq (IVec ⟨2, ![2, 64]⟩ 32) (W' (Proc.devRef .tc Cert.ReferenceIdeal.main_v26)) (W (Proc.devRef .tc Cert.KernelIdeal.main_v26)))
    (h_v35 : @Eq (IVec ⟨2, ![2, 64]⟩ 32) (W' (Proc.devRef .tc Cert.ReferenceIdeal.main_v35)) (W (Proc.devRef .tc Cert.KernelIdeal.main_v35))) :
    @Eq (IVec ⟨3, ![2, 64, 7]⟩ 32) (StableHlo.after (Cert.ReferenceIdeal.RefRun.ops0_10 ++ Cert.ReferenceIdeal.RefRun.ops1_0 ++ Cert.ReferenceIdeal.RefRun.ops2_0) W' (Proc.devRef .tc Cert.ReferenceIdeal.main_v102))
      (StableHlo.after (Cert.KernelIdeal.Gen.hostOps0_10) W (Proc.devRef .tc Cert.KernelIdeal.main_v102)) := by
  refine @Eq.trans (IVec ⟨3, ![2, 64, 7]⟩ 32) _ ?mid _ ?hL (Eq.symm ?hK)
  case hL =>
    simp only [Cert.ReferenceIdeal.RefRun.ops0_10, Cert.ReferenceIdeal.RefRun.ops1_0, Cert.ReferenceIdeal.RefRun.ops2_0, List.cons_append, List.nil_append]
    after_results_simp
    simp only [h_v5, h_v16, h_v26, h_v35]
    exact rfl
  case hK =>
    simp only [Cert.KernelIdeal.Gen.hostOps0_10, List.cons_append, List.nil_append]
    after_results_simp
    try rfl

set_option maxHeartbeats 1600000 in
/-- The third stretch leaves equal raw column numbers. -/
theorem mid2_v118 (W' : Valuation Cert.ReferenceIdeal.τ Cert.ReferenceIdeal.sig (Elt F)) (W : Valuation Cert.KernelIdeal.τ Cert.KernelIdeal.sig (Elt F))
    (h_v84 : @Eq (IVec ⟨3, ![2, 64, 7]⟩ 32) (W' (Proc.devRef .tc Cert.ReferenceIdeal.main_v84)) (W (Proc.devRef .tc Cert.KernelIdeal.main_v84))) :
    @Eq (IVec ⟨4, ![2, 64, 7, 10]⟩ 32) (StableHlo.after (Cert.ReferenceIdeal.RefRun.ops2_1 ++ Cert.ReferenceIdeal.RefRun.ops2_2 ++ Cert.ReferenceIdeal.RefRun.ops2_3) W' (Proc.devRef .tc Cert.ReferenceIdeal.main_v118))
      (StableHlo.after (Cert.KernelIdeal.Gen.hostOps0_11 ++ Cert.KernelIdeal.Gen.hostOps0_12 ++ Cert.KernelIdeal.Gen.hostOps0_13) W (Proc.devRef .tc Cert.KernelIdeal.main_v119)) := by
  refine @Eq.trans (IVec ⟨4, ![2, 64, 7, 10]⟩ 32) _ ?mid _ ?hL (Eq.symm ?hK)
  case hL =>
    simp only [Cert.ReferenceIdeal.RefRun.ops2_1, Cert.ReferenceIdeal.RefRun.ops2_2, Cert.ReferenceIdeal.RefRun.ops2_3, List.cons_append, List.nil_append]
    after_results_simp
    simp only [h_v84]
    exact rfl
  case hK =>
    simp only [Cert.KernelIdeal.Gen.hostOps0_11, Cert.KernelIdeal.Gen.hostOps0_12, Cert.KernelIdeal.Gen.hostOps0_13, List.cons_append, List.nil_append]
    after_results_simp
    try rfl

set_option maxHeartbeats 1600000 in
/-- The third stretch leaves equal column validity bits. -/
theorem mid2_v121 (W' : Valuation Cert.ReferenceIdeal.τ Cert.ReferenceIdeal.sig (Elt F)) (W : Valuation Cert.KernelIdeal.τ Cert.KernelIdeal.sig (Elt F))
    (h_v84 : @Eq (IVec ⟨3, ![2, 64, 7]⟩ 32) (W' (Proc.devRef .tc Cert.ReferenceIdeal.main_v84)) (W (Proc.devRef .tc Cert.KernelIdeal.main_v84)))
    (h_v102 : @Eq (IVec ⟨3, ![2, 64, 7]⟩ 32) (W' (Proc.devRef .tc Cert.ReferenceIdeal.main_v102)) (W (Proc.devRef .tc Cert.KernelIdeal.main_v102))) :
    @Eq (IVec ⟨4, ![2, 64, 7, 10]⟩ 1) (StableHlo.after (Cert.ReferenceIdeal.RefRun.ops2_1 ++ Cert.ReferenceIdeal.RefRun.ops2_2 ++ Cert.ReferenceIdeal.RefRun.ops2_3) W' (Proc.devRef .tc Cert.ReferenceIdeal.main_v121))
      (StableHlo.after (Cert.KernelIdeal.Gen.hostOps0_11 ++ Cert.KernelIdeal.Gen.hostOps0_12 ++ Cert.KernelIdeal.Gen.hostOps0_13) W (Proc.devRef .tc Cert.KernelIdeal.main_v122)) := by
  refine @Eq.trans (IVec ⟨4, ![2, 64, 7, 10]⟩ 1) _ ?mid _ ?hL (Eq.symm ?hK)
  case hL =>
    simp only [Cert.ReferenceIdeal.RefRun.ops2_1, Cert.ReferenceIdeal.RefRun.ops2_2, Cert.ReferenceIdeal.RefRun.ops2_3, List.cons_append, List.nil_append]
    after_results_simp
    simp only [h_v84, h_v102]
    exact rfl
  case hK =>
    simp only [Cert.KernelIdeal.Gen.hostOps0_11, Cert.KernelIdeal.Gen.hostOps0_12, Cert.KernelIdeal.Gen.hostOps0_13, List.cons_append, List.nil_append]
    after_results_simp
    try rfl

end Cert.TablesEq
end
-- ==== Proof.TablesLate.lean ====
/-
  Stage lemmas for the integer tables both programs compute from the boxes.  The reference's and the kernel
  program's host operations are the same operations in the same order under different buffer numbers.  Both
  lines are cut at the same places; a stage lemma says: over any two buffer contents that agree (at the
  literal type) on the values the stage reads, the two stages leave equal values in a buffer they write (or
  pass through).  Each side is folded to its composed pure term separately and the two terms are the same.
-/
import proofs.«121944_j5746666242434_2_alg».proof.Proof.KHostSplit
import proofs.«121944_j5746666242434_2_alg».proof.Proof.RefRun

noncomputable section

namespace Cert.TablesEq

open Idealize.ShloMosaic Idealize.ShloMosaic.TcCoe Idealize.ShloMosaic.StableHlo Idealize.SL.Sem

variable {F : FTy → Type} [FloatOps F]

set_option maxHeartbeats 1600000 in
/-- The fourth stretch leaves equal padding bits. -/
theorem mid3_v169 (W' : Valuation Cert.ReferenceIdeal.τ Cert.ReferenceIdeal.sig (Elt F)) (W : Valuation Cert.KernelIdeal.τ Cert.KernelIdeal.sig (Elt F))
    (h_v16 : @Eq (IVec ⟨2, ![2, 64]⟩ 32) (W' (Proc.devRef .tc Cert.ReferenceIdeal.main_v16)) (W (Proc.devRef .tc Cert.KernelIdeal.main_v16)))
    (h_v21 : @Eq (IVec ⟨2, ![2, 64]⟩ 32) (W' (Proc.devRef .tc Cert.ReferenceIdeal.main_v21)) (W (Proc.devRef .tc Cert.KernelIdeal.main_v21)))
    (h_v26 : @Eq (IVec ⟨2, ![2, 64]⟩ 32) (W' (Proc.devRef .tc Cert.ReferenceIdeal.main_v26)) (W (Proc.devRef .tc Cert.KernelIdeal.main_v26)))
    (h_v31 : @Eq (IVec ⟨2, ![2, 64]⟩ 32) (W' (Proc.devRef .tc Cert.ReferenceIdeal.main_v31)) (W (Proc.devRef .tc Cert.KernelIdeal.main_v31)))
    (h_v35 : @Eq (IVec ⟨2, ![2, 64]⟩ 32) (W' (Proc.devRef .tc Cert.ReferenceIdeal.main_v35)) (W (Proc.devRef .tc Cert.KernelIdeal.main_v35)))
    (h_v39 : @Eq (IVec ⟨2, ![2, 64]⟩ 32) (W' (Proc.devRef .tc Cert.ReferenceIdeal.main_v39)) (W (Proc.devRef .tc Cert.KernelIdeal.main_v39)))
    (h_v40 : @Eq (IVec ⟨1, ![7]⟩ 32) (W' (Proc.devRef .tc Cert.ReferenceIdeal.main_v40)) (W (Proc.devRef .tc Cert.KernelIdeal.main_v40))) :
    @Eq (IVec ⟨4, ![2, 64, 7, 7]⟩ 1) (StableHlo.after (Cert.ReferenceIdeal.RefRun.ops2_4 ++ Cert.ReferenceIdeal.RefRun.ops3_0) W' (Proc.devRef .tc Cert.ReferenceIdeal.main_v169))
      (StableHlo.after (Cert.KernelIdeal.Gen.hostOps0_14) W (Proc.devRef .tc Cert.KernelIdeal.main_v171)) := by
  refine @Eq.trans (IVec ⟨4, ![2, 64, 7, 7]⟩ 1) _ ?mid _ ?hL (Eq.symm ?hK)
  case hL =>
    simp only [Cert.ReferenceIdeal.RefRun.ops2_4, Cert.ReferenceIdeal.RefRun.ops3_0, List.cons_append, List.nil_append]
    after_results_simp
    simp only [h_v16, h_v21, h_v26, h_v31, h_v35, h_v39, h_v40]
    exact rfl
  case hK =>
    simp only [Cert.KernelIdeal.Gen.hostOps0_14, List.cons_append, List.nil_append]
    after_results_simp
    try rfl

set_option maxHeartbeats 1600000 in
/-- The later stretches do not write the raw row numbers. -/
theorem tail_v108 (W' : Valuation Cert.ReferenceIdeal.τ Cert.ReferenceIdeal.sig (Elt F)) (W : Valuation Cert.KernelIdeal.τ Cert.KernelIdeal.sig (Elt F))
    (h_v108 : @Eq (IVec ⟨4, ![2, 64, 7, 10]⟩ 32) (W' (Proc.devRef .tc Cert.ReferenceIdeal.main_v108)) (W (Proc.devRef .tc Cert.KernelIdeal.main_v108))) :
    @Eq (IVec ⟨4, ![2, 64, 7, 10]⟩ 32) (StableHlo.after (Cert.ReferenceIdeal.RefRun.ops2_1 ++ Cert.ReferenceIdeal.RefRun.ops2_2 ++ Cert.ReferenceIdeal.RefRun.ops2_3 ++ Cert.ReferenceIdeal.RefRun.ops2_4 ++ Cert.ReferenceIdeal.RefRun.ops3_0 ++ Cert.ReferenceIdeal.RefRun.ops3_1 ++ Cert.ReferenceIdeal.RefRun.ops3_2 ++ Cert.ReferenceIdeal.RefRun.ops3_3 ++ Cert.ReferenceIdeal.RefRun.ops3_4 ++ Cert.ReferenceIdeal.RefRun.ops3_5) W' (Proc.devRef .tc Cert.ReferenceIdeal.main_v108))
      (StableHlo.after (Cert.KernelIdeal.Gen.hostOps0_11 ++ Cert.KernelIdeal.Gen.hostOps0_12 ++ Cert.KernelIdeal.Gen.hostOps0_13 ++ Cert.KernelIdeal.Gen.hostOps0_14 ++ Cert.KernelIdeal.Gen.hostOps0_15 ++ Cert.KernelIdeal.Gen.hostOps0_16 ++ Cert.KernelIdeal.Gen.hostOps0_17) W (Proc.devRef .tc Cert.KernelIdeal.main_v108)) := by
  refine @Eq.trans (IVec ⟨4, ![2, 64, 7, 10]⟩ 32) _ ?mid _ ?hL (Eq.symm ?hK)
  case hL =>
    simp only [Cert.ReferenceIdeal.RefRun.ops2_1, Cert.ReferenceIdeal.RefRun.ops2_2, Cert.ReferenceIdeal.RefRun.ops2_3, Cert.ReferenceIdeal.RefRun.ops2_4, Cert.ReferenceIdeal.RefRun.ops3_0, Cert.ReferenceIdeal.RefRun.ops3_1, Cert.ReferenceIdeal.RefRun.ops3_2, Cert.ReferenceIdeal.RefRun.ops3_3, Cert.ReferenceIdeal.RefRun.ops3_4, Cert.ReferenceIdeal.RefRun.ops3_5, List.cons_append, List.nil_append]
    after_results_simp
    simp only [h_v108]
    exact rfl
  case hK =>
    simp only [Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, List.cons_append, List.nil_append]
    after_results_simp
    try rfl

set_option maxHeartbeats 1600000 in
/-- The later stretches do not write the row validity bits. -/
theorem tail_v111 (W' : Valuation Cert.ReferenceIdeal.τ Cert.ReferenceIdeal.sig (Elt F)) (W : Valuation Cert.KernelIdeal.τ Cert.KernelIdeal.sig (Elt F))
    (h_v111 : @Eq (IVec ⟨4, ![2, 64, 7, 10]⟩ 1) (W' (Proc.devRef .tc Cert.ReferenceIdeal.main_v111)) (W (Proc.devRef .tc Cert.KernelIdeal.main_v111))) :
    @Eq (IVec ⟨4, ![2, 64, 7, 10]⟩ 1) (StableHlo.after (Cert.ReferenceIdeal.RefRun.ops2_1 ++ Cert.ReferenceIdeal.RefRun.ops2_2 ++ Cert.ReferenceIdeal.RefRun.ops2_3 ++ Cert.ReferenceIdeal.RefRun.ops2_4 ++ Cert.ReferenceIdeal.RefRun.ops3_0 ++ Cert.ReferenceIdeal.RefRun.ops3_1 ++ Cert.ReferenceIdeal.RefRun.ops3_2 ++ Cert.ReferenceIdeal.RefRun.ops3_3 ++ Cert.ReferenceIdeal.RefRun.ops3_4 ++ Cert.ReferenceIdeal.RefRun.ops3_5) W' (Proc.devRef .tc Cert.ReferenceIdeal.main_v111))
      (StableHlo.after (Cert.KernelIdeal.Gen.hostOps0_11 ++ Cert.KernelIdeal.Gen.hostOps0_12 ++ Cert.KernelIdeal.Gen.hostOps0_13 ++ Cert.KernelIdeal.Gen.hostOps0_14 ++ Cert.KernelIdeal.Gen.hostOps0_15 ++ Cert.KernelIdeal.Gen.hostOps0_16 ++ Cert.KernelIdeal.Gen.hostOps0_17) W (Proc.devRef .tc Cert.KernelIdeal.main_v111)) := by
  refine @Eq.trans (IVec ⟨4, ![2, 64, 7, 10]⟩ 1) _ ?mid _ ?hL (Eq.symm ?hK)
  case hL =>
    simp only [Cert.ReferenceIdeal.RefRun.ops2_1, Cert.ReferenceIdeal.RefRun.ops2_2, Cert.ReferenceIdeal.RefRun.ops2_3, Cert.ReferenceIdeal.RefRun.ops2_4, Cert.ReferenceIdeal.RefRun.ops3_0, Cert.ReferenceIdeal.RefRun.ops3_1, Cert.ReferenceIdeal.RefRun.ops3_2, Cert.ReferenceIdeal.RefRun.ops3_3, Cert.ReferenceIdeal.RefRun.ops3_4, Cert.ReferenceIdeal.RefRun.ops3_5, List.cons_append, List.nil_append]
    after_results_simp
    simp only [h_v111]
    exact rfl
  case hK =>
    simp only [Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, List.cons_append, List.nil_append]
    after_results_simp
    try rfl

set_option maxHeartbeats 1600000 in
/-- The later stretches do not write the raw column numbers. -/
theorem tail_v118 (W' : Valuation Cert.ReferenceIdeal.τ Cert.ReferenceIdeal.sig (Elt F)) (W : Valuation Cert.KernelIdeal.τ Cert.KernelIdeal.sig (Elt F))
    (h_v118 : @Eq (IVec ⟨4, ![2, 64, 7, 10]⟩ 32) (W' (Proc.devRef .tc Cert.ReferenceIdeal.main_v118)) (W (Proc.devRef .tc Cert.KernelIdeal.main_v119))) :
    @Eq (IVec ⟨4, ![2, 64, 7, 10]⟩ 32) (StableHlo.after (Cert.ReferenceIdeal.RefRun.ops2_4 ++ Cert.ReferenceIdeal.RefRun.ops3_0 ++ Cert.ReferenceIdeal.RefRun.ops3_1 ++ Cert.ReferenceIdeal.RefRun.ops3_2 ++ Cert.ReferenceIdeal.RefRun.ops3_3 ++ Cert.ReferenceIdeal.RefRun.ops3_4 ++ Cert.ReferenceIdeal.RefRun.ops3_5) W' (Proc.devRef .tc Cert.ReferenceIdeal.main_v118))
      (StableHlo.after (Cert.KernelIdeal.Gen.hostOps0_14 ++ Cert.KernelIdeal.Gen.hostOps0_15 ++ Cert.KernelIdeal.Gen.hostOps0_16 ++ Cert.KernelIdeal.Gen.hostOps0_17) W (Proc.devRef .tc Cert.KernelIdeal.main_v119)) := by
  refine @Eq.trans (IVec ⟨4, ![2, 64, 7, 10]⟩ 32) _ ?mid _ ?hL (Eq.symm ?hK)
  case hL =>
    simp only [Cert.ReferenceIdeal.RefRun.ops2_4, Cert.ReferenceIdeal.RefRun.ops3_0, Cert.ReferenceIdeal.RefRun.ops3_1, Cert.ReferenceIdeal.RefRun.ops3_2, Cert.ReferenceIdeal.RefRun.ops3_3, Cert.ReferenceIdeal.RefRun.ops3_4, Cert.ReferenceIdeal.RefRun.ops3_5, List.cons_append, List.nil_append]
    after_results_simp
    simp only [h_v118]
    exact rfl
  case hK =>
    simp only [Cert.KernelIdeal.Gen.hostOps0_14, Cert.KernelIdeal.Gen.hostOps0_15, Cert.KernelIdeal.Gen.hostOps0_16, Cert.KernelIdeal.Gen.hostOps0_17, List.cons_append, List.nil_append]
    after_results_simp
    try rfl

set_option maxHeartbeats 1600000 in
/-- The later stretches do not write the column validity bits. -/
theorem tail_v121 (W' : Valuation Cert.ReferenceIdeal.τ Cert.ReferenceIdeal.sig (Elt F)) (W : Valuation Cert.KernelIdeal.τ Cert.KernelIdeal.sig (Elt F))
    (h_v121 : @Eq (IVec ⟨4, ![2, 64, 7, 10]⟩ 1) (W' (Proc.devRef .tc Cert.ReferenceIdeal.main_v121)) (W (Proc.devRef .tc Cert.KernelIdeal.main_v122))) :
    @Eq (IVec ⟨4, ![2, 64, 7, 10]⟩ 1) (StableHlo.after (Cert.ReferenceIdeal.RefRun.ops2_4 ++ Cert.ReferenceIdeal.RefRun.ops3_0 ++ Cert.ReferenceIdeal.RefRun.ops3_1 ++ Cert.ReferenceIdeal.RefRun.ops3_2 ++ Cert.ReferenceIdeal.RefRun.ops3_3 ++ Cert.ReferenceIdeal.RefRun.ops3_4 ++ Cert.ReferenceIdeal.RefRun.ops3_5) W' (Proc.devRef .tc Cert.ReferenceIdeal.main_v121))
      (StableHlo.after (Cert.KernelIdeal.Gen.hostOps0_14 ++ Cert.KernelIdeal.Gen.hostOps0_15 ++ Cert.KernelIdeal.Gen.hostOps0_16 ++ Cert.KernelIdeal.Gen.hostOps0_17) W (Proc.devRef .tc Cert.KernelIdeal.main_v122)) := by
  refine @Eq.trans (IVec ⟨4, ![2, 64, 7, 10]⟩ 1) _ ?mid _ ?hL (Eq.symm ?hK)
  case hL =>
    simp only [Cert.ReferenceIdeal.RefRun.ops2_4, Cert.ReferenceIdeal.RefRun.ops3_0, Cert.ReferenceIdeal.RefRun.ops3_1, Cert.ReferenceIdeal.RefRun.ops3_2, Cert.ReferenceIdeal.RefRun.ops3_3, Cert.ReferenceIdeal.RefRun.ops3_4, Cert.ReferenceIdeal.RefRun.ops3_5, List.cons_append, List.nil_append]
    after_results_simp
    simp only [h_v121]
    exact rfl
  case hK =>
    simp only [Cert.KernelIdeal.Gen.hostOps0_14, Cert.KernelIdeal.Gen.hostOps0_15, Cert.KernelIdeal.Gen.hostOps0_16, Cert.KernelIdeal.Gen.hostOps0_17, List.cons_append, List.nil_append]
    after_results_simp
    try rfl

set_option maxHeartbeats 1600000 in
/-- The last stretch does not write the padding bits. -/
theorem tail_v169 (W' : Valuation Cert.ReferenceIdeal.τ Cert.ReferenceIdeal.sig (Elt F)) (W : Valuation Cert.KernelIdeal.τ Cert.KernelIdeal.sig (Elt F))
    (h_v169 : @Eq (IVec ⟨4, ![2, 64, 7, 7]⟩ 1) (W' (Proc.devRef .tc Cert.ReferenceIdeal.main_v169)) (W (Proc.devRef .tc Cert.KernelIdeal.main_v171))) :
    @Eq (IVec ⟨4, ![2, 64, 7, 7]⟩ 1) (StableHlo.after (Cert.ReferenceIdeal.RefRun.ops3_1 ++ Cert.ReferenceIdeal.RefRun.ops3_2 ++ Cert.ReferenceIdeal.RefRun.ops3_3 ++ Cert.ReferenceIdeal.RefRun.ops3_4 ++ Cert.ReferenceIdeal.RefRun.ops3_5) W' (Proc.devRef .tc Cert.ReferenceIdeal.main_v169))
      (StableHlo.after (Cert.KernelIdeal.Gen.hostOps0_15 ++ Cert.KernelIdeal.Gen.hostOps0_16 ++ Cert.KernelIdeal.Gen.hostOps0_17) W (Proc.devRef .tc Cert.KernelIdeal.main_v171)) := by
  refine @Eq.trans (IVec ⟨4, ![2, 64, 7, 7]⟩ 1) _ ?mid _ ?hL (Eq.symm ?hK)
  case hL =>
    simp only [Cert.ReferenceIdeal.RefRun.ops3_1, Cert.ReferenceIdeal.RefRun.ops3_2, Cert.ReferenceIdeal.RefRun.ops3_3, Cert.ReferenceIdeal.RefRun.ops3_4, Cert.ReferenceIdeal.RefRun.ops3_5, List.cons_append, List.nil_append]
    after_results_simp
    simp only [h_v169]
    exact rfl
  case hK =>
    simp only [Cert.KernelIdeal.Gen.hostOps0_15, Cert.KernelIdeal.Gen.hostOps0_16, Cert.KernelIdeal.Gen.hostOps0_17, List.cons_append, List.nil_append]
    after_results_simp
    try rfl

end Cert.TablesEq
end
-- ==== Proof.TablesEq108.lean ====
/-
  One of the integer tables both programs compute from the boxes.  The reference's and the kernel program's
  host operations are the same operations in the same order under different buffer numbers; cut at the same
  places, each stretch leaves equal values from equal inputs, so from second arguments that agree (over any
  two buffer contents) the two whole lines leave equal tables.
-/
import proofs.«121944_j5746666242434_2_alg».proof.Proof.KHostSplit
import proofs.«121944_j5746666242434_2_alg».proof.Proof.RefRun
import proofs.«121944_j5746666242434_2_alg».proof.Proof.TablesPreA
import proofs.«121944_j5746666242434_2_alg».proof.Proof.TablesPreB
import proofs.«121944_j5746666242434_2_alg».proof.Proof.TablesMid
import proofs.«121944_j5746666242434_2_alg».proof.Proof.TablesLate

noncomputable section

namespace Cert.TablesEq

open Idealize.ShloMosaic Idealize.ShloMosaic.TcCoe Idealize.ShloMosaic.StableHlo Idealize.SL.Sem

variable {F : FTy → Type} [FloatOps F]

/-- The raw row numbers of the two programs agree. -/
theorem t108 (W' : Valuation Cert.ReferenceIdeal.τ Cert.ReferenceIdeal.sig (Elt F)) (W : Valuation Cert.KernelIdeal.τ Cert.KernelIdeal.sig (Elt F))
    (h1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨4, ![2, 64, 7, 10]⟩ 32) (StableHlo.after (Cert.ReferenceIdeal.RefRun.ops (F := F)) W' (Proc.devRef .tc Cert.ReferenceIdeal.main_v108))
      (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17]) W (Proc.devRef .tc Cert.KernelIdeal.main_v108)) := by
  have hr : StableHlo.after (Cert.ReferenceIdeal.RefRun.ops (F := F)) W' = (StableHlo.after (Cert.ReferenceIdeal.RefRun.ops2_1 ++ Cert.ReferenceIdeal.RefRun.ops2_2 ++ Cert.ReferenceIdeal.RefRun.ops2_3 ++ Cert.ReferenceIdeal.RefRun.ops2_4 ++ Cert.ReferenceIdeal.RefRun.ops3_0 ++ Cert.ReferenceIdeal.RefRun.ops3_1 ++ Cert.ReferenceIdeal.RefRun.ops3_2 ++ Cert.ReferenceIdeal.RefRun.ops3_3 ++ Cert.ReferenceIdeal.RefRun.ops3_4 ++ Cert.ReferenceIdeal.RefRun.ops3_5) (StableHlo.after (Cert.ReferenceIdeal.RefRun.ops0_10 ++ Cert.ReferenceIdeal.RefRun.ops1_0 ++ Cert.ReferenceIdeal.RefRun.ops2_0) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W'))) := by
    simp only [← StableHlo.after_append]
    congr 1 <;> simp only [Cert.ReferenceIdeal.RefRun.ops, Cert.ReferenceIdeal.RefRun.ops0, Cert.ReferenceIdeal.RefRun.ops1, Cert.ReferenceIdeal.RefRun.ops2, Cert.ReferenceIdeal.RefRun.ops3, List.append_assoc]
  have hk : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17]) W = (StableHlo.after (Cert.KernelIdeal.Gen.hostOps0_11 ++ Cert.KernelIdeal.Gen.hostOps0_12 ++ Cert.KernelIdeal.Gen.hostOps0_13 ++ Cert.KernelIdeal.Gen.hostOps0_14 ++ Cert.KernelIdeal.Gen.hostOps0_15 ++ Cert.KernelIdeal.Gen.hostOps0_16 ++ Cert.KernelIdeal.Gen.hostOps0_17) (StableHlo.after (Cert.KernelIdeal.Gen.hostOps0_10) (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W))) := by
    simp only [← StableHlo.after_append]
    congr 1 <;> simp only [List.flatten_cons, List.flatten_nil, List.append_nil, List.append_assoc]
  rw [hr, hk]
  exact tail_v108 _ _ (mid1_v108 _ _ (pre_v7 W' W h1) (pre_v31 W' W h1) (pre_v39 W' W h1))

end Cert.TablesEq

end
-- ==== Proof.TablesEq111.lean ====
/-
  One of the integer tables both programs compute from the boxes.  The reference's and the kernel program's
  host operations are the same operations in the same order under different buffer numbers; cut at the same
  places, each stretch leaves equal values from equal inputs, so from second arguments that agree (over any
  two buffer contents) the two whole lines leave equal tables.
-/
import proofs.«121944_j5746666242434_2_alg».proof.Proof.KHostSplit
import proofs.«121944_j5746666242434_2_alg».proof.Proof.RefRun
import proofs.«121944_j5746666242434_2_alg».proof.Proof.TablesPreA
import proofs.«121944_j5746666242434_2_alg».proof.Proof.TablesPreB
import proofs.«121944_j5746666242434_2_alg».proof.Proof.TablesMid
import proofs.«121944_j5746666242434_2_alg».proof.Proof.TablesLate

noncomputable section

namespace Cert.TablesEq

open Idealize.ShloMosaic Idealize.ShloMosaic.TcCoe Idealize.ShloMosaic.StableHlo Idealize.SL.Sem

variable {F : FTy → Type} [FloatOps F]

/-- The row validity bits of the two programs agree. -/
theorem t111 (W' : Valuation Cert.ReferenceIdeal.τ Cert.ReferenceIdeal.sig (Elt F)) (W : Valuation Cert.KernelIdeal.τ Cert.KernelIdeal.sig (Elt F))
    (h1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨4, ![2, 64, 7, 10]⟩ 1) (StableHlo.after (Cert.ReferenceIdeal.RefRun.ops (F := F)) W' (Proc.devRef .tc Cert.ReferenceIdeal.main_v111))
      (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17]) W (Proc.devRef .tc Cert.KernelIdeal.main_v111)) := by
  have hr : StableHlo.after (Cert.ReferenceIdeal.RefRun.ops (F := F)) W' = (StableHlo.after (Cert.ReferenceIdeal.RefRun.ops2_1 ++ Cert.ReferenceIdeal.RefRun.ops2_2 ++ Cert.ReferenceIdeal.RefRun.ops2_3 ++ Cert.ReferenceIdeal.RefRun.ops2_4 ++ Cert.ReferenceIdeal.RefRun.ops3_0 ++ Cert.ReferenceIdeal.RefRun.ops3_1 ++ Cert.ReferenceIdeal.RefRun.ops3_2 ++ Cert.ReferenceIdeal.RefRun.ops3_3 ++ Cert.ReferenceIdeal.RefRun.ops3_4 ++ Cert.ReferenceIdeal.RefRun.ops3_5) (StableHlo.after (Cert.ReferenceIdeal.RefRun.ops0_10 ++ Cert.ReferenceIdeal.RefRun.ops1_0 ++ Cert.ReferenceIdeal.RefRun.ops2_0) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W'))) := by
    simp only [← StableHlo.after_append]
    congr 1 <;> simp only [Cert.ReferenceIdeal.RefRun.ops, Cert.ReferenceIdeal.RefRun.ops0, Cert.ReferenceIdeal.RefRun.ops1, Cert.ReferenceIdeal.RefRun.ops2, Cert.ReferenceIdeal.RefRun.ops3, List.append_assoc]
  have hk : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17]) W = (StableHlo.after (Cert.KernelIdeal.Gen.hostOps0_11 ++ Cert.KernelIdeal.Gen.hostOps0_12 ++ Cert.KernelIdeal.Gen.hostOps0_13 ++ Cert.KernelIdeal.Gen.hostOps0_14 ++ Cert.KernelIdeal.Gen.hostOps0_15 ++ Cert.KernelIdeal.Gen.hostOps0_16 ++ Cert.KernelIdeal.Gen.hostOps0_17) (StableHlo.after (Cert.KernelIdeal.Gen.hostOps0_10) (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W))) := by
    simp only [← StableHlo.after_append]
    congr 1 <;> simp only [List.flatten_cons, List.flatten_nil, List.append_nil, List.append_assoc]
  rw [hr, hk]
  exact tail_v111 _ _ (mid1_v111 _ _ (pre_v7 W' W h1) (pre_v21 W' W h1) (pre_v31 W' W h1) (pre_v39 W' W h1))

end Cert.TablesEq

end
-- ==== Proof.TablesEq118.lean ====
/-
  One of the integer tables both programs compute from the boxes.  The reference's and the kernel program's
  host operations are the same operations in the same order under different buffer numbers; cut at the same
  places, each stretch leaves equal values from equal inputs, so from second arguments that agree (over any
  two buffer contents) the two whole lines leave equal tables.
-/
import proofs.«121944_j5746666242434_2_alg».proof.Proof.KHostSplit
import proofs.«121944_j5746666242434_2_alg».proof.Proof.RefRun
import proofs.«121944_j5746666242434_2_alg».proof.Proof.TablesPreA
import proofs.«121944_j5746666242434_2_alg».proof.Proof.TablesPreB
import proofs.«121944_j5746666242434_2_alg».proof.Proof.TablesMid
import proofs.«121944_j5746666242434_2_alg».proof.Proof.TablesLate

noncomputable section

namespace Cert.TablesEq

open Idealize.ShloMosaic Idealize.ShloMosaic.TcCoe Idealize.ShloMosaic.StableHlo Idealize.SL.Sem

variable {F : FTy → Type} [FloatOps F]

/-- The raw column numbers of the two programs agree. -/
theorem t118 (W' : Valuation Cert.ReferenceIdeal.τ Cert.ReferenceIdeal.sig (Elt F)) (W : Valuation Cert.KernelIdeal.τ Cert.KernelIdeal.sig (Elt F))
    (h1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨4, ![2, 64, 7, 10]⟩ 32) (StableHlo.after (Cert.ReferenceIdeal.RefRun.ops (F := F)) W' (Proc.devRef .tc Cert.ReferenceIdeal.main_v118))
      (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17]) W (Proc.devRef .tc Cert.KernelIdeal.main_v119)) := by
  have hr : StableHlo.after (Cert.ReferenceIdeal.RefRun.ops (F := F)) W' = (StableHlo.after (Cert.ReferenceIdeal.RefRun.ops2_4 ++ Cert.ReferenceIdeal.RefRun.ops3_0 ++ Cert.ReferenceIdeal.RefRun.ops3_1 ++ Cert.ReferenceIdeal.RefRun.ops3_2 ++ Cert.ReferenceIdeal.RefRun.ops3_3 ++ Cert.ReferenceIdeal.RefRun.ops3_4 ++ Cert.ReferenceIdeal.RefRun.ops3_5) (StableHlo.after (Cert.ReferenceIdeal.RefRun.ops2_1 ++ Cert.ReferenceIdeal.RefRun.ops2_2 ++ Cert.ReferenceIdeal.RefRun.ops2_3) (StableHlo.after (Cert.ReferenceIdeal.RefRun.ops0_10 ++ Cert.ReferenceIdeal.RefRun.ops1_0 ++ Cert.ReferenceIdeal.RefRun.ops2_0) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W')))) := by
    simp only [← StableHlo.after_append]
    congr 1 <;> simp only [Cert.ReferenceIdeal.RefRun.ops, Cert.ReferenceIdeal.RefRun.ops0, Cert.ReferenceIdeal.RefRun.ops1, Cert.ReferenceIdeal.RefRun.ops2, Cert.ReferenceIdeal.RefRun.ops3, List.append_assoc]
  have hk : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17]) W = (StableHlo.after (Cert.KernelIdeal.Gen.hostOps0_14 ++ Cert.KernelIdeal.Gen.hostOps0_15 ++ Cert.KernelIdeal.Gen.hostOps0_16 ++ Cert.KernelIdeal.Gen.hostOps0_17) (StableHlo.after (Cert.KernelIdeal.Gen.hostOps0_11 ++ Cert.KernelIdeal.Gen.hostOps0_12 ++ Cert.KernelIdeal.Gen.hostOps0_13) (StableHlo.after (Cert.KernelIdeal.Gen.hostOps0_10) (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W)))) := by
    simp only [← StableHlo.after_append]
    congr 1 <;> simp only [List.flatten_cons, List.flatten_nil, List.append_nil, List.append_assoc]
  rw [hr, hk]
  exact tail_v118 _ _ (mid2_v118 _ _ (mid1_v84 _ _ (pre_v5 W' W h1) (pre_v26 W' W h1) (pre_v35 W' W h1)))

end Cert.TablesEq

end
-- ==== Proof.TablesEq121.lean ====
/-
  One of the integer tables both programs compute from the boxes.  The reference's and the kernel program's
  host operations are the same operations in the same order under different buffer numbers; cut at the same
  places, each stretch leaves equal values from equal inputs, so from second arguments that agree (over any
  two buffer contents) the two whole lines leave equal tables.
-/
import proofs.«121944_j5746666242434_2_alg».proof.Proof.KHostSplit
import proofs.«121944_j5746666242434_2_alg».proof.Proof.RefRun
import proofs.«121944_j5746666242434_2_alg».proof.Proof.TablesPreA
import proofs.«121944_j5746666242434_2_alg».proof.Proof.TablesPreB
import proofs.«121944_j5746666242434_2_alg».proof.Proof.TablesMid
import proofs.«121944_j5746666242434_2_alg».proof.Proof.TablesLate

noncomputable section

namespace Cert.TablesEq

open Idealize.ShloMosaic Idealize.ShloMosaic.TcCoe Idealize.ShloMosaic.StableHlo Idealize.SL.Sem

variable {F : FTy → Type} [FloatOps F]

/-- The column validity bits of the two programs agree. -/
theorem t121 (W' : Valuation Cert.ReferenceIdeal.τ Cert.ReferenceIdeal.sig (Elt F)) (W : Valuation Cert.KernelIdeal.τ Cert.KernelIdeal.sig (Elt F))
    (h1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨4, ![2, 64, 7, 10]⟩ 1) (StableHlo.after (Cert.ReferenceIdeal.RefRun.ops (F := F)) W' (Proc.devRef .tc Cert.ReferenceIdeal.main_v121))
      (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17]) W (Proc.devRef .tc Cert.KernelIdeal.main_v122)) := by
  have hr : StableHlo.after (Cert.ReferenceIdeal.RefRun.ops (F := F)) W' = (StableHlo.after (Cert.ReferenceIdeal.RefRun.ops2_4 ++ Cert.ReferenceIdeal.RefRun.ops3_0 ++ Cert.ReferenceIdeal.RefRun.ops3_1 ++ Cert.ReferenceIdeal.RefRun.ops3_2 ++ Cert.ReferenceIdeal.RefRun.ops3_3 ++ Cert.ReferenceIdeal.RefRun.ops3_4 ++ Cert.ReferenceIdeal.RefRun.ops3_5) (StableHlo.after (Cert.ReferenceIdeal.RefRun.ops2_1 ++ Cert.ReferenceIdeal.RefRun.ops2_2 ++ Cert.ReferenceIdeal.RefRun.ops2_3) (StableHlo.after (Cert.ReferenceIdeal.RefRun.ops0_10 ++ Cert.ReferenceIdeal.RefRun.ops1_0 ++ Cert.ReferenceIdeal.RefRun.ops2_0) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W')))) := by
    simp only [← StableHlo.after_append]
    congr 1 <;> simp only [Cert.ReferenceIdeal.RefRun.ops, Cert.ReferenceIdeal.RefRun.ops0, Cert.ReferenceIdeal.RefRun.ops1, Cert.ReferenceIdeal.RefRun.ops2, Cert.ReferenceIdeal.RefRun.ops3, List.append_assoc]
  have hk : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17]) W = (StableHlo.after (Cert.KernelIdeal.Gen.hostOps0_14 ++ Cert.KernelIdeal.Gen.hostOps0_15 ++ Cert.KernelIdeal.Gen.hostOps0_16 ++ Cert.KernelIdeal.Gen.hostOps0_17) (StableHlo.after (Cert.KernelIdeal.Gen.hostOps0_11 ++ Cert.KernelIdeal.Gen.hostOps0_12 ++ Cert.KernelIdeal.Gen.hostOps0_13) (StableHlo.after (Cert.KernelIdeal.Gen.hostOps0_10) (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W)))) := by
    simp only [← StableHlo.after_append]
    congr 1 <;> simp only [List.flatten_cons, List.flatten_nil, List.append_nil, List.append_assoc]
  rw [hr, hk]
  exact tail_v121 _ _ (mid2_v121 _ _ (mid1_v84 _ _ (pre_v5 W' W h1) (pre_v26 W' W h1) (pre_v35 W' W h1)) (mid1_v102 _ _ (pre_v5 W' W h1) (pre_v16 W' W h1) (pre_v26 W' W h1) (pre_v35 W' W h1)))

end Cert.TablesEq

end
-- ==== Proof.TablesPass.lean ====
/-
  Stage lemmas for the integer tables both programs compute from the boxes.  The reference's and the kernel
  program's host operations are the same operations in the same order under different buffer numbers.  Both
  lines are cut at the same places; a stage lemma says: over any two buffer contents that agree (at the
  literal type) on the values the stage reads, the two stages leave equal values in a buffer they write (or
  pass through).  Each side is folded to its composed pure term separately and the two terms are the same.
-/
import proofs.«121944_j5746666242434_2_alg».proof.Proof.KHostSplit
import proofs.«121944_j5746666242434_2_alg».proof.Proof.RefRun

noncomputable section

namespace Cert.TablesEq

open Idealize.ShloMosaic Idealize.ShloMosaic.TcCoe Idealize.ShloMosaic.StableHlo Idealize.SL.Sem

variable {F : FTy → Type} [FloatOps F]

set_option maxHeartbeats 1600000 in
/-- The second and third stretches do not write %16. -/
theorem mid12_v16 (W' : Valuation Cert.ReferenceIdeal.τ Cert.ReferenceIdeal.sig (Elt F)) (W : Valuation Cert.KernelIdeal.τ Cert.KernelIdeal.sig (Elt F))
    (h_v16 : @Eq (IVec ⟨2, ![2, 64]⟩ 32) (W' (Proc.devRef .tc Cert.ReferenceIdeal.main_v16)) (W (Proc.devRef .tc Cert.KernelIdeal.main_v16))) :
    @Eq (IVec ⟨2, ![2, 64]⟩ 32) (StableHlo.after (Cert.ReferenceIdeal.RefRun.ops0_10 ++ Cert.ReferenceIdeal.RefRun.ops1_0 ++ Cert.ReferenceIdeal.RefRun.ops2_0 ++ Cert.ReferenceIdeal.RefRun.ops2_1 ++ Cert.ReferenceIdeal.RefRun.ops2_2 ++ Cert.ReferenceIdeal.RefRun.ops2_3) W' (Proc.devRef .tc Cert.ReferenceIdeal.main_v16))
      (StableHlo.after (Cert.KernelIdeal.Gen.hostOps0_10 ++ Cert.KernelIdeal.Gen.hostOps0_11 ++ Cert.KernelIdeal.Gen.hostOps0_12 ++ Cert.KernelIdeal.Gen.hostOps0_13) W (Proc.devRef .tc Cert.KernelIdeal.main_v16)) := by
  refine @Eq.trans (IVec ⟨2, ![2, 64]⟩ 32) _ ?mid _ ?hL (Eq.symm ?hK)
  case hL =>
    simp only [Cert.ReferenceIdeal.RefRun.ops0_10, Cert.ReferenceIdeal.RefRun.ops1_0, Cert.ReferenceIdeal.RefRun.ops2_0, Cert.ReferenceIdeal.RefRun.ops2_1, Cert.ReferenceIdeal.RefRun.ops2_2, Cert.ReferenceIdeal.RefRun.ops2_3, List.cons_append, List.nil_append]
    after_results_simp
    simp only [h_v16]
    exact rfl
  case hK =>
    simp only [Cert.KernelIdeal.Gen.hostOps0_10, Cert.KernelIdeal.Gen.hostOps0_11, Cert.KernelIdeal.Gen.hostOps0_12, Cert.KernelIdeal.Gen.hostOps0_13, List.cons_append, List.nil_append]
    after_results_simp
    try rfl

set_option maxHeartbeats 1600000 in
/-- The second and third stretches do not write %21. -/
theorem mid12_v21 (W' : Valuation Cert.ReferenceIdeal.τ Cert.ReferenceIdeal.sig (Elt F)) (W : Valuation Cert.KernelIdeal.τ Cert.KernelIdeal.sig (Elt F))
    (h_v21 : @Eq (IVec ⟨2, ![2, 64]⟩ 32) (W' (Proc.devRef .tc Cert.ReferenceIdeal.main_v21)) (W (Proc.devRef .tc Cert.KernelIdeal.main_v21))) :
    @Eq (IVec ⟨2, ![2, 64]⟩ 32) (StableHlo.after (Cert.ReferenceIdeal.RefRun.ops0_10 ++ Cert.ReferenceIdeal.RefRun.ops1_0 ++ Cert.ReferenceIdeal.RefRun.ops2_0 ++ Cert.ReferenceIdeal.RefRun.ops2_1 ++ Cert.ReferenceIdeal.RefRun.ops2_2 ++ Cert.ReferenceIdeal.RefRun.ops2_3) W' (Proc.devRef .tc Cert.ReferenceIdeal.main_v21))
      (StableHlo.after (Cert.KernelIdeal.Gen.hostOps0_10 ++ Cert.KernelIdeal.Gen.hostOps0_11 ++ Cert.KernelIdeal.Gen.hostOps0_12 ++ Cert.KernelIdeal.Gen.hostOps0_13) W (Proc.devRef .tc Cert.KernelIdeal.main_v21)) := by
  refine @Eq.trans (IVec ⟨2, ![2, 64]⟩ 32) _ ?mid _ ?hL (Eq.symm ?hK)
  case hL =>
    simp only [Cert.ReferenceIdeal.RefRun.ops0_10, Cert.ReferenceIdeal.RefRun.ops1_0, Cert.ReferenceIdeal.RefRun.ops2_0, Cert.ReferenceIdeal.RefRun.ops2_1, Cert.ReferenceIdeal.RefRun.ops2_2, Cert.ReferenceIdeal.RefRun.ops2_3, List.cons_append, List.nil_append]
    after_results_simp
    simp only [h_v21]
    exact rfl
  case hK =>
    simp only [Cert.KernelIdeal.Gen.hostOps0_10, Cert.KernelIdeal.Gen.hostOps0_11, Cert.KernelIdeal.Gen.hostOps0_12, Cert.KernelIdeal.Gen.hostOps0_13, List.cons_append, List.nil_append]
    after_results_simp
    try rfl

set_option maxHeartbeats 1600000 in
/-- The second and third stretches do not write %26. -/
theorem mid12_v26 (W' : Valuation Cert.ReferenceIdeal.τ Cert.ReferenceIdeal.sig (Elt F)) (W : Valuation Cert.KernelIdeal.τ Cert.KernelIdeal.sig (Elt F))
    (h_v26 : @Eq (IVec ⟨2, ![2, 64]⟩ 32) (W' (Proc.devRef .tc Cert.ReferenceIdeal.main_v26)) (W (Proc.devRef .tc Cert.KernelIdeal.main_v26))) :
    @Eq (IVec ⟨2, ![2, 64]⟩ 32) (StableHlo.after (Cert.ReferenceIdeal.RefRun.ops0_10 ++ Cert.ReferenceIdeal.RefRun.ops1_0 ++ Cert.ReferenceIdeal.RefRun.ops2_0 ++ Cert.ReferenceIdeal.RefRun.ops2_1 ++ Cert.ReferenceIdeal.RefRun.ops2_2 ++ Cert.ReferenceIdeal.RefRun.ops2_3) W' (Proc.devRef .tc Cert.ReferenceIdeal.main_v26))
      (StableHlo.after (Cert.KernelIdeal.Gen.hostOps0_10 ++ Cert.KernelIdeal.Gen.hostOps0_11 ++ Cert.KernelIdeal.Gen.hostOps0_12 ++ Cert.KernelIdeal.Gen.hostOps0_13) W (Proc.devRef .tc Cert.KernelIdeal.main_v26)) := by
  refine @Eq.trans (IVec ⟨2, ![2, 64]⟩ 32) _ ?mid _ ?hL (Eq.symm ?hK)
  case hL =>
    simp only [Cert.ReferenceIdeal.RefRun.ops0_10, Cert.ReferenceIdeal.RefRun.ops1_0, Cert.ReferenceIdeal.RefRun.ops2_0, Cert.ReferenceIdeal.RefRun.ops2_1, Cert.ReferenceIdeal.RefRun.ops2_2, Cert.ReferenceIdeal.RefRun.ops2_3, List.cons_append, List.nil_append]
    after_results_simp
    simp only [h_v26]
    exact rfl
  case hK =>
    simp only [Cert.KernelIdeal.Gen.hostOps0_10, Cert.KernelIdeal.Gen.hostOps0_11, Cert.KernelIdeal.Gen.hostOps0_12, Cert.KernelIdeal.Gen.hostOps0_13, List.cons_append, List.nil_append]
    after_results_simp
    try rfl

set_option maxHeartbeats 1600000 in
/-- The second and third stretches do not write %31. -/
theorem mid12_v31 (W' : Valuation Cert.ReferenceIdeal.τ Cert.ReferenceIdeal.sig (Elt F)) (W : Valuation Cert.KernelIdeal.τ Cert.KernelIdeal.sig (Elt F))
    (h_v31 : @Eq (IVec ⟨2, ![2, 64]⟩ 32) (W' (Proc.devRef .tc Cert.ReferenceIdeal.main_v31)) (W (Proc.devRef .tc Cert.KernelIdeal.main_v31))) :
    @Eq (IVec ⟨2, ![2, 64]⟩ 32) (StableHlo.after (Cert.ReferenceIdeal.RefRun.ops0_10 ++ Cert.ReferenceIdeal.RefRun.ops1_0 ++ Cert.ReferenceIdeal.RefRun.ops2_0 ++ Cert.ReferenceIdeal.RefRun.ops2_1 ++ Cert.ReferenceIdeal.RefRun.ops2_2 ++ Cert.ReferenceIdeal.RefRun.ops2_3) W' (Proc.devRef .tc Cert.ReferenceIdeal.main_v31))
      (StableHlo.after (Cert.KernelIdeal.Gen.hostOps0_10 ++ Cert.KernelIdeal.Gen.hostOps0_11 ++ Cert.KernelIdeal.Gen.hostOps0_12 ++ Cert.KernelIdeal.Gen.hostOps0_13) W (Proc.devRef .tc Cert.KernelIdeal.main_v31)) := by
  refine @Eq.trans (IVec ⟨2, ![2, 64]⟩ 32) _ ?mid _ ?hL (Eq.symm ?hK)
  case hL =>
    simp only [Cert.ReferenceIdeal.RefRun.ops0_10, Cert.ReferenceIdeal.RefRun.ops1_0, Cert.ReferenceIdeal.RefRun.ops2_0, Cert.ReferenceIdeal.RefRun.ops2_1, Cert.ReferenceIdeal.RefRun.ops2_2, Cert.ReferenceIdeal.RefRun.ops2_3, List.cons_append, List.nil_append]
    after_results_simp
    simp only [h_v31]
    exact rfl
  case hK =>
    simp only [Cert.KernelIdeal.Gen.hostOps0_10, Cert.KernelIdeal.Gen.hostOps0_11, Cert.KernelIdeal.Gen.hostOps0_12, Cert.KernelIdeal.Gen.hostOps0_13, List.cons_append, List.nil_append]
    after_results_simp
    try rfl

set_option maxHeartbeats 1600000 in
/-- The second and third stretches do not write %35. -/
theorem mid12_v35 (W' : Valuation Cert.ReferenceIdeal.τ Cert.ReferenceIdeal.sig (Elt F)) (W : Valuation Cert.KernelIdeal.τ Cert.KernelIdeal.sig (Elt F))
    (h_v35 : @Eq (IVec ⟨2, ![2, 64]⟩ 32) (W' (Proc.devRef .tc Cert.ReferenceIdeal.main_v35)) (W (Proc.devRef .tc Cert.KernelIdeal.main_v35))) :
    @Eq (IVec ⟨2, ![2, 64]⟩ 32) (StableHlo.after (Cert.ReferenceIdeal.RefRun.ops0_10 ++ Cert.ReferenceIdeal.RefRun.ops1_0 ++ Cert.ReferenceIdeal.RefRun.ops2_0 ++ Cert.ReferenceIdeal.RefRun.ops2_1 ++ Cert.ReferenceIdeal.RefRun.ops2_2 ++ Cert.ReferenceIdeal.RefRun.ops2_3) W' (Proc.devRef .tc Cert.ReferenceIdeal.main_v35))
      (StableHlo.after (Cert.KernelIdeal.Gen.hostOps0_10 ++ Cert.KernelIdeal.Gen.hostOps0_11 ++ Cert.KernelIdeal.Gen.hostOps0_12 ++ Cert.KernelIdeal.Gen.hostOps0_13) W (Proc.devRef .tc Cert.KernelIdeal.main_v35)) := by
  refine @Eq.trans (IVec ⟨2, ![2, 64]⟩ 32) _ ?mid _ ?hL (Eq.symm ?hK)
  case hL =>
    simp only [Cert.ReferenceIdeal.RefRun.ops0_10, Cert.ReferenceIdeal.RefRun.ops1_0, Cert.ReferenceIdeal.RefRun.ops2_0, Cert.ReferenceIdeal.RefRun.ops2_1, Cert.ReferenceIdeal.RefRun.ops2_2, Cert.ReferenceIdeal.RefRun.ops2_3, List.cons_append, List.nil_append]
    after_results_simp
    simp only [h_v35]
    exact rfl
  case hK =>
    simp only [Cert.KernelIdeal.Gen.hostOps0_10, Cert.KernelIdeal.Gen.hostOps0_11, Cert.KernelIdeal.Gen.hostOps0_12, Cert.KernelIdeal.Gen.hostOps0_13, List.cons_append, List.nil_append]
    after_results_simp
    try rfl

set_option maxHeartbeats 1600000 in
/-- The second and third stretches do not write %39. -/
theorem mid12_v39 (W' : Valuation Cert.ReferenceIdeal.τ Cert.ReferenceIdeal.sig (Elt F)) (W : Valuation Cert.KernelIdeal.τ Cert.KernelIdeal.sig (Elt F))
    (h_v39 : @Eq (IVec ⟨2, ![2, 64]⟩ 32) (W' (Proc.devRef .tc Cert.ReferenceIdeal.main_v39)) (W (Proc.devRef .tc Cert.KernelIdeal.main_v39))) :
    @Eq (IVec ⟨2, ![2, 64]⟩ 32) (StableHlo.after (Cert.ReferenceIdeal.RefRun.ops0_10 ++ Cert.ReferenceIdeal.RefRun.ops1_0 ++ Cert.ReferenceIdeal.RefRun.ops2_0 ++ Cert.ReferenceIdeal.RefRun.ops2_1 ++ Cert.ReferenceIdeal.RefRun.ops2_2 ++ Cert.ReferenceIdeal.RefRun.ops2_3) W' (Proc.devRef .tc Cert.ReferenceIdeal.main_v39))
      (StableHlo.after (Cert.KernelIdeal.Gen.hostOps0_10 ++ Cert.KernelIdeal.Gen.hostOps0_11 ++ Cert.KernelIdeal.Gen.hostOps0_12 ++ Cert.KernelIdeal.Gen.hostOps0_13) W (Proc.devRef .tc Cert.KernelIdeal.main_v39)) := by
  refine @Eq.trans (IVec ⟨2, ![2, 64]⟩ 32) _ ?mid _ ?hL (Eq.symm ?hK)
  case hL =>
    simp only [Cert.ReferenceIdeal.RefRun.ops0_10, Cert.ReferenceIdeal.RefRun.ops1_0, Cert.ReferenceIdeal.RefRun.ops2_0, Cert.ReferenceIdeal.RefRun.ops2_1, Cert.ReferenceIdeal.RefRun.ops2_2, Cert.ReferenceIdeal.RefRun.ops2_3, List.cons_append, List.nil_append]
    after_results_simp
    simp only [h_v39]
    exact rfl
  case hK =>
    simp only [Cert.KernelIdeal.Gen.hostOps0_10, Cert.KernelIdeal.Gen.hostOps0_11, Cert.KernelIdeal.Gen.hostOps0_12, Cert.KernelIdeal.Gen.hostOps0_13, List.cons_append, List.nil_append]
    after_results_simp
    try rfl

set_option maxHeartbeats 1600000 in
/-- The second and third stretches leave the same bin numbering 0..6. -/
theorem mid12_v40 (W' : Valuation Cert.ReferenceIdeal.τ Cert.ReferenceIdeal.sig (Elt F)) (W : Valuation Cert.KernelIdeal.τ Cert.KernelIdeal.sig (Elt F)) :
    @Eq (IVec ⟨1, ![7]⟩ 32) (StableHlo.after (Cert.ReferenceIdeal.RefRun.ops0_10 ++ Cert.ReferenceIdeal.RefRun.ops1_0 ++ Cert.ReferenceIdeal.RefRun.ops2_0 ++ Cert.ReferenceIdeal.RefRun.ops2_1 ++ Cert.ReferenceIdeal.RefRun.ops2_2 ++ Cert.ReferenceIdeal.RefRun.ops2_3) W' (Proc.devRef .tc Cert.ReferenceIdeal.main_v40))
      (StableHlo.after (Cert.KernelIdeal.Gen.hostOps0_10 ++ Cert.KernelIdeal.Gen.hostOps0_11 ++ Cert.KernelIdeal.Gen.hostOps0_12 ++ Cert.KernelIdeal.Gen.hostOps0_13) W (Proc.devRef .tc Cert.KernelIdeal.main_v40)) := by
  refine @Eq.trans (IVec ⟨1, ![7]⟩ 32) _ ?mid _ ?hL (Eq.symm ?hK)
  case hL =>
    simp only [Cert.ReferenceIdeal.RefRun.ops0_10, Cert.ReferenceIdeal.RefRun.ops1_0, Cert.ReferenceIdeal.RefRun.ops2_0, Cert.ReferenceIdeal.RefRun.ops2_1, Cert.ReferenceIdeal.RefRun.ops2_2, Cert.ReferenceIdeal.RefRun.ops2_3, List.cons_append, List.nil_append]
    after_results_simp
    exact rfl
  case hK =>
    simp only [Cert.KernelIdeal.Gen.hostOps0_10, Cert.KernelIdeal.Gen.hostOps0_11, Cert.KernelIdeal.Gen.hostOps0_12, Cert.KernelIdeal.Gen.hostOps0_13, List.cons_append, List.nil_append]
    after_results_simp
    try rfl

end Cert.TablesEq
end
-- ==== Proof.TablesEq169.lean ====
/-
  One of the integer tables both programs compute from the boxes.  The reference's and the kernel program's
  host operations are the same operations in the same order under different buffer numbers; cut at the same
  places, each stretch leaves equal values from equal inputs, so from second arguments that agree (over any
  two buffer contents) the two whole lines leave equal tables.
-/
import proofs.«121944_j5746666242434_2_alg».proof.Proof.KHostSplit
import proofs.«121944_j5746666242434_2_alg».proof.Proof.RefRun
import proofs.«121944_j5746666242434_2_alg».proof.Proof.TablesPreA
import proofs.«121944_j5746666242434_2_alg».proof.Proof.TablesPreB
import proofs.«121944_j5746666242434_2_alg».proof.Proof.TablesPass
import proofs.«121944_j5746666242434_2_alg».proof.Proof.TablesLate

noncomputable section

namespace Cert.TablesEq

open Idealize.ShloMosaic Idealize.ShloMosaic.TcCoe Idealize.ShloMosaic.StableHlo Idealize.SL.Sem

variable {F : FTy → Type} [FloatOps F]

/-- The padding bits of the two programs agree. -/
theorem t169 (W' : Valuation Cert.ReferenceIdeal.τ Cert.ReferenceIdeal.sig (Elt F)) (W : Valuation Cert.KernelIdeal.τ Cert.KernelIdeal.sig (Elt F))
    (h1 : @Eq ((⟨⟨3, ![2, 64, 4]⟩, .f32⟩ : BufTy).Contents (Elt F)) (W' (Proc.devRef .tc Cert.ReferenceIdeal.main_arg1)) (W (Proc.devRef .tc Cert.KernelIdeal.main_arg1))) :
    @Eq (IVec ⟨4, ![2, 64, 7, 7]⟩ 1) (StableHlo.after (Cert.ReferenceIdeal.RefRun.ops (F := F)) W' (Proc.devRef .tc Cert.ReferenceIdeal.main_v169))
      (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17]) W (Proc.devRef .tc Cert.KernelIdeal.main_v171)) := by
  have hr : StableHlo.after (Cert.ReferenceIdeal.RefRun.ops (F := F)) W' = (StableHlo.after (Cert.ReferenceIdeal.RefRun.ops3_1 ++ Cert.ReferenceIdeal.RefRun.ops3_2 ++ Cert.ReferenceIdeal.RefRun.ops3_3 ++ Cert.ReferenceIdeal.RefRun.ops3_4 ++ Cert.ReferenceIdeal.RefRun.ops3_5) (StableHlo.after (Cert.ReferenceIdeal.RefRun.ops2_4 ++ Cert.ReferenceIdeal.RefRun.ops3_0) (StableHlo.after (Cert.ReferenceIdeal.RefRun.ops0_10 ++ Cert.ReferenceIdeal.RefRun.ops1_0 ++ Cert.ReferenceIdeal.RefRun.ops2_0 ++ Cert.ReferenceIdeal.RefRun.ops2_1 ++ Cert.ReferenceIdeal.RefRun.ops2_2 ++ Cert.ReferenceIdeal.RefRun.ops2_3) (StableHlo.after (Cert.ReferenceIdeal.RefRun.ops0_0 ++ Cert.ReferenceIdeal.RefRun.ops0_1 ++ Cert.ReferenceIdeal.RefRun.ops0_2 ++ Cert.ReferenceIdeal.RefRun.ops0_3 ++ Cert.ReferenceIdeal.RefRun.ops0_4 ++ Cert.ReferenceIdeal.RefRun.ops0_5 ++ Cert.ReferenceIdeal.RefRun.ops0_6 ++ Cert.ReferenceIdeal.RefRun.ops0_7 ++ Cert.ReferenceIdeal.RefRun.ops0_8 ++ Cert.ReferenceIdeal.RefRun.ops0_9) W')))) := by
    simp only [← StableHlo.after_append]
    congr 1 <;> simp only [Cert.ReferenceIdeal.RefRun.ops, Cert.ReferenceIdeal.RefRun.ops0, Cert.ReferenceIdeal.RefRun.ops1, Cert.ReferenceIdeal.RefRun.ops2, Cert.ReferenceIdeal.RefRun.ops3, List.append_assoc]
  have hk : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17]) W = (StableHlo.after (Cert.KernelIdeal.Gen.hostOps0_15 ++ Cert.KernelIdeal.Gen.hostOps0_16 ++ Cert.KernelIdeal.Gen.hostOps0_17) (StableHlo.after (Cert.KernelIdeal.Gen.hostOps0_14) (StableHlo.after (Cert.KernelIdeal.Gen.hostOps0_10 ++ Cert.KernelIdeal.Gen.hostOps0_11 ++ Cert.KernelIdeal.Gen.hostOps0_12 ++ Cert.KernelIdeal.Gen.hostOps0_13) (StableHlo.after (Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9) W)))) := by
    simp only [← StableHlo.after_append]
    congr 1 <;> simp only [List.flatten_cons, List.flatten_nil, List.append_nil, List.append_assoc]
  rw [hr, hk]
  exact tail_v169 _ _ (mid3_v169 _ _ (mid12_v16 _ _ (pre_v16 W' W h1)) (mid12_v21 _ _ (pre_v21 W' W h1)) (mid12_v26 _ _ (pre_v26 W' W h1)) (mid12_v31 _ _ (pre_v31 W' W h1)) (mid12_v35 _ _ (pre_v35 W' W h1)) (mid12_v39 _ _ (pre_v39 W' W h1)) (mid12_v40 _ _))

end Cert.TablesEq

end
-- ==== Proof.lean ====
/-
  Pooling boxes out of a feature map: the kernel program against the reference.

  Both programs first compute, from the box array alone and with the same integer operations, five
  tables per batch entry and box: for each of the seven row bins up to ten row numbers with validity
  bits, the same for the column bins, and a bit per pair of bins saying that the bin overlaps the zero
  padding.  Row and column numbers are clipped into the 64 × 64 plane.

  The reference looks the named rows up in every channel's plane, replaces invalid positions by a large
  negative fill, takes the maximum over each row bin, then does the same along the columns, and joins
  zero in where the bin overlaps the padding.

  The kernel program turns the clipped numbers into one-hot rows and widens the masks to words on the
  host.  Its pooling region walks the batch entries and boxes; at a batch entry's first box it re-lays
  the feature block into a scratch that the later boxes of the batch entry find again.  At each box it
  selects rows by a product with the one-hot matrix — on the extended reals a product with a one-hot row
  is a selection, one term of the sum surviving —, masks, takes the maximum over the row bin, selects
  columns the same way, masks, takes the maximum over the column bin and joins zero in under the padding
  mask; the host moves the channel axis in front of the bin axes.

  Element by element both results are the same nested masked maximum of the same feature entries: the
  clipped numbers lie in the plane, so the one-hot selection and the clamped lookup read the same entry;
  a widened bit is non-zero exactly when the bit is 1; the tables themselves are the same functions of
  the box array in the two programs.  No finiteness of the inputs is needed for this.

  The three frames: the two kernel programs' are read off the pipeline's launch, staging and flushing;
  the reference is a straight line of host operations, which runs to its end leaving its arguments alone.
  The idealization rewrote nothing, so there is nothing to preserve.
-/
import proofs.«121944_j5746666242434_2_alg».proof.Defs
import proofs.«121944_j5746666242434_2_alg».proof.Proof.Gen.Kernel
import proofs.«121944_j5746666242434_2_alg».proof.Proof.Gen.KernelIdeal
import proofs.«121944_j5746666242434_2_alg».proof.Proof.Gen.ReferenceIdeal
import proofs.«121944_j5746666242434_2_alg».proof.Proof.Gen.Pre_finite_inputs
import proofs.«121944_j5746666242434_2_alg».proof.Proof.ProofFrames
import proofs.«121944_j5746666242434_2_alg».proof.Proof.KArray
import proofs.«121944_j5746666242434_2_alg».proof.Proof.Bridge
import proofs.«121944_j5746666242434_2_alg».proof.Proof.RefRun
import proofs.«121944_j5746666242434_2_alg».proof.Proof.RefStages
import proofs.«121944_j5746666242434_2_alg».proof.Proof.TablesEq108
import proofs.«121944_j5746666242434_2_alg».proof.Proof.TablesEq111
import proofs.«121944_j5746666242434_2_alg».proof.Proof.TablesEq118
import proofs.«121944_j5746666242434_2_alg».proof.Proof.TablesEq121
import proofs.«121944_j5746666242434_2_alg».proof.Proof.TablesEq169
import Idealize.ShloMosaic.Adequacy
import Idealize.ShloMosaic.Init

noncomputable section

namespace Cert.Proof

open Idealize.ShloMosaic Idealize.ShloMosaic.TcCoe Idealize.SL.Sem

/-- From memories agreeing on the two arguments both programs end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KArray.KG m c, Cert.KernelIdeal.KArray.kernel_run m ρ, ?_⟩
  refine (θ_run Cert.ReferenceIdeal.defs _ _).mono
    (fun r h c => ⟨(h c Cert.ReferenceIdeal.main_v193).trans ?_,
      (h c Cert.ReferenceIdeal.main_arg0).trans (Cert.ReferenceIdeal.RefRun.kept_arg0 m' c),
      (h c Cert.ReferenceIdeal.main_arg1).trans (Cert.ReferenceIdeal.RefRun.kept_arg1 m' c)⟩)
    (Cert.ReferenceIdeal.RefRun.run (F := Ideal) m' ρ')
  have e := Cert.ReferenceIdeal.RefRun.result_eq (F := Ideal) m' c
  rw [Cert.ReferenceIdeal.RefRun.iy_clip, Cert.ReferenceIdeal.RefRun.ix_clip, Cert.ReferenceIdeal.RefRun.kept_arg0] at e
  refine e.trans ?_
  rw [(hagree c).1]
  have h1 : @Eq ((⟨⟨3, ![2, 64, 4]⟩, .f32⟩ : BufTy).Contents (Elt Ideal))
      (StableHlo.launchContents m' c (Proc.devRef .tc Cert.ReferenceIdeal.main_arg1))
      ((fun b => m (c, b)) (Proc.devRef .tc Cert.KernelIdeal.main_arg1)) := (hagree c).2
  have t1 := Cert.TablesEq.t108 (F := Ideal) (StableHlo.launchContents m' c) (fun b => m (c, b)) h1
  have t2 := Cert.TablesEq.t111 (F := Ideal) (StableHlo.launchContents m' c) (fun b => m (c, b)) h1
  have t3 := Cert.TablesEq.t118 (F := Ideal) (StableHlo.launchContents m' c) (fun b => m (c, b)) h1
  have t4 := Cert.TablesEq.t121 (F := Ideal) (StableHlo.launchContents m' c) (fun b => m (c, b)) h1
  have t5 := Cert.TablesEq.t169 (F := Ideal) (StableHlo.launchContents m' c) (fun b => m (c, b)) h1
  dsimp only [Cert.ReferenceIdeal.RefRun.fin]
  rw [t1, t2, t3, t4, t5]
  exact Cert.Bridge.tail_clip_eq_KG m c

/-- Everything the certificate claims. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
